-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x1000000 : Shape := ⟨2, ![2, 1000000]⟩
abbrev S5x64 : Shape := ⟨2, ![5, 64]⟩
abbrev S64 : Shape := ⟨1, ![64]⟩
abbrev S64x64 : Shape := ⟨2, ![64, 64]⟩
abbrev S3x128x64 : Shape := ⟨3, ![3, 128, 64]⟩
abbrev S3x64 : Shape := ⟨2, ![3, 64]⟩
abbrev S3x64x64 : Shape := ⟨3, ![3, 64, 64]⟩
abbrev S64x3 : Shape := ⟨2, ![64, 3]⟩
abbrev S3 : Shape := ⟨1, ![3]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part5 {F : FTy → Type} [FloatOps F] (main_arg1 : IVec S2x1000000 32) (main_v83 : IVec S_ 1) (main_v84 : IVec S2x1000000 32) : IVec S_ 1 :=
  let main_v85 : IVec S2x1000000 1 := cmpi .sge main_arg1 main_v84
  let main_c_33 : IVec S_ 1 := constantI S_ 1 1#1
  let main_v86 : IVec S_ 1 := (fun x v => Host.reduce IntOp.andi x v reducesTo_S2x1000000_S_d0_1 h_S_) main_v85 main_c_33
  let main_v87 : IVec S_ 1 := andi main_v83 main_v86
  let main_c_34 : IVec S_ 32 := constantI S_ 32 100000#32
  let main_v88 : IVec S2x1000000 32 := broadcastInDim S2x1000000 ![] bcast_S_S2x1000000 main_c_34
  let main_v89 : IVec S2x1000000 1 := cmpi .slt main_arg1 main_v88
  let main_c_35 : IVec S_ 1 := constantI S_ 1 1#1
  let main_v90 : IVec S_ 1 := (fun x v => Host.reduce IntOp.andi x v reducesTo_S2x1000000_S_d0_1 h_S_) main_v89 main_c_35
  let main_v91 : IVec S_ 1 := andi main_v87 main_v90
  main_v91

def fn_part4 {F : FTy → Type} [FloatOps F] (main_arg1 : IVec S2x1000000 32) (main_arg15 : FVec F S64 .f32) (main_arg16 : FVec F S64x3 .f32) (main_arg17 : FVec F S3 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x3 .f32 := Host.absf main_arg16
  let main_cst_28 : FVec F S_ .f32 := constant S_ .f32 0x7F800000#32
  let main_v75 : FVec F S64x3 .f32 := broadcastInDim S64x3 ![] bcast_S_S64x3 main_cst_28
  let main_v76 : IVec S64x3 1 := cmpf .olt main_v74 main_v75
  let main_c_29 : IVec S_ 1 := constantI S_ 1 1#1
  let main_v77 : IVec S_ 1 := (fun x v => Host.reduce IntOp.andi x v reducesTo_S64x3_S_d0_1 h_S_) main_v76 main_c_29
  let main_v78 : IVec S_ 1 := andi main_v73 main_v77
  let main_v79 : FVec F S3 .f32 := Host.absf main_arg17
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  let main_c_32 : IVec S_ 32 := constantI S_ 32 0#32
  let main_v84 : IVec S2x1000000 32 := broadcastInDim S2x1000000 ![] bcast_S_S2x1000000 main_c_32
  fn_part5 (F := F) main_arg1 main_v83 main_v84

def fn_part3 {F : FTy → Type} [FloatOps F] (main_arg1 : IVec S2x1000000 32) (main_arg12 : FVec F S3x64x64 .f32) (main_arg13 : FVec F S3x64 .f32) (main_arg14 : FVec F S64x64 .f32) (main_arg15 : FVec F S64 .f32) (main_arg16 : FVec F S64x3 .f32) (main_arg17 : FVec F S3 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64x64 .f32 := Host.absf main_arg12
  let main_cst_20 : FVec F S_ .f32 := constant S_ .f32 0x7F800000#32
  let main_v55 : FVec F S3x64x64 .f32 := broadcastInDim S3x64x64 ![] bcast_S_S3x64x64 main_cst_20
  let main_v56 : IVec S3x64x64 1 := cmpf .olt main_v54 main_v55
  let main_c_21 : IVec S_ 1 := constantI S_ 1 1#1
  let main_v57 : IVec S_ 1 := (fun x v => Host.reduce IntOp.andi x v reducesTo_S3x64x64_S_d0_1_2 h_S_) main_v56 main_c_21
  let main_v58 : IVec S_ 1 := andi main_v53 main_v57
  let main_v59 : FVec F S3x64 .f32 := Host.absf main_arg13
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg1 main_arg15 main_arg16 main_arg17 main_v63 main_v67

def fn_part2 {F : FTy → Type} [FloatOps F] (main_arg1 : IVec S2x1000000 32) (main_arg8 : FVec F S3x64x64 .f32) (main_arg9 : FVec F S3x64 .f32) (main_arg10 : FVec F S3x128x64 .f32) (main_arg11 : FVec F S3x64 .f32) (main_arg12 : FVec F S3x64x64 .f32) (main_arg13 : FVec F S3x64 .f32) (main_arg14 : FVec F S64x64 .f32) (main_arg15 : FVec F S64 .f32) (main_arg16 : FVec F S64x3 .f32) (main_arg17 : FVec F S3 .f32) (main_v33 : IVec S_ 1) : IVec S_ 1 :=
  let main_v34 : FVec F S3x64x64 .f32 := Host.absf main_arg8
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x128x64 .f32 := Host.absf main_arg10
  let main_cst_16 : FVec F S_ .f32 := constant S_ .f32 0x7F800000#32
  let main_v45 : FVec F S3x128x64 .f32 := broadcastInDim S3x128x64 ![] bcast_S_S3x128x64 main_cst_16
  let main_v46 : IVec S3x128x64 1 := cmpf .olt main_v44 main_v45
  let main_c_17 : IVec S_ 1 := constantI S_ 1 1#1
  let main_v47 : IVec S_ 1 := (fun x v => Host.reduce IntOp.andi x v reducesTo_S3x128x64_S_d0_1_2 h_S_) main_v46 main_c_17
  let main_v48 : IVec S_ 1 := andi main_v43 main_v47
  let main_v49 : FVec F S3x64 .f32 := Host.absf main_arg11
  let main_cst_18 : FVec F S_ .f32 := constant S_ .f32 0x7F800000#32
  let main_v50 : FVec F S3x64 .f32 := broadcastInDim S3x64 ![] bcast_S_S3x64 main_cst_18
  fn_part3 (F := F) main_arg1 main_arg12 main_arg13 main_arg14 main_arg15 main_arg16 main_arg17 main_v48 main_v49 main_v50

def fn_part1 {F : FTy → Type} [FloatOps F] (main_arg1 : IVec S2x1000000 32) (main_arg5 : FVec F S64 .f32) (main_arg6 : FVec F S3x128x64 .f32) (main_arg7 : FVec F S3x64 .f32) (main_arg8 : FVec F S3x64x64 .f32) (main_arg9 : FVec F S3x64 .f32) (main_arg10 : FVec F S3x128x64 .f32) (main_arg11 : FVec F S3x64 .f32) (main_arg12 : FVec F S3x64x64 .f32) (main_arg13 : FVec F S3x64 .f32) (main_arg14 : FVec F S64x64 .f32) (main_arg15 : FVec F S64 .f32) (main_arg16 : FVec F S64x3 .f32) (main_arg17 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x128x64 .f32 := Host.absf main_arg6
  let main_cst_8 : FVec F S_ .f32 := constant S_ .f32 0x7F800000#32
  let main_v25 : FVec F S3x128x64 .f32 := broadcastInDim S3x128x64 ![] bcast_S_S3x128x64 main_cst_8
  let main_v26 : IVec S3x128x64 1 := cmpf .olt main_v24 main_v25
  let main_c_9 : IVec S_ 1 := constantI S_ 1 1#1
  let main_v27 : IVec S_ 1 := (fun x v => Host.reduce IntOp.andi x v reducesTo_S3x128x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S100000x5 .f32) (main_arg1 : IVec S2x1000000 32) (main_arg2 : FVec F S5x64 .f32) (main_arg3 : FVec F S64 .f32) (main_arg4 : FVec F S64x64 .f32) (main_arg5 : FVec F S64 .f32) (main_arg6 : FVec F S3x128x64 .f32) (main_arg7 : FVec F S3x64 .f32) (main_arg8 : FVec F S3x64x64 .f32) (main_arg9 : FVec F S3x64 .f32) (main_arg10 : FVec F S3x128x64 .f32) (main_arg11 : FVec F S3x64 .f32) (main_arg12 : FVec F S3x64x64 .f32) (main_arg13 : FVec F S3x64 .f32) (main_arg14 : FVec F S64x64 .f32) (main_arg15 : FVec F S64 .f32) (main_arg16 : FVec F S64x3 .f32) (main_arg17 : FVec F S3 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x64 .f32 := Host.absf main_arg2
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S100000x5 : Shape := ⟨2, ![100000, 5]⟩
abbrev S2x1000000 : Shape := ⟨2, ![2, 1000000]⟩
abbrev S5x64 : Shape := ⟨2, ![5, 64]⟩
abbrev S64 : Shape := ⟨1, ![64]⟩
abbrev S64x64 : Shape := ⟨2, ![64, 64]⟩
abbrev S3x128x64 : Shape := ⟨3, ![3, 128, 64]⟩
abbrev S3x64 : Shape := ⟨2, ![3, 64]⟩
abbrev S3x64x64 : Shape := ⟨3, ![3, 64, 64]⟩
abbrev S64x3 : Shape := ⟨2, ![64, 3]⟩
abbrev S3 : Shape := ⟨1, ![3]⟩
abbrev S1x1000000 : Shape := ⟨2, ![1, 1000000]⟩
abbrev S1000000 : Shape := ⟨1, ![1000000]⟩
abbrev S100000x64 : Shape := ⟨2, ![100000, 64]⟩
abbrev S10000x5 : Shape := ⟨2, ![10000, 5]⟩
abbrev S10000x64 : Shape := ⟨2, ![10000, 64]⟩
abbrev S1x64 : Shape := ⟨2, ![1, 64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1 : Shape := ⟨1, ![1]⟩
abbrev S1x1 : Shape := ⟨2, ![1, 1]⟩
abbrev S1000000x64 : Shape := ⟨2, ![1000000, 64]⟩
abbrev S1x64x64 : Shape := ⟨3, ![1, 64, 64]⟩
abbrev S10000x1 : Shape := ⟨2, ![10000, 1]⟩
abbrev S100000x3 : Shape := ⟨2, ![100000, 3]⟩
abbrev S10000x3 : Shape := ⟨2, ![10000, 3]⟩
abbrev S1x3 : Shape := ⟨2, ![1, 3]⟩

abbrev nBuf : Space → Nat
  | .hbm => 254
  | .vmem => 88
  | .smem => 0
  | _ => 0

abbrev hbmTy0_0 (i : Nat) : BufTy := match i % 128 with
  | 0 => ⟨S100000x5, .f32⟩
  | 1 => ⟨S2x1000000, .i32⟩
  | 2 => ⟨S5x64, .f32⟩
  | 3 => ⟨S64, .f32⟩
  | 4 => ⟨S64x64, .f32⟩
  | 5 => ⟨S64, .f32⟩
  | 6 => ⟨S3x128x64, .f32⟩
  | 7 => ⟨S3x64, .f32⟩
  | 8 => ⟨S3x64x64, .f32⟩
  | 9 => ⟨S3x64, .f32⟩
  | 10 => ⟨S3x128x64, .f32⟩
  | 11 => ⟨S3x64, .f32⟩
  | 12 => ⟨S3x64x64, .f32⟩
  | 13 => ⟨S3x64, .f32⟩
  | 14 => ⟨S64x64, .f32⟩
  | 15 => ⟨S64, .f32⟩
  | 16 => ⟨S64x3, .f32⟩
  | 17 => ⟨S3, .f32⟩
  | 18 => ⟨S1x1000000, .i32⟩
  | 19 => ⟨S1000000, .i32⟩
  | 20 => ⟨S1x1000000, .i32⟩
  | 21 => ⟨S1000000, .i32⟩
  | 22 => ⟨S100000x64, .f32⟩
  | 23 => ⟨S_, .f32⟩
  | 24 => ⟨S1000000, .f32⟩
  | 25 => ⟨S_, .f32⟩
  | 26 => ⟨S100000, .f32⟩
  | 27 => ⟨S1000000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S3x64x64, .f32⟩
  | 34 => ⟨S3x64x64, .f32⟩
  | 35 => ⟨S3x64x64, .f32⟩
  | 36 => ⟨S3x64x64, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1, .i32⟩
  | 46 => ⟨S_, .i32⟩
  | 47 => ⟨S1000000x1, .i32⟩
  | 48 => ⟨S1000000x1, .i1⟩
  | 49 => ⟨S1x1, .i32⟩
  | 50 => ⟨S1000000x1, .i32⟩
  | 51 => ⟨S1000000x1, .i1⟩
  | 52 => ⟨S1000000x1, .i1⟩
  | 53 => ⟨S_, .i1⟩
  | 54 => ⟨S1000000, .i1⟩
  | 55 => ⟨S1000000x64, .f32⟩
  | 56 => ⟨S1000000x64, .i1⟩
  | 57 => ⟨S_, .f32⟩
  | 58 => ⟨S1000000x64, .f32⟩
  | 59 => ⟨S1000000x64, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1, .i32⟩
  | 69 => ⟨S_, .i32⟩
  | 70 => ⟨S1000000x1, .i32⟩
  | 71 => ⟨S1000000x1, .i1⟩
  | 72 => ⟨S1x1, .i32⟩
  | 73 => ⟨S1000000x1, .i32⟩
  | 74 => ⟨S1000000x1, .i1⟩
  | 75 => ⟨S1000000x1, .i1⟩
  | 76 => ⟨S_, .i1⟩
  | 77 => ⟨S1000000, .i1⟩
  | 78 => ⟨S1000000x64, .f32⟩
  | 79 => ⟨S1000000x64, .i1⟩
  | 80 => ⟨S_, .f32⟩
  | 81 => ⟨S1000000x64, .f32⟩
  | 82 => ⟨S1000000x64, .f32⟩
  | 83 => ⟨S1x64x64, .f32⟩
  | 84 => ⟨S64x64, .f32⟩
  | 85 => ⟨S1x64x64, .f32⟩
  | 86 => ⟨S64x64, .f32⟩
  | 87 => ⟨S1x64, .f32⟩
  | 88 => ⟨S64, .f32⟩
  | 89 => ⟨S1x64x64, .f32⟩
  | 90 => ⟨S64x64, .f32⟩
  | 91 => ⟨S1x64, .f32⟩
  | 92 => ⟨S64, .f32⟩
  | 93 => ⟨S1000000x64, .f32⟩
  | 94 => ⟨S_, .f32⟩
  | 95 => ⟨S100000x64, .f32⟩
  | 96 => ⟨S1000000x1, .i32⟩
  | 97 => ⟨S100000x64, .f32⟩
  | 98 => ⟨S1x64x64, .f32⟩
  | 99 => ⟨S64x64, .f32⟩
  | 100 => ⟨S1x64x64, .f32⟩
  | 101 => ⟨S64x64, .f32⟩
  | 102 => ⟨S1x64, .f32⟩
  | 103 => ⟨S64, .f32⟩
  | 104 => ⟨S1x64x64, .f32⟩
  | 105 => ⟨S64x64, .f32⟩
  | 106 => ⟨S1x64, .f32⟩
  | 107 => ⟨S64, .f32⟩
  | 108 => ⟨S100000x64, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1, .i32⟩
  | 118 => ⟨S_, .i32⟩
  | 119 => ⟨S1000000x1, .i32⟩
  | 120 => ⟨S1000000x1, .i1⟩
  | 121 => ⟨S1x1, .i32⟩
  | 122 => ⟨S1000000x1, .i32⟩
  | 123 => ⟨S1000000x1, .i1⟩
  | 124 => ⟨S1000000x1, .i1⟩
  | 125 => ⟨S_, .i1⟩
  | 126 => ⟨S1000000, .i1⟩
  | 127 => ⟨S1000000x64, .f32⟩
  | _ => ⟨S100000x5, .f32⟩

abbrev hbmTy0_1 (i : Nat) : BufTy := match i % 128 with
  | 0 => ⟨S1000000x64, .i1⟩
  | 1 => ⟨S_, .f32⟩
  | 2 => ⟨S1000000x64, .f32⟩
  | 3 => ⟨S1000000x64, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1, .i32⟩
  | 13 => ⟨S_, .i32⟩
  | 14 => ⟨S1000000x1, .i32⟩
  | 15 => ⟨S1000000x1, .i1⟩
  | 16 => ⟨S1x1, .i32⟩
  | 17 => ⟨S1000000x1, .i32⟩
  | 18 => ⟨S1000000x1, .i1⟩
  | 19 => ⟨S1000000x1, .i1⟩
  | 20 => ⟨S_, .i1⟩
  | 21 => ⟨S1000000, .i1⟩
  | 22 => ⟨S1000000x64, .f32⟩
  | 23 => ⟨S1000000x64, .i1⟩
  | 24 => ⟨S_, .f32⟩
  | 25 => ⟨S1000000x64, .f32⟩
  | 26 => ⟨S1000000x64, .f32⟩
  | 27 => ⟨S1x64x64, .f32⟩
  | 28 => ⟨S64x64, .f32⟩
  | 29 => ⟨S1x64x64, .f32⟩
  | 30 => ⟨S64x64, .f32⟩
  | 31 => ⟨S1x64, .f32⟩
  | 32 => ⟨S64, .f32⟩
  | 33 => ⟨S1x64x64, .f32⟩
  | 34 => ⟨S64x64, .f32⟩
  | 35 => ⟨S1x64, .f32⟩
  | 36 => ⟨S64, .f32⟩
  | 37 => ⟨S1000000x64, .f32⟩
  | 38 => ⟨S_, .f32⟩
  | 39 => ⟨S100000x64, .f32⟩
  | 40 => ⟨S1000000x1, .i32⟩
  | 41 => ⟨S100000x64, .f32⟩
  | 42 => ⟨S1x64x64, .f32⟩
  | 43 => ⟨S64x64, .f32⟩
  | 44 => ⟨S1x64x64, .f32⟩
  | 45 => ⟨S64x64, .f32⟩
  | 46 => ⟨S1x64, .f32⟩
  | 47 => ⟨S64, .f32⟩
  | 48 => ⟨S1x64x64, .f32⟩
  | 49 => ⟨S64x64, .f32⟩
  | 50 => ⟨S1x64, .f32⟩
  | 51 => ⟨S64, .f32⟩
  | 52 => ⟨S100000x64, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1, .i32⟩
  | 62 => ⟨S_, .i32⟩
  | 63 => ⟨S1000000x1, .i32⟩
  | 64 => ⟨S1000000x1, .i1⟩
  | 65 => ⟨S1x1, .i32⟩
  | 66 => ⟨S1000000x1, .i32⟩
  | 67 => ⟨S1000000x1, .i1⟩
  | 68 => ⟨S1000000x1, .i1⟩
  | 69 => ⟨S_, .i1⟩
  | 70 => ⟨S1000000, .i1⟩
  | 71 => ⟨S1000000x64, .f32⟩
  | 72 => ⟨S1000000x64, .i1⟩
  | 73 => ⟨S_, .f32⟩
  | 74 => ⟨S1000000x64, .f32⟩
  | 75 => ⟨S1000000x64, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1, .i32⟩
  | 85 => ⟨S_, .i32⟩
  | 86 => ⟨S1000000x1, .i32⟩
  | 87 => ⟨S1000000x1, .i1⟩
  | 88 => ⟨S1x1, .i32⟩
  | 89 => ⟨S1000000x1, .i32⟩
  | 90 => ⟨S1000000x1, .i1⟩
  | 91 => ⟨S1000000x1, .i1⟩
  | 92 => ⟨S_, .i1⟩
  | 93 => ⟨S1000000, .i1⟩
  | 94 => ⟨S1000000x64, .f32⟩
  | 95 => ⟨S1000000x64, .i1⟩
  | 96 => ⟨S_, .f32⟩
  | 97 => ⟨S1000000x64, .f32⟩
  | 98 => ⟨S1000000x64, .f32⟩
  | 99 => ⟨S1x64x64, .f32⟩
  | 100 => ⟨S64x64, .f32⟩
  | 101 => ⟨S1x64x64, .f32⟩
  | 102 => ⟨S64x64, .f32⟩
  | 103 => ⟨S1x64, .f32⟩
  | 104 => ⟨S64, .f32⟩
  | 105 => ⟨S1x64x64, .f32⟩
  | 106 => ⟨S64x64, .f32⟩
  | 107 => ⟨S1x64, .f32⟩
  | 108 => ⟨S64, .f32⟩
  | 109 => ⟨S1000000x64, .f32⟩
  | 110 => ⟨S_, .f32⟩
  | 111 => ⟨S100000x64, .f32⟩
  | 112 => ⟨S1000000x1, .i32⟩
  | 113 => ⟨S100000x64, .f32⟩
  | 114 => ⟨S1x64x64, .f32⟩
  | 115 => ⟨S64x64, .f32⟩
  | 116 => ⟨S1x64x64, .f32⟩
  | 117 => ⟨S64x64, .f32⟩
  | 118 => ⟨S1x64, .f32⟩
  | 119 => ⟨S64, .f32⟩
  | 120 => ⟨S1x64x64, .f32⟩
  | 121 => ⟨S64x64, .f32⟩
  | 122 => ⟨S1x64, .f32⟩
  | 123 => ⟨S64, .f32⟩
  | 124 => ⟨S100000x64, .f32⟩
  | 125 => ⟨S100000x3, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | .local _ .vmem, ⟨0, _⟩ => ⟨S10000x5, .f32⟩
  | .local _ .vmem, ⟨1, _⟩ => ⟨S10000x5, .f32⟩
  | .local _ .vmem, ⟨2, _⟩ => ⟨S5x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S64x64, .f32⟩
  | .local _ .vmem, ⟨26, _⟩ => ⟨S64x64, .f32⟩
  | .local _ .vmem, ⟨27, _⟩ => ⟨S64, .f32⟩
  | .local _ .vmem, ⟨28, _⟩ => ⟨S64x64, .f32⟩
  | .local _ .vmem, ⟨29, _⟩ => ⟨S64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S64x64, .f32⟩
  | .local _ .vmem, ⟨38, _⟩ => ⟨S64, .f32⟩
  | .local _ .vmem, ⟨39, _⟩ => ⟨S64x64, .f32⟩
  | .local _ .vmem, ⟨40, _⟩ => ⟨S64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x1, .f32⟩
  | .local _ .vmem, ⟨48, _⟩ => ⟨S10000x1, .f32⟩
  | .local _ .vmem, ⟨49, _⟩ => ⟨S64x64, .f32⟩
  | .local _ .vmem, ⟨50, _⟩ => ⟨S64x64, .f32⟩
  | .local _ .vmem, ⟨51, _⟩ => ⟨S64, .f32⟩
  | .local _ .vmem, ⟨52, _⟩ => ⟨S64x64, .f32⟩
  | .local _ .vmem, ⟨53, _⟩ => ⟨S64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S64x64, .f32⟩
  | .local _ .vmem, ⟨61, _⟩ => ⟨S64x64, .f32⟩
  | .local _ .vmem, ⟨62, _⟩ => ⟨S64, .f32⟩
  | .local _ .vmem, ⟨63, _⟩ => ⟨S64x64, .f32⟩
  | .local _ .vmem, ⟨64, _⟩ => ⟨S64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S10000x1, .f32⟩
  | .local _ .vmem, ⟨72, _⟩ => ⟨S10000x1, .f32⟩
  | .local _ .vmem, ⟨73, _⟩ => ⟨S64x64, .f32⟩
  | .local _ .vmem, ⟨74, _⟩ => ⟨S64x64, .f32⟩
  | .local _ .vmem, ⟨75, _⟩ => ⟨S64, .f32⟩
  | .local _ .vmem, ⟨76, _⟩ => ⟨S64x64, .f32⟩
  | .local _ .vmem, ⟨77, _⟩ => ⟨S64, .f32⟩
  | .local _ .vmem, ⟨78, _⟩ => ⟨S10000x64, .f32⟩
  | .local _ .vmem, ⟨79, _⟩ => ⟨S10000x64, .f32⟩
  | .local _ .vmem, ⟨80, _⟩ => ⟨S10000x64, .f32⟩
  | .local _ .vmem, ⟨81, _⟩ => ⟨S10000x64, .f32⟩
  | .local _ .vmem, ⟨82, _⟩ => ⟨S64x64, .f32⟩
  | .local _ .vmem, ⟨83, _⟩ => ⟨S64, .f32⟩
  | .local _ .vmem, ⟨84, _⟩ => ⟨S64x3, .f32⟩
  | .local _ .vmem, ⟨85, _⟩ => ⟨S3, .f32⟩
  | .local _ .vmem, ⟨86, _⟩ => ⟨S10000x3, .f32⟩
  | .local _ .vmem, ⟨87, _⟩ => ⟨S10000x3, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v16 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_cst_2 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_call2_c : Ref sig .tc := ⟨.hbm, 109, rfl⟩
abbrev main_call2_v0 : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_c_1 : Ref sig .tc := ⟨.hbm, 117, rfl⟩
abbrev main_call2_c_2 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_3 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_call2_cst : Ref sig .tc := ⟨.hbm, 129, rfl⟩
abbrev main_call2_v15 : Ref sig .tc := ⟨.hbm, 130, rfl⟩
abbrev main_v43 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_c_1 : Ref sig .tc := ⟨.hbm, 140, rfl⟩
abbrev main_call3_c_2 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_3 : Ref sig .tc := ⟨.hbm, 148, rfl⟩
abbrev main_call3_v12 : Ref sig .tc := ⟨.hbm, 149, rfl⟩
abbrev main_call3_v13 : Ref sig .tc := ⟨.hbm, 150, rfl⟩
abbrev main_call3_v14 : Ref sig .tc := ⟨.hbm, 151, rfl⟩
abbrev main_call3_cst : Ref sig .tc := ⟨.hbm, 152, rfl⟩
abbrev main_call3_v15 : Ref sig .tc := ⟨.hbm, 153, rfl⟩
abbrev main_v44 : Ref sig .tc := ⟨.hbm, 154, rfl⟩
abbrev main_v45 : Ref sig .tc := ⟨.hbm, 155, rfl⟩
abbrev main_v46 : Ref sig .tc := ⟨.hbm, 156, rfl⟩
abbrev main_v47 : Ref sig .tc := ⟨.hbm, 157, rfl⟩
abbrev main_v48 : Ref sig .tc := ⟨.hbm, 158, rfl⟩
abbrev main_v49 : Ref sig .tc := ⟨.hbm, 159, rfl⟩
abbrev main_v50 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_v55 : Ref sig .tc := ⟨.hbm, 165, rfl⟩
abbrev main_cst_3 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_call4_c : Ref sig .tc := ⟨.hbm, 181, rfl⟩
abbrev main_call4_v0 : Ref sig .tc := ⟨.hbm, 182, rfl⟩
abbrev main_call4_v1 : Ref sig .tc := ⟨.hbm, 183, rfl⟩
abbrev main_call4_c_0 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_c_1 : Ref sig .tc := ⟨.hbm, 189, rfl⟩
abbrev main_call4_c_2 : Ref sig .tc := ⟨.hbm, 190, rfl⟩
abbrev main_call4_v6 : Ref sig .tc := ⟨.hbm, 191, rfl⟩
abbrev main_call4_v7 : Ref sig .tc := ⟨.hbm, 192, rfl⟩
abbrev main_call4_v8 : Ref sig .tc := ⟨.hbm, 193, rfl⟩
abbrev main_call4_v9 : Ref sig .tc := ⟨.hbm, 194, rfl⟩
abbrev main_call4_v10 : Ref sig .tc := ⟨.hbm, 195, rfl⟩
abbrev main_call4_v11 : Ref sig .tc := ⟨.hbm, 196, rfl⟩
abbrev main_call4_c_3 : Ref sig .tc := ⟨.hbm, 197, rfl⟩
abbrev main_call4_v12 : Ref sig .tc := ⟨.hbm, 198, rfl⟩
abbrev main_call4_v13 : Ref sig .tc := ⟨.hbm, 199, rfl⟩
abbrev main_call4_v14 : Ref sig .tc := ⟨.hbm, 200, rfl⟩
abbrev main_call4_cst : Ref sig .tc := ⟨.hbm, 201, rfl⟩
abbrev main_call4_v15 : Ref sig .tc := ⟨.hbm, 202, rfl⟩
abbrev main_v70 : Ref sig .tc := ⟨.hbm, 203, rfl⟩
abbrev main_call5_c : Ref sig .tc := ⟨.hbm, 204, rfl⟩
abbrev main_call5_v0 : Ref sig .tc := ⟨.hbm, 205, rfl⟩
abbrev main_call5_v1 : Ref sig .tc := ⟨.hbm, 206, rfl⟩
abbrev main_call5_c_0 : Ref sig .tc := ⟨.hbm, 207, rfl⟩
abbrev main_call5_v2 : Ref sig .tc := ⟨.hbm, 208, rfl⟩
abbrev main_call5_v3 : Ref sig .tc := ⟨.hbm, 209, rfl⟩
abbrev main_call5_v4 : Ref sig .tc := ⟨.hbm, 210, rfl⟩
abbrev main_call5_v5 : Ref sig .tc := ⟨.hbm, 211, rfl⟩
abbrev main_call5_c_1 : Ref sig .tc := ⟨.hbm, 212, rfl⟩
abbrev main_call5_c_2 : Ref sig .tc := ⟨.hbm, 213, rfl⟩
abbrev main_call5_v6 : Ref sig .tc := ⟨.hbm, 214, rfl⟩
abbrev main_call5_v7 : Ref sig .tc := ⟨.hbm, 215, rfl⟩
abbrev main_call5_v8 : Ref sig .tc := ⟨.hbm, 216, rfl⟩
abbrev main_call5_v9 : Ref sig .tc := ⟨.hbm, 217, rfl⟩
abbrev main_call5_v10 : Ref sig .tc := ⟨.hbm, 218, rfl⟩
abbrev main_call5_v11 : Ref sig .tc := ⟨.hbm, 219, rfl⟩
abbrev main_call5_c_3 : Ref sig .tc := ⟨.hbm, 220, rfl⟩
abbrev main_call5_v12 : Ref sig .tc := ⟨.hbm, 221, rfl⟩
abbrev main_call5_v13 : Ref sig .tc := ⟨.hbm, 222, rfl⟩
abbrev main_call5_v14 : Ref sig .tc := ⟨.hbm, 223, rfl⟩
abbrev main_call5_cst : Ref sig .tc := ⟨.hbm, 224, rfl⟩
abbrev main_call5_v15 : Ref sig .tc := ⟨.hbm, 225, rfl⟩
abbrev main_v71 : Ref sig .tc := ⟨.hbm, 226, rfl⟩
abbrev main_v72 : Ref sig .tc := ⟨.hbm, 227, rfl⟩
abbrev main_v73 : Ref sig .tc := ⟨.hbm, 228, rfl⟩
abbrev main_v74 : Ref sig .tc := ⟨.hbm, 229, rfl⟩
abbrev main_v75 : Ref sig .tc := ⟨.hbm, 230, rfl⟩
abbrev main_v76 : Ref sig .tc := ⟨.hbm, 231, rfl⟩
abbrev main_v77 : Ref sig .tc := ⟨.hbm, 232, rfl⟩
abbrev main_v78 : Ref sig .tc := ⟨.hbm, 233, rfl⟩
abbrev main_v79 : Ref sig .tc := ⟨.hbm, 234, rfl⟩
abbrev main_v80 : Ref sig .tc := ⟨.hbm, 235, rfl⟩
abbrev main_v81 : Ref sig .tc := ⟨.hbm, 236, rfl⟩
abbrev main_v82 : Ref sig .tc := ⟨.hbm, 237, rfl⟩
abbrev main_cst_4 : Ref sig .tc := ⟨.hbm, 238, rfl⟩
abbrev main_v83 : Ref sig .tc := ⟨.hbm, 239, rfl⟩
abbrev main_v84 : Ref sig .tc := ⟨.hbm, 240, rfl⟩
abbrev main_v85 : Ref sig .tc := ⟨.hbm, 241, rfl⟩
abbrev main_v86 : Ref sig .tc := ⟨.hbm, 242, rfl⟩
abbrev main_v87 : Ref sig .tc := ⟨.hbm, 243, rfl⟩
abbrev main_v88 : Ref sig .tc := ⟨.hbm, 244, rfl⟩
abbrev main_v89 : Ref sig .tc := ⟨.hbm, 245, rfl⟩
abbrev main_v90 : Ref sig .tc := ⟨.hbm, 246, rfl⟩
abbrev main_v91 : Ref sig .tc := ⟨.hbm, 247, rfl⟩
abbrev main_v92 : Ref sig .tc := ⟨.hbm, 248, rfl⟩
abbrev main_v93 : Ref sig .tc := ⟨.hbm, 249, rfl⟩
abbrev main_v94 : Ref sig .tc := ⟨.hbm, 250, rfl⟩
abbrev main_v95 : Ref sig .tc := ⟨.hbm, 251, rfl⟩
abbrev main_v96 : Ref sig .tc := ⟨.hbm, 252, rfl⟩
abbrev main_v97 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg7_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg8_0 : Ref sig .tc := ⟨.vmem, 54, rfl⟩
abbrev cc4_stg8_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg7_0 : Ref sig .tc := ⟨.vmem, 65, rfl⟩
abbrev cc5_stg7_1 : Ref sig .tc := ⟨.vmem, 66, rfl⟩
abbrev cc6_stg0_0 : Ref sig .tc := ⟨.vmem, 67, rfl⟩
abbrev cc6_stg0_1 : Ref sig .tc := ⟨.vmem, 68, rfl⟩
abbrev cc6_stg1_0 : Ref sig .tc := ⟨.vmem, 69, rfl⟩
abbrev cc6_stg1_1 : Ref sig .tc := ⟨.vmem, 70, rfl⟩
abbrev cc6_stg2_0 : Ref sig .tc := ⟨.vmem, 71, rfl⟩
abbrev cc6_stg2_1 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc6_stg7_0 : Ref sig .tc := ⟨.vmem, 77, rfl⟩
abbrev cc6_stg8_0 : Ref sig .tc := ⟨.vmem, 78, rfl⟩
abbrev cc6_stg8_1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem7_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem8_0 : DmaSem sig := 54
abbrev cc4_sem8_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem7_1 : DmaSem sig := 66
abbrev cc6_sem0_0 : DmaSem sig := 67
abbrev cc6_sem0_1 : DmaSem sig := 68
abbrev cc6_sem1_0 : DmaSem sig := 69
abbrev cc6_sem1_1 : DmaSem sig := 70
abbrev cc6_sem2_0 : DmaSem sig := 71
abbrev cc6_sem2_1 : DmaSem sig := 72
abbrev cc6_sem3_0 : DmaSem sig := 73
abbrev cc6_sem4_0 : DmaSem sig := 74
abbrev cc6_sem5_0 : DmaSem sig := 75
abbrev cc6_sem6_0 : DmaSem sig := 76
abbrev cc6_sem7_0 : DmaSem sig := 77
abbrev cc6_sem8_0 : DmaSem sig := 78
abbrev cc6_sem8_1 : DmaSem sig := 79
abbrev cc7_sem0_0 : DmaSem sig := 80
abbrev cc7_sem0_1 : DmaSem sig := 81
abbrev cc7_sem1_0 : DmaSem sig := 82
abbrev cc7_sem2_0 : DmaSem sig := 83
abbrev cc7_sem3_0 : DmaSem sig := 84
abbrev cc7_sem4_0 : DmaSem sig := 85
abbrev cc7_sem5_0 : DmaSem sig := 86
abbrev cc7_sem5_1 : DmaSem sig := 87

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S10000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S10000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S10000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S10000x64 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x3 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S3 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x3 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  inb_S10000x5_S10000x5_0_0 : ∀ a, (![0, 0] : Fin 2 → Nat) a + S10000x5.size a ≤ S10000x5.size a
  h_S10000x5 : 0 < S10000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  slices_S3x128x64_S3x64x64_0_0_0 : S3x128x64.Slices ![0, 0, 0] S3x64x64
  slices_S3x128x64_S3x64x64_0_64_0 : S3x128x64.Slices ![0, 64, 0] S3x64x64
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S10000x64_S10000x64 : S10000x64.ShapeCasts S10000x64
  shapeCasts_S64x64_S64x64 : S64x64.ShapeCasts S64x64
  shapeCasts_S64_S64 : S64.ShapeCasts S64
  bcast_S_S100000x64 : S_.BroadcastsInDim S100000x64 (![] : Fin 0 → Fin S100000x64.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  dot_S10000x5_S5x64_S10000x64_1_0_0_1_n_n_wf : DotDims.WF S10000x5 S5x64 S10000x64 [1] [0] [0] [1] [] []
  dot_S10000x64_S64x64_S10000x64_1_0_0_1_n_n_wf : DotDims.WF S10000x64 S64x64 S10000x64 [1] [0] [0] [1] [] []
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x3_S10000x3_1_0_0_1_n_n_wf : DotDims.WF S10000x64 S64x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .f32 = 32 ∨ (Rect.block (s := S100000x5) S10000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S1000000x64.size a
  hwx1_7 : ∀ i : grid1.Coords, EltTy.bits .f32 = 32 ∨ (Rect.block (s := S1000000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x64.size a ≤ S100000x64.size a
  hwx2_8 : ∀ i : grid2.Coords, EltTy.bits .f32 = 32 ∨ (Rect.block (s := S100000x64) S10000x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S1000000x64.size a
  hwx3_0 : ∀ i : grid3.Coords, EltTy.bits .f32 = 32 ∨ (Rect.block (s := S1000000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S1000000x64.size a
  hwx3_1 : ∀ i : grid3.Coords, EltTy.bits .f32 = 32 ∨ (Rect.block (s := S1000000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S1000000x64.size a
  hwx3_7 : ∀ i : grid3.Coords, EltTy.bits .f32 = 32 ∨ (Rect.block (s := S1000000x64) S10000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64.size a ≤ S64.size a
  hwx4_7 : ∀ i : grid4.Coords, EltTy.bits .f32 = 32 ∨ (Rect.block (s := S64) S64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S10000x64.size a ≤ S100000x64.size a
  hwx4_8 : ∀ i : grid4.Coords, EltTy.bits .f32 = 32 ∨ (Rect.block (s := S100000x64) S10000x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S1000000x64.size a
  hwx5_0 : ∀ i : grid5.Coords, EltTy.bits .f32 = 32 ∨ (Rect.block (s := S1000000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S1000000x64.size a
  hwx5_1 : ∀ i : grid5.Coords, EltTy.bits .f32 = 32 ∨ (Rect.block (s := S1000000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S10000x64.size a ≤ S1000000x64.size a
  hwx5_7 : ∀ i : grid5.Coords, EltTy.bits .f32 = 32 ∨ (Rect.block (s := S1000000x64) S10000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64.size a ≤ S64.size a
  hwx6_5 : ∀ i : grid6.Coords, EltTy.bits .f32 = 32 ∨ (Rect.block (s := S64) S64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x64.size a ≤ S64x64.size a
  hwx6_6 : ∀ i : grid6.Coords, EltTy.bits .f32 = 32 ∨ (Rect.block (s := S64x64) S64x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64.size a ≤ S64.size a
  hwx6_7 : ∀ i : grid6.Coords, EltTy.bits .f32 = 32 ∨ (Rect.block (s := S64) S64.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S10000x64.size a ≤ S100000x64.size a
  hwx6_8 : ∀ i : grid6.Coords, EltTy.bits .f32 = 32 ∨ (Rect.block (s := S100000x64) S10000x64.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x3.size a ≤ S64x3.size a
  hwx7_3 : ∀ i : grid7.Coords, EltTy.bits .f32 = 32 ∨ (Rect.block (s := S64x3) S64x3.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S3.size a ≤ S3.size a
  hwx7_4 : ∀ i : grid7.Coords, EltTy.bits .f32 = 32 ∨ (Rect.block (s := S3) S3.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x3.size a ≤ S100000x3.size a
  hwx7_5 : ∀ i : grid7.Coords, EltTy.bits .f32 = 32 ∨ (Rect.block (s := S100000x3) S10000x3.size (cc7_transform_5 i) (hinb7_5 i)).WholeWords (EltTy.packing .f32)

variable [Facts₀]

def dot_S10000x5_S5x64_S10000x64_1_0_0_1_n_n : DotDims S10000x5 S5x64 S10000x64 where
  lhsContracting := [1]
  rhsContracting := [0]
  lhsNonContracting := [0]
  rhsNonContracting := [1]
  lhsBatch := []
  rhsBatch := []
  wf := dot_S10000x5_S5x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v4) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42) S10000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v43) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v42) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v60) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v68) S64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v69) S10000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v70) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v81) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v82) S10000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v69) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v11) S10000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v87) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v89) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v91) S64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v93) S64x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v95) S64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v96) S10000x64.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v96) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg14) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg15) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg16) S64x3.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg17) S3.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v97) S10000x3.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x5 : Shape := ⟨2, ![100000, 5]⟩
abbrev S2x1000000 : Shape := ⟨2, ![2, 1000000]⟩
abbrev S5x64 : Shape := ⟨2, ![5, 64]⟩
abbrev S64 : Shape := ⟨1, ![64]⟩
abbrev S64x64 : Shape := ⟨2, ![64, 64]⟩
abbrev S3x128x64 : Shape := ⟨3, ![3, 128, 64]⟩
abbrev S3x64 : Shape := ⟨2, ![3, 64]⟩
abbrev S3x64x64 : Shape := ⟨3, ![3, 64, 64]⟩
abbrev S64x3 : Shape := ⟨2, ![64, 3]⟩
abbrev S3 : Shape := ⟨1, ![3]⟩
abbrev S1x1000000 : Shape := ⟨2, ![1, 1000000]⟩
abbrev S1000000 : Shape := ⟨1, ![1000000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1000000x128 : Shape := ⟨2, ![1000000, 128]⟩
abbrev S1x128x64 : Shape := ⟨3, ![1, 128, 64]⟩
abbrev S128x64 : Shape := ⟨2, ![128, 64]⟩
abbrev S1x64x64 : Shape := ⟨3, ![1, 64, 64]⟩
abbrev S100000x128 : Shape := ⟨2, ![100000, 128]⟩
abbrev S100000x3 : Shape := ⟨2, ![100000, 3]⟩
abbrev S1x3 : Shape := ⟨2, ![1, 3]⟩

abbrev nBuf : Space → Nat
  | .hbm => 278
  | .vmem => 0
  | .smem => 0
  | _ => 0

abbrev hbmTy0_0 (i : Nat) : BufTy := match i % 128 with
  | 0 => ⟨S100000x5, .f32⟩
  | 1 => ⟨S2x1000000, .i32⟩
  | 2 => ⟨S5x64, .f32⟩
  | 3 => ⟨S64, .f32⟩
  | 4 => ⟨S64x64, .f32⟩
  | 5 => ⟨S64, .f32⟩
  | 6 => ⟨S3x128x64, .f32⟩
  | 7 => ⟨S3x64, .f32⟩
  | 8 => ⟨S3x64x64, .f32⟩
  | 9 => ⟨S3x64, .f32⟩
  | 10 => ⟨S3x128x64, .f32⟩
  | 11 => ⟨S3x64, .f32⟩
  | 12 => ⟨S3x64x64, .f32⟩
  | 13 => ⟨S3x64, .f32⟩
  | 14 => ⟨S64x64, .f32⟩
  | 15 => ⟨S64, .f32⟩
  | 16 => ⟨S64x3, .f32⟩
  | 17 => ⟨S3, .f32⟩
  | 18 => ⟨S1x1000000, .i32⟩
  | 19 => ⟨S1000000, .i32⟩
  | 20 => ⟨S1x1000000, .i32⟩
  | 21 => ⟨S1000000, .i32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S1000000, .f32⟩
  | 38 => ⟨S_, .f32⟩
  | 39 => ⟨S100000, .f32⟩
  | 40 => ⟨S1000000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S1000000x128, .f32⟩
  | 65 => ⟨S1x128x64, .f32⟩
  | 66 => ⟨S128x64, .f32⟩
  | 67 => ⟨S1x64, .f32⟩
  | 68 => ⟨S64, .f32⟩
  | 69 => ⟨S1x64x64, .f32⟩
  | 70 => ⟨S64x64, .f32⟩
  | 71 => ⟨S1x64, .f32⟩
  | 72 => ⟨S64, .f32⟩
  | 73 => ⟨S1000000x64, .f32⟩
  | 74 => ⟨S1x64, .f32⟩
  | 75 => ⟨S1000000x64, .f32⟩
  | 76 => ⟨S1000000x64, .f32⟩
  | 77 => ⟨S_, .f32⟩
  | 78 => ⟨S1000000x64, .f32⟩
  | 79 => ⟨S1000000x64, .f32⟩
  | 80 => ⟨S1000000x64, .f32⟩
  | 81 => ⟨S1x64, .f32⟩
  | 82 => ⟨S1000000x64, .f32⟩
  | 83 => ⟨S1000000x64, .f32⟩
  | 84 => ⟨S_, .f32⟩
  | 85 => ⟨S1000000x64, .f32⟩
  | 86 => ⟨S1000000x64, .f32⟩
  | 87 => ⟨S_, .f32⟩
  | 88 => ⟨S100000x64, .f32⟩
  | 89 => ⟨S1000000x1, .i32⟩
  | 90 => ⟨S100000x64, .f32⟩
  | 91 => ⟨S100000x64, .f32⟩
  | 92 => ⟨S100000x64, .f32⟩
  | 93 => ⟨S100000x128, .f32⟩
  | 94 => ⟨S1x128x64, .f32⟩
  | 95 => ⟨S128x64, .f32⟩
  | 96 => ⟨S1x64, .f32⟩
  | 97 => ⟨S64, .f32⟩
  | 98 => ⟨S1x64x64, .f32⟩
  | 99 => ⟨S64x64, .f32⟩
  | 100 => ⟨S1x64, .f32⟩
  | 101 => ⟨S64, .f32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x64, .f32⟩
  | 125 => ⟨S_, .i32⟩
  | 126 => ⟨S1000000, .i32⟩
  | 127 => ⟨S1000000, .i1⟩
  | _ => ⟨S100000x5, .f32⟩

abbrev hbmTy0_1 (i : Nat) : BufTy := match i % 128 with
  | 0 => ⟨S_, .i32⟩
  | 1 => ⟨S1000000, .i32⟩
  | 2 => ⟨S1000000, .i32⟩
  | 3 => ⟨S1000000, .i32⟩
  | 4 => ⟨S1000000x1, .i32⟩
  | 5 => ⟨S1000000x64, .f32⟩
  | 6 => ⟨S1000000x128, .f32⟩
  | 7 => ⟨S1x128x64, .f32⟩
  | 8 => ⟨S128x64, .f32⟩
  | 9 => ⟨S1x64, .f32⟩
  | 10 => ⟨S64, .f32⟩
  | 11 => ⟨S1x64x64, .f32⟩
  | 12 => ⟨S64x64, .f32⟩
  | 13 => ⟨S1x64, .f32⟩
  | 14 => ⟨S64, .f32⟩
  | 15 => ⟨S1000000x64, .f32⟩
  | 16 => ⟨S1x64, .f32⟩
  | 17 => ⟨S1000000x64, .f32⟩
  | 18 => ⟨S1000000x64, .f32⟩
  | 19 => ⟨S_, .f32⟩
  | 20 => ⟨S1000000x64, .f32⟩
  | 21 => ⟨S1000000x64, .f32⟩
  | 22 => ⟨S1000000x64, .f32⟩
  | 23 => ⟨S1x64, .f32⟩
  | 24 => ⟨S1000000x64, .f32⟩
  | 25 => ⟨S1000000x64, .f32⟩
  | 26 => ⟨S_, .f32⟩
  | 27 => ⟨S1000000x64, .f32⟩
  | 28 => ⟨S1000000x64, .f32⟩
  | 29 => ⟨S_, .f32⟩
  | 30 => ⟨S100000x64, .f32⟩
  | 31 => ⟨S1000000x1, .i32⟩
  | 32 => ⟨S100000x64, .f32⟩
  | 33 => ⟨S100000x64, .f32⟩
  | 34 => ⟨S100000x64, .f32⟩
  | 35 => ⟨S100000x128, .f32⟩
  | 36 => ⟨S1x128x64, .f32⟩
  | 37 => ⟨S128x64, .f32⟩
  | 38 => ⟨S1x64, .f32⟩
  | 39 => ⟨S64, .f32⟩
  | 40 => ⟨S1x64x64, .f32⟩
  | 41 => ⟨S64x64, .f32⟩
  | 42 => ⟨S1x64, .f32⟩
  | 43 => ⟨S64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x64, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x64, .f32⟩
  | 76 => ⟨S1000000x128, .f32⟩
  | 77 => ⟨S1x128x64, .f32⟩
  | 78 => ⟨S128x64, .f32⟩
  | 79 => ⟨S1x64, .f32⟩
  | 80 => ⟨S64, .f32⟩
  | 81 => ⟨S1x64x64, .f32⟩
  | 82 => ⟨S64x64, .f32⟩
  | 83 => ⟨S1x64, .f32⟩
  | 84 => ⟨S64, .f32⟩
  | 85 => ⟨S1000000x64, .f32⟩
  | 86 => ⟨S1x64, .f32⟩
  | 87 => ⟨S1000000x64, .f32⟩
  | 88 => ⟨S1000000x64, .f32⟩
  | 89 => ⟨S_, .f32⟩
  | 90 => ⟨S1000000x64, .f32⟩
  | 91 => ⟨S1000000x64, .f32⟩
  | 92 => ⟨S1000000x64, .f32⟩
  | 93 => ⟨S1x64, .f32⟩
  | 94 => ⟨S1000000x64, .f32⟩
  | 95 => ⟨S1000000x64, .f32⟩
  | 96 => ⟨S_, .f32⟩
  | 97 => ⟨S1000000x64, .f32⟩
  | 98 => ⟨S1000000x64, .f32⟩
  | 99 => ⟨S_, .f32⟩
  | 100 => ⟨S100000x64, .f32⟩
  | 101 => ⟨S1000000x1, .i32⟩
  | 102 => ⟨S100000x64, .f32⟩
  | 103 => ⟨S100000x64, .f32⟩
  | 104 => ⟨S100000x64, .f32⟩
  | 105 => ⟨S100000x128, .f32⟩
  | 106 => ⟨S1x128x64, .f32⟩
  | 107 => ⟨S128x64, .f32⟩
  | 108 => ⟨S1x64, .f32⟩
  | 109 => ⟨S64, .f32⟩
  | 110 => ⟨S1x64x64, .f32⟩
  | 111 => ⟨S64x64, .f32⟩
  | 112 => ⟨S1x64, .f32⟩
  | 113 => ⟨S64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x5, .f32⟩

abbrev hbmTy0_2 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x3, .f32⟩
  | 8 => ⟨S1x3, .f32⟩
  | 9 => ⟨S100000x3, .f32⟩
  | 10 => ⟨S100000x3, .f32⟩
  | 11 => ⟨S100000x3, .f32⟩
  | 12 => ⟨S100000x3, .f32⟩
  | 13 => ⟨S_, .f32⟩
  | 14 => ⟨S100000x3, .f32⟩
  | 15 => ⟨S100000x3, .f32⟩
  | 16 => ⟨S_, .f32⟩
  | 17 => ⟨S100000x3, .f32⟩
  | 18 => ⟨S100000x3, .f32⟩
  | 19 => ⟨S_, .f32⟩
  | 20 => ⟨S100000x3, .f32⟩
  | 21 => ⟨S100000x3, .f32⟩
  | _ => ⟨S100000x5, .f32⟩

abbrev hbmTy (i : Nat) : BufTy := match i / 128 with
  | 0 => hbmTy0_0 i
  | 1 => hbmTy0_1 i
  | 2 => hbmTy0_2 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_cst : Ref sig .tc := ⟨.hbm, 26, rfl⟩
abbrev main_call0_v0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_cst : Ref sig .tc := ⟨.hbm, 33, rfl⟩
abbrev main_call1_v0 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_3 : Ref sig .tc := ⟨.hbm, 55, rfl⟩
abbrev main_v28 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call2_cst : Ref sig .tc := ⟨.hbm, 77, rfl⟩
abbrev main_call2_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call3_cst : Ref sig .tc := ⟨.hbm, 84, rfl⟩
abbrev main_call3_v0 : Ref sig .tc := ⟨.hbm, 85, rfl⟩
abbrev main_v53 : Ref sig .tc := ⟨.hbm, 86, rfl⟩
abbrev main_cst_5 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call4_cst : Ref sig .tc := ⟨.hbm, 106, rfl⟩
abbrev main_call4_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call5_cst : Ref sig .tc := ⟨.hbm, 113, rfl⟩
abbrev main_call5_v0 : Ref sig .tc := ⟨.hbm, 114, rfl⟩
abbrev main_v77 : Ref sig .tc := ⟨.hbm, 115, rfl⟩
abbrev main_c_6 : Ref sig .tc := ⟨.hbm, 116, rfl⟩
abbrev main_v78 : Ref sig .tc := ⟨.hbm, 117, rfl⟩
abbrev main_v79 : Ref sig .tc := ⟨.hbm, 118, rfl⟩
abbrev main_c_7 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_8 : Ref sig .tc := ⟨.hbm, 125, rfl⟩
abbrev main_v85 : Ref sig .tc := ⟨.hbm, 126, rfl⟩
abbrev main_v86 : Ref sig .tc := ⟨.hbm, 127, rfl⟩
abbrev main_c_9 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_call6_cst : Ref sig .tc := ⟨.hbm, 147, rfl⟩
abbrev main_call6_v0 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_call7_cst : Ref sig .tc := ⟨.hbm, 154, rfl⟩
abbrev main_call7_v0 : Ref sig .tc := ⟨.hbm, 155, rfl⟩
abbrev main_v110 : Ref sig .tc := ⟨.hbm, 156, rfl⟩
abbrev main_cst_10 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_call8_cst : Ref sig .tc := ⟨.hbm, 176, rfl⟩
abbrev main_call8_v0 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_call9_cst : Ref sig .tc := ⟨.hbm, 183, rfl⟩
abbrev main_call9_v0 : Ref sig .tc := ⟨.hbm, 184, rfl⟩
abbrev main_v134 : Ref sig .tc := ⟨.hbm, 185, rfl⟩
abbrev main_c_11 : Ref sig .tc := ⟨.hbm, 186, rfl⟩
abbrev main_v135 : Ref sig .tc := ⟨.hbm, 187, rfl⟩
abbrev main_v136 : Ref sig .tc := ⟨.hbm, 188, rfl⟩
abbrev main_c_12 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_c_13 : Ref sig .tc := ⟨.hbm, 195, rfl⟩
abbrev main_v142 : Ref sig .tc := ⟨.hbm, 196, rfl⟩
abbrev main_v143 : Ref sig .tc := ⟨.hbm, 197, rfl⟩
abbrev main_c_14 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_call10_cst : Ref sig .tc := ⟨.hbm, 217, rfl⟩
abbrev main_call10_v0 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_call11_cst : Ref sig .tc := ⟨.hbm, 224, rfl⟩
abbrev main_call11_v0 : Ref sig .tc := ⟨.hbm, 225, rfl⟩
abbrev main_v167 : Ref sig .tc := ⟨.hbm, 226, rfl⟩
abbrev main_cst_15 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_call12_cst : Ref sig .tc := ⟨.hbm, 246, rfl⟩
abbrev main_call12_v0 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_call13_cst : Ref sig .tc := ⟨.hbm, 253, rfl⟩
abbrev main_call13_v0 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_call14_cst : Ref sig .tc := ⟨.hbm, 260, rfl⟩
abbrev main_call14_v0 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_cst_16 : Ref sig .tc := ⟨.hbm, 269, rfl⟩
abbrev main_v203 : Ref sig .tc := ⟨.hbm, 270, rfl⟩
abbrev main_v204 : Ref sig .tc := ⟨.hbm, 271, rfl⟩
abbrev main_cst_17 : Ref sig .tc := ⟨.hbm, 272, rfl⟩
abbrev main_v205 : Ref sig .tc := ⟨.hbm, 273, rfl⟩
abbrev main_v206 : Ref sig .tc := ⟨.hbm, 274, rfl⟩
abbrev main_cst_18 : Ref sig .tc := ⟨.hbm, 275, rfl⟩
abbrev main_v207 : Ref sig .tc := ⟨.hbm, 276, rfl⟩
abbrev main_v208 : Ref sig .tc := ⟨.hbm, 277, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  concatenates_S1000000x64_S1000000x64_S1000000x128_d1 : Shape.Concatenates [S1000000x64, S1000000x64] S1000000x128 1
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  slices_S3x128x64_S1x128x64_1_0_0 : S3x128x64.Slices ![1, 0, 0] S1x128x64
  slices_S3x64_S1x64_1_0 : S3x64.Slices ![1, 0] S1x64
  slices_S3x64x64_S1x64x64_1_0_0 : S3x64x64.Slices ![1, 0, 0] S1x64x64
  slices_S3x128x64_S1x128x64_2_0_0 : S3x128x64.Slices ![2, 0, 0] S1x128x64
  slices_S3x64_S1x64_2_0 : S3x64.Slices ![2, 0] S1x64
  slices_S3x64x64_S1x64x64_2_0_0 : S3x64x64.Slices ![2, 0, 0] S1x64x64
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S_S100000x3 : S_.BroadcastsInDim S100000x3 (![] : Fin 0 → Fin S100000x3.rank)
  dot_S100000x5_S5x64_S100000x64_1_0_0_1_n_n_wf : DotDims.WF S100000x5 S5x64 S100000x64 [1] [0] [0] [1] [] []
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []
  dot_S100000x64_S64x3_S100000x3_1_0_0_1_n_n_wf : DotDims.WF S100000x64 S64x3 S100000x3 [1] [0] [0] [1] [] []

variable [Facts₀]

def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KernelRun.lean ====
/-
  The idealized kernel program's run with its RESULT named: every weakly fair execution of @main terminates, nothing
  faulting, with the result array at the contents the last segment boundary gives it (the fold of the host stretches and
  of the eight regions' write-backs from the launch memory) and the argument arrays as launched. It is the launch of the
  same segments that gives the frame, read at one more buffer of the final state.
-/
import proofs.«111624_j59098749993608_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- The run of the 22 segments, posting the result buffer's final contents beside the unchanged arguments. -/
theorem run : θ_run defs (onTc (τ := τ) (main (F := F))) ⟨m, fun _ => 0, ρ⟩ (fun r => ∀ c : Dev nD,
      r.2.mem ((c.tc : Thread nD τ).loc main_v97) = W22 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v97 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c)⟩)

end Cert.KernelIdeal.RunValue

end
-- ==== Proof.KernelWalk.lean ====
/-
  Buffers that later segments of the idealized kernel program do not write keep their contents from one segment
  boundary to the next: a host stretch rewrites only its operations' result buffers, and a region only its windows'
  arrays. Each lemma walks one buffer back through the boundaries between its last reader and its writer.
-/
import proofs.«111624_j59098749993608_2_alg».proof.Proof.Gen.KernelIdeal.Frame

set_option maxRecDepth 16384

noncomputable section

namespace Cert.KernelIdeal.Walk

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer none of a host stretch's operations writes keeps its contents across the stretch: each operation's
    result buffer is another reference. -/
macro "kept_host" ops:ident : tactic => `(tactic| exact StableHlo.after_of_forall_not_mem (b := _) _ _ (List.forall_iff_forall_mem.mp (by
          simp only [$ops:ident, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem keep_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by kept_host hostOps0

theorem keep_arg2_1_0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := by kept_host hostOps0

theorem keep_arg3_1_0 (c : Dev nD) : W1 m ρ c (Proc.devRef .tc main_arg3) = W0 m ρ c (Proc.devRef .tc main_arg3) :=
  calc W1 m ρ c (Proc.devRef .tc main_arg3)
    _ = W0 m ρ c (Proc.devRef .tc main_arg3) := by kept_host hostOps0

theorem keep_arg4_1_0 (c : Dev nD) : W1 m ρ c (Proc.devRef .tc main_arg4) = W0 m ρ c (Proc.devRef .tc main_arg4) :=
  calc W1 m ρ c (Proc.devRef .tc main_arg4)
    _ = W0 m ρ c (Proc.devRef .tc main_arg4) := by kept_host hostOps0

theorem keep_arg5_1_0 (c : Dev nD) : W1 m ρ c (Proc.devRef .tc main_arg5) = W0 m ρ c (Proc.devRef .tc main_arg5) :=
  calc W1 m ρ c (Proc.devRef .tc main_arg5)
    _ = W0 m ρ c (Proc.devRef .tc main_arg5) := by kept_host hostOps0

theorem keep_arg6_2_0 (c : Dev nD) : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := by kept_host hostOps0

theorem keep_arg10_2_0 (c : Dev nD) : W2 m ρ c (Proc.devRef .tc main_arg10) = W0 m ρ c (Proc.devRef .tc main_arg10) :=
  calc W2 m ρ c (Proc.devRef .tc main_arg10)
    _ = W1 m ρ c (Proc.devRef .tc main_arg10) := W2_of_ne m ρ c main_arg10 (by decide)
    _ = W0 m ρ c (Proc.devRef .tc main_arg10) := by kept_host hostOps0

theorem keep_arg7_5_0 (c : Dev nD) : W5 m ρ c (Proc.devRef .tc main_arg7) = W0 m ρ c (Proc.devRef .tc main_arg7) :=
  calc W5 m ρ c (Proc.devRef .tc main_arg7)
    _ = W4 m ρ c (Proc.devRef .tc main_arg7) := by kept_host hostOps1_2
    _ = W3 m ρ c (Proc.devRef .tc main_arg7) := by kept_host hostOps1_1
    _ = W2 m ρ c (Proc.devRef .tc main_arg7) := by kept_host hostOps1
    _ = W1 m ρ c (Proc.devRef .tc main_arg7) := W2_of_ne m ρ c main_arg7 (by decide)
    _ = W0 m ρ c (Proc.devRef .tc main_arg7) := by kept_host hostOps0

theorem keep_arg7_11_5 (c : Dev nD) : W11 m ρ c (Proc.devRef .tc main_arg7) = W5 m ρ c (Proc.devRef .tc main_arg7) :=
  calc W11 m ρ c (Proc.devRef .tc main_arg7)
    _ = W10 m ρ c (Proc.devRef .tc main_arg7) := by kept_host hostOps3_1
    _ = W9 m ρ c (Proc.devRef .tc main_arg7) := by kept_host hostOps3
    _ = W8 m ρ c (Proc.devRef .tc main_arg7) := W9_of_ne m ρ c main_arg7 (by decide)
    _ = W7 m ρ c (Proc.devRef .tc main_arg7) := by kept_host hostOps2
    _ = W6 m ρ c (Proc.devRef .tc main_arg7) := W7_of_ne m ρ c main_arg7 (by decide)
    _ = W5 m ρ c (Proc.devRef .tc main_arg7) := by kept_host hostOps1_3

theorem keep_arg7_17_11 (c : Dev nD) : W17 m ρ c (Proc.devRef .tc main_arg7) = W11 m ρ c (Proc.devRef .tc main_arg7) :=
  calc W17 m ρ c (Proc.devRef .tc main_arg7)
    _ = W16 m ρ c (Proc.devRef .tc main_arg7) := by kept_host hostOps5_1
    _ = W15 m ρ c (Proc.devRef .tc main_arg7) := by kept_host hostOps5
    _ = W14 m ρ c (Proc.devRef .tc main_arg7) := W15_of_ne m ρ c main_arg7 (by decide)
    _ = W13 m ρ c (Proc.devRef .tc main_arg7) := by kept_host hostOps4
    _ = W12 m ρ c (Proc.devRef .tc main_arg7) := W13_of_ne m ρ c main_arg7 (by decide)
    _ = W11 m ρ c (Proc.devRef .tc main_arg7) := by kept_host hostOps3_2

theorem keep_arg8_5_0 (c : Dev nD) : W5 m ρ c (Proc.devRef .tc main_arg8) = W0 m ρ c (Proc.devRef .tc main_arg8) :=
  calc W5 m ρ c (Proc.devRef .tc main_arg8)
    _ = W4 m ρ c (Proc.devRef .tc main_arg8) := by kept_host hostOps1_2
    _ = W3 m ρ c (Proc.devRef .tc main_arg8) := by kept_host hostOps1_1
    _ = W2 m ρ c (Proc.devRef .tc main_arg8) := by kept_host hostOps1
    _ = W1 m ρ c (Proc.devRef .tc main_arg8) := W2_of_ne m ρ c main_arg8 (by decide)
    _ = W0 m ρ c (Proc.devRef .tc main_arg8) := by kept_host hostOps0

theorem keep_arg8_11_5 (c : Dev nD) : W11 m ρ c (Proc.devRef .tc main_arg8) = W5 m ρ c (Proc.devRef .tc main_arg8) :=
  calc W11 m ρ c (Proc.devRef .tc main_arg8)
    _ = W10 m ρ c (Proc.devRef .tc main_arg8) := by kept_host hostOps3_1
    _ = W9 m ρ c (Proc.devRef .tc main_arg8) := by kept_host hostOps3
    _ = W8 m ρ c (Proc.devRef .tc main_arg8) := W9_of_ne m ρ c main_arg8 (by decide)
    _ = W7 m ρ c (Proc.devRef .tc main_arg8) := by kept_host hostOps2
    _ = W6 m ρ c (Proc.devRef .tc main_arg8) := W7_of_ne m ρ c main_arg8 (by decide)
    _ = W5 m ρ c (Proc.devRef .tc main_arg8) := by kept_host hostOps1_3

theorem keep_arg8_17_11 (c : Dev nD) : W17 m ρ c (Proc.devRef .tc main_arg8) = W11 m ρ c (Proc.devRef .tc main_arg8) :=
  calc W17 m ρ c (Proc.devRef .tc main_arg8)
    _ = W16 m ρ c (Proc.devRef .tc main_arg8) := by kept_host hostOps5_1
    _ = W15 m ρ c (Proc.devRef .tc main_arg8) := by kept_host hostOps5
    _ = W14 m ρ c (Proc.devRef .tc main_arg8) := W15_of_ne m ρ c main_arg8 (by decide)
    _ = W13 m ρ c (Proc.devRef .tc main_arg8) := by kept_host hostOps4
    _ = W12 m ρ c (Proc.devRef .tc main_arg8) := W13_of_ne m ρ c main_arg8 (by decide)
    _ = W11 m ρ c (Proc.devRef .tc main_arg8) := by kept_host hostOps3_2

theorem keep_arg9_5_0 (c : Dev nD) : W5 m ρ c (Proc.devRef .tc main_arg9) = W0 m ρ c (Proc.devRef .tc main_arg9) :=
  calc W5 m ρ c (Proc.devRef .tc main_arg9)
    _ = W4 m ρ c (Proc.devRef .tc main_arg9) := by kept_host hostOps1_2
    _ = W3 m ρ c (Proc.devRef .tc main_arg9) := by kept_host hostOps1_1
    _ = W2 m ρ c (Proc.devRef .tc main_arg9) := by kept_host hostOps1
    _ = W1 m ρ c (Proc.devRef .tc main_arg9) := W2_of_ne m ρ c main_arg9 (by decide)
    _ = W0 m ρ c (Proc.devRef .tc main_arg9) := by kept_host hostOps0

theorem keep_arg9_11_5 (c : Dev nD) : W11 m ρ c (Proc.devRef .tc main_arg9) = W5 m ρ c (Proc.devRef .tc main_arg9) :=
  calc W11 m ρ c (Proc.devRef .tc main_arg9)
    _ = W10 m ρ c (Proc.devRef .tc main_arg9) := by kept_host hostOps3_1
    _ = W9 m ρ c (Proc.devRef .tc main_arg9) := by kept_host hostOps3
    _ = W8 m ρ c (Proc.devRef .tc main_arg9) := W9_of_ne m ρ c main_arg9 (by decide)
    _ = W7 m ρ c (Proc.devRef .tc main_arg9) := by kept_host hostOps2
    _ = W6 m ρ c (Proc.devRef .tc main_arg9) := W7_of_ne m ρ c main_arg9 (by decide)
    _ = W5 m ρ c (Proc.devRef .tc main_arg9) := by kept_host hostOps1_3

theorem keep_arg9_17_11 (c : Dev nD) : W17 m ρ c (Proc.devRef .tc main_arg9) = W11 m ρ c (Proc.devRef .tc main_arg9) :=
  calc W17 m ρ c (Proc.devRef .tc main_arg9)
    _ = W16 m ρ c (Proc.devRef .tc main_arg9) := by kept_host hostOps5_1
    _ = W15 m ρ c (Proc.devRef .tc main_arg9) := by kept_host hostOps5
    _ = W14 m ρ c (Proc.devRef .tc main_arg9) := W15_of_ne m ρ c main_arg9 (by decide)
    _ = W13 m ρ c (Proc.devRef .tc main_arg9) := by kept_host hostOps4
    _ = W12 m ρ c (Proc.devRef .tc main_arg9) := W13_of_ne m ρ c main_arg9 (by decide)
    _ = W11 m ρ c (Proc.devRef .tc main_arg9) := by kept_host hostOps3_2

theorem keep_arg11_7_0 (c : Dev nD) : W7 m ρ c (Proc.devRef .tc main_arg11) = W0 m ρ c (Proc.devRef .tc main_arg11) :=
  calc W7 m ρ c (Proc.devRef .tc main_arg11)
    _ = W6 m ρ c (Proc.devRef .tc main_arg11) := W7_of_ne m ρ c main_arg11 (by decide)
    _ = W5 m ρ c (Proc.devRef .tc main_arg11) := by kept_host hostOps1_3
    _ = W4 m ρ c (Proc.devRef .tc main_arg11) := by kept_host hostOps1_2
    _ = W3 m ρ c (Proc.devRef .tc main_arg11) := by kept_host hostOps1_1
    _ = W2 m ρ c (Proc.devRef .tc main_arg11) := by kept_host hostOps1
    _ = W1 m ρ c (Proc.devRef .tc main_arg11) := W2_of_ne m ρ c main_arg11 (by decide)
    _ = W0 m ρ c (Proc.devRef .tc main_arg11) := by kept_host hostOps0

theorem keep_arg11_13_7 (c : Dev nD) : W13 m ρ c (Proc.devRef .tc main_arg11) = W7 m ρ c (Proc.devRef .tc main_arg11) :=
  calc W13 m ρ c (Proc.devRef .tc main_arg11)
    _ = W12 m ρ c (Proc.devRef .tc main_arg11) := W13_of_ne m ρ c main_arg11 (by decide)
    _ = W11 m ρ c (Proc.devRef .tc main_arg11) := by kept_host hostOps3_2
    _ = W10 m ρ c (Proc.devRef .tc main_arg11) := by kept_host hostOps3_1
    _ = W9 m ρ c (Proc.devRef .tc main_arg11) := by kept_host hostOps3
    _ = W8 m ρ c (Proc.devRef .tc main_arg11) := W9_of_ne m ρ c main_arg11 (by decide)
    _ = W7 m ρ c (Proc.devRef .tc main_arg11) := by kept_host hostOps2

theorem keep_arg11_19_13 (c : Dev nD) : W19 m ρ c (Proc.devRef .tc main_arg11) = W13 m ρ c (Proc.devRef .tc main_arg11) :=
  calc W19 m ρ c (Proc.devRef .tc main_arg11)
    _ = W18 m ρ c (Proc.devRef .tc main_arg11) := W19_of_ne m ρ c main_arg11 (by decide)
    _ = W17 m ρ c (Proc.devRef .tc main_arg11) := by kept_host hostOps5_2
    _ = W16 m ρ c (Proc.devRef .tc main_arg11) := by kept_host hostOps5_1
    _ = W15 m ρ c (Proc.devRef .tc main_arg11) := by kept_host hostOps5
    _ = W14 m ρ c (Proc.devRef .tc main_arg11) := W15_of_ne m ρ c main_arg11 (by decide)
    _ = W13 m ρ c (Proc.devRef .tc main_arg11) := by kept_host hostOps4

theorem keep_arg12_7_0 (c : Dev nD) : W7 m ρ c (Proc.devRef .tc main_arg12) = W0 m ρ c (Proc.devRef .tc main_arg12) :=
  calc W7 m ρ c (Proc.devRef .tc main_arg12)
    _ = W6 m ρ c (Proc.devRef .tc main_arg12) := W7_of_ne m ρ c main_arg12 (by decide)
    _ = W5 m ρ c (Proc.devRef .tc main_arg12) := by kept_host hostOps1_3
    _ = W4 m ρ c (Proc.devRef .tc main_arg12) := by kept_host hostOps1_2
    _ = W3 m ρ c (Proc.devRef .tc main_arg12) := by kept_host hostOps1_1
    _ = W2 m ρ c (Proc.devRef .tc main_arg12) := by kept_host hostOps1
    _ = W1 m ρ c (Proc.devRef .tc main_arg12) := W2_of_ne m ρ c main_arg12 (by decide)
    _ = W0 m ρ c (Proc.devRef .tc main_arg12) := by kept_host hostOps0

theorem keep_arg12_13_7 (c : Dev nD) : W13 m ρ c (Proc.devRef .tc main_arg12) = W7 m ρ c (Proc.devRef .tc main_arg12) :=
  calc W13 m ρ c (Proc.devRef .tc main_arg12)
    _ = W12 m ρ c (Proc.devRef .tc main_arg12) := W13_of_ne m ρ c main_arg12 (by decide)
    _ = W11 m ρ c (Proc.devRef .tc main_arg12) := by kept_host hostOps3_2
    _ = W10 m ρ c (Proc.devRef .tc main_arg12) := by kept_host hostOps3_1
    _ = W9 m ρ c (Proc.devRef .tc main_arg12) := by kept_host hostOps3
    _ = W8 m ρ c (Proc.devRef .tc main_arg12) := W9_of_ne m ρ c main_arg12 (by decide)
    _ = W7 m ρ c (Proc.devRef .tc main_arg12) := by kept_host hostOps2

theorem keep_arg12_19_13 (c : Dev nD) : W19 m ρ c (Proc.devRef .tc main_arg12) = W13 m ρ c (Proc.devRef .tc main_arg12) :=
  calc W19 m ρ c (Proc.devRef .tc main_arg12)
    _ = W18 m ρ c (Proc.devRef .tc main_arg12) := W19_of_ne m ρ c main_arg12 (by decide)
    _ = W17 m ρ c (Proc.devRef .tc main_arg12) := by kept_host hostOps5_2
    _ = W16 m ρ c (Proc.devRef .tc main_arg12) := by kept_host hostOps5_1
    _ = W15 m ρ c (Proc.devRef .tc main_arg12) := by kept_host hostOps5
    _ = W14 m ρ c (Proc.devRef .tc main_arg12) := W15_of_ne m ρ c main_arg12 (by decide)
    _ = W13 m ρ c (Proc.devRef .tc main_arg12) := by kept_host hostOps4

theorem keep_arg13_7_0 (c : Dev nD) : W7 m ρ c (Proc.devRef .tc main_arg13) = W0 m ρ c (Proc.devRef .tc main_arg13) :=
  calc W7 m ρ c (Proc.devRef .tc main_arg13)
    _ = W6 m ρ c (Proc.devRef .tc main_arg13) := W7_of_ne m ρ c main_arg13 (by decide)
    _ = W5 m ρ c (Proc.devRef .tc main_arg13) := by kept_host hostOps1_3
    _ = W4 m ρ c (Proc.devRef .tc main_arg13) := by kept_host hostOps1_2
    _ = W3 m ρ c (Proc.devRef .tc main_arg13) := by kept_host hostOps1_1
    _ = W2 m ρ c (Proc.devRef .tc main_arg13) := by kept_host hostOps1
    _ = W1 m ρ c (Proc.devRef .tc main_arg13) := W2_of_ne m ρ c main_arg13 (by decide)
    _ = W0 m ρ c (Proc.devRef .tc main_arg13) := by kept_host hostOps0

theorem keep_arg13_13_7 (c : Dev nD) : W13 m ρ c (Proc.devRef .tc main_arg13) = W7 m ρ c (Proc.devRef .tc main_arg13) :=
  calc W13 m ρ c (Proc.devRef .tc main_arg13)
    _ = W12 m ρ c (Proc.devRef .tc main_arg13) := W13_of_ne m ρ c main_arg13 (by decide)
    _ = W11 m ρ c (Proc.devRef .tc main_arg13) := by kept_host hostOps3_2
    _ = W10 m ρ c (Proc.devRef .tc main_arg13) := by kept_host hostOps3_1
    _ = W9 m ρ c (Proc.devRef .tc main_arg13) := by kept_host hostOps3
    _ = W8 m ρ c (Proc.devRef .tc main_arg13) := W9_of_ne m ρ c main_arg13 (by decide)
    _ = W7 m ρ c (Proc.devRef .tc main_arg13) := by kept_host hostOps2

theorem keep_arg13_19_13 (c : Dev nD) : W19 m ρ c (Proc.devRef .tc main_arg13) = W13 m ρ c (Proc.devRef .tc main_arg13) :=
  calc W19 m ρ c (Proc.devRef .tc main_arg13)
    _ = W18 m ρ c (Proc.devRef .tc main_arg13) := W19_of_ne m ρ c main_arg13 (by decide)
    _ = W17 m ρ c (Proc.devRef .tc main_arg13) := by kept_host hostOps5_2
    _ = W16 m ρ c (Proc.devRef .tc main_arg13) := by kept_host hostOps5_1
    _ = W15 m ρ c (Proc.devRef .tc main_arg13) := by kept_host hostOps5
    _ = W14 m ρ c (Proc.devRef .tc main_arg13) := W15_of_ne m ρ c main_arg13 (by decide)
    _ = W13 m ρ c (Proc.devRef .tc main_arg13) := by kept_host hostOps4

theorem keep_v1_3_1 (c : Dev nD) : W3 m ρ c (Proc.devRef .tc main_v1) = W1 m ρ c (Proc.devRef .tc main_v1) :=
  calc W3 m ρ c (Proc.devRef .tc main_v1)
    _ = W2 m ρ c (Proc.devRef .tc main_v1) := by kept_host hostOps1
    _ = W1 m ρ c (Proc.devRef .tc main_v1) := W2_of_ne m ρ c main_v1 (by decide)

theorem keep_v1_9_3 (c : Dev nD) : W9 m ρ c (Proc.devRef .tc main_v1) = W3 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := by kept_host hostOps2
    _ = W6 m ρ c (Proc.devRef .tc main_v1) := W7_of_ne m ρ c main_v1 (by decide)
    _ = W5 m ρ c (Proc.devRef .tc main_v1) := by kept_host hostOps1_3
    _ = W4 m ρ c (Proc.devRef .tc main_v1) := by kept_host hostOps1_2
    _ = W3 m ρ c (Proc.devRef .tc main_v1) := by kept_host hostOps1_1

theorem keep_v1_15_9 (c : Dev nD) : W15 m ρ c (Proc.devRef .tc main_v1) = W9 m ρ c (Proc.devRef .tc main_v1) :=
  calc W15 m ρ c (Proc.devRef .tc main_v1)
    _ = W14 m ρ c (Proc.devRef .tc main_v1) := W15_of_ne m ρ c main_v1 (by decide)
    _ = W13 m ρ c (Proc.devRef .tc main_v1) := by kept_host hostOps4
    _ = W12 m ρ c (Proc.devRef .tc main_v1) := W13_of_ne m ρ c main_v1 (by decide)
    _ = W11 m ρ c (Proc.devRef .tc main_v1) := by kept_host hostOps3_2
    _ = W10 m ρ c (Proc.devRef .tc main_v1) := by kept_host hostOps3_1
    _ = W9 m ρ c (Proc.devRef .tc main_v1) := by kept_host hostOps3

theorem keep_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v3_4_2 (c : Dev nD) : W4 m ρ c (Proc.devRef .tc main_v3) = W2 m ρ c (Proc.devRef .tc main_v3) :=
  calc W4 m ρ c (Proc.devRef .tc main_v3)
    _ = W3 m ρ c (Proc.devRef .tc main_v3) := by kept_host hostOps1_1
    _ = W2 m ρ c (Proc.devRef .tc main_v3) := by kept_host hostOps1

theorem keep_v3_7_4 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by kept_host hostOps1_3
    _ = W4 m ρ c (Proc.devRef .tc main_v3) := by kept_host hostOps1_2

theorem keep_v3_10_7 (c : Dev nD) : W10 m ρ c (Proc.devRef .tc main_v3) = W7 m ρ c (Proc.devRef .tc main_v3) :=
  calc W10 m ρ c (Proc.devRef .tc main_v3)
    _ = W9 m ρ c (Proc.devRef .tc main_v3) := by kept_host hostOps3
    _ = W8 m ρ c (Proc.devRef .tc main_v3) := W9_of_ne m ρ c main_v3 (by decide)
    _ = W7 m ρ c (Proc.devRef .tc main_v3) := by kept_host hostOps2

theorem keep_v3_13_10 (c : Dev nD) : W13 m ρ c (Proc.devRef .tc main_v3) = W10 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := by kept_host hostOps3_2
    _ = W10 m ρ c (Proc.devRef .tc main_v3) := by kept_host hostOps3_1

theorem keep_v3_16_13 (c : Dev nD) : W16 m ρ c (Proc.devRef .tc main_v3) = W13 m ρ c (Proc.devRef .tc main_v3) :=
  calc W16 m ρ c (Proc.devRef .tc main_v3)
    _ = W15 m ρ c (Proc.devRef .tc main_v3) := by kept_host hostOps5
    _ = W14 m ρ c (Proc.devRef .tc main_v3) := W15_of_ne m ρ c main_v3 (by decide)
    _ = W13 m ρ c (Proc.devRef .tc main_v3) := by kept_host hostOps4

theorem keep_v3_19_16 (c : Dev nD) : W19 m ρ c (Proc.devRef .tc main_v3) = W16 m ρ c (Proc.devRef .tc main_v3) :=
  calc W19 m ρ c (Proc.devRef .tc main_v3)
    _ = W18 m ρ c (Proc.devRef .tc main_v3) := W19_of_ne m ρ c main_v3 (by decide)
    _ = W17 m ρ c (Proc.devRef .tc main_v3) := by kept_host hostOps5_2
    _ = W16 m ρ c (Proc.devRef .tc main_v3) := by kept_host hostOps5_1

theorem keep_v4_3_2 (c : Dev nD) : W3 m ρ c (Proc.devRef .tc main_v4) = W2 m ρ c (Proc.devRef .tc main_v4) :=
  calc W3 m ρ c (Proc.devRef .tc main_v4)
    _ = W2 m ρ c (Proc.devRef .tc main_v4) := by kept_host hostOps1

theorem keep_v4_4_3 (c : Dev nD) : W4 m ρ c (Proc.devRef .tc main_v4) = W3 m ρ c (Proc.devRef .tc main_v4) :=
  calc W4 m ρ c (Proc.devRef .tc main_v4)
    _ = W3 m ρ c (Proc.devRef .tc main_v4) := by kept_host hostOps1_1

theorem keep_v4_8_4 (c : Dev nD) : W8 m ρ c (Proc.devRef .tc main_v4) = W4 m ρ c (Proc.devRef .tc main_v4) :=
  calc W8 m ρ c (Proc.devRef .tc main_v4)
    _ = W7 m ρ c (Proc.devRef .tc main_v4) := by kept_host hostOps2
    _ = W6 m ρ c (Proc.devRef .tc main_v4) := W7_of_ne m ρ c main_v4 (by decide)
    _ = W5 m ρ c (Proc.devRef .tc main_v4) := by kept_host hostOps1_3
    _ = W4 m ρ c (Proc.devRef .tc main_v4) := by kept_host hostOps1_2

theorem keep_v11_8_3 (c : Dev nD) : W8 m ρ c (Proc.devRef .tc main_v11) = W3 m ρ c (Proc.devRef .tc main_v11) :=
  calc W8 m ρ c (Proc.devRef .tc main_v11)
    _ = W7 m ρ c (Proc.devRef .tc main_v11) := by kept_host hostOps2
    _ = W6 m ρ c (Proc.devRef .tc main_v11) := W7_of_ne m ρ c main_v11 (by decide)
    _ = W5 m ρ c (Proc.devRef .tc main_v11) := by kept_host hostOps1_3
    _ = W4 m ρ c (Proc.devRef .tc main_v11) := by kept_host hostOps1_2
    _ = W3 m ρ c (Proc.devRef .tc main_v11) := by kept_host hostOps1_1

theorem keep_v11_14_8 (c : Dev nD) : W14 m ρ c (Proc.devRef .tc main_v11) = W8 m ρ c (Proc.devRef .tc main_v11) :=
  calc W14 m ρ c (Proc.devRef .tc main_v11)
    _ = W13 m ρ c (Proc.devRef .tc main_v11) := by kept_host hostOps4
    _ = W12 m ρ c (Proc.devRef .tc main_v11) := W13_of_ne m ρ c main_v11 (by decide)
    _ = W11 m ρ c (Proc.devRef .tc main_v11) := by kept_host hostOps3_2
    _ = W10 m ρ c (Proc.devRef .tc main_v11) := by kept_host hostOps3_1
    _ = W9 m ρ c (Proc.devRef .tc main_v11) := by kept_host hostOps3
    _ = W8 m ρ c (Proc.devRef .tc main_v11) := (W9_arr m ρ c 2).trans (((dat2 (V8 m ρ) c).arrAt_in 2 rfl _).trans (A_eq2 (V8 m ρ) c 2))

theorem keep_v11_20_14 (c : Dev nD) : W20 m ρ c (Proc.devRef .tc main_v11) = W14 m ρ c (Proc.devRef .tc main_v11) :=
  calc W20 m ρ c (Proc.devRef .tc main_v11)
    _ = W19 m ρ c (Proc.devRef .tc main_v11) := by kept_host hostOps6
    _ = W18 m ρ c (Proc.devRef .tc main_v11) := W19_of_ne m ρ c main_v11 (by decide)
    _ = W17 m ρ c (Proc.devRef .tc main_v11) := by kept_host hostOps5_2
    _ = W16 m ρ c (Proc.devRef .tc main_v11) := by kept_host hostOps5_1
    _ = W15 m ρ c (Proc.devRef .tc main_v11) := by kept_host hostOps5
    _ = W14 m ρ c (Proc.devRef .tc main_v11) := (W15_arr m ρ c 2).trans (((dat4 (V14 m ρ) c).arrAt_in 2 rfl _).trans (A_eq4 (V14 m ρ) c 2))

theorem keep_v12_5_3 (c : Dev nD) : W5 m ρ c (Proc.devRef .tc main_v12) = W3 m ρ c (Proc.devRef .tc main_v12) :=
  calc W5 m ρ c (Proc.devRef .tc main_v12)
    _ = W4 m ρ c (Proc.devRef .tc main_v12) := by kept_host hostOps1_2
    _ = W3 m ρ c (Proc.devRef .tc main_v12) := by kept_host hostOps1_1

theorem keep_v12_11_5 (c : Dev nD) : W11 m ρ c (Proc.devRef .tc main_v12) = W5 m ρ c (Proc.devRef .tc main_v12) :=
  calc W11 m ρ c (Proc.devRef .tc main_v12)
    _ = W10 m ρ c (Proc.devRef .tc main_v12) := by kept_host hostOps3_1
    _ = W9 m ρ c (Proc.devRef .tc main_v12) := by kept_host hostOps3
    _ = W8 m ρ c (Proc.devRef .tc main_v12) := W9_of_ne m ρ c main_v12 (by decide)
    _ = W7 m ρ c (Proc.devRef .tc main_v12) := by kept_host hostOps2
    _ = W6 m ρ c (Proc.devRef .tc main_v12) := W7_of_ne m ρ c main_v12 (by decide)
    _ = W5 m ρ c (Proc.devRef .tc main_v12) := by kept_host hostOps1_3

theorem keep_v12_17_11 (c : Dev nD) : W17 m ρ c (Proc.devRef .tc main_v12) = W11 m ρ c (Proc.devRef .tc main_v12) :=
  calc W17 m ρ c (Proc.devRef .tc main_v12)
    _ = W16 m ρ c (Proc.devRef .tc main_v12) := by kept_host hostOps5_1
    _ = W15 m ρ c (Proc.devRef .tc main_v12) := by kept_host hostOps5
    _ = W14 m ρ c (Proc.devRef .tc main_v12) := W15_of_ne m ρ c main_v12 (by decide)
    _ = W13 m ρ c (Proc.devRef .tc main_v12) := by kept_host hostOps4
    _ = W12 m ρ c (Proc.devRef .tc main_v12) := W13_of_ne m ρ c main_v12 (by decide)
    _ = W11 m ρ c (Proc.devRef .tc main_v12) := by kept_host hostOps3_2

theorem keep_v13_5_3 (c : Dev nD) : W5 m ρ c (Proc.devRef .tc main_v13) = W3 m ρ c (Proc.devRef .tc main_v13) :=
  calc W5 m ρ c (Proc.devRef .tc main_v13)
    _ = W4 m ρ c (Proc.devRef .tc main_v13) := by kept_host hostOps1_2
    _ = W3 m ρ c (Proc.devRef .tc main_v13) := by kept_host hostOps1_1

theorem keep_v13_11_5 (c : Dev nD) : W11 m ρ c (Proc.devRef .tc main_v13) = W5 m ρ c (Proc.devRef .tc main_v13) :=
  calc W11 m ρ c (Proc.devRef .tc main_v13)
    _ = W10 m ρ c (Proc.devRef .tc main_v13) := by kept_host hostOps3_1
    _ = W9 m ρ c (Proc.devRef .tc main_v13) := by kept_host hostOps3
    _ = W8 m ρ c (Proc.devRef .tc main_v13) := W9_of_ne m ρ c main_v13 (by decide)
    _ = W7 m ρ c (Proc.devRef .tc main_v13) := by kept_host hostOps2
    _ = W6 m ρ c (Proc.devRef .tc main_v13) := W7_of_ne m ρ c main_v13 (by decide)
    _ = W5 m ρ c (Proc.devRef .tc main_v13) := by kept_host hostOps1_3

theorem keep_v13_17_11 (c : Dev nD) : W17 m ρ c (Proc.devRef .tc main_v13) = W11 m ρ c (Proc.devRef .tc main_v13) :=
  calc W17 m ρ c (Proc.devRef .tc main_v13)
    _ = W16 m ρ c (Proc.devRef .tc main_v13) := by kept_host hostOps5_1
    _ = W15 m ρ c (Proc.devRef .tc main_v13) := by kept_host hostOps5
    _ = W14 m ρ c (Proc.devRef .tc main_v13) := W15_of_ne m ρ c main_v13 (by decide)
    _ = W13 m ρ c (Proc.devRef .tc main_v13) := by kept_host hostOps4
    _ = W12 m ρ c (Proc.devRef .tc main_v13) := W13_of_ne m ρ c main_v13 (by decide)
    _ = W11 m ρ c (Proc.devRef .tc main_v13) := by kept_host hostOps3_2

theorem keep_v14_7_3 (c : Dev nD) : W7 m ρ c (Proc.devRef .tc main_v14) = W3 m ρ c (Proc.devRef .tc main_v14) :=
  calc W7 m ρ c (Proc.devRef .tc main_v14)
    _ = W6 m ρ c (Proc.devRef .tc main_v14) := W7_of_ne m ρ c main_v14 (by decide)
    _ = W5 m ρ c (Proc.devRef .tc main_v14) := by kept_host hostOps1_3
    _ = W4 m ρ c (Proc.devRef .tc main_v14) := by kept_host hostOps1_2
    _ = W3 m ρ c (Proc.devRef .tc main_v14) := by kept_host hostOps1_1

theorem keep_v14_13_7 (c : Dev nD) : W13 m ρ c (Proc.devRef .tc main_v14) = W7 m ρ c (Proc.devRef .tc main_v14) :=
  calc W13 m ρ c (Proc.devRef .tc main_v14)
    _ = W12 m ρ c (Proc.devRef .tc main_v14) := W13_of_ne m ρ c main_v14 (by decide)
    _ = W11 m ρ c (Proc.devRef .tc main_v14) := by kept_host hostOps3_2
    _ = W10 m ρ c (Proc.devRef .tc main_v14) := by kept_host hostOps3_1
    _ = W9 m ρ c (Proc.devRef .tc main_v14) := by kept_host hostOps3
    _ = W8 m ρ c (Proc.devRef .tc main_v14) := W9_of_ne m ρ c main_v14 (by decide)
    _ = W7 m ρ c (Proc.devRef .tc main_v14) := by kept_host hostOps2

theorem keep_v14_19_13 (c : Dev nD) : W19 m ρ c (Proc.devRef .tc main_v14) = W13 m ρ c (Proc.devRef .tc main_v14) :=
  calc W19 m ρ c (Proc.devRef .tc main_v14)
    _ = W18 m ρ c (Proc.devRef .tc main_v14) := W19_of_ne m ρ c main_v14 (by decide)
    _ = W17 m ρ c (Proc.devRef .tc main_v14) := by kept_host hostOps5_2
    _ = W16 m ρ c (Proc.devRef .tc main_v14) := by kept_host hostOps5_1
    _ = W15 m ρ c (Proc.devRef .tc main_v14) := by kept_host hostOps5
    _ = W14 m ρ c (Proc.devRef .tc main_v14) := W15_of_ne m ρ c main_v14 (by decide)
    _ = W13 m ρ c (Proc.devRef .tc main_v14) := by kept_host hostOps4

theorem keep_v15_7_3 (c : Dev nD) : W7 m ρ c (Proc.devRef .tc main_v15) = W3 m ρ c (Proc.devRef .tc main_v15) :=
  calc W7 m ρ c (Proc.devRef .tc main_v15)
    _ = W6 m ρ c (Proc.devRef .tc main_v15) := W7_of_ne m ρ c main_v15 (by decide)
    _ = W5 m ρ c (Proc.devRef .tc main_v15) := by kept_host hostOps1_3
    _ = W4 m ρ c (Proc.devRef .tc main_v15) := by kept_host hostOps1_2
    _ = W3 m ρ c (Proc.devRef .tc main_v15) := by kept_host hostOps1_1

theorem keep_v15_13_7 (c : Dev nD) : W13 m ρ c (Proc.devRef .tc main_v15) = W7 m ρ c (Proc.devRef .tc main_v15) :=
  calc W13 m ρ c (Proc.devRef .tc main_v15)
    _ = W12 m ρ c (Proc.devRef .tc main_v15) := W13_of_ne m ρ c main_v15 (by decide)
    _ = W11 m ρ c (Proc.devRef .tc main_v15) := by kept_host hostOps3_2
    _ = W10 m ρ c (Proc.devRef .tc main_v15) := by kept_host hostOps3_1
    _ = W9 m ρ c (Proc.devRef .tc main_v15) := by kept_host hostOps3
    _ = W8 m ρ c (Proc.devRef .tc main_v15) := W9_of_ne m ρ c main_v15 (by decide)
    _ = W7 m ρ c (Proc.devRef .tc main_v15) := by kept_host hostOps2

theorem keep_v15_19_13 (c : Dev nD) : W19 m ρ c (Proc.devRef .tc main_v15) = W13 m ρ c (Proc.devRef .tc main_v15) :=
  calc W19 m ρ c (Proc.devRef .tc main_v15)
    _ = W18 m ρ c (Proc.devRef .tc main_v15) := W19_of_ne m ρ c main_v15 (by decide)
    _ = W17 m ρ c (Proc.devRef .tc main_v15) := by kept_host hostOps5_2
    _ = W16 m ρ c (Proc.devRef .tc main_v15) := by kept_host hostOps5_1
    _ = W15 m ρ c (Proc.devRef .tc main_v15) := by kept_host hostOps5
    _ = W14 m ρ c (Proc.devRef .tc main_v15) := W15_of_ne m ρ c main_v15 (by decide)
    _ = W13 m ρ c (Proc.devRef .tc main_v15) := by kept_host hostOps4

theorem keep_v42_10_9 (c : Dev nD) : W10 m ρ c (Proc.devRef .tc main_v42) = W9 m ρ c (Proc.devRef .tc main_v42) :=
  calc W10 m ρ c (Proc.devRef .tc main_v42)
    _ = W9 m ρ c (Proc.devRef .tc main_v42) := by kept_host hostOps3

theorem keep_v42_14_10 (c : Dev nD) : W14 m ρ c (Proc.devRef .tc main_v42) = W10 m ρ c (Proc.devRef .tc main_v42) :=
  calc W14 m ρ c (Proc.devRef .tc main_v42)
    _ = W13 m ρ c (Proc.devRef .tc main_v42) := by kept_host hostOps4
    _ = W12 m ρ c (Proc.devRef .tc main_v42) := W13_of_ne m ρ c main_v42 (by decide)
    _ = W11 m ρ c (Proc.devRef .tc main_v42) := by kept_host hostOps3_2
    _ = W10 m ρ c (Proc.devRef .tc main_v42) := by kept_host hostOps3_1

theorem keep_v69_16_15 (c : Dev nD) : W16 m ρ c (Proc.devRef .tc main_v69) = W15 m ρ c (Proc.devRef .tc main_v69) :=
  calc W16 m ρ c (Proc.devRef .tc main_v69)
    _ = W15 m ρ c (Proc.devRef .tc main_v69) := by kept_host hostOps5

theorem keep_v69_20_16 (c : Dev nD) : W20 m ρ c (Proc.devRef .tc main_v69) = W16 m ρ c (Proc.devRef .tc main_v69) :=
  calc W20 m ρ c (Proc.devRef .tc main_v69)
    _ = W19 m ρ c (Proc.devRef .tc main_v69) := by kept_host hostOps6
    _ = W18 m ρ c (Proc.devRef .tc main_v69) := W19_of_ne m ρ c main_v69 (by decide)
    _ = W17 m ρ c (Proc.devRef .tc main_v69) := by kept_host hostOps5_2
    _ = W16 m ρ c (Proc.devRef .tc main_v69) := by kept_host hostOps5_1

theorem keep_v16_6_4 (c : Dev nD) : W6 m ρ c (Proc.devRef .tc main_v16) = W4 m ρ c (Proc.devRef .tc main_v16) :=
  calc W6 m ρ c (Proc.devRef .tc main_v16)
    _ = W5 m ρ c (Proc.devRef .tc main_v16) := by kept_host hostOps1_3
    _ = W4 m ρ c (Proc.devRef .tc main_v16) := by kept_host hostOps1_2

theorem keep_v17_6_5 (c : Dev nD) : W6 m ρ c (Proc.devRef .tc main_v17) = W5 m ρ c (Proc.devRef .tc main_v17) :=
  calc W6 m ρ c (Proc.devRef .tc main_v17)
    _ = W5 m ρ c (Proc.devRef .tc main_v17) := by kept_host hostOps1_3

theorem keep_v43_12_10 (c : Dev nD) : W12 m ρ c (Proc.devRef .tc main_v43) = W10 m ρ c (Proc.devRef .tc main_v43) :=
  calc W12 m ρ c (Proc.devRef .tc main_v43)
    _ = W11 m ρ c (Proc.devRef .tc main_v43) := by kept_host hostOps3_2
    _ = W10 m ρ c (Proc.devRef .tc main_v43) := by kept_host hostOps3_1

theorem keep_v44_12_11 (c : Dev nD) : W12 m ρ c (Proc.devRef .tc main_v44) = W11 m ρ c (Proc.devRef .tc main_v44) :=
  calc W12 m ρ c (Proc.devRef .tc main_v44)
    _ = W11 m ρ c (Proc.devRef .tc main_v44) := by kept_host hostOps3_2

theorem keep_v70_18_16 (c : Dev nD) : W18 m ρ c (Proc.devRef .tc main_v70) = W16 m ρ c (Proc.devRef .tc main_v70) :=
  calc W18 m ρ c (Proc.devRef .tc main_v70)
    _ = W17 m ρ c (Proc.devRef .tc main_v70) := by kept_host hostOps5_2
    _ = W16 m ρ c (Proc.devRef .tc main_v70) := by kept_host hostOps5_1

theorem keep_v71_18_17 (c : Dev nD) : W18 m ρ c (Proc.devRef .tc main_v71) = W17 m ρ c (Proc.devRef .tc main_v71) :=
  calc W18 m ρ c (Proc.devRef .tc main_v71)
    _ = W17 m ρ c (Proc.devRef .tc main_v71) := by kept_host hostOps5_2

end Cert.KernelIdeal.Walk

end
-- ==== Proof.Spec.lean ====
/-
  The network both programs compute, layer by layer, as functions on the extended reals.

  A dense layer at the output index (p, q) is the contracted sum x[p, :] · w[:, q] plus the bias b[q]; a dense layer
  with two operands adds the two contracted sums a[p, :] · wa[:, q] + b[p, :] · wb[:, q] before the bias (the product
  of the joined rows [a | b] with the stacked weights [wa ; wb]). A block is two dense layers, each clamped below at
  zero. The mean over incoming messages divides a row of sums by that row's count. The output head is a clamped dense
  layer, a dense layer, and 2π times the logistic function.
-/
import Idealize.ShloMosaic.PureOps.Ideal
import Idealize.ShloMosaic.Lib.ValueIdx

noncomputable section

namespace Cert.Spec

open Idealize.ShloMosaic Idealize.ShloMosaic.ValueIdx

/-- The clamp below at zero (the zero being the f32 word of +0). -/
def relu (x : EReal) : EReal := max x (Ideal.ofBits .f32 0x00000000#32)

variable {R A B H N : Nat}

/-- A dense layer at (p, q): x[p, :] · w[:, q] + b[q]. -/
def dense (x : (⟨2, ![R, A]⟩ : Shape).Idx → EReal) (w : (⟨2, ![A, N]⟩ : Shape).Idx → EReal)
    (b : (⟨1, ![N]⟩ : Shape).Idx → EReal) (p : Fin R) (q : Fin N) : EReal :=
  (∑ k : Fin A, x (ix2 p k) * w (ix2 k q)) + b (ix1 q)

/-- A dense layer of two operands at (p, q): a[p, :] · wa[:, q] + b[p, :] · wb[:, q] + bias[q]. -/
def dense2 (a : (⟨2, ![R, A]⟩ : Shape).Idx → EReal) (b : (⟨2, ![R, B]⟩ : Shape).Idx → EReal)
    (wa : (⟨2, ![A, N]⟩ : Shape).Idx → EReal) (wb : (⟨2, ![B, N]⟩ : Shape).Idx → EReal)
    (bias : (⟨1, ![N]⟩ : Shape).Idx → EReal) (p : Fin R) (q : Fin N) : EReal :=
  (∑ k : Fin A, a (ix2 p k) * wa (ix2 k q)) + (∑ k : Fin B, b (ix2 p k) * wb (ix2 k q)) + bias (ix1 q)

/-- The hidden layer of a block: the clamped dense layer, as an array. -/
def hidden (x : (⟨2, ![R, A]⟩ : Shape).Idx → EReal) (w1 : (⟨2, ![A, H]⟩ : Shape).Idx → EReal)
    (b1 : (⟨1, ![H]⟩ : Shape).Idx → EReal) : (⟨2, ![R, H]⟩ : Shape).Idx → EReal :=
  fun i => relu (dense x w1 b1 (i 0) (i 1))

/-- The hidden layer of a block of two operands. -/
def hidden2 (a : (⟨2, ![R, A]⟩ : Shape).Idx → EReal) (b : (⟨2, ![R, B]⟩ : Shape).Idx → EReal)
    (wa : (⟨2, ![A, H]⟩ : Shape).Idx → EReal) (wb : (⟨2, ![B, H]⟩ : Shape).Idx → EReal)
    (b1 : (⟨1, ![H]⟩ : Shape).Idx → EReal) : (⟨2, ![R, H]⟩ : Shape).Idx → EReal :=
  fun i => relu (dense2 a b wa wb b1 (i 0) (i 1))

/-- A block: dense, clamp, dense, clamp. -/
def mlp2 (x : (⟨2, ![R, A]⟩ : Shape).Idx → EReal) (w1 : (⟨2, ![A, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![R, N]⟩ : Shape).Idx → EReal :=
  fun j => relu (dense (hidden x w1 b1) w2 b2 (j 0) (j 1))

/-- A block whose first layer has two operands. -/
def mlp2two (a : (⟨2, ![R, A]⟩ : Shape).Idx → EReal) (b : (⟨2, ![R, B]⟩ : Shape).Idx → EReal)
    (wa : (⟨2, ![A, H]⟩ : Shape).Idx → EReal) (wb : (⟨2, ![B, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![R, N]⟩ : Shape).Idx → EReal :=
  fun j => relu (dense (hidden2 a b wa wb b1) w2 b2 (j 0) (j 1))

/-- A row of sums divided by that row's count. -/
def quot (s : (⟨2, ![R, N]⟩ : Shape).Idx → EReal) (d : (⟨2, ![R, 1]⟩ : Shape).Idx → EReal) :
    (⟨2, ![R, N]⟩ : Shape).Idx → EReal :=
  fun j => Ideal.div (s j) (d (ix2 (j 0) (0 : Fin 1)))

/-- The output head: clamped dense, dense, then 2π (its f32 word) times the logistic function. -/
def head (x : (⟨2, ![R, A]⟩ : Shape).Idx → EReal) (w1 : (⟨2, ![A, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![R, N]⟩ : Shape).Idx → EReal :=
  fun j => Ideal.ofBits .f32 0x40C90FDB#32 * Ideal.logistic (dense (hidden x w1 b1) w2 b2 (j 0) (j 1))

/-! The stacked weights: layer `l` of a stack of 128 × 64 matrices splits into its top 64 rows (they meet the first
operand) and its bottom 64 rows (they meet the second); layer `l` of a stack of rows or of square matrices. -/

/-- Rows 0–63 of layer `l` of a stack of three 128 × 64 matrices. -/
def wTop (w : (⟨3, ![3, 128, 64]⟩ : Shape).Idx → EReal) (l : Fin 3) : (⟨2, ![64, 64]⟩ : Shape).Idx → EReal :=
  fun i => w (ix3 l (⟨(i 0).val, Nat.lt_of_lt_of_le (i 0).isLt (by decide)⟩ : Fin 128) (i 1))

/-- Rows 64–127 of layer `l` of a stack of three 128 × 64 matrices. -/
def wBot (w : (⟨3, ![3, 128, 64]⟩ : Shape).Idx → EReal) (l : Fin 3) : (⟨2, ![64, 64]⟩ : Shape).Idx → EReal :=
  fun i => w (ix3 l (⟨64 + (i 0).val, Nat.add_lt_add_left (i 0).isLt 64⟩ : Fin 128) (i 1))

/-- Layer `l` of a stack of three rows of 64. -/
def row (b : (⟨2, ![3, 64]⟩ : Shape).Idx → EReal) (l : Fin 3) : (⟨1, ![64]⟩ : Shape).Idx → EReal :=
  fun i => b (ix2 l (i 0))

/-- Layer `l` of a stack of three 64 × 64 matrices. -/
def mat (w : (⟨3, ![3, 64, 64]⟩ : Shape).Idx → EReal) (l : Fin 3) : (⟨2, ![64, 64]⟩ : Shape).Idx → EReal :=
  fun i => w (ix3 l (i 0) (i 1))

end Cert.Spec

end
-- ==== Proof.KernelGlue.lean ====
/-
  The host operations of the idealized kernel program, read as mathematics: the edge indices the precondition bounds,
  the two rows of the edge array, jnp.take on in-range indices as a plain gather, and the per-layer weights cut out of
  the stacked arguments as the specification's layers.
-/
import proofs.«111624_j59098749993608_2_alg».proof.Proof.Gen.KernelIdeal.Launch
import proofs.«111624_j59098749993608_2_alg».proof.Pre_finite_inputs
import proofs.«111624_j59098749993608_2_alg».proof.Proof.Spec
import Idealize.ShloMosaic.Lib.ValueIdx
import Idealize.ShloMosaic.Lib.Pipeline.Value
import Idealize.ShloMosaic.Lib.ReduceAll
import Idealize.ShloMosaic.Lib.DynamicIndex
import Idealize.ShloMosaic.Lib.Affine

set_option maxRecDepth 16384

noncomputable section

namespace Cert.KernelIdeal.Glue

open Idealize.ShloMosaic Idealize.ShloMosaic.ValueIdx
open Cert.KernelIdeal Cert.KernelIdeal.Facts₀

/-! ## The stacked weights, layer by layer

A layer of a stack is cut out by a slice of extent one on the leading axis followed by the reshape that drops that axis.
Read at (r, c) the reshape is the slice at (0, r, c) — the two have the same row-major position — and the slice is the
stack at (l, r, c). For the stacks of 128 × 64 matrices the rows were first cut into the top and the bottom 64. -/

/-- Dropping the leading unit axis of a 1 × 64 × 64 array: (r, c) reads (0, r, c). -/
theorem dropUnit_mat (y : FVec Ideal S1x64x64 .f32) (i : S64x64.Idx) :
    shapeCast S64x64 y shapeCasts_S1x64x64_S64x64 i = y (ix3 (0 : Fin 1) (i 0) (i 1)) :=
  shapeCast_apply y shapeCasts_S1x64x64_S64x64 i (ix3 (0 : Fin 1) (i 0) (i 1))
    (by rewrite [Shape.rowMajor_val_three, Shape.rowMajor_val_two]
        show (0 * 64 + (i 0).val) * 64 + (i 1).val = (i 0).val * 64 + (i 1).val
        omega)

/-- Dropping the leading unit axis of a 1 × 64 array: c reads (0, c). -/
theorem dropUnit_row (y : FVec Ideal S1x64 .f32) (i : S64.Idx) :
    shapeCast S64 y shapeCasts_S1x64_S64 i = y (ix2 (0 : Fin 1) (i 0)) :=
  shapeCast_apply y shapeCasts_S1x64_S64 i (ix2 (0 : Fin 1) (i 0))
    (by rewrite [Shape.rowMajor_val_two, Shape.rowMajor_val_one]
        show 0 * 64 + (i 0).val = (i 0).val
        omega)

/-- Layer 0 of the top halves. -/
theorem wTop_0 (x6 : FVec Ideal S3x128x64 .f32) :
    shapeCast S64x64 (extractStridedSlice S1x64x64 ![0, 0, 0]
      (extractStridedSlice S3x64x64 ![0, 0, 0] x6 slices_S3x128x64_S3x64x64_0_0_0) slices_S3x64x64_S1x64x64_0_0_0)
      shapeCasts_S1x64x64_S64x64 = Cert.Spec.wTop x6 (0 : Fin 3) := by
  funext i
  refine (dropUnit_mat _ i).trans ?_
  refine (extractStridedSlice_apply ![0, 0, 0] _ slices_S3x64x64_S1x64x64_0_0_0 _
    (ix3 (0 : Fin 3) (i 0) (i 1)) (fun a => match a with
      | ⟨0, _⟩ => by show 0 = 0 + 0; omega
      | ⟨1, _⟩ => by show (i 0).val = 0 + (i 0).val; omega
      | ⟨2, _⟩ => by show (i 1).val = 0 + (i 1).val; omega)).trans ?_
  exact extractStridedSlice_apply ![0, 0, 0] x6 slices_S3x128x64_S3x64x64_0_0_0 _
    (ix3 (0 : Fin 3) (⟨(i 0).val, Nat.lt_of_lt_of_le (i 0).isLt (by decide)⟩ : Fin 128) (i 1)) (fun a => match a with
      | ⟨0, _⟩ => by show 0 = 0 + 0; omega
      | ⟨1, _⟩ => by show (i 0).val = 0 + (i 0).val; omega
      | ⟨2, _⟩ => by show (i 1).val = 0 + (i 1).val; omega)

/-- Layer 0 of the bottom halves. -/
theorem wBot_0 (x6 : FVec Ideal S3x128x64 .f32) :
    shapeCast S64x64 (extractStridedSlice S1x64x64 ![0, 0, 0]
      (extractStridedSlice S3x64x64 ![0, 64, 0] x6 slices_S3x128x64_S3x64x64_0_64_0) slices_S3x64x64_S1x64x64_0_0_0)
      shapeCasts_S1x64x64_S64x64 = Cert.Spec.wBot x6 (0 : Fin 3) := by
  funext i
  refine (dropUnit_mat _ i).trans ?_
  refine (extractStridedSlice_apply ![0, 0, 0] _ slices_S3x64x64_S1x64x64_0_0_0 _
    (ix3 (0 : Fin 3) (i 0) (i 1)) (fun a => match a with
      | ⟨0, _⟩ => by show 0 = 0 + 0; omega
      | ⟨1, _⟩ => by show (i 0).val = 0 + (i 0).val; omega
      | ⟨2, _⟩ => by show (i 1).val = 0 + (i 1).val; omega)).trans ?_
  exact extractStridedSlice_apply ![0, 64, 0] x6 slices_S3x128x64_S3x64x64_0_64_0 _
    (ix3 (0 : Fin 3) (⟨64 + (i 0).val, Nat.add_lt_add_left (i 0).isLt 64⟩ : Fin 128) (i 1)) (fun a => match a with
      | ⟨0, _⟩ => by show 0 = 0 + 0; omega
      | ⟨1, _⟩ => by show 64 + (i 0).val = 64 + (i 0).val; omega
      | ⟨2, _⟩ => by show (i 1).val = 0 + (i 1).val; omega)

/-- Layer 0 of a stack of rows. -/
theorem row_0 (x7 : FVec Ideal S3x64 .f32) :
    shapeCast S64 (extractStridedSlice S1x64 ![0, 0] x7 slices_S3x64_S1x64_0_0)
      shapeCasts_S1x64_S64 = Cert.Spec.row x7 (0 : Fin 3) := by
  funext i
  refine (dropUnit_row _ i).trans ?_
  exact extractStridedSlice_apply ![0, 0] x7 slices_S3x64_S1x64_0_0 _
    (ix2 (0 : Fin 3) (i 0)) (fun a => match a with
      | ⟨0, _⟩ => by show 0 = 0 + 0; omega
      | ⟨1, _⟩ => by show (i 0).val = 0 + (i 0).val; omega)

/-- Layer 0 of a stack of square matrices. -/
theorem mat_0 (x8 : FVec Ideal S3x64x64 .f32) :
    shapeCast S64x64 (extractStridedSlice S1x64x64 ![0, 0, 0] x8 slices_S3x64x64_S1x64x64_0_0_0)
      shapeCasts_S1x64x64_S64x64 = Cert.Spec.mat x8 (0 : Fin 3) := by
  funext i
  refine (dropUnit_mat _ i).trans ?_
  exact extractStridedSlice_apply ![0, 0, 0] x8 slices_S3x64x64_S1x64x64_0_0_0 _
    (ix3 (0 : Fin 3) (i 0) (i 1)) (fun a => match a with
      | ⟨0, _⟩ => by show 0 = 0 + 0; omega
      | ⟨1, _⟩ => by show (i 0).val = 0 + (i 0).val; omega
      | ⟨2, _⟩ => by show (i 1).val = 0 + (i 1).val; omega)

/-- Layer 1 of the top halves. -/
theorem wTop_1 (x6 : FVec Ideal S3x128x64 .f32) :
    shapeCast S64x64 (extractStridedSlice S1x64x64 ![1, 0, 0]
      (extractStridedSlice S3x64x64 ![0, 0, 0] x6 slices_S3x128x64_S3x64x64_0_0_0) slices_S3x64x64_S1x64x64_1_0_0)
      shapeCasts_S1x64x64_S64x64 = Cert.Spec.wTop x6 (1 : Fin 3) := by
  funext i
  refine (dropUnit_mat _ i).trans ?_
  refine (extractStridedSlice_apply ![1, 0, 0] _ slices_S3x64x64_S1x64x64_1_0_0 _
    (ix3 (1 : Fin 3) (i 0) (i 1)) (fun a => match a with
      | ⟨0, _⟩ => by show 1 = 1 + 0; omega
      | ⟨1, _⟩ => by show (i 0).val = 0 + (i 0).val; omega
      | ⟨2, _⟩ => by show (i 1).val = 0 + (i 1).val; omega)).trans ?_
  exact extractStridedSlice_apply ![0, 0, 0] x6 slices_S3x128x64_S3x64x64_0_0_0 _
    (ix3 (1 : Fin 3) (⟨(i 0).val, Nat.lt_of_lt_of_le (i 0).isLt (by decide)⟩ : Fin 128) (i 1)) (fun a => match a with
      | ⟨0, _⟩ => by show 1 = 0 + 1; omega
      | ⟨1, _⟩ => by show (i 0).val = 0 + (i 0).val; omega
      | ⟨2, _⟩ => by show (i 1).val = 0 + (i 1).val; omega)

/-- Layer 1 of the bottom halves. -/
theorem wBot_1 (x6 : FVec Ideal S3x128x64 .f32) :
    shapeCast S64x64 (extractStridedSlice S1x64x64 ![1, 0, 0]
      (extractStridedSlice S3x64x64 ![0, 64, 0] x6 slices_S3x128x64_S3x64x64_0_64_0) slices_S3x64x64_S1x64x64_1_0_0)
      shapeCasts_S1x64x64_S64x64 = Cert.Spec.wBot x6 (1 : Fin 3) := by
  funext i
  refine (dropUnit_mat _ i).trans ?_
  refine (extractStridedSlice_apply ![1, 0, 0] _ slices_S3x64x64_S1x64x64_1_0_0 _
    (ix3 (1 : Fin 3) (i 0) (i 1)) (fun a => match a with
      | ⟨0, _⟩ => by show 1 = 1 + 0; omega
      | ⟨1, _⟩ => by show (i 0).val = 0 + (i 0).val; omega
      | ⟨2, _⟩ => by show (i 1).val = 0 + (i 1).val; omega)).trans ?_
  exact extractStridedSlice_apply ![0, 64, 0] x6 slices_S3x128x64_S3x64x64_0_64_0 _
    (ix3 (1 : Fin 3) (⟨64 + (i 0).val, Nat.add_lt_add_left (i 0).isLt 64⟩ : Fin 128) (i 1)) (fun a => match a with
      | ⟨0, _⟩ => by show 1 = 0 + 1; omega
      | ⟨1, _⟩ => by show 64 + (i 0).val = 64 + (i 0).val; omega
      | ⟨2, _⟩ => by show (i 1).val = 0 + (i 1).val; omega)

/-- Layer 1 of a stack of rows. -/
theorem row_1 (x7 : FVec Ideal S3x64 .f32) :
    shapeCast S64 (extractStridedSlice S1x64 ![1, 0] x7 slices_S3x64_S1x64_1_0)
      shapeCasts_S1x64_S64 = Cert.Spec.row x7 (1 : Fin 3) := by
  funext i
  refine (dropUnit_row _ i).trans ?_
  exact extractStridedSlice_apply ![1, 0] x7 slices_S3x64_S1x64_1_0 _
    (ix2 (1 : Fin 3) (i 0)) (fun a => match a with
      | ⟨0, _⟩ => by show 1 = 1 + 0; omega
      | ⟨1, _⟩ => by show (i 0).val = 0 + (i 0).val; omega)

/-- Layer 1 of a stack of square matrices. -/
theorem mat_1 (x8 : FVec Ideal S3x64x64 .f32) :
    shapeCast S64x64 (extractStridedSlice S1x64x64 ![1, 0, 0] x8 slices_S3x64x64_S1x64x64_1_0_0)
      shapeCasts_S1x64x64_S64x64 = Cert.Spec.mat x8 (1 : Fin 3) := by
  funext i
  refine (dropUnit_mat _ i).trans ?_
  exact extractStridedSlice_apply ![1, 0, 0] x8 slices_S3x64x64_S1x64x64_1_0_0 _
    (ix3 (1 : Fin 3) (i 0) (i 1)) (fun a => match a with
      | ⟨0, _⟩ => by show 1 = 1 + 0; omega
      | ⟨1, _⟩ => by show (i 0).val = 0 + (i 0).val; omega
      | ⟨2, _⟩ => by show (i 1).val = 0 + (i 1).val; omega)

/-- Layer 2 of the top halves. -/
theorem wTop_2 (x6 : FVec Ideal S3x128x64 .f32) :
    shapeCast S64x64 (extractStridedSlice S1x64x64 ![2, 0, 0]
      (extractStridedSlice S3x64x64 ![0, 0, 0] x6 slices_S3x128x64_S3x64x64_0_0_0) slices_S3x64x64_S1x64x64_2_0_0)
      shapeCasts_S1x64x64_S64x64 = Cert.Spec.wTop x6 (2 : Fin 3) := by
  funext i
  refine (dropUnit_mat _ i).trans ?_
  refine (extractStridedSlice_apply ![2, 0, 0] _ slices_S3x64x64_S1x64x64_2_0_0 _
    (ix3 (2 : Fin 3) (i 0) (i 1)) (fun a => match a with
      | ⟨0, _⟩ => by show 2 = 2 + 0; omega
      | ⟨1, _⟩ => by show (i 0).val = 0 + (i 0).val; omega
      | ⟨2, _⟩ => by show (i 1).val = 0 + (i 1).val; omega)).trans ?_
  exact extractStridedSlice_apply ![0, 0, 0] x6 slices_S3x128x64_S3x64x64_0_0_0 _
    (ix3 (2 : Fin 3) (⟨(i 0).val, Nat.lt_of_lt_of_le (i 0).isLt (by decide)⟩ : Fin 128) (i 1)) (fun a => match a with
      | ⟨0, _⟩ => by show 2 = 0 + 2; omega
      | ⟨1, _⟩ => by show (i 0).val = 0 + (i 0).val; omega
      | ⟨2, _⟩ => by show (i 1).val = 0 + (i 1).val; omega)

/-- Layer 2 of the bottom halves. -/
theorem wBot_2 (x6 : FVec Ideal S3x128x64 .f32) :
    shapeCast S64x64 (extractStridedSlice S1x64x64 ![2, 0, 0]
      (extractStridedSlice S3x64x64 ![0, 64, 0] x6 slices_S3x128x64_S3x64x64_0_64_0) slices_S3x64x64_S1x64x64_2_0_0)
      shapeCasts_S1x64x64_S64x64 = Cert.Spec.wBot x6 (2 : Fin 3) := by
  funext i
  refine (dropUnit_mat _ i).trans ?_
  refine (extractStridedSlice_apply ![2, 0, 0] _ slices_S3x64x64_S1x64x64_2_0_0 _
    (ix3 (2 : Fin 3) (i 0) (i 1)) (fun a => match a with
      | ⟨0, _⟩ => by show 2 = 2 + 0; omega
      | ⟨1, _⟩ => by show (i 0).val = 0 + (i 0).val; omega
      | ⟨2, _⟩ => by show (i 1).val = 0 + (i 1).val; omega)).trans ?_
  exact extractStridedSlice_apply ![0, 64, 0] x6 slices_S3x128x64_S3x64x64_0_64_0 _
    (ix3 (2 : Fin 3) (⟨64 + (i 0).val, Nat.add_lt_add_left (i 0).isLt 64⟩ : Fin 128) (i 1)) (fun a => match a with
      | ⟨0, _⟩ => by show 2 = 0 + 2; omega
      | ⟨1, _⟩ => by show 64 + (i 0).val = 64 + (i 0).val; omega
      | ⟨2, _⟩ => by show (i 1).val = 0 + (i 1).val; omega)

/-- Layer 2 of a stack of rows. -/
theorem row_2 (x7 : FVec Ideal S3x64 .f32) :
    shapeCast S64 (extractStridedSlice S1x64 ![2, 0] x7 slices_S3x64_S1x64_2_0)
      shapeCasts_S1x64_S64 = Cert.Spec.row x7 (2 : Fin 3) := by
  funext i
  refine (dropUnit_row _ i).trans ?_
  exact extractStridedSlice_apply ![2, 0] x7 slices_S3x64_S1x64_2_0 _
    (ix2 (2 : Fin 3) (i 0)) (fun a => match a with
      | ⟨0, _⟩ => by show 2 = 2 + 0; omega
      | ⟨1, _⟩ => by show (i 0).val = 0 + (i 0).val; omega)

/-- Layer 2 of a stack of square matrices. -/
theorem mat_2 (x8 : FVec Ideal S3x64x64 .f32) :
    shapeCast S64x64 (extractStridedSlice S1x64x64 ![2, 0, 0] x8 slices_S3x64x64_S1x64x64_2_0_0)
      shapeCasts_S1x64x64_S64x64 = Cert.Spec.mat x8 (2 : Fin 3) := by
  funext i
  refine (dropUnit_mat _ i).trans ?_
  exact extractStridedSlice_apply ![2, 0, 0] x8 slices_S3x64x64_S1x64x64_2_0_0 _
    (ix3 (2 : Fin 3) (i 0) (i 1)) (fun a => match a with
      | ⟨0, _⟩ => by show 2 = 2 + 0; omega
      | ⟨1, _⟩ => by show (i 0).val = 0 + (i 0).val; omega
      | ⟨2, _⟩ => by show (i 1).val = 0 + (i 1).val; omega)

/-! ## jnp.take in fill mode, on indices that are in range

jnp.take first wraps a negative index around (i ↦ i + 100000 where i < 0), then gathers the rows at the wrapped indices,
and last replaces by NaN every row whose wrapped index is outside 0 … 99999: the mask is the conjunction, over the index
vector's one coordinate, of the two signed comparisons. On indices that are already in range the wrap is the identity,
both comparisons hold everywhere, the mask is all ones and the select returns the gathered rows. -/

/-- An `and`-fold that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_one f l _ (IntOp.andi_eq_one.2 ⟨h, hl a (List.mem_cons_self ..)⟩)
      (fun n hn => hl n (List.mem_cons_of_mem _ hn))

/-- A reduction by `and` from 1 of an array of 1s is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun n _ => hx n)

/-- A vector broadcast along a new trailing unit axis reads, at (p, 0), its element p. -/
theorem bcastCol_apply {α : Type} (x : S1000000.Idx → α) (i : S1000000x1.Idx) :
    broadcastInDim S1000000x1 ![0] bcast_S1000000_S1000000x1_0 x i = x (ix1 (i 0)) :=
  broadcastInDim_apply ![0] bcast_S1000000_S1000000x1_0 x i (ix1 (i 0)) (fun a => match a with
    | ⟨0, _⟩ => by
      show (i 0).val = if (1000000 : Nat) = 1 then 0 else (i 0).val
      rw [if_neg (by decide)])

/-- A vector broadcast along a new trailing axis of 64 reads, at (p, q), its element p. -/
theorem bcastRow_apply {α : Type} (x : S1000000.Idx → α) (j : S1000000x64.Idx) :
    broadcastInDim S1000000x64 ![0] bcast_S1000000_S1000000x64_0 x j = x (ix1 (j 0)) :=
  broadcastInDim_apply ![0] bcast_S1000000_S1000000x64_0 x j (ix1 (j 0)) (fun a => match a with
    | ⟨0, _⟩ => by
      show (j 0).val = if (1000000 : Nat) = 1 then 0 else (j 0).val
      rw [if_neg (by decide)])

/-- The wrapped index vector jnp.take gathers at, as a column. -/
abbrev takeCol (idx : IVec S1000000 32) : IVec S1000000x1 32 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 100000#32))) idx)

/-- On an index that is not negative the wrap is the identity: the column reads the index itself. -/
theorem takeCol_apply (idx : IVec S1000000 32) (hr : ∀ i, 0 ≤ (idx i).toInt ∧ (idx i).toInt < 100000)
    (i : S1000000x1.Idx) : takeCol idx i = idx (ix1 (i 0)) :=
  (bcastCol_apply _ i).trans (select_slt_zero_of_nonneg idx _ idx (ix1 (i 0)) (hr (ix1 (i 0))).1)

/-- Both range comparisons hold at every entry of the column. -/
theorem inRange_apply (idx : IVec S1000000 32) (hr : ∀ i, 0 ≤ (idx i).toInt ∧ (idx i).toInt < 100000)
    (i : S1000000x1.Idx) :
    andi (cmpi .sge (takeCol idx) (broadcastInDim S1000000x1 ![] bcast_S_S1000000x1 (constantI S_ 32 0#32)))
      (cmpi .sle (takeCol idx) (broadcastInDim S1000000x1 ![0, 1] bcast_S1x1_S1000000x1_0_1
        (broadcastInDim S1x1 ![1] bcast_S1_S1x1_1 (constantI S1 32 99999#32)))) i = 1#1 := by
  have hi := takeCol_apply idx hr i
  have h0 := (hr (ix1 (i 0))).1
  have h1 := (hr (ix1 (i 0))).2
  refine IntOp.andi_eq_one.2 ⟨?_, ?_⟩
  · show IntOp.cmpi .sge (takeCol idx i) 0#32 = 1#1
    rw [hi]
    exact IntOp.cmpi_sge.2 (by rw [BitVec.toInt_zero]; exact h0)
  · show IntOp.cmpi .sle (takeCol idx i) 99999#32 = 1#1
    rw [hi]
    refine IntOp.cmpi_sle.2 ?_
    have e : (99999#32 : BitVec 32).toInt = 99999 := by decide
    rw [e]; omega

/-- jnp.take on in-range indices is the gather at the index column. -/
theorem take_eq_gather (h : FVec Ideal S100000x64 .f32) (idx : IVec S1000000 32)
    (hr : ∀ i, 0 ≤ (idx i).toInt ∧ (idx i).toInt < 100000) :
    select
      (broadcastInDim S1000000x64 ![0] bcast_S1000000_S1000000x64_0
        (Host.reduce IntOp.andi
          (andi (cmpi .sge (takeCol idx) (broadcastInDim S1000000x1 ![] bcast_S_S1000000x1 (constantI S_ 32 0#32)))
            (cmpi .sle (takeCol idx) (broadcastInDim S1000000x1 ![0, 1] bcast_S1x1_S1000000x1_0_1
              (broadcastInDim S1x1 ![1] bcast_S1_S1x1_1 (constantI S1 32 99999#32)))))
          (constantI S_ 1 1#1) reducesTo_S1000000x1_S1000000_d1 h_S_))
      (Host.gather gather_S100000x64_S1000000x1_S1000000x64_1_0_n_n_0_1_164 h (takeCol idx))
      (broadcastInDim S1000000x64 ![] bcast_S_S1000000x64 (constant (F := Ideal) S_ .f32 0x7FC00000#32))
    = Host.gather gather_S100000x64_S1000000x1_S1000000x64_1_0_n_n_0_1_164 h (takeCol idx) := by
  funext j
  have hm := (bcastRow_apply
      (Host.reduce IntOp.andi
          (andi (cmpi .sge (takeCol idx) (broadcastInDim S1000000x1 ![] bcast_S_S1000000x1 (constantI S_ 32 0#32)))
            (cmpi .sle (takeCol idx) (broadcastInDim S1000000x1 ![0, 1] bcast_S1x1_S1000000x1_0_1
              (broadcastInDim S1x1 ![1] bcast_S1_S1x1_1 (constantI S1 32 99999#32)))))
          (constantI S_ 1 1#1) reducesTo_S1000000x1_S1000000_d1 h_S_) j).trans
    (reduce_andi_of_all _ _ reducesTo_S1000000x1_S1000000_d1 h_S_ (fun _ => rfl) (inRange_apply idx hr) (ix1 (j 0)))
  refine (select_apply _ _ _ j).trans ?_
  rw [hm]
  exact select_one _ _

/-! ## The edge indices are in range

The precondition is a conjunction, built up left to right, whose last two conjuncts say that every edge index is at least
0 and that every edge index is below 100000 (each a reduction by `and` over the whole 2 × 1000000 array of a signed
comparison against a broadcast constant). Peeling the conjunction from the right gives the two reductions; a reduction
by `and` that is 1 had a 1 at every entry; a comparison that is 1 is the order of the two signed values. -/

/-- The scalar shape has one index. -/
instance subsingleton_scalar_idx : Subsingleton Cert.Pre_finite_inputs.S_.Idx := ⟨fun a b => funext fun d => d.elim0⟩

/-- Every edge index is in 0 … 99999. -/
theorem range_of_pre [Cert.Pre_finite_inputs.Facts]
    (a0 : FVec Ideal Cert.Pre_finite_inputs.S100000x5 .f32) (a1 : IVec Cert.Pre_finite_inputs.S2x1000000 32)
    (a2 : FVec Ideal Cert.Pre_finite_inputs.S5x64 .f32) (a3 : FVec Ideal Cert.Pre_finite_inputs.S64 .f32)
    (a4 : FVec Ideal Cert.Pre_finite_inputs.S64x64 .f32) (a5 : FVec Ideal Cert.Pre_finite_inputs.S64 .f32)
    (a6 : FVec Ideal Cert.Pre_finite_inputs.S3x128x64 .f32) (a7 : FVec Ideal Cert.Pre_finite_inputs.S3x64 .f32)
    (a8 : FVec Ideal Cert.Pre_finite_inputs.S3x64x64 .f32) (a9 : FVec Ideal Cert.Pre_finite_inputs.S3x64 .f32)
    (a10 : FVec Ideal Cert.Pre_finite_inputs.S3x128x64 .f32) (a11 : FVec Ideal Cert.Pre_finite_inputs.S3x64 .f32)
    (a12 : FVec Ideal Cert.Pre_finite_inputs.S3x64x64 .f32) (a13 : FVec Ideal Cert.Pre_finite_inputs.S3x64 .f32)
    (a14 : FVec Ideal Cert.Pre_finite_inputs.S64x64 .f32) (a15 : FVec Ideal Cert.Pre_finite_inputs.S64 .f32)
    (a16 : FVec Ideal Cert.Pre_finite_inputs.S64x3 .f32) (a17 : FVec Ideal Cert.Pre_finite_inputs.S3 .f32)
    (h : Cert.Pre_finite_inputs.fn (F := Ideal) a0 a1 a2 a3 a4 a5 a6 a7 a8 a9 a10 a11 a12 a13 a14 a15 a16 a17
      = (fun _ => 1#1)) :
    ∀ i : Cert.Pre_finite_inputs.S2x1000000.Idx, 0 ≤ (a1 i).toInt ∧ (a1 i).toInt < 100000 := by
  intro i
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h1, hlt⟩ := IntOp.andi_eq_one.1 h0
  obtain ⟨-, hge⟩ := IntOp.andi_eq_one.1 h1
  have e1 := Host.reduce_andi_all _ _ _ _ _ hge i
  have e2 := Host.reduce_andi_all _ _ _ _ _ hlt i
  have g1 : (0#32 : BitVec 32).toInt ≤ (a1 i).toInt := IntOp.cmpi_sge.1 e1
  have g2 : (a1 i).toInt < (100000#32 : BitVec 32).toInt := IntOp.cmpi_slt.1 e2
  rw [BitVec.toInt_zero] at g1
  have e : (100000#32 : BitVec 32).toInt = 100000 := by decide
  rw [e] at g2
  exact ⟨g1, g2⟩

/-! ## The two rows of the edge array

Row r of the 2 × 1000000 edge array is cut out by a slice of extent one on the leading axis and the reshape that drops
that axis: entry p of the row is entry (r, p) of the array, so the rows inherit the array's range. -/

/-- Entry p of the first row (the sources) is entry (0, p) of the edge array. -/
theorem src_apply (a1 : IVec S2x1000000 32) (i : S1000000.Idx) :
    shapeCast S1000000 (extractStridedSlice S1x1000000 ![0, 0] a1 slices_S2x1000000_S1x1000000_0_0)
      shapeCasts_S1x1000000_S1000000 i = a1 (ix2 (0 : Fin 2) (i 0)) := by
  refine (shapeCast_apply _ shapeCasts_S1x1000000_S1000000 i (ix2 (0 : Fin 1) (i 0))
    (by rewrite [Shape.rowMajor_val_two, Shape.rowMajor_val_one]
        show 0 * 1000000 + (i 0).val = (i 0).val
        omega)).trans ?_
  exact extractStridedSlice_apply ![0, 0] a1 slices_S2x1000000_S1x1000000_0_0 _
    (ix2 (0 : Fin 2) (i 0)) (fun a => match a with
      | ⟨0, _⟩ => by show 0 = 0 + 0; omega
      | ⟨1, _⟩ => by show (i 0).val = 0 + (i 0).val; omega)

/-- Entry p of the second row (the destinations) is entry (1, p) of the edge array. -/
theorem dst_apply (a1 : IVec S2x1000000 32) (i : S1000000.Idx) :
    shapeCast S1000000 (extractStridedSlice S1x1000000 ![1, 0] a1 slices_S2x1000000_S1x1000000_1_0)
      shapeCasts_S1x1000000_S1000000 i = a1 (ix2 (1 : Fin 2) (i 0)) := by
  refine (shapeCast_apply _ shapeCasts_S1x1000000_S1000000 i (ix2 (0 : Fin 1) (i 0))
    (by rewrite [Shape.rowMajor_val_two, Shape.rowMajor_val_one]
        show 0 * 1000000 + (i 0).val = (i 0).val
        omega)).trans ?_
  exact extractStridedSlice_apply ![1, 0] a1 slices_S2x1000000_S1x1000000_1_0 _
    (ix2 (1 : Fin 2) (i 0)) (fun a => match a with
      | ⟨0, _⟩ => by show 1 = 1 + 0; omega
      | ⟨1, _⟩ => by show (i 0).val = 0 + (i 0).val; omega)

/-- The sources are in range. -/
theorem src_range (a1 : IVec S2x1000000 32) (hr : ∀ i : S2x1000000.Idx, 0 ≤ (a1 i).toInt ∧ (a1 i).toInt < 100000) :
    ∀ i : S1000000.Idx,
      0 ≤ (shapeCast S1000000 (extractStridedSlice S1x1000000 ![0, 0] a1 slices_S2x1000000_S1x1000000_0_0)
        shapeCasts_S1x1000000_S1000000 i).toInt
      ∧ (shapeCast S1000000 (extractStridedSlice S1x1000000 ![0, 0] a1 slices_S2x1000000_S1x1000000_0_0)
        shapeCasts_S1x1000000_S1000000 i).toInt < 100000 := by
  intro i
  rw [src_apply a1 i]
  exact hr _

/-- The destinations are in range. -/
theorem dst_range (a1 : IVec S2x1000000 32) (hr : ∀ i : S2x1000000.Idx, 0 ≤ (a1 i).toInt ∧ (a1 i).toInt < 100000) :
    ∀ i : S1000000.Idx,
      0 ≤ (shapeCast S1000000 (extractStridedSlice S1x1000000 ![1, 0] a1 slices_S2x1000000_S1x1000000_1_0)
        shapeCasts_S1x1000000_S1000000 i).toInt
      ∧ (shapeCast S1000000 (extractStridedSlice S1x1000000 ![1, 0] a1 slices_S2x1000000_S1x1000000_1_0)
        shapeCasts_S1x1000000_S1000000 i).toInt < 100000 := by
  intro i
  rw [dst_apply a1 i]
  exact hr _

end Cert.KernelIdeal.Glue

end
-- ==== Proof.KernelNet.lean ====
/-
  The idealized kernel program's value as ONE function of its argument arrays: the encoder block; then, three times, the
  rows gathered at the edges' sources and destinations, the message block over them, the messages summed at each
  destination and divided by the destination's count of incoming edges (at least one), and the update block over the
  node's state beside that mean; then the output head. The gathers, the sums by destination and the counts are the
  host's own operations, kept as they are printed; the blocks are the specification's.
-/
import proofs.«111624_j59098749993608_2_alg».proof.Proof.KernelGlue

set_option maxRecDepth 16384

noncomputable section

namespace Cert.KernelIdeal.Net

open Idealize.ShloMosaic Idealize.ShloMosaic.ValueIdx
open Cert.KernelIdeal Cert.KernelIdeal.Facts₀

/-- The edges' sources: row 0 of the edge array. -/
def src (x1 : IVec S2x1000000 32) : IVec S1000000 32 :=
  shapeCast S1000000 (extractStridedSlice S1x1000000 ![0, 0] x1 slices_S2x1000000_S1x1000000_0_0) shapeCasts_S1x1000000_S1000000

/-- The edges' destinations: row 1 of the edge array. -/
def dst (x1 : IVec S2x1000000 32) : IVec S1000000 32 :=
  shapeCast S1000000 (extractStridedSlice S1x1000000 ![1, 0] x1 slices_S2x1000000_S1x1000000_1_0) shapeCasts_S1x1000000_S1000000

/-- Each node's count of incoming edges, at least one, as a column. -/
def den (x1 : IVec S2x1000000 32) : FVec Ideal S100000x1 .f32 :=
  broadcastInDim S100000x1 ![0] bcast_S100000_S100000x1_0
    (maximumf
      (Host.scatterAdd scatter_S100000_S1000000x1_S1000000_n_0_0_1
        (broadcastInDim S100000 ![] bcast_S_S100000 (constant (F := Ideal) S_ .f32 0x00000000#32))
        (broadcastInDim S1000000x1 ![0] bcast_S1000000_S1000000x1_0 (dst x1))
        (broadcastInDim S1000000 ![] bcast_S_S1000000 (constant (F := Ideal) S_ .f32 0x3F800000#32)))
      (broadcastInDim S100000 ![] bcast_S_S100000 (constant (F := Ideal) S_ .f32 0x3F800000#32)))

/-- The rows of `h` at an index vector. -/
def rowsAt (h : FVec Ideal S100000x64 .f32) (idx : IVec S1000000 32) : FVec Ideal S1000000x64 .f32 :=
  Host.gather gather_S100000x64_S1000000x1_S1000000x64_1_0_n_n_0_1_164 h (Glue.takeCol idx)

/-- The messages summed at their destinations. -/
def sumAt (d : IVec S1000000 32) (u : FVec Ideal S1000000x64 .f32) : FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 d) u

/-- The messages of layer `l` from the node states `h`. -/
def msg (h : FVec Ideal S100000x64 .f32) (x1 : IVec S2x1000000 32) (x6 : FVec Ideal S3x128x64 .f32)
    (x7 : FVec Ideal S3x64 .f32) (x8 : FVec Ideal S3x64x64 .f32) (x9 : FVec Ideal S3x64 .f32) (l : Fin 3) :
    FVec Ideal S1000000x64 .f32 :=
  Cert.Spec.mlp2two (rowsAt h (src x1)) (rowsAt h (dst x1)) (Cert.Spec.wTop x6 l) (Cert.Spec.wBot x6 l)
    (Cert.Spec.row x7 l) (Cert.Spec.mat x8 l) (Cert.Spec.row x9 l)

/-- One layer: the node states after the update block. -/
def layer (h : FVec Ideal S100000x64 .f32) (x1 : IVec S2x1000000 32) (x6 : FVec Ideal S3x128x64 .f32)
    (x7 : FVec Ideal S3x64 .f32) (x8 : FVec Ideal S3x64x64 .f32) (x9 : FVec Ideal S3x64 .f32)
    (x10 : FVec Ideal S3x128x64 .f32) (x11 : FVec Ideal S3x64 .f32) (x12 : FVec Ideal S3x64x64 .f32)
    (x13 : FVec Ideal S3x64 .f32) (l : Fin 3) : FVec Ideal S100000x64 .f32 :=
  Cert.Spec.mlp2two h (Cert.Spec.quot (sumAt (dst x1) (msg h x1 x6 x7 x8 x9 l)) (den x1))
    (Cert.Spec.wTop x10 l) (Cert.Spec.wBot x10 l) (Cert.Spec.row x11 l) (Cert.Spec.mat x12 l) (Cert.Spec.row x13 l)

/-- The encoder block. -/
def enc (x0 : FVec Ideal S100000x5 .f32) (x2 : FVec Ideal S5x64 .f32) (x3 : FVec Ideal S64 .f32)
    (x4 : FVec Ideal S64x64 .f32) (x5 : FVec Ideal S64 .f32) : FVec Ideal S100000x64 .f32 :=
  Cert.Spec.mlp2 x0 x2 x3 x4 x5

/-- The whole network. -/
def net (x0 : FVec Ideal S100000x5 .f32) (x1 : IVec S2x1000000 32) (x2 : FVec Ideal S5x64 .f32) (x3 : FVec Ideal S64 .f32)
    (x4 : FVec Ideal S64x64 .f32) (x5 : FVec Ideal S64 .f32) (x6 : FVec Ideal S3x128x64 .f32)
    (x7 : FVec Ideal S3x64 .f32) (x8 : FVec Ideal S3x64x64 .f32) (x9 : FVec Ideal S3x64 .f32)
    (x10 : FVec Ideal S3x128x64 .f32) (x11 : FVec Ideal S3x64 .f32) (x12 : FVec Ideal S3x64x64 .f32)
    (x13 : FVec Ideal S3x64 .f32) (x14 : FVec Ideal S64x64 .f32) (x15 : FVec Ideal S64 .f32)
    (x16 : FVec Ideal S64x3 .f32) (x17 : FVec Ideal S3 .f32) : FVec Ideal S100000x3 .f32 :=
  Cert.Spec.head
    (layer (layer (layer (enc x0 x2 x3 x4 x5) x1 x6 x7 x8 x9 x10 x11 x12 x13 0) x1 x6 x7 x8 x9 x10 x11 x12 x13 1)
      x1 x6 x7 x8 x9 x10 x11 x12 x13 2)
    x14 x15 x16 x17

end Cert.KernelIdeal.Net

end
-- ==== Proof.KernelFacts.lean ====
/-
  The idealized kernel program's result array as the network of its argument arrays. Between its segments the run
  leaves every buffer at a value that is a function of the argument arrays: the host stretches compute the two rows of
  the edge array, each node's count of incoming edges, the rows gathered at the edges' ends, the messages summed by
  destination and the layers cut out of the stacked weights; the eight regions compute the specification's blocks (their
  values are hypotheses here). Walking the segment boundaries in order names each buffer's value where it is read, and
  the last value named is the network.
-/
import proofs.«111624_j59098749993608_2_alg».proof.Proof.Gen.KernelIdeal.Frame
import proofs.«111624_j59098749993608_2_alg».proof.Proof.KernelWalk
import proofs.«111624_j59098749993608_2_alg».proof.Proof.KernelNet

set_option maxRecDepth 16384

noncomputable section

namespace Cert.KernelIdeal.Facts

open Cert.KernelIdeal Cert.KernelIdeal.Gen Cert.KernelIdeal.Facts₀

open Idealize.ShloMosaic Idealize.ShloMosaic.TcCoe Idealize.ShloMosaic.Tactic
open Idealize.ShloMosaic.StableHlo
open Idealize.SL Idealize.SL.Sem
open Idealize.ShloMosaic.Pipeline (Dat Cfg Window)

/-- jnp.take in fill mode, as the host spells it: the gathered rows where the wrapped index is in range, NaN elsewhere. -/
def takeFill (h : FVec Ideal S100000x64 .f32) (idx : IVec S1000000 32) : FVec Ideal S1000000x64 .f32 :=
  select
    (broadcastInDim S1000000x64 ![0] Facts₀.bcast_S1000000_S1000000x64_0
      (Host.reduce IntOp.andi
        (andi (cmpi .sge (Glue.takeCol idx) (broadcastInDim S1000000x1 ![] Facts₀.bcast_S_S1000000x1 (constantI S_ 32 0#32)))
          (cmpi .sle (Glue.takeCol idx) (broadcastInDim S1000000x1 ![0, 1] Facts₀.bcast_S1x1_S1000000x1_0_1
            (broadcastInDim S1x1 ![1] Facts₀.bcast_S1_S1x1_1 (constantI S1 32 99999#32)))))
        (constantI S_ 1 1#1) Facts₀.reducesTo_S1000000x1_S1000000_d1 Facts₀.h_S_))
    (Host.gather gather_S100000x64_S1000000x1_S1000000x64_1_0_n_n_0_1_164 h (Glue.takeCol idx))
    (broadcastInDim S1000000x64 ![] Facts₀.bcast_S_S1000000x64 (constant (F := Ideal) S_ .f32 0x7FC00000#32))

/-- On in-range indices it is the plain gather of rows. -/
theorem takeFill_eq (h : FVec Ideal S100000x64 .f32) (idx : IVec S1000000 32)
    (hi : ∀ i, 0 ≤ (idx i).toInt ∧ (idx i).toInt < 100000) : takeFill h idx = Net.rowsAt h idx :=
  Glue.take_eq_gather h idx hi

/-- One step of reading a stretch's last result back through its operations: an operation's own result is its function of
    its operands' contents, every other buffer is as the operation found it. -/
macro "ar_step2" : tactic =>
  `(tactic| (first
               | (rw [nullary_result]; try simp only [TRef.toBuf, TRef.ofBuf, cast_eq])
               | (rw [unary_result]; try simp only [TRef.toBuf, TRef.ofBuf, cast_eq])
               | (rw [binary_result]; try simp only [TRef.toBuf, TRef.ofBuf, cast_eq])
               | (rw [ternary_result]; try simp only [TRef.toBuf, TRef.ofBuf, cast_eq])
               | (rw [nullary_result_ne]; rotate_left; decide)
               | (rw [unary_result_ne]; rotate_left; decide)
               | (rw [binary_result_ne]; rotate_left; decide)
               | (rw [ternary_result_ne]; rotate_left; decide)))

/-! ## The host stretches, over any contents of the buffers they read -/

theorem s0_v1 (V : Valuation τ sig (Elt Ideal)) : StableHlo.after (hostOps0 (F := Ideal)) V (Proc.devRef .tc main_v1) = Net.src (V (Proc.devRef .tc main_arg1)) := by
  after_results <;> rfl

theorem s0_v3 (V : Valuation τ sig (Elt Ideal)) : StableHlo.after (hostOps0 (F := Ideal)) V (Proc.devRef .tc main_v3) = Net.dst (V (Proc.devRef .tc main_arg1)) := by
  after_results <;> rfl

/-- The counts, from the destinations. -/
def denOf (d : IVec S1000000 32) : FVec Ideal S100000x1 .f32 :=
  broadcastInDim S100000x1 ![0] Facts₀.bcast_S100000_S100000x1_0
    (maximumf
      (Host.scatterAdd scatter_S100000_S1000000x1_S1000000_n_0_0_1
        (broadcastInDim S100000 ![] Facts₀.bcast_S_S100000 (constant (F := Ideal) S_ .f32 0x00000000#32))
        (broadcastInDim S1000000x1 ![0] Facts₀.bcast_S1000000_S1000000x1_0 d)
        (broadcastInDim S1000000 ![] Facts₀.bcast_S_S1000000 (constant (F := Ideal) S_ .f32 0x3F800000#32)))
      (broadcastInDim S100000 ![] Facts₀.bcast_S_S100000 (constant (F := Ideal) S_ .f32 0x3F800000#32)))

theorem s1_v11 (V : Valuation τ sig (Elt Ideal)) : StableHlo.after (hostOps1 (F := Ideal)) V (Proc.devRef .tc main_v11) = denOf (V (Proc.devRef .tc main_v3)) := by
  after_results <;> rfl

theorem s1_v12 (V : Valuation τ sig (Elt Ideal)) : StableHlo.after (hostOps1 (F := Ideal)) V (Proc.devRef .tc main_v12) = extractStridedSlice S3x64x64 ![0, 0, 0] (V (Proc.devRef .tc main_arg6)) Facts₀.slices_S3x128x64_S3x64x64_0_0_0 := by
  after_results <;> rfl

theorem s1_v13 (V : Valuation τ sig (Elt Ideal)) : StableHlo.after (hostOps1 (F := Ideal)) V (Proc.devRef .tc main_v13) = extractStridedSlice S3x64x64 ![0, 64, 0] (V (Proc.devRef .tc main_arg6)) Facts₀.slices_S3x128x64_S3x64x64_0_64_0 := by
  after_results <;> rfl

theorem s1_v14 (V : Valuation τ sig (Elt Ideal)) : StableHlo.after (hostOps1 (F := Ideal)) V (Proc.devRef .tc main_v14) = extractStridedSlice S3x64x64 ![0, 0, 0] (V (Proc.devRef .tc main_arg10)) Facts₀.slices_S3x128x64_S3x64x64_0_0_0 := by
  after_results <;> rfl

theorem s1_v15 (V : Valuation τ sig (Elt Ideal)) : StableHlo.after (hostOps1 (F := Ideal)) V (Proc.devRef .tc main_v15) = extractStridedSlice S3x64x64 ![0, 64, 0] (V (Proc.devRef .tc main_arg10)) Facts₀.slices_S3x128x64_S3x64x64_0_64_0 := by
  after_results <;> rfl

set_option maxHeartbeats 4000000 in
theorem s_hostOps1_1_v16 (V : Valuation τ sig (Elt Ideal)) :
    StableHlo.after (hostOps1_1 (F := Ideal)) V (Proc.devRef .tc main_v16) = takeFill (V (Proc.devRef .tc main_v4)) (V (Proc.devRef .tc main_v1)) := by
  simp only [after_cons, after_nil]
  repeat ar_step2
  rfl

set_option maxHeartbeats 4000000 in
theorem s_hostOps1_2_v17 (V : Valuation τ sig (Elt Ideal)) :
    StableHlo.after (hostOps1_2 (F := Ideal)) V (Proc.devRef .tc main_v17) = takeFill (V (Proc.devRef .tc main_v4)) (V (Proc.devRef .tc main_v3)) := by
  simp only [after_cons, after_nil]
  repeat ar_step2
  rfl

theorem s_hostOps1_3_v19 (V : Valuation τ sig (Elt Ideal)) :
    StableHlo.after (hostOps1_3 (F := Ideal)) V (Proc.devRef .tc main_v19) = shapeCast S64x64 (extractStridedSlice S1x64x64 ![0, 0, 0] (V (Proc.devRef .tc main_v12)) Facts₀.slices_S3x64x64_S1x64x64_0_0_0) Facts₀.shapeCasts_S1x64x64_S64x64 := by
  after_results <;> rfl

theorem s_hostOps1_3_v21 (V : Valuation τ sig (Elt Ideal)) :
    StableHlo.after (hostOps1_3 (F := Ideal)) V (Proc.devRef .tc main_v21) = shapeCast S64x64 (extractStridedSlice S1x64x64 ![0, 0, 0] (V (Proc.devRef .tc main_v13)) Facts₀.slices_S3x64x64_S1x64x64_0_0_0) Facts₀.shapeCasts_S1x64x64_S64x64 := by
  after_results <;> rfl

theorem s_hostOps1_3_v23 (V : Valuation τ sig (Elt Ideal)) :
    StableHlo.after (hostOps1_3 (F := Ideal)) V (Proc.devRef .tc main_v23) = shapeCast S64 (extractStridedSlice S1x64 ![0, 0] (V (Proc.devRef .tc main_arg7)) Facts₀.slices_S3x64_S1x64_0_0) Facts₀.shapeCasts_S1x64_S64 := by
  after_results <;> rfl

theorem s_hostOps1_3_v25 (V : Valuation τ sig (Elt Ideal)) :
    StableHlo.after (hostOps1_3 (F := Ideal)) V (Proc.devRef .tc main_v25) = shapeCast S64x64 (extractStridedSlice S1x64x64 ![0, 0, 0] (V (Proc.devRef .tc main_arg8)) Facts₀.slices_S3x64x64_S1x64x64_0_0_0) Facts₀.shapeCasts_S1x64x64_S64x64 := by
  after_results <;> rfl

theorem s_hostOps1_3_v27 (V : Valuation τ sig (Elt Ideal)) :
    StableHlo.after (hostOps1_3 (F := Ideal)) V (Proc.devRef .tc main_v27) = shapeCast S64 (extractStridedSlice S1x64 ![0, 0] (V (Proc.devRef .tc main_arg9)) Facts₀.slices_S3x64_S1x64_0_0) Facts₀.shapeCasts_S1x64_S64 := by
  after_results <;> rfl

theorem s_hostOps2_v33 (V : Valuation τ sig (Elt Ideal)) :
    StableHlo.after (hostOps2 (F := Ideal)) V (Proc.devRef .tc main_v33) = shapeCast S64x64 (extractStridedSlice S1x64x64 ![0, 0, 0] (V (Proc.devRef .tc main_v14)) Facts₀.slices_S3x64x64_S1x64x64_0_0_0) Facts₀.shapeCasts_S1x64x64_S64x64 := by
  after_results <;> rfl

theorem s_hostOps2_v35 (V : Valuation τ sig (Elt Ideal)) :
    StableHlo.after (hostOps2 (F := Ideal)) V (Proc.devRef .tc main_v35) = shapeCast S64x64 (extractStridedSlice S1x64x64 ![0, 0, 0] (V (Proc.devRef .tc main_v15)) Facts₀.slices_S3x64x64_S1x64x64_0_0_0) Facts₀.shapeCasts_S1x64x64_S64x64 := by
  after_results <;> rfl

theorem s_hostOps2_v37 (V : Valuation τ sig (Elt Ideal)) :
    StableHlo.after (hostOps2 (F := Ideal)) V (Proc.devRef .tc main_v37) = shapeCast S64 (extractStridedSlice S1x64 ![0, 0] (V (Proc.devRef .tc main_arg11)) Facts₀.slices_S3x64_S1x64_0_0) Facts₀.shapeCasts_S1x64_S64 := by
  after_results <;> rfl

theorem s_hostOps2_v39 (V : Valuation τ sig (Elt Ideal)) :
    StableHlo.after (hostOps2 (F := Ideal)) V (Proc.devRef .tc main_v39) = shapeCast S64x64 (extractStridedSlice S1x64x64 ![0, 0, 0] (V (Proc.devRef .tc main_arg12)) Facts₀.slices_S3x64x64_S1x64x64_0_0_0) Facts₀.shapeCasts_S1x64x64_S64x64 := by
  after_results <;> rfl

theorem s_hostOps2_v41 (V : Valuation τ sig (Elt Ideal)) :
    StableHlo.after (hostOps2 (F := Ideal)) V (Proc.devRef .tc main_v41) = shapeCast S64 (extractStridedSlice S1x64 ![0, 0] (V (Proc.devRef .tc main_arg13)) Facts₀.slices_S3x64_S1x64_0_0) Facts₀.shapeCasts_S1x64_S64 := by
  after_results <;> rfl

theorem s_hostOps2_v31 (V : Valuation τ sig (Elt Ideal)) :
    StableHlo.after (hostOps2 (F := Ideal)) V (Proc.devRef .tc main_v31) = Net.sumAt (V (Proc.devRef .tc main_v3)) (V (Proc.devRef .tc main_v28)) := by
  after_results <;> rfl

set_option maxHeartbeats 4000000 in
theorem s_hostOps3_v43 (V : Valuation τ sig (Elt Ideal)) :
    StableHlo.after (hostOps3 (F := Ideal)) V (Proc.devRef .tc main_v43) = takeFill (V (Proc.devRef .tc main_v42)) (V (Proc.devRef .tc main_v1)) := by
  simp only [after_cons, after_nil]
  repeat ar_step2
  rfl

set_option maxHeartbeats 4000000 in
theorem s_hostOps3_1_v44 (V : Valuation τ sig (Elt Ideal)) :
    StableHlo.after (hostOps3_1 (F := Ideal)) V (Proc.devRef .tc main_v44) = takeFill (V (Proc.devRef .tc main_v42)) (V (Proc.devRef .tc main_v3)) := by
  simp only [after_cons, after_nil]
  repeat ar_step2
  rfl

theorem s_hostOps3_2_v46 (V : Valuation τ sig (Elt Ideal)) :
    StableHlo.after (hostOps3_2 (F := Ideal)) V (Proc.devRef .tc main_v46) = shapeCast S64x64 (extractStridedSlice S1x64x64 ![1, 0, 0] (V (Proc.devRef .tc main_v12)) Facts₀.slices_S3x64x64_S1x64x64_1_0_0) Facts₀.shapeCasts_S1x64x64_S64x64 := by
  after_results <;> rfl

theorem s_hostOps3_2_v48 (V : Valuation τ sig (Elt Ideal)) :
    StableHlo.after (hostOps3_2 (F := Ideal)) V (Proc.devRef .tc main_v48) = shapeCast S64x64 (extractStridedSlice S1x64x64 ![1, 0, 0] (V (Proc.devRef .tc main_v13)) Facts₀.slices_S3x64x64_S1x64x64_1_0_0) Facts₀.shapeCasts_S1x64x64_S64x64 := by
  after_results <;> rfl

theorem s_hostOps3_2_v50 (V : Valuation τ sig (Elt Ideal)) :
    StableHlo.after (hostOps3_2 (F := Ideal)) V (Proc.devRef .tc main_v50) = shapeCast S64 (extractStridedSlice S1x64 ![1, 0] (V (Proc.devRef .tc main_arg7)) Facts₀.slices_S3x64_S1x64_1_0) Facts₀.shapeCasts_S1x64_S64 := by
  after_results <;> rfl

theorem s_hostOps3_2_v52 (V : Valuation τ sig (Elt Ideal)) :
    StableHlo.after (hostOps3_2 (F := Ideal)) V (Proc.devRef .tc main_v52) = shapeCast S64x64 (extractStridedSlice S1x64x64 ![1, 0, 0] (V (Proc.devRef .tc main_arg8)) Facts₀.slices_S3x64x64_S1x64x64_1_0_0) Facts₀.shapeCasts_S1x64x64_S64x64 := by
  after_results <;> rfl

theorem s_hostOps3_2_v54 (V : Valuation τ sig (Elt Ideal)) :
    StableHlo.after (hostOps3_2 (F := Ideal)) V (Proc.devRef .tc main_v54) = shapeCast S64 (extractStridedSlice S1x64 ![1, 0] (V (Proc.devRef .tc main_arg9)) Facts₀.slices_S3x64_S1x64_1_0) Facts₀.shapeCasts_S1x64_S64 := by
  after_results <;> rfl

theorem s_hostOps4_v60 (V : Valuation τ sig (Elt Ideal)) :
    StableHlo.after (hostOps4 (F := Ideal)) V (Proc.devRef .tc main_v60) = shapeCast S64x64 (extractStridedSlice S1x64x64 ![1, 0, 0] (V (Proc.devRef .tc main_v14)) Facts₀.slices_S3x64x64_S1x64x64_1_0_0) Facts₀.shapeCasts_S1x64x64_S64x64 := by
  after_results <;> rfl

theorem s_hostOps4_v62 (V : Valuation τ sig (Elt Ideal)) :
    StableHlo.after (hostOps4 (F := Ideal)) V (Proc.devRef .tc main_v62) = shapeCast S64x64 (extractStridedSlice S1x64x64 ![1, 0, 0] (V (Proc.devRef .tc main_v15)) Facts₀.slices_S3x64x64_S1x64x64_1_0_0) Facts₀.shapeCasts_S1x64x64_S64x64 := by
  after_results <;> rfl

theorem s_hostOps4_v64 (V : Valuation τ sig (Elt Ideal)) :
    StableHlo.after (hostOps4 (F := Ideal)) V (Proc.devRef .tc main_v64) = shapeCast S64 (extractStridedSlice S1x64 ![1, 0] (V (Proc.devRef .tc main_arg11)) Facts₀.slices_S3x64_S1x64_1_0) Facts₀.shapeCasts_S1x64_S64 := by
  after_results <;> rfl

theorem s_hostOps4_v66 (V : Valuation τ sig (Elt Ideal)) :
    StableHlo.after (hostOps4 (F := Ideal)) V (Proc.devRef .tc main_v66) = shapeCast S64x64 (extractStridedSlice S1x64x64 ![1, 0, 0] (V (Proc.devRef .tc main_arg12)) Facts₀.slices_S3x64x64_S1x64x64_1_0_0) Facts₀.shapeCasts_S1x64x64_S64x64 := by
  after_results <;> rfl

theorem s_hostOps4_v68 (V : Valuation τ sig (Elt Ideal)) :
    StableHlo.after (hostOps4 (F := Ideal)) V (Proc.devRef .tc main_v68) = shapeCast S64 (extractStridedSlice S1x64 ![1, 0] (V (Proc.devRef .tc main_arg13)) Facts₀.slices_S3x64_S1x64_1_0) Facts₀.shapeCasts_S1x64_S64 := by
  after_results <;> rfl

theorem s_hostOps4_v58 (V : Valuation τ sig (Elt Ideal)) :
    StableHlo.after (hostOps4 (F := Ideal)) V (Proc.devRef .tc main_v58) = Net.sumAt (V (Proc.devRef .tc main_v3)) (V (Proc.devRef .tc main_v55)) := by
  after_results <;> rfl

set_option maxHeartbeats 4000000 in
theorem s_hostOps5_v70 (V : Valuation τ sig (Elt Ideal)) :
    StableHlo.after (hostOps5 (F := Ideal)) V (Proc.devRef .tc main_v70) = takeFill (V (Proc.devRef .tc main_v69)) (V (Proc.devRef .tc main_v1)) := by
  simp only [after_cons, after_nil]
  repeat ar_step2
  rfl

set_option maxHeartbeats 4000000 in
theorem s_hostOps5_1_v71 (V : Valuation τ sig (Elt Ideal)) :
    StableHlo.after (hostOps5_1 (F := Ideal)) V (Proc.devRef .tc main_v71) = takeFill (V (Proc.devRef .tc main_v69)) (V (Proc.devRef .tc main_v3)) := by
  simp only [after_cons, after_nil]
  repeat ar_step2
  rfl

theorem s_hostOps5_2_v73 (V : Valuation τ sig (Elt Ideal)) :
    StableHlo.after (hostOps5_2 (F := Ideal)) V (Proc.devRef .tc main_v73) = shapeCast S64x64 (extractStridedSlice S1x64x64 ![2, 0, 0] (V (Proc.devRef .tc main_v12)) Facts₀.slices_S3x64x64_S1x64x64_2_0_0) Facts₀.shapeCasts_S1x64x64_S64x64 := by
  after_results <;> rfl

theorem s_hostOps5_2_v75 (V : Valuation τ sig (Elt Ideal)) :
    StableHlo.after (hostOps5_2 (F := Ideal)) V (Proc.devRef .tc main_v75) = shapeCast S64x64 (extractStridedSlice S1x64x64 ![2, 0, 0] (V (Proc.devRef .tc main_v13)) Facts₀.slices_S3x64x64_S1x64x64_2_0_0) Facts₀.shapeCasts_S1x64x64_S64x64 := by
  after_results <;> rfl

theorem s_hostOps5_2_v77 (V : Valuation τ sig (Elt Ideal)) :
    StableHlo.after (hostOps5_2 (F := Ideal)) V (Proc.devRef .tc main_v77) = shapeCast S64 (extractStridedSlice S1x64 ![2, 0] (V (Proc.devRef .tc main_arg7)) Facts₀.slices_S3x64_S1x64_2_0) Facts₀.shapeCasts_S1x64_S64 := by
  after_results <;> rfl

theorem s_hostOps5_2_v79 (V : Valuation τ sig (Elt Ideal)) :
    StableHlo.after (hostOps5_2 (F := Ideal)) V (Proc.devRef .tc main_v79) = shapeCast S64x64 (extractStridedSlice S1x64x64 ![2, 0, 0] (V (Proc.devRef .tc main_arg8)) Facts₀.slices_S3x64x64_S1x64x64_2_0_0) Facts₀.shapeCasts_S1x64x64_S64x64 := by
  after_results <;> rfl

theorem s_hostOps5_2_v81 (V : Valuation τ sig (Elt Ideal)) :
    StableHlo.after (hostOps5_2 (F := Ideal)) V (Proc.devRef .tc main_v81) = shapeCast S64 (extractStridedSlice S1x64 ![2, 0] (V (Proc.devRef .tc main_arg9)) Facts₀.slices_S3x64_S1x64_2_0) Facts₀.shapeCasts_S1x64_S64 := by
  after_results <;> rfl

theorem s_hostOps6_v87 (V : Valuation τ sig (Elt Ideal)) :
    StableHlo.after (hostOps6 (F := Ideal)) V (Proc.devRef .tc main_v87) = shapeCast S64x64 (extractStridedSlice S1x64x64 ![2, 0, 0] (V (Proc.devRef .tc main_v14)) Facts₀.slices_S3x64x64_S1x64x64_2_0_0) Facts₀.shapeCasts_S1x64x64_S64x64 := by
  after_results <;> rfl

theorem s_hostOps6_v89 (V : Valuation τ sig (Elt Ideal)) :
    StableHlo.after (hostOps6 (F := Ideal)) V (Proc.devRef .tc main_v89) = shapeCast S64x64 (extractStridedSlice S1x64x64 ![2, 0, 0] (V (Proc.devRef .tc main_v15)) Facts₀.slices_S3x64x64_S1x64x64_2_0_0) Facts₀.shapeCasts_S1x64x64_S64x64 := by
  after_results <;> rfl

theorem s_hostOps6_v91 (V : Valuation τ sig (Elt Ideal)) :
    StableHlo.after (hostOps6 (F := Ideal)) V (Proc.devRef .tc main_v91) = shapeCast S64 (extractStridedSlice S1x64 ![2, 0] (V (Proc.devRef .tc main_arg11)) Facts₀.slices_S3x64_S1x64_2_0) Facts₀.shapeCasts_S1x64_S64 := by
  after_results <;> rfl

theorem s_hostOps6_v93 (V : Valuation τ sig (Elt Ideal)) :
    StableHlo.after (hostOps6 (F := Ideal)) V (Proc.devRef .tc main_v93) = shapeCast S64x64 (extractStridedSlice S1x64x64 ![2, 0, 0] (V (Proc.devRef .tc main_arg12)) Facts₀.slices_S3x64x64_S1x64x64_2_0_0) Facts₀.shapeCasts_S1x64x64_S64x64 := by
  after_results <;> rfl

theorem s_hostOps6_v95 (V : Valuation τ sig (Elt Ideal)) :
    StableHlo.after (hostOps6 (F := Ideal)) V (Proc.devRef .tc main_v95) = shapeCast S64 (extractStridedSlice S1x64 ![2, 0] (V (Proc.devRef .tc main_arg13)) Facts₀.slices_S3x64_S1x64_2_0) Facts₀.shapeCasts_S1x64_S64 := by
  after_results <;> rfl

theorem s_hostOps6_v85 (V : Valuation τ sig (Elt Ideal)) :
    StableHlo.after (hostOps6 (F := Ideal)) V (Proc.devRef .tc main_v85) = Net.sumAt (V (Proc.devRef .tc main_v3)) (V (Proc.devRef .tc main_v82)) := by
  after_results <;> rfl

/-! ## What the eight regions leave in their result arrays, as the region modules prove it (taken here as hypotheses) -/

/-- Region 0's result array after all grid points. -/
def HR0 : Prop := ∀ (V : (c : Dev nD) → (b : Ref sig .tc) → Buf (Elt Ideal) ((c : Thread nD τ).loc b)) (c : Dev nD),
    (dat0 (F := Ideal) V c).arrAt 5 cfg0.N
      = Cert.Spec.mlp2 (V c main_arg0) (V c main_arg2) (V c main_arg3) (V c main_arg4) (V c main_arg5)

/-- Region 1's result array after all grid points. -/
def HR1 : Prop := ∀ (V : (c : Dev nD) → (b : Ref sig .tc) → Buf (Elt Ideal) ((c : Thread nD τ).loc b)) (c : Dev nD),
    (dat1 (F := Ideal) V c).arrAt 7 cfg1.N
      = Cert.Spec.mlp2two (V c main_v16) (V c main_v17) (V c main_v19) (V c main_v21) (V c main_v23) (V c main_v25) (V c main_v27)

/-- Region 2's result array after all grid points. -/
def HR2 : Prop := ∀ (V : (c : Dev nD) → (b : Ref sig .tc) → Buf (Elt Ideal) ((c : Thread nD τ).loc b)) (c : Dev nD),
    (dat2 (F := Ideal) V c).arrAt 8 cfg2.N
      = Cert.Spec.mlp2two (V c main_v4) (Cert.Spec.quot (V c main_v31) (V c main_v11)) (V c main_v33) (V c main_v35)
          (V c main_v37) (V c main_v39) (V c main_v41)

/-- Region 3's result array after all grid points. -/
def HR3 : Prop := ∀ (V : (c : Dev nD) → (b : Ref sig .tc) → Buf (Elt Ideal) ((c : Thread nD τ).loc b)) (c : Dev nD),
    (dat3 (F := Ideal) V c).arrAt 7 cfg3.N
      = Cert.Spec.mlp2two (V c main_v43) (V c main_v44) (V c main_v46) (V c main_v48) (V c main_v50) (V c main_v52) (V c main_v54)

/-- Region 4's result array after all grid points. -/
def HR4 : Prop := ∀ (V : (c : Dev nD) → (b : Ref sig .tc) → Buf (Elt Ideal) ((c : Thread nD τ).loc b)) (c : Dev nD),
    (dat4 (F := Ideal) V c).arrAt 8 cfg4.N
      = Cert.Spec.mlp2two (V c main_v42) (Cert.Spec.quot (V c main_v58) (V c main_v11)) (V c main_v60) (V c main_v62)
          (V c main_v64) (V c main_v66) (V c main_v68)

/-- Region 5's result array after all grid points. -/
def HR5 : Prop := ∀ (V : (c : Dev nD) → (b : Ref sig .tc) → Buf (Elt Ideal) ((c : Thread nD τ).loc b)) (c : Dev nD),
    (dat5 (F := Ideal) V c).arrAt 7 cfg5.N
      = Cert.Spec.mlp2two (V c main_v70) (V c main_v71) (V c main_v73) (V c main_v75) (V c main_v77) (V c main_v79) (V c main_v81)

/-- Region 6's result array after all grid points. -/
def HR6 : Prop := ∀ (V : (c : Dev nD) → (b : Ref sig .tc) → Buf (Elt Ideal) ((c : Thread nD τ).loc b)) (c : Dev nD),
    (dat6 (F := Ideal) V c).arrAt 8 cfg6.N
      = Cert.Spec.mlp2two (V c main_v69) (Cert.Spec.quot (V c main_v85) (V c main_v11)) (V c main_v87) (V c main_v89)
          (V c main_v91) (V c main_v93) (V c main_v95)

/-- Region 7's result array after all grid points. -/
def HR7 : Prop := ∀ (V : (c : Dev nD) → (b : Ref sig .tc) → Buf (Elt Ideal) ((c : Thread nD τ).loc b)) (c : Dev nD),
    (dat7 (F := Ideal) V c).arrAt 5 cfg7.N
      = Cert.Spec.head (V c main_v96) (V c main_arg14) (V c main_arg15) (V c main_arg16) (V c main_arg17)

section Chain

variable (m : (ℓ : Loc nD τ sig) → Buf (Elt Ideal) ℓ) (ρ : Dev nD → PrngReg) (c : Dev nD)

variable (hR0 : HR0) (hR1 : HR1) (hR2 : HR2) (hR3 : HR3) (hR4 : HR4) (hR5 : HR5) (hR6 : HR6) (hR7 : HR7)
  (hr : ∀ i : S2x1000000.Idx, 0 ≤ ((m ((c : Thread nD τ).loc main_arg1)) i).toInt ∧ ((m ((c : Thread nD τ).loc main_arg1)) i).toInt < 100000)

/-! ## The node states between the layers -/

/-- The node states after the encoder. -/
def h0 : FVec Ideal S100000x64 .f32 := Net.enc (m ((c : Thread nD τ).loc main_arg0)) (m ((c : Thread nD τ).loc main_arg2)) (m ((c : Thread nD τ).loc main_arg3)) (m ((c : Thread nD τ).loc main_arg4)) (m ((c : Thread nD τ).loc main_arg5))
/-- The node states after the first layer. -/
def h1 : FVec Ideal S100000x64 .f32 := Net.layer (h0 m c) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (0 : Fin 3)
/-- The node states after the second layer. -/
def h2 : FVec Ideal S100000x64 .f32 := Net.layer (h1 m c) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (1 : Fin 3)
/-- The node states after the third layer. -/
def h3 : FVec Ideal S100000x64 .f32 := Net.layer (h2 m c) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (2 : Fin 3)

/-! ## Buffers that are read long after they are written: the index rows, the counts, the weight halves, the arguments -/

theorem W1_v1 : W1 m ρ c (Proc.devRef .tc main_v1) = Net.src (m ((c : Thread nD τ).loc main_arg1)) := s0_v1 (W0 m ρ c)
theorem W1_v3 : W1 m ρ c (Proc.devRef .tc main_v3) = Net.dst (m ((c : Thread nD τ).loc main_arg1)) := s0_v3 (W0 m ρ c)
theorem W3_v1 : W3 m ρ c (Proc.devRef .tc main_v1) = Net.src (m ((c : Thread nD τ).loc main_arg1)) := (Walk.keep_v1_3_1 m ρ c).trans (W1_v1 m ρ c)
theorem W9_v1 : W9 m ρ c (Proc.devRef .tc main_v1) = Net.src (m ((c : Thread nD τ).loc main_arg1)) := (Walk.keep_v1_9_3 m ρ c).trans (W3_v1 m ρ c)
theorem W15_v1 : W15 m ρ c (Proc.devRef .tc main_v1) = Net.src (m ((c : Thread nD τ).loc main_arg1)) := (Walk.keep_v1_15_9 m ρ c).trans (W9_v1 m ρ c)
theorem W2_v3 : W2 m ρ c (Proc.devRef .tc main_v3) = Net.dst (m ((c : Thread nD τ).loc main_arg1)) := (Walk.keep_v3_2_1 m ρ c).trans (W1_v3 m ρ c)
theorem W4_v3 : W4 m ρ c (Proc.devRef .tc main_v3) = Net.dst (m ((c : Thread nD τ).loc main_arg1)) := (Walk.keep_v3_4_2 m ρ c).trans (W2_v3 m ρ c)
theorem W7_v3 : W7 m ρ c (Proc.devRef .tc main_v3) = Net.dst (m ((c : Thread nD τ).loc main_arg1)) := (Walk.keep_v3_7_4 m ρ c).trans (W4_v3 m ρ c)
theorem W10_v3 : W10 m ρ c (Proc.devRef .tc main_v3) = Net.dst (m ((c : Thread nD τ).loc main_arg1)) := (Walk.keep_v3_10_7 m ρ c).trans (W7_v3 m ρ c)
theorem W13_v3 : W13 m ρ c (Proc.devRef .tc main_v3) = Net.dst (m ((c : Thread nD τ).loc main_arg1)) := (Walk.keep_v3_13_10 m ρ c).trans (W10_v3 m ρ c)
theorem W16_v3 : W16 m ρ c (Proc.devRef .tc main_v3) = Net.dst (m ((c : Thread nD τ).loc main_arg1)) := (Walk.keep_v3_16_13 m ρ c).trans (W13_v3 m ρ c)
theorem W19_v3 : W19 m ρ c (Proc.devRef .tc main_v3) = Net.dst (m ((c : Thread nD τ).loc main_arg1)) := (Walk.keep_v3_19_16 m ρ c).trans (W16_v3 m ρ c)

theorem W3_v11 : W3 m ρ c (Proc.devRef .tc main_v11) = Net.den (m ((c : Thread nD τ).loc main_arg1)) := by
  refine (s1_v11 (W2 m ρ c)).trans ?_
  rw [W2_v3 m ρ c]
  rfl
theorem W8_v11 : W8 m ρ c (Proc.devRef .tc main_v11) = Net.den (m ((c : Thread nD τ).loc main_arg1)) := (Walk.keep_v11_8_3 m ρ c).trans (W3_v11 m ρ c)
theorem W14_v11 : W14 m ρ c (Proc.devRef .tc main_v11) = Net.den (m ((c : Thread nD τ).loc main_arg1)) := (Walk.keep_v11_14_8 m ρ c).trans (W8_v11 m ρ c)
theorem W20_v11 : W20 m ρ c (Proc.devRef .tc main_v11) = Net.den (m ((c : Thread nD τ).loc main_arg1)) := (Walk.keep_v11_20_14 m ρ c).trans (W14_v11 m ρ c)

theorem W3_v12 : W3 m ρ c (Proc.devRef .tc main_v12) = extractStridedSlice S3x64x64 ![0, 0, 0] (m ((c : Thread nD τ).loc main_arg6)) Facts₀.slices_S3x128x64_S3x64x64_0_0_0 := by
  refine (s1_v12 (W2 m ρ c)).trans ?_
  rw [Walk.keep_arg6_2_0 m ρ c]
theorem W5_v12 : W5 m ρ c (Proc.devRef .tc main_v12) = extractStridedSlice S3x64x64 ![0, 0, 0] (m ((c : Thread nD τ).loc main_arg6)) Facts₀.slices_S3x128x64_S3x64x64_0_0_0 := (Walk.keep_v12_5_3 m ρ c).trans (W3_v12 m ρ c)
theorem W11_v12 : W11 m ρ c (Proc.devRef .tc main_v12) = extractStridedSlice S3x64x64 ![0, 0, 0] (m ((c : Thread nD τ).loc main_arg6)) Facts₀.slices_S3x128x64_S3x64x64_0_0_0 := (Walk.keep_v12_11_5 m ρ c).trans (W5_v12 m ρ c)
theorem W17_v12 : W17 m ρ c (Proc.devRef .tc main_v12) = extractStridedSlice S3x64x64 ![0, 0, 0] (m ((c : Thread nD τ).loc main_arg6)) Facts₀.slices_S3x128x64_S3x64x64_0_0_0 := (Walk.keep_v12_17_11 m ρ c).trans (W11_v12 m ρ c)
theorem W3_v13 : W3 m ρ c (Proc.devRef .tc main_v13) = extractStridedSlice S3x64x64 ![0, 64, 0] (m ((c : Thread nD τ).loc main_arg6)) Facts₀.slices_S3x128x64_S3x64x64_0_64_0 := by
  refine (s1_v13 (W2 m ρ c)).trans ?_
  rw [Walk.keep_arg6_2_0 m ρ c]
theorem W5_v13 : W5 m ρ c (Proc.devRef .tc main_v13) = extractStridedSlice S3x64x64 ![0, 64, 0] (m ((c : Thread nD τ).loc main_arg6)) Facts₀.slices_S3x128x64_S3x64x64_0_64_0 := (Walk.keep_v13_5_3 m ρ c).trans (W3_v13 m ρ c)
theorem W11_v13 : W11 m ρ c (Proc.devRef .tc main_v13) = extractStridedSlice S3x64x64 ![0, 64, 0] (m ((c : Thread nD τ).loc main_arg6)) Facts₀.slices_S3x128x64_S3x64x64_0_64_0 := (Walk.keep_v13_11_5 m ρ c).trans (W5_v13 m ρ c)
theorem W17_v13 : W17 m ρ c (Proc.devRef .tc main_v13) = extractStridedSlice S3x64x64 ![0, 64, 0] (m ((c : Thread nD τ).loc main_arg6)) Facts₀.slices_S3x128x64_S3x64x64_0_64_0 := (Walk.keep_v13_17_11 m ρ c).trans (W11_v13 m ρ c)
theorem W3_v14 : W3 m ρ c (Proc.devRef .tc main_v14) = extractStridedSlice S3x64x64 ![0, 0, 0] (m ((c : Thread nD τ).loc main_arg10)) Facts₀.slices_S3x128x64_S3x64x64_0_0_0 := by
  refine (s1_v14 (W2 m ρ c)).trans ?_
  rw [Walk.keep_arg10_2_0 m ρ c]
theorem W7_v14 : W7 m ρ c (Proc.devRef .tc main_v14) = extractStridedSlice S3x64x64 ![0, 0, 0] (m ((c : Thread nD τ).loc main_arg10)) Facts₀.slices_S3x128x64_S3x64x64_0_0_0 := (Walk.keep_v14_7_3 m ρ c).trans (W3_v14 m ρ c)
theorem W13_v14 : W13 m ρ c (Proc.devRef .tc main_v14) = extractStridedSlice S3x64x64 ![0, 0, 0] (m ((c : Thread nD τ).loc main_arg10)) Facts₀.slices_S3x128x64_S3x64x64_0_0_0 := (Walk.keep_v14_13_7 m ρ c).trans (W7_v14 m ρ c)
theorem W19_v14 : W19 m ρ c (Proc.devRef .tc main_v14) = extractStridedSlice S3x64x64 ![0, 0, 0] (m ((c : Thread nD τ).loc main_arg10)) Facts₀.slices_S3x128x64_S3x64x64_0_0_0 := (Walk.keep_v14_19_13 m ρ c).trans (W13_v14 m ρ c)
theorem W3_v15 : W3 m ρ c (Proc.devRef .tc main_v15) = extractStridedSlice S3x64x64 ![0, 64, 0] (m ((c : Thread nD τ).loc main_arg10)) Facts₀.slices_S3x128x64_S3x64x64_0_64_0 := by
  refine (s1_v15 (W2 m ρ c)).trans ?_
  rw [Walk.keep_arg10_2_0 m ρ c]
theorem W7_v15 : W7 m ρ c (Proc.devRef .tc main_v15) = extractStridedSlice S3x64x64 ![0, 64, 0] (m ((c : Thread nD τ).loc main_arg10)) Facts₀.slices_S3x128x64_S3x64x64_0_64_0 := (Walk.keep_v15_7_3 m ρ c).trans (W3_v15 m ρ c)
theorem W13_v15 : W13 m ρ c (Proc.devRef .tc main_v15) = extractStridedSlice S3x64x64 ![0, 64, 0] (m ((c : Thread nD τ).loc main_arg10)) Facts₀.slices_S3x128x64_S3x64x64_0_64_0 := (Walk.keep_v15_13_7 m ρ c).trans (W7_v15 m ρ c)
theorem W19_v15 : W19 m ρ c (Proc.devRef .tc main_v15) = extractStridedSlice S3x64x64 ![0, 64, 0] (m ((c : Thread nD τ).loc main_arg10)) Facts₀.slices_S3x128x64_S3x64x64_0_64_0 := (Walk.keep_v15_19_13 m ρ c).trans (W13_v15 m ρ c)
theorem W5_arg7 : W5 m ρ c (Proc.devRef .tc main_arg7) = (m ((c : Thread nD τ).loc main_arg7)) := Walk.keep_arg7_5_0 m ρ c
theorem W11_arg7 : W11 m ρ c (Proc.devRef .tc main_arg7) = (m ((c : Thread nD τ).loc main_arg7)) := (Walk.keep_arg7_11_5 m ρ c).trans (W5_arg7 m ρ c)
theorem W17_arg7 : W17 m ρ c (Proc.devRef .tc main_arg7) = (m ((c : Thread nD τ).loc main_arg7)) := (Walk.keep_arg7_17_11 m ρ c).trans (W11_arg7 m ρ c)
theorem W5_arg8 : W5 m ρ c (Proc.devRef .tc main_arg8) = (m ((c : Thread nD τ).loc main_arg8)) := Walk.keep_arg8_5_0 m ρ c
theorem W11_arg8 : W11 m ρ c (Proc.devRef .tc main_arg8) = (m ((c : Thread nD τ).loc main_arg8)) := (Walk.keep_arg8_11_5 m ρ c).trans (W5_arg8 m ρ c)
theorem W17_arg8 : W17 m ρ c (Proc.devRef .tc main_arg8) = (m ((c : Thread nD τ).loc main_arg8)) := (Walk.keep_arg8_17_11 m ρ c).trans (W11_arg8 m ρ c)
theorem W5_arg9 : W5 m ρ c (Proc.devRef .tc main_arg9) = (m ((c : Thread nD τ).loc main_arg9)) := Walk.keep_arg9_5_0 m ρ c
theorem W11_arg9 : W11 m ρ c (Proc.devRef .tc main_arg9) = (m ((c : Thread nD τ).loc main_arg9)) := (Walk.keep_arg9_11_5 m ρ c).trans (W5_arg9 m ρ c)
theorem W17_arg9 : W17 m ρ c (Proc.devRef .tc main_arg9) = (m ((c : Thread nD τ).loc main_arg9)) := (Walk.keep_arg9_17_11 m ρ c).trans (W11_arg9 m ρ c)
theorem W7_arg11 : W7 m ρ c (Proc.devRef .tc main_arg11) = (m ((c : Thread nD τ).loc main_arg11)) := Walk.keep_arg11_7_0 m ρ c
theorem W13_arg11 : W13 m ρ c (Proc.devRef .tc main_arg11) = (m ((c : Thread nD τ).loc main_arg11)) := (Walk.keep_arg11_13_7 m ρ c).trans (W7_arg11 m ρ c)
theorem W19_arg11 : W19 m ρ c (Proc.devRef .tc main_arg11) = (m ((c : Thread nD τ).loc main_arg11)) := (Walk.keep_arg11_19_13 m ρ c).trans (W13_arg11 m ρ c)
theorem W7_arg12 : W7 m ρ c (Proc.devRef .tc main_arg12) = (m ((c : Thread nD τ).loc main_arg12)) := Walk.keep_arg12_7_0 m ρ c
theorem W13_arg12 : W13 m ρ c (Proc.devRef .tc main_arg12) = (m ((c : Thread nD τ).loc main_arg12)) := (Walk.keep_arg12_13_7 m ρ c).trans (W7_arg12 m ρ c)
theorem W19_arg12 : W19 m ρ c (Proc.devRef .tc main_arg12) = (m ((c : Thread nD τ).loc main_arg12)) := (Walk.keep_arg12_19_13 m ρ c).trans (W13_arg12 m ρ c)
theorem W7_arg13 : W7 m ρ c (Proc.devRef .tc main_arg13) = (m ((c : Thread nD τ).loc main_arg13)) := Walk.keep_arg13_7_0 m ρ c
theorem W13_arg13 : W13 m ρ c (Proc.devRef .tc main_arg13) = (m ((c : Thread nD τ).loc main_arg13)) := (Walk.keep_arg13_13_7 m ρ c).trans (W7_arg13 m ρ c)
theorem W19_arg13 : W19 m ρ c (Proc.devRef .tc main_arg13) = (m ((c : Thread nD τ).loc main_arg13)) := (Walk.keep_arg13_19_13 m ρ c).trans (W13_arg13 m ρ c)

/-! ## The encoder -/

include hR0 in
theorem W2_v4 : W2 m ρ c (Proc.devRef .tc main_v4) = h0 m c := by
  have e0 : V1 m ρ c main_arg0 = (m ((c : Thread nD τ).loc main_arg0)) := Walk.keep_arg0_1_0 m ρ c
  have e2 : V1 m ρ c main_arg2 = (m ((c : Thread nD τ).loc main_arg2)) := Walk.keep_arg2_1_0 m ρ c
  have e3 : V1 m ρ c main_arg3 = (m ((c : Thread nD τ).loc main_arg3)) := Walk.keep_arg3_1_0 m ρ c
  have e4 : V1 m ρ c main_arg4 = (m ((c : Thread nD τ).loc main_arg4)) := Walk.keep_arg4_1_0 m ρ c
  have e5 : V1 m ρ c main_arg5 = (m ((c : Thread nD τ).loc main_arg5)) := Walk.keep_arg5_1_0 m ρ c
  refine (W2_arr m ρ c 5).trans ((hR0 (V1 m ρ) c).trans ?_)
  rw [e0, e2, e3, e4, e5]
  rfl

/-! ## Layer 0 -/

include hR0 hR1 hR2 hR3 hR4 hR5 hR6 hR7 hr in
theorem W4_v16 : W4 m ρ c (Proc.devRef .tc main_v16) = Net.rowsAt (h0 m c) (Net.src (m ((c : Thread nD τ).loc main_arg1))) := by
  have eh : W3 m ρ c (Proc.devRef .tc main_v4) = h0 m c := (Walk.keep_v4_3_2 m ρ c).trans (W2_v4 m ρ c hR0)
  refine (s_hostOps1_1_v16 (W3 m ρ c)).trans ?_
  rw [eh, W3_v1 m ρ c]
  exact takeFill_eq _ _ (Glue.src_range (m ((c : Thread nD τ).loc main_arg1)) hr)

include hR0 hR1 hR2 hR3 hR4 hR5 hR6 hR7 hr in
theorem W5_v17 : W5 m ρ c (Proc.devRef .tc main_v17) = Net.rowsAt (h0 m c) (Net.dst (m ((c : Thread nD τ).loc main_arg1))) := by
  have eh : W4 m ρ c (Proc.devRef .tc main_v4) = h0 m c := (Walk.keep_v4_4_3 m ρ c).trans ((Walk.keep_v4_3_2 m ρ c).trans (W2_v4 m ρ c hR0))
  refine (s_hostOps1_2_v17 (W4 m ρ c)).trans ?_
  rw [eh, W4_v3 m ρ c]
  exact takeFill_eq _ _ (Glue.dst_range (m ((c : Thread nD τ).loc main_arg1)) hr)

theorem W6_v19 : W6 m ρ c (Proc.devRef .tc main_v19) = Cert.Spec.wTop (m ((c : Thread nD τ).loc main_arg6)) (0 : Fin 3) := by
  refine (s_hostOps1_3_v19 (W5 m ρ c)).trans ?_
  rw [W5_v12 m ρ c]
  exact Glue.wTop_0 (m ((c : Thread nD τ).loc main_arg6))
theorem W6_v21 : W6 m ρ c (Proc.devRef .tc main_v21) = Cert.Spec.wBot (m ((c : Thread nD τ).loc main_arg6)) (0 : Fin 3) := by
  refine (s_hostOps1_3_v21 (W5 m ρ c)).trans ?_
  rw [W5_v13 m ρ c]
  exact Glue.wBot_0 (m ((c : Thread nD τ).loc main_arg6))
theorem W6_v23 : W6 m ρ c (Proc.devRef .tc main_v23) = Cert.Spec.row (m ((c : Thread nD τ).loc main_arg7)) (0 : Fin 3) := by
  refine (s_hostOps1_3_v23 (W5 m ρ c)).trans ?_
  rw [W5_arg7 m ρ c]
  exact Glue.row_0 (m ((c : Thread nD τ).loc main_arg7))
theorem W6_v25 : W6 m ρ c (Proc.devRef .tc main_v25) = Cert.Spec.mat (m ((c : Thread nD τ).loc main_arg8)) (0 : Fin 3) := by
  refine (s_hostOps1_3_v25 (W5 m ρ c)).trans ?_
  rw [W5_arg8 m ρ c]
  exact Glue.mat_0 (m ((c : Thread nD τ).loc main_arg8))
theorem W6_v27 : W6 m ρ c (Proc.devRef .tc main_v27) = Cert.Spec.row (m ((c : Thread nD τ).loc main_arg9)) (0 : Fin 3) := by
  refine (s_hostOps1_3_v27 (W5 m ρ c)).trans ?_
  rw [W5_arg9 m ρ c]
  exact Glue.row_0 (m ((c : Thread nD τ).loc main_arg9))

include hR0 hR1 hR2 hR3 hR4 hR5 hR6 hR7 hr in
theorem W7_v28 : W7 m ρ c (Proc.devRef .tc main_v28) = Net.msg (h0 m c) (m ((c : Thread nD τ).loc main_arg1)) (m ((c : Thread nD τ).loc main_arg6)) (m ((c : Thread nD τ).loc main_arg7)) (m ((c : Thread nD τ).loc main_arg8)) (m ((c : Thread nD τ).loc main_arg9)) (0 : Fin 3) := by
  have ea : V6 m ρ c main_v16 = Net.rowsAt (h0 m c) (Net.src (m ((c : Thread nD τ).loc main_arg1))) := (Walk.keep_v16_6_4 m ρ c).trans (W4_v16 m ρ c hR0 hR1 hR2 hR3 hR4 hR5 hR6 hR7 hr)
  have eb : V6 m ρ c main_v17 = Net.rowsAt (h0 m c) (Net.dst (m ((c : Thread nD τ).loc main_arg1))) := (Walk.keep_v17_6_5 m ρ c).trans (W5_v17 m ρ c hR0 hR1 hR2 hR3 hR4 hR5 hR6 hR7 hr)
  have e0 : V6 m ρ c main_v19 = Cert.Spec.wTop (m ((c : Thread nD τ).loc main_arg6)) (0 : Fin 3) := W6_v19 m ρ c
  have e1 : V6 m ρ c main_v21 = Cert.Spec.wBot (m ((c : Thread nD τ).loc main_arg6)) (0 : Fin 3) := W6_v21 m ρ c
  have e2 : V6 m ρ c main_v23 = Cert.Spec.row (m ((c : Thread nD τ).loc main_arg7)) (0 : Fin 3) := W6_v23 m ρ c
  have e3 : V6 m ρ c main_v25 = Cert.Spec.mat (m ((c : Thread nD τ).loc main_arg8)) (0 : Fin 3) := W6_v25 m ρ c
  have e4 : V6 m ρ c main_v27 = Cert.Spec.row (m ((c : Thread nD τ).loc main_arg9)) (0 : Fin 3) := W6_v27 m ρ c
  refine (W7_arr m ρ c 7).trans ((hR1 (V6 m ρ) c).trans ?_)
  rw [ea, eb, e0, e1, e2, e3, e4]
  rfl

include hR0 hR1 hR2 hR3 hR4 hR5 hR6 hR7 hr in
theorem W8_v31 : W8 m ρ c (Proc.devRef .tc main_v31) = Net.sumAt (Net.dst (m ((c : Thread nD τ).loc main_arg1))) (Net.msg (h0 m c) (m ((c : Thread nD τ).loc main_arg1)) (m ((c : Thread nD τ).loc main_arg6)) (m ((c : Thread nD τ).loc main_arg7)) (m ((c : Thread nD τ).loc main_arg8)) (m ((c : Thread nD τ).loc main_arg9)) (0 : Fin 3)) := by
  refine (s_hostOps2_v31 (W7 m ρ c)).trans ?_
  rw [W7_v3 m ρ c, W7_v28 m ρ c hR0 hR1 hR2 hR3 hR4 hR5 hR6 hR7 hr]

theorem W8_v33 : W8 m ρ c (Proc.devRef .tc main_v33) = Cert.Spec.wTop (m ((c : Thread nD τ).loc main_arg10)) (0 : Fin 3) := by
  refine (s_hostOps2_v33 (W7 m ρ c)).trans ?_
  rw [W7_v14 m ρ c]
  exact Glue.wTop_0 (m ((c : Thread nD τ).loc main_arg10))
theorem W8_v35 : W8 m ρ c (Proc.devRef .tc main_v35) = Cert.Spec.wBot (m ((c : Thread nD τ).loc main_arg10)) (0 : Fin 3) := by
  refine (s_hostOps2_v35 (W7 m ρ c)).trans ?_
  rw [W7_v15 m ρ c]
  exact Glue.wBot_0 (m ((c : Thread nD τ).loc main_arg10))
theorem W8_v37 : W8 m ρ c (Proc.devRef .tc main_v37) = Cert.Spec.row (m ((c : Thread nD τ).loc main_arg11)) (0 : Fin 3) := by
  refine (s_hostOps2_v37 (W7 m ρ c)).trans ?_
  rw [W7_arg11 m ρ c]
  exact Glue.row_0 (m ((c : Thread nD τ).loc main_arg11))
theorem W8_v39 : W8 m ρ c (Proc.devRef .tc main_v39) = Cert.Spec.mat (m ((c : Thread nD τ).loc main_arg12)) (0 : Fin 3) := by
  refine (s_hostOps2_v39 (W7 m ρ c)).trans ?_
  rw [W7_arg12 m ρ c]
  exact Glue.mat_0 (m ((c : Thread nD τ).loc main_arg12))
theorem W8_v41 : W8 m ρ c (Proc.devRef .tc main_v41) = Cert.Spec.row (m ((c : Thread nD τ).loc main_arg13)) (0 : Fin 3) := by
  refine (s_hostOps2_v41 (W7 m ρ c)).trans ?_
  rw [W7_arg13 m ρ c]
  exact Glue.row_0 (m ((c : Thread nD τ).loc main_arg13))

include hR0 hR1 hR2 hR3 hR4 hR5 hR6 hR7 hr in
theorem W9_v42 : W9 m ρ c (Proc.devRef .tc main_v42) = h1 m c := by
  have eh : V8 m ρ c main_v4 = h0 m c := (Walk.keep_v4_8_4 m ρ c).trans ((Walk.keep_v4_4_3 m ρ c).trans ((Walk.keep_v4_3_2 m ρ c).trans (W2_v4 m ρ c hR0)))
  have es : V8 m ρ c main_v31 = Net.sumAt (Net.dst (m ((c : Thread nD τ).loc main_arg1))) (Net.msg (h0 m c) (m ((c : Thread nD τ).loc main_arg1)) (m ((c : Thread nD τ).loc main_arg6)) (m ((c : Thread nD τ).loc main_arg7)) (m ((c : Thread nD τ).loc main_arg8)) (m ((c : Thread nD τ).loc main_arg9)) (0 : Fin 3)) := W8_v31 m ρ c hR0 hR1 hR2 hR3 hR4 hR5 hR6 hR7 hr
  have ed : V8 m ρ c main_v11 = Net.den (m ((c : Thread nD τ).loc main_arg1)) := W8_v11 m ρ c
  have e0 : V8 m ρ c main_v33 = Cert.Spec.wTop (m ((c : Thread nD τ).loc main_arg10)) (0 : Fin 3) := W8_v33 m ρ c
  have e1 : V8 m ρ c main_v35 = Cert.Spec.wBot (m ((c : Thread nD τ).loc main_arg10)) (0 : Fin 3) := W8_v35 m ρ c
  have e2 : V8 m ρ c main_v37 = Cert.Spec.row (m ((c : Thread nD τ).loc main_arg11)) (0 : Fin 3) := W8_v37 m ρ c
  have e3 : V8 m ρ c main_v39 = Cert.Spec.mat (m ((c : Thread nD τ).loc main_arg12)) (0 : Fin 3) := W8_v39 m ρ c
  have e4 : V8 m ρ c main_v41 = Cert.Spec.row (m ((c : Thread nD τ).loc main_arg13)) (0 : Fin 3) := W8_v41 m ρ c
  refine (W9_arr m ρ c 8).trans ((hR2 (V8 m ρ) c).trans ?_)
  rw [eh, es, ed, e0, e1, e2, e3, e4]
  rfl

/-! ## Layer 1 -/

include hR0 hR1 hR2 hR3 hR4 hR5 hR6 hR7 hr in
theorem W10_v43 : W10 m ρ c (Proc.devRef .tc main_v43) = Net.rowsAt (h1 m c) (Net.src (m ((c : Thread nD τ).loc main_arg1))) := by
  have eh : W9 m ρ c (Proc.devRef .tc main_v42) = h1 m c := W9_v42 m ρ c hR0 hR1 hR2 hR3 hR4 hR5 hR6 hR7 hr
  refine (s_hostOps3_v43 (W9 m ρ c)).trans ?_
  rw [eh, W9_v1 m ρ c]
  exact takeFill_eq _ _ (Glue.src_range (m ((c : Thread nD τ).loc main_arg1)) hr)

include hR0 hR1 hR2 hR3 hR4 hR5 hR6 hR7 hr in
theorem W11_v44 : W11 m ρ c (Proc.devRef .tc main_v44) = Net.rowsAt (h1 m c) (Net.dst (m ((c : Thread nD τ).loc main_arg1))) := by
  have eh : W10 m ρ c (Proc.devRef .tc main_v42) = h1 m c := (Walk.keep_v42_10_9 m ρ c).trans (W9_v42 m ρ c hR0 hR1 hR2 hR3 hR4 hR5 hR6 hR7 hr)
  refine (s_hostOps3_1_v44 (W10 m ρ c)).trans ?_
  rw [eh, W10_v3 m ρ c]
  exact takeFill_eq _ _ (Glue.dst_range (m ((c : Thread nD τ).loc main_arg1)) hr)

theorem W12_v46 : W12 m ρ c (Proc.devRef .tc main_v46) = Cert.Spec.wTop (m ((c : Thread nD τ).loc main_arg6)) (1 : Fin 3) := by
  refine (s_hostOps3_2_v46 (W11 m ρ c)).trans ?_
  rw [W11_v12 m ρ c]
  exact Glue.wTop_1 (m ((c : Thread nD τ).loc main_arg6))
theorem W12_v48 : W12 m ρ c (Proc.devRef .tc main_v48) = Cert.Spec.wBot (m ((c : Thread nD τ).loc main_arg6)) (1 : Fin 3) := by
  refine (s_hostOps3_2_v48 (W11 m ρ c)).trans ?_
  rw [W11_v13 m ρ c]
  exact Glue.wBot_1 (m ((c : Thread nD τ).loc main_arg6))
theorem W12_v50 : W12 m ρ c (Proc.devRef .tc main_v50) = Cert.Spec.row (m ((c : Thread nD τ).loc main_arg7)) (1 : Fin 3) := by
  refine (s_hostOps3_2_v50 (W11 m ρ c)).trans ?_
  rw [W11_arg7 m ρ c]
  exact Glue.row_1 (m ((c : Thread nD τ).loc main_arg7))
theorem W12_v52 : W12 m ρ c (Proc.devRef .tc main_v52) = Cert.Spec.mat (m ((c : Thread nD τ).loc main_arg8)) (1 : Fin 3) := by
  refine (s_hostOps3_2_v52 (W11 m ρ c)).trans ?_
  rw [W11_arg8 m ρ c]
  exact Glue.mat_1 (m ((c : Thread nD τ).loc main_arg8))
theorem W12_v54 : W12 m ρ c (Proc.devRef .tc main_v54) = Cert.Spec.row (m ((c : Thread nD τ).loc main_arg9)) (1 : Fin 3) := by
  refine (s_hostOps3_2_v54 (W11 m ρ c)).trans ?_
  rw [W11_arg9 m ρ c]
  exact Glue.row_1 (m ((c : Thread nD τ).loc main_arg9))

include hR0 hR1 hR2 hR3 hR4 hR5 hR6 hR7 hr in
theorem W13_v55 : W13 m ρ c (Proc.devRef .tc main_v55) = Net.msg (h1 m c) (m ((c : Thread nD τ).loc main_arg1)) (m ((c : Thread nD τ).loc main_arg6)) (m ((c : Thread nD τ).loc main_arg7)) (m ((c : Thread nD τ).loc main_arg8)) (m ((c : Thread nD τ).loc main_arg9)) (1 : Fin 3) := by
  have ea : V12 m ρ c main_v43 = Net.rowsAt (h1 m c) (Net.src (m ((c : Thread nD τ).loc main_arg1))) := (Walk.keep_v43_12_10 m ρ c).trans (W10_v43 m ρ c hR0 hR1 hR2 hR3 hR4 hR5 hR6 hR7 hr)
  have eb : V12 m ρ c main_v44 = Net.rowsAt (h1 m c) (Net.dst (m ((c : Thread nD τ).loc main_arg1))) := (Walk.keep_v44_12_11 m ρ c).trans (W11_v44 m ρ c hR0 hR1 hR2 hR3 hR4 hR5 hR6 hR7 hr)
  have e0 : V12 m ρ c main_v46 = Cert.Spec.wTop (m ((c : Thread nD τ).loc main_arg6)) (1 : Fin 3) := W12_v46 m ρ c
  have e1 : V12 m ρ c main_v48 = Cert.Spec.wBot (m ((c : Thread nD τ).loc main_arg6)) (1 : Fin 3) := W12_v48 m ρ c
  have e2 : V12 m ρ c main_v50 = Cert.Spec.row (m ((c : Thread nD τ).loc main_arg7)) (1 : Fin 3) := W12_v50 m ρ c
  have e3 : V12 m ρ c main_v52 = Cert.Spec.mat (m ((c : Thread nD τ).loc main_arg8)) (1 : Fin 3) := W12_v52 m ρ c
  have e4 : V12 m ρ c main_v54 = Cert.Spec.row (m ((c : Thread nD τ).loc main_arg9)) (1 : Fin 3) := W12_v54 m ρ c
  refine (W13_arr m ρ c 7).trans ((hR3 (V12 m ρ) c).trans ?_)
  rw [ea, eb, e0, e1, e2, e3, e4]
  rfl

include hR0 hR1 hR2 hR3 hR4 hR5 hR6 hR7 hr in
theorem W14_v58 : W14 m ρ c (Proc.devRef .tc main_v58) = Net.sumAt (Net.dst (m ((c : Thread nD τ).loc main_arg1))) (Net.msg (h1 m c) (m ((c : Thread nD τ).loc main_arg1)) (m ((c : Thread nD τ).loc main_arg6)) (m ((c : Thread nD τ).loc main_arg7)) (m ((c : Thread nD τ).loc main_arg8)) (m ((c : Thread nD τ).loc main_arg9)) (1 : Fin 3)) := by
  refine (s_hostOps4_v58 (W13 m ρ c)).trans ?_
  rw [W13_v3 m ρ c, W13_v55 m ρ c hR0 hR1 hR2 hR3 hR4 hR5 hR6 hR7 hr]

theorem W14_v60 : W14 m ρ c (Proc.devRef .tc main_v60) = Cert.Spec.wTop (m ((c : Thread nD τ).loc main_arg10)) (1 : Fin 3) := by
  refine (s_hostOps4_v60 (W13 m ρ c)).trans ?_
  rw [W13_v14 m ρ c]
  exact Glue.wTop_1 (m ((c : Thread nD τ).loc main_arg10))
theorem W14_v62 : W14 m ρ c (Proc.devRef .tc main_v62) = Cert.Spec.wBot (m ((c : Thread nD τ).loc main_arg10)) (1 : Fin 3) := by
  refine (s_hostOps4_v62 (W13 m ρ c)).trans ?_
  rw [W13_v15 m ρ c]
  exact Glue.wBot_1 (m ((c : Thread nD τ).loc main_arg10))
theorem W14_v64 : W14 m ρ c (Proc.devRef .tc main_v64) = Cert.Spec.row (m ((c : Thread nD τ).loc main_arg11)) (1 : Fin 3) := by
  refine (s_hostOps4_v64 (W13 m ρ c)).trans ?_
  rw [W13_arg11 m ρ c]
  exact Glue.row_1 (m ((c : Thread nD τ).loc main_arg11))
theorem W14_v66 : W14 m ρ c (Proc.devRef .tc main_v66) = Cert.Spec.mat (m ((c : Thread nD τ).loc main_arg12)) (1 : Fin 3) := by
  refine (s_hostOps4_v66 (W13 m ρ c)).trans ?_
  rw [W13_arg12 m ρ c]
  exact Glue.mat_1 (m ((c : Thread nD τ).loc main_arg12))
theorem W14_v68 : W14 m ρ c (Proc.devRef .tc main_v68) = Cert.Spec.row (m ((c : Thread nD τ).loc main_arg13)) (1 : Fin 3) := by
  refine (s_hostOps4_v68 (W13 m ρ c)).trans ?_
  rw [W13_arg13 m ρ c]
  exact Glue.row_1 (m ((c : Thread nD τ).loc main_arg13))

include hR0 hR1 hR2 hR3 hR4 hR5 hR6 hR7 hr in
theorem W15_v69 : W15 m ρ c (Proc.devRef .tc main_v69) = h2 m c := by
  have eh : V14 m ρ c main_v42 = h1 m c := (Walk.keep_v42_14_10 m ρ c).trans ((Walk.keep_v42_10_9 m ρ c).trans (W9_v42 m ρ c hR0 hR1 hR2 hR3 hR4 hR5 hR6 hR7 hr))
  have es : V14 m ρ c main_v58 = Net.sumAt (Net.dst (m ((c : Thread nD τ).loc main_arg1))) (Net.msg (h1 m c) (m ((c : Thread nD τ).loc main_arg1)) (m ((c : Thread nD τ).loc main_arg6)) (m ((c : Thread nD τ).loc main_arg7)) (m ((c : Thread nD τ).loc main_arg8)) (m ((c : Thread nD τ).loc main_arg9)) (1 : Fin 3)) := W14_v58 m ρ c hR0 hR1 hR2 hR3 hR4 hR5 hR6 hR7 hr
  have ed : V14 m ρ c main_v11 = Net.den (m ((c : Thread nD τ).loc main_arg1)) := W14_v11 m ρ c
  have e0 : V14 m ρ c main_v60 = Cert.Spec.wTop (m ((c : Thread nD τ).loc main_arg10)) (1 : Fin 3) := W14_v60 m ρ c
  have e1 : V14 m ρ c main_v62 = Cert.Spec.wBot (m ((c : Thread nD τ).loc main_arg10)) (1 : Fin 3) := W14_v62 m ρ c
  have e2 : V14 m ρ c main_v64 = Cert.Spec.row (m ((c : Thread nD τ).loc main_arg11)) (1 : Fin 3) := W14_v64 m ρ c
  have e3 : V14 m ρ c main_v66 = Cert.Spec.mat (m ((c : Thread nD τ).loc main_arg12)) (1 : Fin 3) := W14_v66 m ρ c
  have e4 : V14 m ρ c main_v68 = Cert.Spec.row (m ((c : Thread nD τ).loc main_arg13)) (1 : Fin 3) := W14_v68 m ρ c
  refine (W15_arr m ρ c 8).trans ((hR4 (V14 m ρ) c).trans ?_)
  rw [eh, es, ed, e0, e1, e2, e3, e4]
  rfl

/-! ## Layer 2 -/

include hR0 hR1 hR2 hR3 hR4 hR5 hR6 hR7 hr in
theorem W16_v70 : W16 m ρ c (Proc.devRef .tc main_v70) = Net.rowsAt (h2 m c) (Net.src (m ((c : Thread nD τ).loc main_arg1))) := by
  have eh : W15 m ρ c (Proc.devRef .tc main_v69) = h2 m c := W15_v69 m ρ c hR0 hR1 hR2 hR3 hR4 hR5 hR6 hR7 hr
  refine (s_hostOps5_v70 (W15 m ρ c)).trans ?_
  rw [eh, W15_v1 m ρ c]
  exact takeFill_eq _ _ (Glue.src_range (m ((c : Thread nD τ).loc main_arg1)) hr)

include hR0 hR1 hR2 hR3 hR4 hR5 hR6 hR7 hr in
theorem W17_v71 : W17 m ρ c (Proc.devRef .tc main_v71) = Net.rowsAt (h2 m c) (Net.dst (m ((c : Thread nD τ).loc main_arg1))) := by
  have eh : W16 m ρ c (Proc.devRef .tc main_v69) = h2 m c := (Walk.keep_v69_16_15 m ρ c).trans (W15_v69 m ρ c hR0 hR1 hR2 hR3 hR4 hR5 hR6 hR7 hr)
  refine (s_hostOps5_1_v71 (W16 m ρ c)).trans ?_
  rw [eh, W16_v3 m ρ c]
  exact takeFill_eq _ _ (Glue.dst_range (m ((c : Thread nD τ).loc main_arg1)) hr)

theorem W18_v73 : W18 m ρ c (Proc.devRef .tc main_v73) = Cert.Spec.wTop (m ((c : Thread nD τ).loc main_arg6)) (2 : Fin 3) := by
  refine (s_hostOps5_2_v73 (W17 m ρ c)).trans ?_
  rw [W17_v12 m ρ c]
  exact Glue.wTop_2 (m ((c : Thread nD τ).loc main_arg6))
theorem W18_v75 : W18 m ρ c (Proc.devRef .tc main_v75) = Cert.Spec.wBot (m ((c : Thread nD τ).loc main_arg6)) (2 : Fin 3) := by
  refine (s_hostOps5_2_v75 (W17 m ρ c)).trans ?_
  rw [W17_v13 m ρ c]
  exact Glue.wBot_2 (m ((c : Thread nD τ).loc main_arg6))
theorem W18_v77 : W18 m ρ c (Proc.devRef .tc main_v77) = Cert.Spec.row (m ((c : Thread nD τ).loc main_arg7)) (2 : Fin 3) := by
  refine (s_hostOps5_2_v77 (W17 m ρ c)).trans ?_
  rw [W17_arg7 m ρ c]
  exact Glue.row_2 (m ((c : Thread nD τ).loc main_arg7))
theorem W18_v79 : W18 m ρ c (Proc.devRef .tc main_v79) = Cert.Spec.mat (m ((c : Thread nD τ).loc main_arg8)) (2 : Fin 3) := by
  refine (s_hostOps5_2_v79 (W17 m ρ c)).trans ?_
  rw [W17_arg8 m ρ c]
  exact Glue.mat_2 (m ((c : Thread nD τ).loc main_arg8))
theorem W18_v81 : W18 m ρ c (Proc.devRef .tc main_v81) = Cert.Spec.row (m ((c : Thread nD τ).loc main_arg9)) (2 : Fin 3) := by
  refine (s_hostOps5_2_v81 (W17 m ρ c)).trans ?_
  rw [W17_arg9 m ρ c]
  exact Glue.row_2 (m ((c : Thread nD τ).loc main_arg9))

include hR0 hR1 hR2 hR3 hR4 hR5 hR6 hR7 hr in
theorem W19_v82 : W19 m ρ c (Proc.devRef .tc main_v82) = Net.msg (h2 m c) (m ((c : Thread nD τ).loc main_arg1)) (m ((c : Thread nD τ).loc main_arg6)) (m ((c : Thread nD τ).loc main_arg7)) (m ((c : Thread nD τ).loc main_arg8)) (m ((c : Thread nD τ).loc main_arg9)) (2 : Fin 3) := by
  have ea : V18 m ρ c main_v70 = Net.rowsAt (h2 m c) (Net.src (m ((c : Thread nD τ).loc main_arg1))) := (Walk.keep_v70_18_16 m ρ c).trans (W16_v70 m ρ c hR0 hR1 hR2 hR3 hR4 hR5 hR6 hR7 hr)
  have eb : V18 m ρ c main_v71 = Net.rowsAt (h2 m c) (Net.dst (m ((c : Thread nD τ).loc main_arg1))) := (Walk.keep_v71_18_17 m ρ c).trans (W17_v71 m ρ c hR0 hR1 hR2 hR3 hR4 hR5 hR6 hR7 hr)
  have e0 : V18 m ρ c main_v73 = Cert.Spec.wTop (m ((c : Thread nD τ).loc main_arg6)) (2 : Fin 3) := W18_v73 m ρ c
  have e1 : V18 m ρ c main_v75 = Cert.Spec.wBot (m ((c : Thread nD τ).loc main_arg6)) (2 : Fin 3) := W18_v75 m ρ c
  have e2 : V18 m ρ c main_v77 = Cert.Spec.row (m ((c : Thread nD τ).loc main_arg7)) (2 : Fin 3) := W18_v77 m ρ c
  have e3 : V18 m ρ c main_v79 = Cert.Spec.mat (m ((c : Thread nD τ).loc main_arg8)) (2 : Fin 3) := W18_v79 m ρ c
  have e4 : V18 m ρ c main_v81 = Cert.Spec.row (m ((c : Thread nD τ).loc main_arg9)) (2 : Fin 3) := W18_v81 m ρ c
  refine (W19_arr m ρ c 7).trans ((hR5 (V18 m ρ) c).trans ?_)
  rw [ea, eb, e0, e1, e2, e3, e4]
  rfl

include hR0 hR1 hR2 hR3 hR4 hR5 hR6 hR7 hr in
theorem W20_v85 : W20 m ρ c (Proc.devRef .tc main_v85) = Net.sumAt (Net.dst (m ((c : Thread nD τ).loc main_arg1))) (Net.msg (h2 m c) (m ((c : Thread nD τ).loc main_arg1)) (m ((c : Thread nD τ).loc main_arg6)) (m ((c : Thread nD τ).loc main_arg7)) (m ((c : Thread nD τ).loc main_arg8)) (m ((c : Thread nD τ).loc main_arg9)) (2 : Fin 3)) := by
  refine (s_hostOps6_v85 (W19 m ρ c)).trans ?_
  rw [W19_v3 m ρ c, W19_v82 m ρ c hR0 hR1 hR2 hR3 hR4 hR5 hR6 hR7 hr]

theorem W20_v87 : W20 m ρ c (Proc.devRef .tc main_v87) = Cert.Spec.wTop (m ((c : Thread nD τ).loc main_arg10)) (2 : Fin 3) := by
  refine (s_hostOps6_v87 (W19 m ρ c)).trans ?_
  rw [W19_v14 m ρ c]
  exact Glue.wTop_2 (m ((c : Thread nD τ).loc main_arg10))
theorem W20_v89 : W20 m ρ c (Proc.devRef .tc main_v89) = Cert.Spec.wBot (m ((c : Thread nD τ).loc main_arg10)) (2 : Fin 3) := by
  refine (s_hostOps6_v89 (W19 m ρ c)).trans ?_
  rw [W19_v15 m ρ c]
  exact Glue.wBot_2 (m ((c : Thread nD τ).loc main_arg10))
theorem W20_v91 : W20 m ρ c (Proc.devRef .tc main_v91) = Cert.Spec.row (m ((c : Thread nD τ).loc main_arg11)) (2 : Fin 3) := by
  refine (s_hostOps6_v91 (W19 m ρ c)).trans ?_
  rw [W19_arg11 m ρ c]
  exact Glue.row_2 (m ((c : Thread nD τ).loc main_arg11))
theorem W20_v93 : W20 m ρ c (Proc.devRef .tc main_v93) = Cert.Spec.mat (m ((c : Thread nD τ).loc main_arg12)) (2 : Fin 3) := by
  refine (s_hostOps6_v93 (W19 m ρ c)).trans ?_
  rw [W19_arg12 m ρ c]
  exact Glue.mat_2 (m ((c : Thread nD τ).loc main_arg12))
theorem W20_v95 : W20 m ρ c (Proc.devRef .tc main_v95) = Cert.Spec.row (m ((c : Thread nD τ).loc main_arg13)) (2 : Fin 3) := by
  refine (s_hostOps6_v95 (W19 m ρ c)).trans ?_
  rw [W19_arg13 m ρ c]
  exact Glue.row_2 (m ((c : Thread nD τ).loc main_arg13))

include hR0 hR1 hR2 hR3 hR4 hR5 hR6 hR7 hr in
theorem W21_v96 : W21 m ρ c (Proc.devRef .tc main_v96) = h3 m c := by
  have eh : V20 m ρ c main_v69 = h2 m c := (Walk.keep_v69_20_16 m ρ c).trans ((Walk.keep_v69_16_15 m ρ c).trans (W15_v69 m ρ c hR0 hR1 hR2 hR3 hR4 hR5 hR6 hR7 hr))
  have es : V20 m ρ c main_v85 = Net.sumAt (Net.dst (m ((c : Thread nD τ).loc main_arg1))) (Net.msg (h2 m c) (m ((c : Thread nD τ).loc main_arg1)) (m ((c : Thread nD τ).loc main_arg6)) (m ((c : Thread nD τ).loc main_arg7)) (m ((c : Thread nD τ).loc main_arg8)) (m ((c : Thread nD τ).loc main_arg9)) (2 : Fin 3)) := W20_v85 m ρ c hR0 hR1 hR2 hR3 hR4 hR5 hR6 hR7 hr
  have ed : V20 m ρ c main_v11 = Net.den (m ((c : Thread nD τ).loc main_arg1)) := W20_v11 m ρ c
  have e0 : V20 m ρ c main_v87 = Cert.Spec.wTop (m ((c : Thread nD τ).loc main_arg10)) (2 : Fin 3) := W20_v87 m ρ c
  have e1 : V20 m ρ c main_v89 = Cert.Spec.wBot (m ((c : Thread nD τ).loc main_arg10)) (2 : Fin 3) := W20_v89 m ρ c
  have e2 : V20 m ρ c main_v91 = Cert.Spec.row (m ((c : Thread nD τ).loc main_arg11)) (2 : Fin 3) := W20_v91 m ρ c
  have e3 : V20 m ρ c main_v93 = Cert.Spec.mat (m ((c : Thread nD τ).loc main_arg12)) (2 : Fin 3) := W20_v93 m ρ c
  have e4 : V20 m ρ c main_v95 = Cert.Spec.row (m ((c : Thread nD τ).loc main_arg13)) (2 : Fin 3) := W20_v95 m ρ c
  refine (W21_arr m ρ c 8).trans ((hR6 (V20 m ρ) c).trans ?_)
  rw [eh, es, ed, e0, e1, e2, e3, e4]
  rfl

/-! ## The output head -/

include hR0 hR1 hR2 hR3 hR4 hR5 hR6 hR7 hr in
theorem W22_v97 : W22 m ρ c (Proc.devRef .tc main_v97) = Cert.Spec.head (h3 m c) (m ((c : Thread nD τ).loc main_arg14)) (m ((c : Thread nD τ).loc main_arg15)) (m ((c : Thread nD τ).loc main_arg16)) (m ((c : Thread nD τ).loc main_arg17)) := by
  have e96 : V21 m ρ c main_v96 = h3 m c := W21_v96 m ρ c hR0 hR1 hR2 hR3 hR4 hR5 hR6 hR7 hr
  have e14 : V21 m ρ c main_arg14 = (m ((c : Thread nD τ).loc main_arg14)) :=
    ((W22_arr m ρ c 1).trans (((dat7 (V21 m ρ) c).arrAt_in 1 rfl _).trans (A_eq7 (V21 m ρ) c 1))).symm.trans (W22_main_arg14 m ρ c)
  have e15 : V21 m ρ c main_arg15 = (m ((c : Thread nD τ).loc main_arg15)) :=
    ((W22_arr m ρ c 2).trans (((dat7 (V21 m ρ) c).arrAt_in 2 rfl _).trans (A_eq7 (V21 m ρ) c 2))).symm.trans (W22_main_arg15 m ρ c)
  have e16 : V21 m ρ c main_arg16 = (m ((c : Thread nD τ).loc main_arg16)) :=
    ((W22_arr m ρ c 3).trans (((dat7 (V21 m ρ) c).arrAt_in 3 rfl _).trans (A_eq7 (V21 m ρ) c 3))).symm.trans (W22_main_arg16 m ρ c)
  have e17 : V21 m ρ c main_arg17 = (m ((c : Thread nD τ).loc main_arg17)) :=
    ((W22_arr m ρ c 4).trans (((dat7 (V21 m ρ) c).arrAt_in 4 rfl _).trans (A_eq7 (V21 m ρ) c 4))).symm.trans (W22_main_arg17 m ρ c)
  refine (W22_arr m ρ c 5).trans ((hR7 (V21 m ρ) c).trans ?_)
  rw [e96, e14, e15, e16, e17]

include hR0 hR1 hR2 hR3 hR4 hR5 hR6 hR7 hr in
theorem out_value' : W22 m ρ c (Proc.devRef .tc main_v97)
    = Cert.KernelIdeal.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  (W22_v97 m ρ c hR0 hR1 hR2 hR3 hR4 hR5 hR6 hR7 hr).trans rfl

end Chain

set_option maxHeartbeats 2000000 in
/-- The result array at the end of the run is the network of the argument arrays. -/
theorem out_value (m : (ℓ : Loc nD τ sig) → Buf (Elt Ideal) ℓ) (ρ : Dev nD → PrngReg) (c : Dev nD)
    (hR0 : ∀ (V : (c : Dev nD) → (b : Ref sig .tc) → Buf (Elt Ideal) ((c : Thread nD τ).loc b)) (c : Dev nD), (dat0 (F := Ideal) V c).arrAt 5 cfg0.N = Cert.Spec.mlp2 (V c main_arg0) (V c main_arg2) (V c main_arg3) (V c main_arg4) (V c main_arg5))
    (hR1 : ∀ (V : (c : Dev nD) → (b : Ref sig .tc) → Buf (Elt Ideal) ((c : Thread nD τ).loc b)) (c : Dev nD), (dat1 (F := Ideal) V c).arrAt 7 cfg1.N = Cert.Spec.mlp2two (V c main_v16) (V c main_v17) (V c main_v19) (V c main_v21) (V c main_v23) (V c main_v25) (V c main_v27))
    (hR2 : ∀ (V : (c : Dev nD) → (b : Ref sig .tc) → Buf (Elt Ideal) ((c : Thread nD τ).loc b)) (c : Dev nD), (dat2 (F := Ideal) V c).arrAt 8 cfg2.N = Cert.Spec.mlp2two (V c main_v4) (Cert.Spec.quot (V c main_v31) (V c main_v11)) (V c main_v33) (V c main_v35) (V c main_v37) (V c main_v39) (V c main_v41))
    (hR3 : ∀ (V : (c : Dev nD) → (b : Ref sig .tc) → Buf (Elt Ideal) ((c : Thread nD τ).loc b)) (c : Dev nD), (dat3 (F := Ideal) V c).arrAt 7 cfg3.N = Cert.Spec.mlp2two (V c main_v43) (V c main_v44) (V c main_v46) (V c main_v48) (V c main_v50) (V c main_v52) (V c main_v54))
    (hR4 : ∀ (V : (c : Dev nD) → (b : Ref sig .tc) → Buf (Elt Ideal) ((c : Thread nD τ).loc b)) (c : Dev nD), (dat4 (F := Ideal) V c).arrAt 8 cfg4.N = Cert.Spec.mlp2two (V c main_v42) (Cert.Spec.quot (V c main_v58) (V c main_v11)) (V c main_v60) (V c main_v62) (V c main_v64) (V c main_v66) (V c main_v68))
    (hR5 : ∀ (V : (c : Dev nD) → (b : Ref sig .tc) → Buf (Elt Ideal) ((c : Thread nD τ).loc b)) (c : Dev nD), (dat5 (F := Ideal) V c).arrAt 7 cfg5.N = Cert.Spec.mlp2two (V c main_v70) (V c main_v71) (V c main_v73) (V c main_v75) (V c main_v77) (V c main_v79) (V c main_v81))
    (hR6 : ∀ (V : (c : Dev nD) → (b : Ref sig .tc) → Buf (Elt Ideal) ((c : Thread nD τ).loc b)) (c : Dev nD), (dat6 (F := Ideal) V c).arrAt 8 cfg6.N = Cert.Spec.mlp2two (V c main_v69) (Cert.Spec.quot (V c main_v85) (V c main_v11)) (V c main_v87) (V c main_v89) (V c main_v91) (V c main_v93) (V c main_v95))
    (hR7 : ∀ (V : (c : Dev nD) → (b : Ref sig .tc) → Buf (Elt Ideal) ((c : Thread nD τ).loc b)) (c : Dev nD), (dat7 (F := Ideal) V c).arrAt 5 cfg7.N = Cert.Spec.head (V c main_v96) (V c main_arg14) (V c main_arg15) (V c main_arg16) (V c main_arg17))
    (hr : ∀ i : S2x1000000.Idx, 0 ≤ ((m ((c : Thread nD τ).loc main_arg1)) i).toInt ∧ ((m ((c : Thread nD τ).loc main_arg1)) i).toInt < 100000) :
    W22 m ρ c (Proc.devRef .tc main_v97) = Cert.KernelIdeal.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  out_value' m ρ c hR0 hR1 hR2 hR3 hR4 hR5 hR6 hR7 hr

end Cert.KernelIdeal.Facts

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.Region0.lean ====
/-
  The first kernel region computes a two-layer block of the network: for each block of 10000 rows of the input, the
  dense layer x · w1 + b1 clamped below at zero, then the dense layer · w2 + b2 clamped below at zero. Row p of the
  result reads only row p of the row operand and all of the weights and biases, so the blocks that the grid points
  write are the restrictions of one whole-array function, and the blocks tile the array: the output array is that
  function of the operand arrays.
-/
import proofs.«111624_j59098749993608_2_alg».proof.Proof.Gen.KernelIdeal.Frame
import proofs.«111624_j59098749993608_2_alg».proof.Proof.Spec
import proofs.«111624_j59098749993608_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable {R A H N : Nat}

/-- A bias vector laid out as one row and repeated down the rows reads, at (p, q), its entry q. -/
theorem bias_row_apply (b : FVec Ideal ⟨1, ![N]⟩ .f32) (h1 : (⟨1, ![N]⟩ : Shape).ShapeCasts ⟨2, ![1, N]⟩)
    (h2 : (⟨2, ![1, N]⟩ : Shape).Broadcasts ⟨2, ![R, N]⟩) (p : Fin R) (q : Fin N) :
    broadcastTo ⟨2, ![R, N]⟩ (shapeCast ⟨2, ![1, N]⟩ b h1) h2 (ix2 p q) = b (ix1 q) :=
  (broadcastTo_1b_ab_apply _ h2 p q).trans (shapeCast_a_1a_apply b h1 0 q)

/-- The product into the zero accumulator plus the bias row is the dense layer, at (p, q). -/
theorem dense_apply (D : DotDims ⟨2, ![R, A]⟩ ⟨2, ![A, N]⟩ ⟨2, ![R, N]⟩) (hD : D = DotDims.plain R A N)
    (x : FVec Ideal ⟨2, ![R, A]⟩ .bf16) (w : FVec Ideal ⟨2, ![A, N]⟩ .bf16) (b : FVec Ideal ⟨1, ![N]⟩ .f32)
    (h1 : (⟨1, ![N]⟩ : Shape).ShapeCasts ⟨2, ![1, N]⟩) (h2 : (⟨2, ![1, N]⟩ : Shape).Broadcasts ⟨2, ![R, N]⟩)
    (p : Fin R) (q : Fin N) :
    addf (matmul D none x w (constant (F := Ideal) ⟨2, ![R, N]⟩ .f32 0x00000000#32))
        (broadcastTo ⟨2, ![R, N]⟩ (shapeCast ⟨2, ![1, N]⟩ b h1) h2) (ix2 p q)
      = Cert.Spec.dense x w b p q := by
  subst hD
  rw [addf_apply, bias_row_apply]
  exact congrArg (· + b (ix1 q)) (Cert.Bridge.LibMatmul.matmul_zero_apply none x w p q)

/-- The clamp of an array against the broadcast zero word, at an index. -/
theorem clamp_apply (v : FVec Ideal ⟨2, ![R, N]⟩ .f32) (j : (⟨2, ![R, N]⟩ : Shape).Idx) :
    maximumf v (broadcast ⟨2, ![R, N]⟩ (FloatOps.ofBits (F := Ideal) .f32 0x00000000#32)) j = Cert.Spec.relu (v j) := rfl

/-- The payload at (p, q) is the block function of its operands. -/
theorem pay_apply (x0 : Vec Ideal S10000x5 .f32) (x1 : Vec Ideal S5x64 .f32) (x2 : Vec Ideal S64 .f32)
    (x3 : Vec Ideal S64x64 .f32) (x4 : Vec Ideal S64 .f32) (p : Fin 10000) (q : Fin 64) :
    k0_pay1 x0 x1 x2 x3 x4 (ix2 p q) = Cert.Spec.mlp2 x0 x1 x2 x3 x4 (ix2 p q) := by
  unfold k0_pay1
  rw [clamp_apply, dense_apply dot_S10000x64_S64x64_S10000x64_1_0_0_1_n_n rfl]
  show Cert.Spec.relu (Cert.Spec.dense _ _ x4 p q) = Cert.Spec.relu (Cert.Spec.dense (Cert.Spec.hidden x0 x1 x2) x3 x4 p q)
  unfold Cert.Spec.dense
  refine congrArg (fun s => Cert.Spec.relu (s + x4 (ix1 q))) (Finset.sum_congr rfl fun k _ => ?_)
  rw [truncf_apply, truncf_apply, clamp_apply, dense_apply dot_S10000x5_S5x64_S10000x64_1_0_0_1_n_n rfl]
  rfl

/-- Row p of the block function reads row p of the row operand only: a block of rows of the operand that sits at
    rows P of the whole operand gives the whole-array function's row P. -/
theorem mlp2_rows {Rb : Nat} (X : (⟨2, ![R, A]⟩ : Shape).Idx → EReal) (xb : (⟨2, ![Rb, A]⟩ : Shape).Idx → EReal)
    (w1 : (⟨2, ![A, H]⟩ : Shape).Idx → EReal) (b1 : (⟨1, ![H]⟩ : Shape).Idx → EReal)
    (w2 : (⟨2, ![H, N]⟩ : Shape).Idx → EReal) (b2 : (⟨1, ![N]⟩ : Shape).Idx → EReal)
    (p : Fin Rb) (P : Fin R) (q : Fin N) (hx : ∀ k : Fin A, xb (ix2 p k) = X (ix2 P k)) :
    Cert.Spec.mlp2 xb w1 b1 w2 b2 (ix2 p q) = Cert.Spec.mlp2 X w1 b1 w2 b2 (ix2 P q) := by
  show Cert.Spec.relu (Cert.Spec.dense (Cert.Spec.hidden xb w1 b1) w2 b2 p q)
    = Cert.Spec.relu (Cert.Spec.dense (Cert.Spec.hidden X w1 b1) w2 b2 P q)
  unfold Cert.Spec.dense
  refine congrArg (fun s => Cert.Spec.relu (s + b2 (ix1 q))) (Finset.sum_congr rfl fun k _ => ?_)
  show Cert.Spec.relu (Cert.Spec.dense xb w1 b1 p k) * _ = Cert.Spec.relu (Cert.Spec.dense X w1 b1 P k) * _
  unfold Cert.Spec.dense
  simp only [hx]

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row-block windows sit at block row t, the small operands at block 0. -/
theorem index_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 9 ∧ win0_5.index t (1 : Fin 2) = 0 :=
  (by decide +kernel : ∀ t : Fin grid0.N, _)

/-- Every block row is some grid point's. -/
theorem index_onto : ∀ (r : Fin 10), ∃ t : Fin cfg0.N, win0_5.index t = ![r.val, 0] :=
  (by decide +kernel : ∀ (r : Fin 10), ∃ t : Fin grid0.N, win0_5.index t = ![r.val, 0])

/-- The small operands' windows are the whole arrays at every grid point. -/
theorem whole1 (c : Dev nD) (t : Fin cfg0.N) : (iblk0 V c 1 t : S5x64.Idx → EReal) = V c main_arg2 := by
  obtain ⟨e0, e1, e2, e3, e4, e5, e6, e7, e8, e9⟩ := index_facts t
  funext y
  show V c main_arg2 (((cfg0.win 1).blk t).view.emb y) = V c main_arg2 y
  have h : ((cfg0.win 1).blk t).view.emb y = y := by
    funext a; apply Fin.ext
    match a with
    | ⟨0, _⟩ => show win0_1.index t (0 : Fin 2) * 5 + 1 * (y 0).val = (y 0).val; omega
    | ⟨1, _⟩ => show win0_1.index t (1 : Fin 2) * 64 + 1 * (y 1).val = (y 1).val; omega
  rw [h]

theorem whole2 (c : Dev nD) (t : Fin cfg0.N) : (iblk0 V c 2 t : S64.Idx → EReal) = V c main_arg3 := by
  obtain ⟨e0, e1, e2, e3, e4, e5, e6, e7, e8, e9⟩ := index_facts t
  funext y
  show V c main_arg3 (((cfg0.win 2).blk t).view.emb y) = V c main_arg3 y
  have h : ((cfg0.win 2).blk t).view.emb y = y := by
    funext a; apply Fin.ext
    match a with
    | ⟨0, _⟩ => show win0_2.index t (0 : Fin 1) * 64 + 1 * (y 0).val = (y 0).val; omega
  rw [h]

theorem whole3 (c : Dev nD) (t : Fin cfg0.N) : (iblk0 V c 3 t : S64x64.Idx → EReal) = V c main_arg4 := by
  obtain ⟨e0, e1, e2, e3, e4, e5, e6, e7, e8, e9⟩ := index_facts t
  funext y
  show V c main_arg4 (((cfg0.win 3).blk t).view.emb y) = V c main_arg4 y
  have h : ((cfg0.win 3).blk t).view.emb y = y := by
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  rw [h]

theorem whole4 (c : Dev nD) (t : Fin cfg0.N) : (iblk0 V c 4 t : S64.Idx → EReal) = V c main_arg5 := by
  obtain ⟨e0, e1, e2, e3, e4, e5, e6, e7, e8, e9⟩ := index_facts t
  funext y
  show V c main_arg5 (((cfg0.win 4).blk t).view.emb y) = V c main_arg5 y
  have h : ((cfg0.win 4).blk t).view.emb y = y := by
    funext a; apply Fin.ext
    match a with
    | ⟨0, _⟩ => show win0_4.index t (0 : Fin 1) * 64 + 1 * (y 0).val = (y 0).val; omega
  rw [h]

/-- The array row under row p of grid point t's block. -/
def rowOf (t : Fin cfg0.N) (p : Fin 10000) : Fin 100000 :=
  ⟨win0_5.index t (0 : Fin 2) * 10000 + p.val, by have := (index_facts t).2.2.2.2.2.2.2.2.1; have := p.isLt; omega⟩

/-- An element of the output block sits at its row of the array, same column. -/
theorem emb_out (t : Fin cfg0.N) (p : Fin 10000) (q : Fin 64) :
    ((cfg0.win 5).blk t).view.emb (ix2 p q) = ix2 (rowOf t p) q := by
  obtain ⟨e0, e1, e2, e3, e4, e5, e6, e7, e8, e9⟩ := index_facts t
  funext a; apply Fin.ext
  match a with
  | ⟨0, _⟩ => show win0_5.index t (0 : Fin 2) * 10000 + 1 * p.val = win0_5.index t (0 : Fin 2) * 10000 + p.val; omega
  | ⟨1, _⟩ => show win0_5.index t (1 : Fin 2) * 64 + 1 * q.val = q.val; omega

/-- An element of the row operand's block sits at the same row of the array. -/
theorem emb_in (t : Fin cfg0.N) (p : Fin 10000) (k : Fin 5) :
    ((cfg0.win 0).blk t).view.emb (ix2 p k) = ix2 (rowOf t p) k := by
  obtain ⟨e0, e1, e2, e3, e4, e5, e6, e7, e8, e9⟩ := index_facts t
  funext a; apply Fin.ext
  match a with
  | ⟨0, _⟩ => show win0_0.index t (0 : Fin 2) * 10000 + 1 * p.val = win0_5.index t (0 : Fin 2) * 10000 + p.val; omega
  | ⟨1, _⟩ => show win0_0.index t (1 : Fin 2) * 5 + 1 * k.val = k.val; omega

/-- The payload of grid point t's blocks is block t of the whole-array function. -/
theorem block_value (c : Dev nD) (t : Fin cfg0.N) (y : S10000x64.Idx) :
    k0_pay1 (iblk0 V c 0 t) (iblk0 V c 1 t) (iblk0 V c 2 t) (iblk0 V c 3 t) (iblk0 V c 4 t) y
      = Cert.Spec.mlp2 (V c main_arg0) (V c main_arg2) (V c main_arg3) (V c main_arg4) (V c main_arg5)
          (((cfg0.win 5).blk t).view.emb y) := by
  obtain ⟨p, q, rfl⟩ : ∃ (p : Fin 10000) (q : Fin 64), y = ix2 p q := ⟨y 0, y 1, eq_ix2 y⟩
  refine (pay_apply (iblk0 V c 0 t) (iblk0 V c 1 t) (iblk0 V c 2 t) (iblk0 V c 3 t) (iblk0 V c 4 t) p q).trans ?_
  rw [emb_out, whole1, whole2, whole3, whole4]
  refine mlp2_rows (V c main_arg0) (iblk0 V c 0 t) _ _ _ _ p (rowOf t p) q fun k => ?_
  show V c main_arg0 (((cfg0.win 0).blk t).view.emb (ix2 p k)) = V c main_arg0 (ix2 (rowOf t p) k)
  rw [emb_in]

/-- What grid point t writes back is block t of the whole-array function of the operands as the region finds them. -/
theorem flushed_eq (c : Dev nD) (t : Fin cfg0.N) :
    (dat0 (F := Ideal) V c).flushed 5 t = ((cfg0.win 5).blk t).view.read (Elt Ideal)
      (Cert.Spec.mlp2 (V c main_arg0) (V c main_arg2) (V c main_arg3) (V c main_arg4) (V c main_arg5)) := by
  show (cfg0.win 5).cut (grid0.coords t) ((dat0 (F := Ideal) V c).after 5 t) = _
  rw [after0_5]
  unfold out0_5
  rw [View.canon_unit_zero zero2]
  simp only [View.ld_unit_zero (S := S10000x5) zero2, View.ld_unit_zero (S := S5x64) zero2, View.ld_unit_zero (S := S64) zero1,
    View.ld_unit_zero (S := S64x64) zero2]
  funext y
  exact block_value V c t y

/-- An index of the array is in grid point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v4).slice (win0_5.rect t)).set ↔ _
  rw [View.set_slice_whole, Rect.mem_set_unit]
  exact Iff.rfl

/-- Every index of the array is in the block of the grid point of its row's block: row r is in block r / 10000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The output array after all grid points is the two-layer block of the operand arrays. -/
theorem value (c : Dev nD) : (dat0 (F := Ideal) V c).arrAt 5 cfg0.N
    = Cert.Spec.mlp2 (V c main_arg0) (V c main_arg2) (V c main_arg3) (V c main_arg4) (V c main_arg5) :=
  (dat0 (F := Ideal) V c).arrAt_eq_of_cover 5 _ (fun t _ => flushed_eq V c t) cover

end Cert.KernelIdeal.Region0

end
-- ==== Proof.Region1.lean ====
/-
  One two-operand block of the network, on the kernel side. The result array has 1000000 rows of 64 entries and is
  produced 10000 rows at a time. At each of the 100 steps the stored rows are, entry by entry, the block of the
  specification applied to the 10000 loaded rows of the two row operands and to the whole weight matrices and bias
  vectors: rounding to the narrower format is the identity on the extended reals, a product into a zero accumulator is
  the contracted sum, and a bias laid out as one row and repeated reads its entry at the column. Because the block's
  value at a row reads only that row of the row operands, the 100 stored pieces are the pieces of ONE array, the
  specification's block of the whole operands; and every row r lies in piece r / 10000, so that array is the result.
-/
import proofs.«111624_j59098749993608_2_alg».proof.Proof.Gen.KernelIdeal.Frame
import proofs.«111624_j59098749993608_2_alg».proof.Proof.Spec
import proofs.«111624_j59098749993608_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! ## The block's computation at an index -/

/-- The matrix unit's product into a zero accumulator at (p, q): the contracted sum over the 64 columns. -/
theorem product_apply {φ₁ φ₂ : FTy} (L : FVec Ideal S10000x64 φ₁) (R : FVec Ideal S64x64 φ₂) (p : Fin 10000) (q : Fin 64) :
    FloatOps.matmul dot_S10000x64_S64x64_S10000x64_1_0_0_1_n_n none L R (constant S10000x64 .f32 0x00000000#32) (ix2 p q)
      = ∑ k : Fin 64, L (ix2 p k) * R (ix2 k q) :=
  Cert.Bridge.LibMatmul.matmul_zero_apply none L R p q

/-- A bias vector laid as one row and repeated down the rows reads, at (p, q), its entry q. -/
theorem bias_apply (b : FVec Ideal S64 .f32) (h1 : S64.ShapeCasts S1x64) (h2 : S1x64.Broadcasts S10000x64)
    (p : Fin 10000) (q : Fin 64) :
    broadcastTo S10000x64 (shapeCast S1x64 b h1) h2 (ix2 p q) = b (ix1 q) :=
  (broadcastTo_1b_ab_apply (shapeCast S1x64 b h1) h2 p q).trans (shapeCast_a_1a_apply b h1 (0 : Fin 1) q)

/-- The stored value at (p, q) is the two-operand block of the specification, of the loaded blocks: rounding to the
    narrower format is the identity on the extended reals, so each layer is the contracted sums plus the bias, clamped. -/
theorem payload_apply (x0 x1 : Vec Ideal S10000x64 .f32) (w0 w1 : Vec Ideal S64x64 .f32) (b1 : Vec Ideal S64 .f32)
    (w2 : Vec Ideal S64x64 .f32) (b2 : Vec Ideal S64 .f32) (p : Fin 10000) (q : Fin 64) :
    k1_pay1 x0 x1 w0 w1 b1 w2 b2 (ix2 p q) = Cert.Spec.mlp2two x0 x1 w0 w1 b1 w2 b2 (ix2 p q) := by
  unfold k1_pay1
  simp only [shapeCast_self, maximumf_apply, addf_apply, broadcast_apply, bias_apply, product_apply, truncf_apply]
  rfl

/-- The block at row p reads only row p of its two row operands: two pairs of operands that agree on a row give the
    same value there, whatever their other rows (and however many rows each has). -/
theorem mlp2two_of_rows {R R' : Nat}
    (a b : (⟨2, ![R, 64]⟩ : Shape).Idx → EReal) (a' b' : (⟨2, ![R', 64]⟩ : Shape).Idx → EReal)
    (wa wb w2 wa' wb' w2' : S64x64.Idx → EReal) (b1 b2 b1' b2' : S64.Idx → EReal)
    (p : Fin R) (r : Fin R') (q : Fin 64)
    (ha : ∀ k : Fin 64, a (ix2 p k) = a' (ix2 r k)) (hb : ∀ k : Fin 64, b (ix2 p k) = b' (ix2 r k))
    (hwa : wa = wa') (hwb : wb = wb') (hb1 : b1 = b1') (hw2 : w2 = w2') (hb2 : b2 = b2') :
    Cert.Spec.mlp2two a b wa wb b1 w2 b2 (ix2 p q) = Cert.Spec.mlp2two a' b' wa' wb' b1' w2' b2' (ix2 r q) := by
  subst hwa hwb hb1 hw2 hb2
  show Cert.Spec.relu (Cert.Spec.dense (Cert.Spec.hidden2 a b wa wb b1) w2 b2 p q)
     = Cert.Spec.relu (Cert.Spec.dense (Cert.Spec.hidden2 a' b' wa wb b1) w2 b2 r q)
  have hrow : ∀ k : Fin 64, Cert.Spec.hidden2 a b wa wb b1 (ix2 p k) = Cert.Spec.hidden2 a' b' wa wb b1 (ix2 r k) := fun k => by
    show Cert.Spec.relu (Cert.Spec.dense2 a b wa wb b1 p k) = Cert.Spec.relu (Cert.Spec.dense2 a' b' wa wb b1 r k)
    unfold Cert.Spec.dense2
    simp only [ha, hb]
  unfold Cert.Spec.dense
  simp only [hrow]

/-! ## From the blocks to the array -/

theorem origin2 : (![0, 0] : Fin 2 → Nat) = fun _ => 0 := funext fun a => by fin_cases a <;> rfl
theorem origin1 : (![0] : Fin 1 → Nat) = fun _ => 0 := funext fun a => by fin_cases a <;> rfl

/-- The index maps over the grid: at point t the two row operands and the result sit at row block t, and each weight
    matrix and bias vector is its whole array at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- A weight matrix's block is the whole matrix. -/
theorem whole2 (c : Dev nD) (t : Fin cfg1.N) :
    iblk1 V c 2 t = (V c main_v19 : S64x64.Idx → EReal) ∧ iblk1 V c 3 t = (V c main_v21 : S64x64.Idx → EReal)
    ∧ iblk1 V c 5 t = (V c main_v25 : S64x64.Idx → EReal) := by
  obtain ⟨e00, e01, e10, e11, e20, e21, e30, e31, e40, e50, e51, e60, e70, e71⟩ := index_facts t
  refine ⟨funext fun y => ?_, funext fun y => ?_, funext fun y => ?_⟩
  · show V c main_v19 (((cfg1.win 2).blk t).view.emb y) = V c main_v19 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · show V c main_v21 (((cfg1.win 3).blk t).view.emb y) = V c main_v21 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · show V c main_v25 (((cfg1.win 5).blk t).view.emb y) = V c main_v25 y
    refine congrArg _ (funext fun a => Fin.ext ?_)
    match a with
    | ⟨0, _⟩ => show win1_5.index t (0 : Fin 2) * 64 + 1 * (y 0).val = (y 0).val; omega
    | ⟨1, _⟩ => show win1_5.index t (1 : Fin 2) * 64 + 1 * (y 1).val = (y 1).val; omega

/-- A bias vector's block is the whole vector. -/
theorem whole1 (c : Dev nD) (t : Fin cfg1.N) :
    iblk1 V c 4 t = (V c main_v23 : S64.Idx → EReal) ∧ iblk1 V c 6 t = (V c main_v27 : S64.Idx → EReal) := by
  obtain ⟨e00, e01, e10, e11, e20, e21, e30, e31, e40, e50, e51, e60, e70, e71⟩ := index_facts t
  refine ⟨funext fun y => ?_, funext fun y => ?_⟩
  · show V c main_v23 (((cfg1.win 4).blk t).view.emb y) = V c main_v23 y
    refine congrArg _ (funext fun a => Fin.ext ?_)
    match a with
    | ⟨0, _⟩ => show win1_4.index t (0 : Fin 1) * 64 + 1 * (y 0).val = (y 0).val; omega
  · show V c main_v27 (((cfg1.win 6).blk t).view.emb y) = V c main_v27 y
    refine congrArg _ (funext fun a => Fin.ext ?_)
    match a with
    | ⟨0, _⟩ => show win1_6.index t (0 : Fin 1) * 64 + 1 * (y 0).val = (y 0).val; omega

/-- Row p of a row operand's block at point t is row 10000 t + p of the operand. -/
theorem rows (c : Dev nD) (t : Fin cfg1.N) (p : Fin 10000) (r : Fin 1000000) (hr : r.val = t.val * 10000 + p.val) (k : Fin 64) :
    iblk1 V c 0 t (ix2 p k) = (V c main_v16 : S1000000x64.Idx → EReal) (ix2 r k)
    ∧ iblk1 V c 1 t (ix2 p k) = (V c main_v17 : S1000000x64.Idx → EReal) (ix2 r k) := by
  obtain ⟨e00, e01, e10, e11, e20, e21, e30, e31, e40, e50, e51, e60, e70, e71⟩ := index_facts t
  constructor
  · show V c main_v16 (((cfg1.win 0).blk t).view.emb (ix2 p k)) = V c main_v16 (ix2 r k)
    refine congrArg _ (funext fun a => Fin.ext ?_)
    match a with
    | ⟨0, _⟩ => show win1_0.index t (0 : Fin 2) * 10000 + 1 * p.val = r.val; omega
    | ⟨1, _⟩ => show win1_0.index t (1 : Fin 2) * 64 + 1 * k.val = k.val; omega
  · show V c main_v17 (((cfg1.win 1).blk t).view.emb (ix2 p k)) = V c main_v17 (ix2 r k)
    refine congrArg _ (funext fun a => Fin.ext ?_)
    match a with
    | ⟨0, _⟩ => show win1_1.index t (0 : Fin 2) * 10000 + 1 * p.val = r.val; omega
    | ⟨1, _⟩ => show win1_1.index t (1 : Fin 2) * 64 + 1 * k.val = k.val; omega

/-- The stored block at point t, index by index, is the specification's array of the whole operands read at that
    block's place in the array. -/
theorem block_eq (c : Dev nD) (t : Fin cfg1.N) (j : S10000x64.Idx) :
    k1_pay1 (iblk1 V c 0 t) (iblk1 V c 1 t) (iblk1 V c 2 t) (iblk1 V c 3 t) (iblk1 V c 4 t) (iblk1 V c 5 t) (iblk1 V c 6 t) j
      = Cert.Spec.mlp2two (V c main_v16) (V c main_v17) (V c main_v19) (V c main_v21) (V c main_v23) (V c main_v25) (V c main_v27)
          (((cfg1.win 7).blk t).view.emb j) := by
  obtain ⟨p, q, rfl⟩ : ∃ (p : Fin 10000) (q : Fin 64), j = ix2 p q := ⟨j 0, j 1, eq_ix2 j⟩
  obtain ⟨e00, e01, e10, e11, e20, e21, e30, e31, e40, e50, e51, e60, e70, e71⟩ := index_facts t
  have hN : grid1.N = 100 := N_1
  have ht : t.val < 100 := lt_of_lt_of_eq t.isLt hN
  have hp : p.val < 10000 := p.isLt
  have hemb : ((cfg1.win 7).blk t).view.emb (ix2 p q) = ix2 (⟨t.val * 10000 + p.val, by omega⟩ : Fin 1000000) q := by
    funext a; apply Fin.ext
    match a with
    | ⟨0, _⟩ => show win1_7.index t (0 : Fin 2) * 10000 + 1 * p.val = t.val * 10000 + p.val; omega
    | ⟨1, _⟩ => show win1_7.index t (1 : Fin 2) * 64 + 1 * q.val = q.val; omega
  refine (payload_apply _ _ _ _ _ _ _ p q).trans ?_
  refine Eq.trans ?_ (congrArg _ hemb.symm)
  obtain ⟨h2, h3, h5⟩ := whole2 V c t
  obtain ⟨h4, h6⟩ := whole1 V c t
  exact mlp2two_of_rows _ _ _ _ _ _ _ _ _ _ _ _ _ _ p _ q (fun k => (rows V c t p _ rfl k).1) (fun k => (rows V c t p _ rfl k).2)
    h2 h3 h4 h5 h6

/-- What point t writes back is block t of the specification's array of the whole operands. -/
theorem flushed_eq (c : Dev nD) (t : Fin cfg1.N) :
    (dat1 (F := Ideal) V c).flushed 7 t = ((cfg1.win 7).blk t).view.read (Elt Ideal)
      (Cert.Spec.mlp2two (V c main_v16) (V c main_v17) (V c main_v19) (V c main_v21) (V c main_v23) (V c main_v25) (V c main_v27)) := by
  show (cfg1.win 7).cut (grid1.coords t) ((dat1 V c).after 7 t) = _
  rw [after1_7]
  unfold out1_7
  rw [View.canon_unit_zero origin2]
  simp only [View.ld_unit_zero (S := S10000x64) origin2, View.ld_unit_zero (S := S64x64) origin2, View.ld_unit_zero (S := S64) origin1]
  funext j
  exact block_eq V c t j

/-- An index of the array is in point t's block iff each coordinate is in the block's range on its axis. -/
theorem mem_block (t : Fin cfg1.N) (i : S1000000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v28).slice (win1_7.rect t)).set ↔ _
  rw [View.set_slice_whole, Rect.mem_set_unit]
  exact Iff.rfl

/-- Every row r of the array is in the block of point r / 10000, which writes back. -/
theorem cover (i : S1000000x64.Idx) :
    ∃ t : Fin cfg1.N, (cfg1.win 7).flush t = true ∧ i ∈ ((cfg1.win 7).blk t).view.set := by
  have hi0 : (i 0).val < 1000000 := (i 0).isLt
  have hi1 : (i 1).val < 64 := (i 1).isLt
  have hN : grid1.N = 100 := N_1
  have hlt : (i 0).val / 10000 < grid1.N := by rw [hN]; omega
  obtain ⟨e00, e01, e10, e11, e20, e21, e30, e31, e40, e50, e51, e60, e70, e71⟩ := index_facts ⟨(i 0).val / 10000, hlt⟩
  refine ⟨⟨(i 0).val / 10000, hlt⟩, flush1_7 _, ?_⟩
  rw [mem_block]
  intro a
  match a with
  | ⟨0, _⟩ =>
    show win1_7.index ⟨(i 0).val / 10000, hlt⟩ (0 : Fin 2) * 10000 ≤ (i 0).val ∧ (i 0).val < win1_7.index ⟨(i 0).val / 10000, hlt⟩ (0 : Fin 2) * 10000 + 10000
    rw [e70]
    show (i 0).val / 10000 * 10000 ≤ (i 0).val ∧ (i 0).val < (i 0).val / 10000 * 10000 + 10000
    omega
  | ⟨1, _⟩ =>
    show win1_7.index ⟨(i 0).val / 10000, hlt⟩ (1 : Fin 2) * 64 ≤ (i 1).val ∧ (i 1).val < win1_7.index ⟨(i 0).val / 10000, hlt⟩ (1 : Fin 2) * 64 + 64
    rw [e71]
    omega

/-- The result array after all grid points is the specification's two-operand block of the operand arrays. -/
theorem value (c : Dev nD) :
    (dat1 (F := Ideal) V c).arrAt 7 cfg1.N
      = Cert.Spec.mlp2two (V c main_v16) (V c main_v17) (V c main_v19) (V c main_v21) (V c main_v23) (V c main_v25) (V c main_v27) :=
  (dat1 (F := Ideal) V c).arrAt_eq_of_cover 7 _ (fun t _ => flushed_eq V c t) cover

end Cert.KernelIdeal.Region1

end
-- ==== Proof.Region2.lean ====
/-
  The value of the update block's first region. At every grid point the body stores, into the output's block, the
  two-operand block of the specification applied to the input blocks, the second operand being the sums' block divided
  by the count column. Since that function at row p reads only row p of the three row operands and all of the small
  operands, the block of the whole arrays' function is the function of the blocks; the ten blocks of 10000 rows cover
  the 100000 rows, so the output array ends as the specification's function of the input arrays.
-/
import proofs.«111624_j59098749993608_2_alg».proof.Proof.Gen.KernelIdeal.Frame
import proofs.«111624_j59098749993608_2_alg».proof.Proof.Spec
import proofs.«111624_j59098749993608_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The matrix product into the zero accumulator, read at (p, q). -/
theorem product_apply {φ₁ φ₂ : FTy} (L : FVec Ideal S10000x64 φ₁) (R : FVec Ideal S64x64 φ₂) (p : Fin 10000) (q : Fin 64) :
    matmul dot_S10000x64_S64x64_S10000x64_1_0_0_1_n_n none L R (constant (F := Ideal) S10000x64 .f32 0x00000000#32) (ix2 p q)
      = ∑ k : Fin 64, L (ix2 p k) * R (ix2 k q) :=
  Cert.Bridge.LibMatmul.matmul_zero_apply none L R p q

/-- The bias row [64] → [1, 64] → [10000, 64], read at (p, q). -/
theorem bias_apply (b : FVec Ideal S64 .f32) (p : Fin 10000) (q : Fin 64) :
    broadcastTo S10000x64 (shapeCast S1x64 b shapeCasts_S64_S1x64) broadcasts_S1x64_S10000x64 (ix2 p q) = b (ix1 q) := by
  rw [broadcastTo_1b_ab_apply, shapeCast_a_1a_apply]

/-- The count column [10000, 1] → [10000, 64], read at (p, q). -/
theorem column_apply (d : FVec Ideal S10000x1 .f32) (p : Fin 10000) (q : Fin 64) :
    broadcastTo S10000x64 d broadcasts_S10000x1_S10000x64 (ix2 p q) = d (ix2 p (0 : Fin 1)) := by
  refine broadcastTo_apply d broadcasts_S10000x1_S10000x64 (ix2 p q) (ix2 p (0 : Fin 1)) fun ax => ?_
  match ax with
  | ⟨0, _⟩ => rfl
  | ⟨1, _⟩ => rfl

/-- The block's payload at (p, q): the two-operand block of the specification over the blocks, the second operand
    being the sums' block divided by the count column. -/
theorem payload_apply (x0 x1 : Vec Ideal S10000x64 .f32) (x2 : Vec Ideal S10000x1 .f32) (x3 x4 : Vec Ideal S64x64 .f32)
    (x5 : Vec Ideal S64 .f32) (x6 : Vec Ideal S64x64 .f32) (x7 : Vec Ideal S64 .f32) (p : Fin 10000) (q : Fin 64) :
    k2_pay1 x0 x1 x2 x3 x4 x5 x6 x7 (ix2 p q)
      = Cert.Spec.mlp2two x0 (Cert.Spec.quot x1 x2) x3 x4 x5 x6 x7 (ix2 p q) := by
  unfold k2_pay1
  simp only [maximumf_apply, addf_apply, broadcast_apply, product_apply, bias_apply, truncf_apply, shapeCast_self,
    divf_apply, column_apply]
  rfl

/-- The block of two operands, at row p, reads only row p of its three row operands: two families of row operands
    that agree on that row give the same value there. -/
theorem mlp2two_quot_row {R R' A B H N : Nat}
    (a : (⟨2, ![R, A]⟩ : Shape).Idx → EReal) (s : (⟨2, ![R, B]⟩ : Shape).Idx → EReal) (d : (⟨2, ![R, 1]⟩ : Shape).Idx → EReal)
    (a' : (⟨2, ![R', A]⟩ : Shape).Idx → EReal) (s' : (⟨2, ![R', B]⟩ : Shape).Idx → EReal) (d' : (⟨2, ![R', 1]⟩ : Shape).Idx → EReal)
    (wa : (⟨2, ![A, H]⟩ : Shape).Idx → EReal) (wb : (⟨2, ![B, H]⟩ : Shape).Idx → EReal) (b1 : (⟨1, ![H]⟩ : Shape).Idx → EReal)
    (w2 : (⟨2, ![H, N]⟩ : Shape).Idx → EReal) (b2 : (⟨1, ![N]⟩ : Shape).Idx → EReal)
    (p : Fin R) (p' : Fin R') (q : Fin N)
    (ha : ∀ k, a (ix2 p k) = a' (ix2 p' k)) (hs : ∀ k, s (ix2 p k) = s' (ix2 p' k))
    (hd : d (ix2 p (0 : Fin 1)) = d' (ix2 p' (0 : Fin 1))) :
    Cert.Spec.mlp2two a (Cert.Spec.quot s d) wa wb b1 w2 b2 (ix2 p q)
      = Cert.Spec.mlp2two a' (Cert.Spec.quot s' d') wa wb b1 w2 b2 (ix2 p' q) := by
  have hq : ∀ k, Cert.Spec.quot s d (ix2 p k) = Cert.Spec.quot s' d' (ix2 p' k) := by
    intro k
    show Ideal.div (s (ix2 p k)) (d (ix2 p (0 : Fin 1))) = Ideal.div (s' (ix2 p' k)) (d' (ix2 p' (0 : Fin 1)))
    rw [hs, hd]
  have hh : ∀ k, Cert.Spec.hidden2 a (Cert.Spec.quot s d) wa wb b1 (ix2 p k)
      = Cert.Spec.hidden2 a' (Cert.Spec.quot s' d') wa wb b1 (ix2 p' k) := by
    intro k
    show Cert.Spec.relu (Cert.Spec.dense2 a (Cert.Spec.quot s d) wa wb b1 p k)
      = Cert.Spec.relu (Cert.Spec.dense2 a' (Cert.Spec.quot s' d') wa wb b1 p' k)
    unfold Cert.Spec.dense2
    simp only [ha, hq]
  show Cert.Spec.relu (Cert.Spec.dense (Cert.Spec.hidden2 a (Cert.Spec.quot s d) wa wb b1) w2 b2 p q)
    = Cert.Spec.relu (Cert.Spec.dense (Cert.Spec.hidden2 a' (Cert.Spec.quot s' d') wa wb b1) w2 b2 p' q)
  unfold Cert.Spec.dense
  simp only [hh]

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the grid: a row-block window's block index is (t, 0), a whole small
    array's is zero on every axis. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

theorem grid_points : cfg2.N = 10 := N_2

/-- Where an element of a row block sits in its array: row t · 10000 + p, same column. -/
theorem emb_rows0 (t : Fin cfg2.N) (p : Fin 10000) (k : Fin 64) (h : t.val * 10000 + p.val < 100000) :
    ((cfg2.win 0).blk t).view.emb (ix2 p k) = (ix2 (⟨t.val * 10000 + p.val, h⟩ : Fin 100000) k : S100000x64.Idx) := by
  obtain ⟨e0, e1, -⟩ := index_facts t
  funext a; apply Fin.ext
  match a with
  | ⟨0, _⟩ => show win2_0.index t (0 : Fin 2) * 10000 + 1 * p.val = t.val * 10000 + p.val; rw [e0]; omega
  | ⟨1, _⟩ => show win2_0.index t (1 : Fin 2) * 64 + 1 * k.val = k.val; rw [e1]; omega

/-- An index of the array is in point t's block iff each coordinate is in the block's range on its axis. -/
theorem mem_block (t : Fin cfg2.N) (i : S100000x64.Idx) :
    i ∈ ((cfg2.win 8).blk t).view.set ↔ ∀ a : Fin 2, win2_8.index t a * S10000x64.size a ≤ (i a).val
      ∧ (i a).val < win2_8.index t a * S10000x64.size a + S10000x64.size a := by
  show i ∈ ((View.whole main_v42).slice (win2_8.rect t)).set ↔ _
  rw [View.set_slice_whole, Rect.mem_set_unit]
  exact Iff.rfl

/-- Every row r of the array is in the block of the point r / 10000. -/
theorem cover (i : S100000x64.Idx) :
    ∃ t : Fin cfg2.N, (cfg2.win 8).flush t = true ∧ i ∈ ((cfg2.win 8).blk t).view.set := by
  have hN : cfg2.N = 10 := N_2
  have hi0 : (i 0).val < 100000 := (i 0).isLt
  have hi1 : (i 1).val < 64 := (i 1).isLt
  have ht : (i 0).val / 10000 < cfg2.N := by rw [hN]; omega
  refine ⟨⟨(i 0).val / 10000, ht⟩, flush2_8 _, ?_⟩
  have e0 : win2_8.index ⟨(i 0).val / 10000, ht⟩ (0 : Fin 2) = (i 0).val / 10000 := (index_facts ⟨(i 0).val / 10000, ht⟩).2.2.2.2.2.2.2.2.2.2.2.2.2.2.1
  have e1 : win2_8.index ⟨(i 0).val / 10000, ht⟩ (1 : Fin 2) = 0 := (index_facts ⟨(i 0).val / 10000, ht⟩).2.2.2.2.2.2.2.2.2.2.2.2.2.2.2
  rw [mem_block]
  intro a
  match a with
  | ⟨0, _⟩ =>
    show win2_8.index ⟨(i 0).val / 10000, ht⟩ (0 : Fin 2) * 10000 ≤ (i 0).val
      ∧ (i 0).val < win2_8.index ⟨(i 0).val / 10000, ht⟩ (0 : Fin 2) * 10000 + 10000
    rw [e0]; omega
  | ⟨1, _⟩ =>
    show win2_8.index ⟨(i 0).val / 10000, ht⟩ (1 : Fin 2) * 64 ≤ (i 1).val
      ∧ (i 1).val < win2_8.index ⟨(i 0).val / 10000, ht⟩ (1 : Fin 2) * 64 + 64
    rw [e1]; omega

variable (V : (c : Dev nD) → (b : Ref sig .tc) → Buf (Elt Ideal) ((c : Thread nD τ).loc b))

/-- Where an element of a row block sits in its array: row t · 10000 + p, same column. -/
theorem emb_rows1 (t : Fin cfg2.N) (p : Fin 10000) (k : Fin 64) (h : t.val * 10000 + p.val < 100000) :
    ((cfg2.win 1).blk t).view.emb (ix2 p k) = (ix2 (⟨t.val * 10000 + p.val, h⟩ : Fin 100000) k : S100000x64.Idx) := by
  obtain ⟨-, -, e0, e1, -⟩ := index_facts t
  funext a; apply Fin.ext
  match a with
  | ⟨0, _⟩ => show win2_1.index t (0 : Fin 2) * 10000 + 1 * p.val = t.val * 10000 + p.val; rw [e0]; omega
  | ⟨1, _⟩ => show win2_1.index t (1 : Fin 2) * 64 + 1 * k.val = k.val; rw [e1]; omega

theorem emb_rows2 (t : Fin cfg2.N) (p : Fin 10000) (k : Fin 1) (h : t.val * 10000 + p.val < 100000) :
    ((cfg2.win 2).blk t).view.emb (ix2 p k) = (ix2 (⟨t.val * 10000 + p.val, h⟩ : Fin 100000) k : S100000x1.Idx) := by
  obtain ⟨-, -, -, -, e0, e1, -⟩ := index_facts t
  funext a; apply Fin.ext
  match a with
  | ⟨0, _⟩ => show win2_2.index t (0 : Fin 2) * 10000 + 1 * p.val = t.val * 10000 + p.val; rw [e0]; omega
  | ⟨1, _⟩ => show win2_2.index t (1 : Fin 2) * 1 + 1 * k.val = k.val; rw [e1]; omega

theorem emb_rows8 (t : Fin cfg2.N) (p : Fin 10000) (k : Fin 64) (h : t.val * 10000 + p.val < 100000) :
    ((cfg2.win 8).blk t).view.emb (ix2 p k) = (ix2 (⟨t.val * 10000 + p.val, h⟩ : Fin 100000) k : S100000x64.Idx) := by
  obtain ⟨-, -, -, -, -, -, -, -, -, -, -, -, -, -, e0, e1⟩ := index_facts t
  funext a; apply Fin.ext
  match a with
  | ⟨0, _⟩ => show win2_8.index t (0 : Fin 2) * 10000 + 1 * p.val = t.val * 10000 + p.val; rw [e0]; omega
  | ⟨1, _⟩ => show win2_8.index t (1 : Fin 2) * 64 + 1 * k.val = k.val; rw [e1]; omega

/-- A whole small array's block is the array. -/
theorem emb_whole3 (t : Fin cfg2.N) (y : S64x64.Idx) : ((cfg2.win 3).blk t).view.emb y = y := by
  obtain ⟨-, -, -, -, -, -, e0, e1, -⟩ := index_facts t
  funext a; apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

theorem emb_whole4 (t : Fin cfg2.N) (y : S64x64.Idx) : ((cfg2.win 4).blk t).view.emb y = y := by
  obtain ⟨-, -, -, -, -, -, -, -, e0, e1, -⟩ := index_facts t
  funext a; apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

theorem emb_whole5 (t : Fin cfg2.N) (y : S64.Idx) : ((cfg2.win 5).blk t).view.emb y = y := by
  obtain ⟨-, -, -, -, -, -, -, -, -, -, e0, -⟩ := index_facts t
  funext a; apply Fin.ext
  match a with
  | ⟨0, _⟩ => show win2_5.index t (0 : Fin 1) * 64 + 1 * (y 0).val = (y 0).val; rw [e0]; omega

theorem emb_whole6 (t : Fin cfg2.N) (y : S64x64.Idx) : ((cfg2.win 6).blk t).view.emb y = y := by
  obtain ⟨-, -, -, -, -, -, -, -, -, -, -, e0, e1, -⟩ := index_facts t
  funext a; apply Fin.ext
  match a with
  | ⟨0, _⟩ => show win2_6.index t (0 : Fin 2) * 64 + 1 * (y 0).val = (y 0).val; rw [e0]; omega
  | ⟨1, _⟩ => show win2_6.index t (1 : Fin 2) * 64 + 1 * (y 1).val = (y 1).val; rw [e1]; omega

theorem emb_whole7 (t : Fin cfg2.N) (y : S64.Idx) : ((cfg2.win 7).blk t).view.emb y = y := by
  obtain ⟨-, -, -, -, -, -, -, -, -, -, -, -, -, e0, -⟩ := index_facts t
  funext a; apply Fin.ext
  match a with
  | ⟨0, _⟩ => show win2_7.index t (0 : Fin 1) * 64 + 1 * (y 0).val = (y 0).val; rw [e0]; omega

/-- The blocks, read off the arrays as the region finds them. -/
theorem rows0 (c : Dev nD) (t : Fin cfg2.N) (p : Fin 10000) (k : Fin 64) (h : t.val * 10000 + p.val < 100000) :
    (iblk2 V c 0 t : S10000x64.Idx → EReal) (ix2 p k) = (V c main_v4 : S100000x64.Idx → EReal) (ix2 ⟨t.val * 10000 + p.val, h⟩ k) := by
  show (V c main_v4 : S100000x64.Idx → EReal) (((cfg2.win 0).blk t).view.emb (ix2 p k)) = _
  rw [emb_rows0 t p k h]

theorem rows1 (c : Dev nD) (t : Fin cfg2.N) (p : Fin 10000) (k : Fin 64) (h : t.val * 10000 + p.val < 100000) :
    (iblk2 V c 1 t : S10000x64.Idx → EReal) (ix2 p k) = (V c main_v31 : S100000x64.Idx → EReal) (ix2 ⟨t.val * 10000 + p.val, h⟩ k) := by
  show (V c main_v31 : S100000x64.Idx → EReal) (((cfg2.win 1).blk t).view.emb (ix2 p k)) = _
  rw [emb_rows1 t p k h]

theorem rows2 (c : Dev nD) (t : Fin cfg2.N) (p : Fin 10000) (k : Fin 1) (h : t.val * 10000 + p.val < 100000) :
    (iblk2 V c 2 t : S10000x1.Idx → EReal) (ix2 p k) = (V c main_v11 : S100000x1.Idx → EReal) (ix2 ⟨t.val * 10000 + p.val, h⟩ k) := by
  show (V c main_v11 : S100000x1.Idx → EReal) (((cfg2.win 2).blk t).view.emb (ix2 p k)) = _
  rw [emb_rows2 t p k h]

theorem whole3 (c : Dev nD) (t : Fin cfg2.N) : (iblk2 V c 3 t : S64x64.Idx → EReal) = (V c main_v33 : S64x64.Idx → EReal) := by
  funext y
  show (V c main_v33 : S64x64.Idx → EReal) (((cfg2.win 3).blk t).view.emb y) = _
  rw [emb_whole3 t y]

theorem whole4 (c : Dev nD) (t : Fin cfg2.N) : (iblk2 V c 4 t : S64x64.Idx → EReal) = (V c main_v35 : S64x64.Idx → EReal) := by
  funext y
  show (V c main_v35 : S64x64.Idx → EReal) (((cfg2.win 4).blk t).view.emb y) = _
  rw [emb_whole4 t y]

theorem whole5 (c : Dev nD) (t : Fin cfg2.N) : (iblk2 V c 5 t : S64.Idx → EReal) = (V c main_v37 : S64.Idx → EReal) := by
  funext y
  show (V c main_v37 : S64.Idx → EReal) (((cfg2.win 5).blk t).view.emb y) = _
  rw [emb_whole5 t y]

theorem whole6 (c : Dev nD) (t : Fin cfg2.N) : (iblk2 V c 6 t : S64x64.Idx → EReal) = (V c main_v39 : S64x64.Idx → EReal) := by
  funext y
  show (V c main_v39 : S64x64.Idx → EReal) (((cfg2.win 6).blk t).view.emb y) = _
  rw [emb_whole6 t y]

theorem whole7 (c : Dev nD) (t : Fin cfg2.N) : (iblk2 V c 7 t : S64.Idx → EReal) = (V c main_v41 : S64.Idx → EReal) := by
  funext y
  show (V c main_v41 : S64.Idx → EReal) (((cfg2.win 7).blk t).view.emb y) = _
  rw [emb_whole7 t y]

/-- What point t writes back is block t of the specification's function of the arrays as the region finds them. -/
theorem flushed_eq (c : Dev nD) (t : Fin cfg2.N) :
    (dat2 (F := Ideal) V c).flushed 8 t = ((cfg2.win 8).blk t).view.read (Elt Ideal)
      (Cert.Spec.mlp2two (V c main_v4) (Cert.Spec.quot (V c main_v31) (V c main_v11)) (V c main_v33) (V c main_v35)
        (V c main_v37) (V c main_v39) (V c main_v41)) := by
  show (cfg2.win 8).cut (grid2.coords t) ((dat2 V c).after 8 t) = _
  rw [after2_8]
  unfold out2_8
  rw [View.canon_unit_zero zeros2]
  simp only [View.ld_unit_zero (S := S10000x64) zeros2, View.ld_unit_zero (S := S10000x1) zeros2,
    View.ld_unit_zero (S := S64x64) zeros2, View.ld_unit_zero (S := S64) zeros1]
  funext j
  obtain ⟨p, q, rfl⟩ : ∃ (p : Fin 10000) (q : Fin 64), j = ix2 p q := ⟨j 0, j 1, eq_ix2 j⟩
  have hN : cfg2.N = 10 := N_2
  have hr : t.val * 10000 + p.val < 100000 := by have := t.isLt; have := p.isLt; omega
  show k2_pay1 (iblk2 V c 0 t) (iblk2 V c 1 t) (iblk2 V c 2 t) (iblk2 V c 3 t) (iblk2 V c 4 t) (iblk2 V c 5 t)
      (iblk2 V c 6 t) (iblk2 V c 7 t) (ix2 p q)
    = Cert.Spec.mlp2two (V c main_v4) (Cert.Spec.quot (V c main_v31) (V c main_v11)) (V c main_v33) (V c main_v35)
        (V c main_v37) (V c main_v39) (V c main_v41) (((cfg2.win 8).blk t).view.emb (ix2 p q))
  refine (payload_apply _ _ _ _ _ _ _ _ p q).trans ?_
  rw [emb_rows8 t p q hr, whole3 V c t, whole4 V c t, whole5 V c t, whole6 V c t, whole7 V c t]
  exact mlp2two_quot_row _ _ _ _ _ _ _ _ _ _ _ p ⟨t.val * 10000 + p.val, hr⟩ q
    (fun k => rows0 V c t p k hr) (fun k => rows1 V c t p k hr) (rows2 V c t p 0 hr)

/-- The output array after all grid points is the specification's block of two operands, the second operand being
    the sums divided by the counts, of the input arrays as the region finds them. -/
theorem value (c : Dev nD) :
    (dat2 (F := Ideal) V c).arrAt 8 cfg2.N
      = Cert.Spec.mlp2two (V c main_v4) (Cert.Spec.quot (V c main_v31) (V c main_v11)) (V c main_v33) (V c main_v35)
          (V c main_v37) (V c main_v39) (V c main_v41) :=
  (dat2 (F := Ideal) V c).arrAt_eq_of_cover 8 _ (fun t _ => flushed_eq V c t) cover

end Cert.KernelIdeal.Region2

end
-- ==== Proof.Region3.lean ====
/-
  One two-operand block of the network, on the kernel side. The result array has 1000000 rows of 64 entries and is
  produced 10000 rows at a time. At each of the 100 steps the stored rows are, entry by entry, the block of the
  specification applied to the 10000 loaded rows of the two row operands and to the whole weight matrices and bias
  vectors: rounding to the narrower format is the identity on the extended reals, a product into a zero accumulator is
  the contracted sum, and a bias laid out as one row and repeated reads its entry at the column. Because the block's
  value at a row reads only that row of the row operands, the 100 stored pieces are the pieces of ONE array, the
  specification's block of the whole operands; and every row r lies in piece r / 10000, so that array is the result.
-/
import proofs.«111624_j59098749993608_2_alg».proof.Proof.Gen.KernelIdeal.Frame
import proofs.«111624_j59098749993608_2_alg».proof.Proof.Spec
import proofs.«111624_j59098749993608_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! ## The block's computation at an index -/

/-- The matrix unit's product into a zero accumulator at (p, q): the contracted sum over the 64 columns. -/
theorem product_apply {φ₁ φ₂ : FTy} (L : FVec Ideal S10000x64 φ₁) (R : FVec Ideal S64x64 φ₂) (p : Fin 10000) (q : Fin 64) :
    FloatOps.matmul dot_S10000x64_S64x64_S10000x64_1_0_0_1_n_n none L R (constant S10000x64 .f32 0x00000000#32) (ix2 p q)
      = ∑ k : Fin 64, L (ix2 p k) * R (ix2 k q) :=
  Cert.Bridge.LibMatmul.matmul_zero_apply none L R p q

/-- A bias vector laid as one row and repeated down the rows reads, at (p, q), its entry q. -/
theorem bias_apply (b : FVec Ideal S64 .f32) (h1 : S64.ShapeCasts S1x64) (h2 : S1x64.Broadcasts S10000x64)
    (p : Fin 10000) (q : Fin 64) :
    broadcastTo S10000x64 (shapeCast S1x64 b h1) h2 (ix2 p q) = b (ix1 q) :=
  (broadcastTo_1b_ab_apply (shapeCast S1x64 b h1) h2 p q).trans (shapeCast_a_1a_apply b h1 (0 : Fin 1) q)

/-- The stored value at (p, q) is the two-operand block of the specification, of the loaded blocks: rounding to the
    narrower format is the identity on the extended reals, so each layer is the contracted sums plus the bias, clamped. -/
theorem payload_apply (x0 x1 : Vec Ideal S10000x64 .f32) (w0 w1 : Vec Ideal S64x64 .f32) (b1 : Vec Ideal S64 .f32)
    (w2 : Vec Ideal S64x64 .f32) (b2 : Vec Ideal S64 .f32) (p : Fin 10000) (q : Fin 64) :
    k3_pay1 x0 x1 w0 w1 b1 w2 b2 (ix2 p q) = Cert.Spec.mlp2two x0 x1 w0 w1 b1 w2 b2 (ix2 p q) := by
  unfold k3_pay1
  simp only [shapeCast_self, maximumf_apply, addf_apply, broadcast_apply, bias_apply, product_apply, truncf_apply]
  rfl

/-- The block at row p reads only row p of its two row operands: two pairs of operands that agree on a row give the
    same value there, whatever their other rows (and however many rows each has). -/
theorem mlp2two_of_rows {R R' : Nat}
    (a b : (⟨2, ![R, 64]⟩ : Shape).Idx → EReal) (a' b' : (⟨2, ![R', 64]⟩ : Shape).Idx → EReal)
    (wa wb w2 wa' wb' w2' : S64x64.Idx → EReal) (b1 b2 b1' b2' : S64.Idx → EReal)
    (p : Fin R) (r : Fin R') (q : Fin 64)
    (ha : ∀ k : Fin 64, a (ix2 p k) = a' (ix2 r k)) (hb : ∀ k : Fin 64, b (ix2 p k) = b' (ix2 r k))
    (hwa : wa = wa') (hwb : wb = wb') (hb1 : b1 = b1') (hw2 : w2 = w2') (hb2 : b2 = b2') :
    Cert.Spec.mlp2two a b wa wb b1 w2 b2 (ix2 p q) = Cert.Spec.mlp2two a' b' wa' wb' b1' w2' b2' (ix2 r q) := by
  subst hwa hwb hb1 hw2 hb2
  show Cert.Spec.relu (Cert.Spec.dense (Cert.Spec.hidden2 a b wa wb b1) w2 b2 p q)
     = Cert.Spec.relu (Cert.Spec.dense (Cert.Spec.hidden2 a' b' wa wb b1) w2 b2 r q)
  have hrow : ∀ k : Fin 64, Cert.Spec.hidden2 a b wa wb b1 (ix2 p k) = Cert.Spec.hidden2 a' b' wa wb b1 (ix2 r k) := fun k => by
    show Cert.Spec.relu (Cert.Spec.dense2 a b wa wb b1 p k) = Cert.Spec.relu (Cert.Spec.dense2 a' b' wa wb b1 r k)
    unfold Cert.Spec.dense2
    simp only [ha, hb]
  unfold Cert.Spec.dense
  simp only [hrow]

/-! ## From the blocks to the array -/

theorem origin2 : (![0, 0] : Fin 2 → Nat) = fun _ => 0 := funext fun a => by fin_cases a <;> rfl
theorem origin1 : (![0] : Fin 1 → Nat) = fun _ => 0 := funext fun a => by fin_cases a <;> rfl

/-- The index maps over the grid: at point t the two row operands and the result sit at row block t, and each weight
    matrix and bias vector is its whole array at every point. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

/-- A weight matrix's block is the whole matrix. -/
theorem whole2 (c : Dev nD) (t : Fin cfg3.N) :
    iblk3 V c 2 t = (V c main_v46 : S64x64.Idx → EReal) ∧ iblk3 V c 3 t = (V c main_v48 : S64x64.Idx → EReal)
    ∧ iblk3 V c 5 t = (V c main_v52 : S64x64.Idx → EReal) := by
  obtain ⟨e00, e01, e10, e11, e20, e21, e30, e31, e40, e50, e51, e60, e70, e71⟩ := index_facts t
  refine ⟨funext fun y => ?_, funext fun y => ?_, funext fun y => ?_⟩
  · show V c main_v46 (((cfg3.win 2).blk t).view.emb y) = V c main_v46 y
    refine congrArg _ (funext fun a => Fin.ext ?_)
    match a with
    | ⟨0, _⟩ => show win3_2.index t (0 : Fin 2) * 64 + 1 * (y 0).val = (y 0).val; omega
    | ⟨1, _⟩ => show win3_2.index t (1 : Fin 2) * 64 + 1 * (y 1).val = (y 1).val; omega
  · show V c main_v48 (((cfg3.win 3).blk t).view.emb y) = V c main_v48 y
    refine congrArg _ (funext fun a => Fin.ext ?_)
    match a with
    | ⟨0, _⟩ => show win3_3.index t (0 : Fin 2) * 64 + 1 * (y 0).val = (y 0).val; omega
    | ⟨1, _⟩ => show win3_3.index t (1 : Fin 2) * 64 + 1 * (y 1).val = (y 1).val; omega
  · show V c main_v52 (((cfg3.win 5).blk t).view.emb y) = V c main_v52 y
    refine congrArg _ (funext fun a => Fin.ext ?_)
    match a with
    | ⟨0, _⟩ => show win3_5.index t (0 : Fin 2) * 64 + 1 * (y 0).val = (y 0).val; omega
    | ⟨1, _⟩ => show win3_5.index t (1 : Fin 2) * 64 + 1 * (y 1).val = (y 1).val; omega

/-- A bias vector's block is the whole vector. -/
theorem whole1 (c : Dev nD) (t : Fin cfg3.N) :
    iblk3 V c 4 t = (V c main_v50 : S64.Idx → EReal) ∧ iblk3 V c 6 t = (V c main_v54 : S64.Idx → EReal) := by
  obtain ⟨e00, e01, e10, e11, e20, e21, e30, e31, e40, e50, e51, e60, e70, e71⟩ := index_facts t
  refine ⟨funext fun y => ?_, funext fun y => ?_⟩
  · show V c main_v50 (((cfg3.win 4).blk t).view.emb y) = V c main_v50 y
    refine congrArg _ (funext fun a => Fin.ext ?_)
    match a with
    | ⟨0, _⟩ => show win3_4.index t (0 : Fin 1) * 64 + 1 * (y 0).val = (y 0).val; omega
  · show V c main_v54 (((cfg3.win 6).blk t).view.emb y) = V c main_v54 y
    refine congrArg _ (funext fun a => Fin.ext ?_)
    match a with
    | ⟨0, _⟩ => show win3_6.index t (0 : Fin 1) * 64 + 1 * (y 0).val = (y 0).val; omega

/-- Row p of a row operand's block at point t is row 10000 t + p of the operand. -/
theorem rows (c : Dev nD) (t : Fin cfg3.N) (p : Fin 10000) (r : Fin 1000000) (hr : r.val = t.val * 10000 + p.val) (k : Fin 64) :
    iblk3 V c 0 t (ix2 p k) = (V c main_v43 : S1000000x64.Idx → EReal) (ix2 r k)
    ∧ iblk3 V c 1 t (ix2 p k) = (V c main_v44 : S1000000x64.Idx → EReal) (ix2 r k) := by
  obtain ⟨e00, e01, e10, e11, e20, e21, e30, e31, e40, e50, e51, e60, e70, e71⟩ := index_facts t
  constructor
  · show V c main_v43 (((cfg3.win 0).blk t).view.emb (ix2 p k)) = V c main_v43 (ix2 r k)
    refine congrArg _ (funext fun a => Fin.ext ?_)
    match a with
    | ⟨0, _⟩ => show win3_0.index t (0 : Fin 2) * 10000 + 1 * p.val = r.val; omega
    | ⟨1, _⟩ => show win3_0.index t (1 : Fin 2) * 64 + 1 * k.val = k.val; omega
  · show V c main_v44 (((cfg3.win 1).blk t).view.emb (ix2 p k)) = V c main_v44 (ix2 r k)
    refine congrArg _ (funext fun a => Fin.ext ?_)
    match a with
    | ⟨0, _⟩ => show win3_1.index t (0 : Fin 2) * 10000 + 1 * p.val = r.val; omega
    | ⟨1, _⟩ => show win3_1.index t (1 : Fin 2) * 64 + 1 * k.val = k.val; omega

/-- The stored block at point t, index by index, is the specification's array of the whole operands read at that
    block's place in the array. -/
theorem block_eq (c : Dev nD) (t : Fin cfg3.N) (j : S10000x64.Idx) :
    k3_pay1 (iblk3 V c 0 t) (iblk3 V c 1 t) (iblk3 V c 2 t) (iblk3 V c 3 t) (iblk3 V c 4 t) (iblk3 V c 5 t) (iblk3 V c 6 t) j
      = Cert.Spec.mlp2two (V c main_v43) (V c main_v44) (V c main_v46) (V c main_v48) (V c main_v50) (V c main_v52) (V c main_v54)
          (((cfg3.win 7).blk t).view.emb j) := by
  obtain ⟨p, q, rfl⟩ : ∃ (p : Fin 10000) (q : Fin 64), j = ix2 p q := ⟨j 0, j 1, eq_ix2 j⟩
  obtain ⟨e00, e01, e10, e11, e20, e21, e30, e31, e40, e50, e51, e60, e70, e71⟩ := index_facts t
  have hN : grid3.N = 100 := N_3
  have ht : t.val < 100 := lt_of_lt_of_eq t.isLt hN
  have hp : p.val < 10000 := p.isLt
  have hemb : ((cfg3.win 7).blk t).view.emb (ix2 p q) = ix2 (⟨t.val * 10000 + p.val, by omega⟩ : Fin 1000000) q := by
    funext a; apply Fin.ext
    match a with
    | ⟨0, _⟩ => show win3_7.index t (0 : Fin 2) * 10000 + 1 * p.val = t.val * 10000 + p.val; omega
    | ⟨1, _⟩ => show win3_7.index t (1 : Fin 2) * 64 + 1 * q.val = q.val; omega
  refine (payload_apply _ _ _ _ _ _ _ p q).trans ?_
  refine Eq.trans ?_ (congrArg _ hemb.symm)
  obtain ⟨h2, h3, h5⟩ := whole2 V c t
  obtain ⟨h4, h6⟩ := whole1 V c t
  exact mlp2two_of_rows _ _ _ _ _ _ _ _ _ _ _ _ _ _ p _ q (fun k => (rows V c t p _ rfl k).1) (fun k => (rows V c t p _ rfl k).2)
    h2 h3 h4 h5 h6

/-- What point t writes back is block t of the specification's array of the whole operands. -/
theorem flushed_eq (c : Dev nD) (t : Fin cfg3.N) :
    (dat3 (F := Ideal) V c).flushed 7 t = ((cfg3.win 7).blk t).view.read (Elt Ideal)
      (Cert.Spec.mlp2two (V c main_v43) (V c main_v44) (V c main_v46) (V c main_v48) (V c main_v50) (V c main_v52) (V c main_v54)) := by
  show (cfg3.win 7).cut (grid3.coords t) ((dat3 V c).after 7 t) = _
  rw [after3_7]
  unfold out3_7
  rw [View.canon_unit_zero origin2]
  simp only [View.ld_unit_zero (S := S10000x64) origin2, View.ld_unit_zero (S := S64x64) origin2, View.ld_unit_zero (S := S64) origin1]
  funext j
  exact block_eq V c t j

/-- An index of the array is in point t's block iff each coordinate is in the block's range on its axis. -/
theorem mem_block (t : Fin cfg3.N) (i : S1000000x64.Idx) :
    i ∈ ((cfg3.win 7).blk t).view.set ↔ ∀ a : Fin 2, win3_7.index t a * S10000x64.size a ≤ (i a).val ∧ (i a).val < win3_7.index t a * S10000x64.size a + S10000x64.size a := by
  show i ∈ ((View.whole main_v55).slice (win3_7.rect t)).set ↔ _
  rw [View.set_slice_whole, Rect.mem_set_unit]
  exact Iff.rfl

/-- Every row r of the array is in the block of point r / 10000, which writes back. -/
theorem cover (i : S1000000x64.Idx) :
    ∃ t : Fin cfg3.N, (cfg3.win 7).flush t = true ∧ i ∈ ((cfg3.win 7).blk t).view.set := by
  have hi0 : (i 0).val < 1000000 := (i 0).isLt
  have hi1 : (i 1).val < 64 := (i 1).isLt
  have hN : grid3.N = 100 := N_3
  have hlt : (i 0).val / 10000 < grid3.N := by rw [hN]; omega
  obtain ⟨e00, e01, e10, e11, e20, e21, e30, e31, e40, e50, e51, e60, e70, e71⟩ := index_facts ⟨(i 0).val / 10000, hlt⟩
  refine ⟨⟨(i 0).val / 10000, hlt⟩, flush3_7 _, ?_⟩
  rw [mem_block]
  intro a
  match a with
  | ⟨0, _⟩ =>
    show win3_7.index ⟨(i 0).val / 10000, hlt⟩ (0 : Fin 2) * 10000 ≤ (i 0).val ∧ (i 0).val < win3_7.index ⟨(i 0).val / 10000, hlt⟩ (0 : Fin 2) * 10000 + 10000
    rw [e70]
    show (i 0).val / 10000 * 10000 ≤ (i 0).val ∧ (i 0).val < (i 0).val / 10000 * 10000 + 10000
    omega
  | ⟨1, _⟩ =>
    show win3_7.index ⟨(i 0).val / 10000, hlt⟩ (1 : Fin 2) * 64 ≤ (i 1).val ∧ (i 1).val < win3_7.index ⟨(i 0).val / 10000, hlt⟩ (1 : Fin 2) * 64 + 64
    rw [e71]
    omega

/-- The result array after all grid points is the specification's two-operand block of the operand arrays. -/
theorem value (c : Dev nD) :
    (dat3 (F := Ideal) V c).arrAt 7 cfg3.N
      = Cert.Spec.mlp2two (V c main_v43) (V c main_v44) (V c main_v46) (V c main_v48) (V c main_v50) (V c main_v52) (V c main_v54) :=
  (dat3 (F := Ideal) V c).arrAt_eq_of_cover 7 _ (fun t _ => flushed_eq V c t) cover

end Cert.KernelIdeal.Region3

end
-- ==== Proof.Region4.lean ====
/-
  The value of the update block's second region. At every grid point the body stores, into the output's block, the
  two-operand block of the specification applied to the input blocks, the second operand being the sums' block divided
  by the count column. Since that function at row p reads only row p of the three row operands and all of the small
  operands, the block of the whole arrays' function is the function of the blocks; the ten blocks of 10000 rows cover
  the 100000 rows, so the output array ends as the specification's function of the input arrays.
-/
import proofs.«111624_j59098749993608_2_alg».proof.Proof.Gen.KernelIdeal.Frame
import proofs.«111624_j59098749993608_2_alg».proof.Proof.Spec
import proofs.«111624_j59098749993608_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The matrix product into the zero accumulator, read at (p, q). -/
theorem product_apply {φ₁ φ₂ : FTy} (L : FVec Ideal S10000x64 φ₁) (R : FVec Ideal S64x64 φ₂) (p : Fin 10000) (q : Fin 64) :
    matmul dot_S10000x64_S64x64_S10000x64_1_0_0_1_n_n none L R (constant (F := Ideal) S10000x64 .f32 0x00000000#32) (ix2 p q)
      = ∑ k : Fin 64, L (ix2 p k) * R (ix2 k q) :=
  Cert.Bridge.LibMatmul.matmul_zero_apply none L R p q

/-- The bias row [64] → [1, 64] → [10000, 64], read at (p, q). -/
theorem bias_apply (b : FVec Ideal S64 .f32) (p : Fin 10000) (q : Fin 64) :
    broadcastTo S10000x64 (shapeCast S1x64 b shapeCasts_S64_S1x64) broadcasts_S1x64_S10000x64 (ix2 p q) = b (ix1 q) := by
  rw [broadcastTo_1b_ab_apply, shapeCast_a_1a_apply]

/-- The count column [10000, 1] → [10000, 64], read at (p, q). -/
theorem column_apply (d : FVec Ideal S10000x1 .f32) (p : Fin 10000) (q : Fin 64) :
    broadcastTo S10000x64 d broadcasts_S10000x1_S10000x64 (ix2 p q) = d (ix2 p (0 : Fin 1)) := by
  refine broadcastTo_apply d broadcasts_S10000x1_S10000x64 (ix2 p q) (ix2 p (0 : Fin 1)) fun ax => ?_
  match ax with
  | ⟨0, _⟩ => rfl
  | ⟨1, _⟩ => rfl

/-- The block's payload at (p, q): the two-operand block of the specification over the blocks, the second operand
    being the sums' block divided by the count column. -/
theorem payload_apply (x0 x1 : Vec Ideal S10000x64 .f32) (x2 : Vec Ideal S10000x1 .f32) (x3 x4 : Vec Ideal S64x64 .f32)
    (x5 : Vec Ideal S64 .f32) (x6 : Vec Ideal S64x64 .f32) (x7 : Vec Ideal S64 .f32) (p : Fin 10000) (q : Fin 64) :
    k4_pay1 x0 x1 x2 x3 x4 x5 x6 x7 (ix2 p q)
      = Cert.Spec.mlp2two x0 (Cert.Spec.quot x1 x2) x3 x4 x5 x6 x7 (ix2 p q) := by
  unfold k4_pay1
  simp only [maximumf_apply, addf_apply, broadcast_apply, product_apply, bias_apply, truncf_apply, shapeCast_self,
    divf_apply, column_apply]
  rfl

/-- The block of two operands, at row p, reads only row p of its three row operands: two families of row operands
    that agree on that row give the same value there. -/
theorem mlp2two_quot_row {R R' A B H N : Nat}
    (a : (⟨2, ![R, A]⟩ : Shape).Idx → EReal) (s : (⟨2, ![R, B]⟩ : Shape).Idx → EReal) (d : (⟨2, ![R, 1]⟩ : Shape).Idx → EReal)
    (a' : (⟨2, ![R', A]⟩ : Shape).Idx → EReal) (s' : (⟨2, ![R', B]⟩ : Shape).Idx → EReal) (d' : (⟨2, ![R', 1]⟩ : Shape).Idx → EReal)
    (wa : (⟨2, ![A, H]⟩ : Shape).Idx → EReal) (wb : (⟨2, ![B, H]⟩ : Shape).Idx → EReal) (b1 : (⟨1, ![H]⟩ : Shape).Idx → EReal)
    (w2 : (⟨2, ![H, N]⟩ : Shape).Idx → EReal) (b2 : (⟨1, ![N]⟩ : Shape).Idx → EReal)
    (p : Fin R) (p' : Fin R') (q : Fin N)
    (ha : ∀ k, a (ix2 p k) = a' (ix2 p' k)) (hs : ∀ k, s (ix2 p k) = s' (ix2 p' k))
    (hd : d (ix2 p (0 : Fin 1)) = d' (ix2 p' (0 : Fin 1))) :
    Cert.Spec.mlp2two a (Cert.Spec.quot s d) wa wb b1 w2 b2 (ix2 p q)
      = Cert.Spec.mlp2two a' (Cert.Spec.quot s' d') wa wb b1 w2 b2 (ix2 p' q) := by
  have hq : ∀ k, Cert.Spec.quot s d (ix2 p k) = Cert.Spec.quot s' d' (ix2 p' k) := by
    intro k
    show Ideal.div (s (ix2 p k)) (d (ix2 p (0 : Fin 1))) = Ideal.div (s' (ix2 p' k)) (d' (ix2 p' (0 : Fin 1)))
    rw [hs, hd]
  have hh : ∀ k, Cert.Spec.hidden2 a (Cert.Spec.quot s d) wa wb b1 (ix2 p k)
      = Cert.Spec.hidden2 a' (Cert.Spec.quot s' d') wa wb b1 (ix2 p' k) := by
    intro k
    show Cert.Spec.relu (Cert.Spec.dense2 a (Cert.Spec.quot s d) wa wb b1 p k)
      = Cert.Spec.relu (Cert.Spec.dense2 a' (Cert.Spec.quot s' d') wa wb b1 p' k)
    unfold Cert.Spec.dense2
    simp only [ha, hq]
  show Cert.Spec.relu (Cert.Spec.dense (Cert.Spec.hidden2 a (Cert.Spec.quot s d) wa wb b1) w2 b2 p q)
    = Cert.Spec.relu (Cert.Spec.dense (Cert.Spec.hidden2 a' (Cert.Spec.quot s' d') wa wb b1) w2 b2 p' q)
  unfold Cert.Spec.dense
  simp only [hh]

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the grid: a row-block window's block index is (t, 0), a whole small
    array's is zero on every axis. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 1) = 0
    ∧ win4_6.index t (0 : Fin 2) = 0 ∧ win4_6.index t (1 : Fin 2) = 0
    ∧ win4_7.index t (0 : Fin 1) = 0
    ∧ win4_8.index t (0 : Fin 2) = t.val ∧ win4_8.index t (1 : Fin 2) = 0 :=
  (by decide +kernel : ∀ t : Fin grid4.N, _)

theorem grid_points : cfg4.N = 10 := N_4

/-- Where an element of a row block sits in its array: row t · 10000 + p, same column. -/
theorem emb_rows0 (t : Fin cfg4.N) (p : Fin 10000) (k : Fin 64) (h : t.val * 10000 + p.val < 100000) :
    ((cfg4.win 0).blk t).view.emb (ix2 p k) = (ix2 (⟨t.val * 10000 + p.val, h⟩ : Fin 100000) k : S100000x64.Idx) := by
  obtain ⟨e0, e1, -⟩ := index_facts t
  funext a; apply Fin.ext
  match a with
  | ⟨0, _⟩ => show win4_0.index t (0 : Fin 2) * 10000 + 1 * p.val = t.val * 10000 + p.val; rw [e0]; omega
  | ⟨1, _⟩ => show win4_0.index t (1 : Fin 2) * 64 + 1 * k.val = k.val; rw [e1]; omega

/-- An index of the array is in point t's block iff each coordinate is in the block's range on its axis. -/
theorem mem_block (t : Fin cfg4.N) (i : S100000x64.Idx) :
    i ∈ ((cfg4.win 8).blk t).view.set ↔ ∀ a : Fin 2, win4_8.index t a * S10000x64.size a ≤ (i a).val
      ∧ (i a).val < win4_8.index t a * S10000x64.size a + S10000x64.size a := by
  show i ∈ ((View.whole main_v69).slice (win4_8.rect t)).set ↔ _
  rw [View.set_slice_whole, Rect.mem_set_unit]
  exact Iff.rfl

/-- Every row r of the array is in the block of the point r / 10000. -/
theorem cover (i : S100000x64.Idx) :
    ∃ t : Fin cfg4.N, (cfg4.win 8).flush t = true ∧ i ∈ ((cfg4.win 8).blk t).view.set := by
  have hN : cfg4.N = 10 := N_4
  have hi0 : (i 0).val < 100000 := (i 0).isLt
  have hi1 : (i 1).val < 64 := (i 1).isLt
  have ht : (i 0).val / 10000 < cfg4.N := by rw [hN]; omega
  refine ⟨⟨(i 0).val / 10000, ht⟩, flush4_8 _, ?_⟩
  have e0 : win4_8.index ⟨(i 0).val / 10000, ht⟩ (0 : Fin 2) = (i 0).val / 10000 := (index_facts ⟨(i 0).val / 10000, ht⟩).2.2.2.2.2.2.2.2.2.2.2.2.2.2.1
  have e1 : win4_8.index ⟨(i 0).val / 10000, ht⟩ (1 : Fin 2) = 0 := (index_facts ⟨(i 0).val / 10000, ht⟩).2.2.2.2.2.2.2.2.2.2.2.2.2.2.2
  rw [mem_block]
  intro a
  match a with
  | ⟨0, _⟩ =>
    show win4_8.index ⟨(i 0).val / 10000, ht⟩ (0 : Fin 2) * 10000 ≤ (i 0).val
      ∧ (i 0).val < win4_8.index ⟨(i 0).val / 10000, ht⟩ (0 : Fin 2) * 10000 + 10000
    rw [e0]; omega
  | ⟨1, _⟩ =>
    show win4_8.index ⟨(i 0).val / 10000, ht⟩ (1 : Fin 2) * 64 ≤ (i 1).val
      ∧ (i 1).val < win4_8.index ⟨(i 0).val / 10000, ht⟩ (1 : Fin 2) * 64 + 64
    rw [e1]; omega

variable (V : (c : Dev nD) → (b : Ref sig .tc) → Buf (Elt Ideal) ((c : Thread nD τ).loc b))

/-- Where an element of a row block sits in its array: row t · 10000 + p, same column. -/
theorem emb_rows1 (t : Fin cfg4.N) (p : Fin 10000) (k : Fin 64) (h : t.val * 10000 + p.val < 100000) :
    ((cfg4.win 1).blk t).view.emb (ix2 p k) = (ix2 (⟨t.val * 10000 + p.val, h⟩ : Fin 100000) k : S100000x64.Idx) := by
  obtain ⟨-, -, e0, e1, -⟩ := index_facts t
  funext a; apply Fin.ext
  match a with
  | ⟨0, _⟩ => show win4_1.index t (0 : Fin 2) * 10000 + 1 * p.val = t.val * 10000 + p.val; rw [e0]; omega
  | ⟨1, _⟩ => show win4_1.index t (1 : Fin 2) * 64 + 1 * k.val = k.val; rw [e1]; omega

theorem emb_rows2 (t : Fin cfg4.N) (p : Fin 10000) (k : Fin 1) (h : t.val * 10000 + p.val < 100000) :
    ((cfg4.win 2).blk t).view.emb (ix2 p k) = (ix2 (⟨t.val * 10000 + p.val, h⟩ : Fin 100000) k : S100000x1.Idx) := by
  obtain ⟨-, -, -, -, e0, e1, -⟩ := index_facts t
  funext a; apply Fin.ext
  match a with
  | ⟨0, _⟩ => show win4_2.index t (0 : Fin 2) * 10000 + 1 * p.val = t.val * 10000 + p.val; rw [e0]; omega
  | ⟨1, _⟩ => show win4_2.index t (1 : Fin 2) * 1 + 1 * k.val = k.val; rw [e1]; omega

theorem emb_rows8 (t : Fin cfg4.N) (p : Fin 10000) (k : Fin 64) (h : t.val * 10000 + p.val < 100000) :
    ((cfg4.win 8).blk t).view.emb (ix2 p k) = (ix2 (⟨t.val * 10000 + p.val, h⟩ : Fin 100000) k : S100000x64.Idx) := by
  obtain ⟨-, -, -, -, -, -, -, -, -, -, -, -, -, -, e0, e1⟩ := index_facts t
  funext a; apply Fin.ext
  match a with
  | ⟨0, _⟩ => show win4_8.index t (0 : Fin 2) * 10000 + 1 * p.val = t.val * 10000 + p.val; rw [e0]; omega
  | ⟨1, _⟩ => show win4_8.index t (1 : Fin 2) * 64 + 1 * k.val = k.val; rw [e1]; omega

/-- A whole small array's block is the array. -/
theorem emb_whole3 (t : Fin cfg4.N) (y : S64x64.Idx) : ((cfg4.win 3).blk t).view.emb y = y := by
  obtain ⟨-, -, -, -, -, -, e0, e1, -⟩ := index_facts t
  funext a; apply Fin.ext
  match a with
  | ⟨0, _⟩ => show win4_3.index t (0 : Fin 2) * 64 + 1 * (y 0).val = (y 0).val; rw [e0]; omega
  | ⟨1, _⟩ => show win4_3.index t (1 : Fin 2) * 64 + 1 * (y 1).val = (y 1).val; rw [e1]; omega

theorem emb_whole4 (t : Fin cfg4.N) (y : S64x64.Idx) : ((cfg4.win 4).blk t).view.emb y = y := by
  obtain ⟨-, -, -, -, -, -, -, -, e0, e1, -⟩ := index_facts t
  funext a; apply Fin.ext
  match a with
  | ⟨0, _⟩ => show win4_4.index t (0 : Fin 2) * 64 + 1 * (y 0).val = (y 0).val; rw [e0]; omega
  | ⟨1, _⟩ => show win4_4.index t (1 : Fin 2) * 64 + 1 * (y 1).val = (y 1).val; rw [e1]; omega

theorem emb_whole5 (t : Fin cfg4.N) (y : S64.Idx) : ((cfg4.win 5).blk t).view.emb y = y := by
  obtain ⟨-, -, -, -, -, -, -, -, -, -, e0, -⟩ := index_facts t
  funext a; apply Fin.ext
  match a with
  | ⟨0, _⟩ => show win4_5.index t (0 : Fin 1) * 64 + 1 * (y 0).val = (y 0).val; rw [e0]; omega

theorem emb_whole6 (t : Fin cfg4.N) (y : S64x64.Idx) : ((cfg4.win 6).blk t).view.emb y = y := by
  obtain ⟨-, -, -, -, -, -, -, -, -, -, -, e0, e1, -⟩ := index_facts t
  funext a; apply Fin.ext
  match a with
  | ⟨0, _⟩ => show win4_6.index t (0 : Fin 2) * 64 + 1 * (y 0).val = (y 0).val; rw [e0]; omega
  | ⟨1, _⟩ => show win4_6.index t (1 : Fin 2) * 64 + 1 * (y 1).val = (y 1).val; rw [e1]; omega

theorem emb_whole7 (t : Fin cfg4.N) (y : S64.Idx) : ((cfg4.win 7).blk t).view.emb y = y := by
  obtain ⟨-, -, -, -, -, -, -, -, -, -, -, -, -, e0, -⟩ := index_facts t
  funext a; apply Fin.ext
  match a with
  | ⟨0, _⟩ => show win4_7.index t (0 : Fin 1) * 64 + 1 * (y 0).val = (y 0).val; rw [e0]; omega

/-- The blocks, read off the arrays as the region finds them. -/
theorem rows0 (c : Dev nD) (t : Fin cfg4.N) (p : Fin 10000) (k : Fin 64) (h : t.val * 10000 + p.val < 100000) :
    (iblk4 V c 0 t : S10000x64.Idx → EReal) (ix2 p k) = (V c main_v42 : S100000x64.Idx → EReal) (ix2 ⟨t.val * 10000 + p.val, h⟩ k) := by
  show (V c main_v42 : S100000x64.Idx → EReal) (((cfg4.win 0).blk t).view.emb (ix2 p k)) = _
  rw [emb_rows0 t p k h]

theorem rows1 (c : Dev nD) (t : Fin cfg4.N) (p : Fin 10000) (k : Fin 64) (h : t.val * 10000 + p.val < 100000) :
    (iblk4 V c 1 t : S10000x64.Idx → EReal) (ix2 p k) = (V c main_v58 : S100000x64.Idx → EReal) (ix2 ⟨t.val * 10000 + p.val, h⟩ k) := by
  show (V c main_v58 : S100000x64.Idx → EReal) (((cfg4.win 1).blk t).view.emb (ix2 p k)) = _
  rw [emb_rows1 t p k h]

theorem rows2 (c : Dev nD) (t : Fin cfg4.N) (p : Fin 10000) (k : Fin 1) (h : t.val * 10000 + p.val < 100000) :
    (iblk4 V c 2 t : S10000x1.Idx → EReal) (ix2 p k) = (V c main_v11 : S100000x1.Idx → EReal) (ix2 ⟨t.val * 10000 + p.val, h⟩ k) := by
  show (V c main_v11 : S100000x1.Idx → EReal) (((cfg4.win 2).blk t).view.emb (ix2 p k)) = _
  rw [emb_rows2 t p k h]

theorem whole3 (c : Dev nD) (t : Fin cfg4.N) : (iblk4 V c 3 t : S64x64.Idx → EReal) = (V c main_v60 : S64x64.Idx → EReal) := by
  funext y
  show (V c main_v60 : S64x64.Idx → EReal) (((cfg4.win 3).blk t).view.emb y) = _
  rw [emb_whole3 t y]

theorem whole4 (c : Dev nD) (t : Fin cfg4.N) : (iblk4 V c 4 t : S64x64.Idx → EReal) = (V c main_v62 : S64x64.Idx → EReal) := by
  funext y
  show (V c main_v62 : S64x64.Idx → EReal) (((cfg4.win 4).blk t).view.emb y) = _
  rw [emb_whole4 t y]

theorem whole5 (c : Dev nD) (t : Fin cfg4.N) : (iblk4 V c 5 t : S64.Idx → EReal) = (V c main_v64 : S64.Idx → EReal) := by
  funext y
  show (V c main_v64 : S64.Idx → EReal) (((cfg4.win 5).blk t).view.emb y) = _
  rw [emb_whole5 t y]

theorem whole6 (c : Dev nD) (t : Fin cfg4.N) : (iblk4 V c 6 t : S64x64.Idx → EReal) = (V c main_v66 : S64x64.Idx → EReal) := by
  funext y
  show (V c main_v66 : S64x64.Idx → EReal) (((cfg4.win 6).blk t).view.emb y) = _
  rw [emb_whole6 t y]

theorem whole7 (c : Dev nD) (t : Fin cfg4.N) : (iblk4 V c 7 t : S64.Idx → EReal) = (V c main_v68 : S64.Idx → EReal) := by
  funext y
  show (V c main_v68 : S64.Idx → EReal) (((cfg4.win 7).blk t).view.emb y) = _
  rw [emb_whole7 t y]

/-- What point t writes back is block t of the specification's function of the arrays as the region finds them. -/
theorem flushed_eq (c : Dev nD) (t : Fin cfg4.N) :
    (dat4 (F := Ideal) V c).flushed 8 t = ((cfg4.win 8).blk t).view.read (Elt Ideal)
      (Cert.Spec.mlp2two (V c main_v42) (Cert.Spec.quot (V c main_v58) (V c main_v11)) (V c main_v60) (V c main_v62)
        (V c main_v64) (V c main_v66) (V c main_v68)) := by
  show (cfg4.win 8).cut (grid4.coords t) ((dat4 V c).after 8 t) = _
  rw [after4_8]
  unfold out4_8
  rw [View.canon_unit_zero zeros2]
  simp only [View.ld_unit_zero (S := S10000x64) zeros2, View.ld_unit_zero (S := S10000x1) zeros2,
    View.ld_unit_zero (S := S64x64) zeros2, View.ld_unit_zero (S := S64) zeros1]
  funext j
  obtain ⟨p, q, rfl⟩ : ∃ (p : Fin 10000) (q : Fin 64), j = ix2 p q := ⟨j 0, j 1, eq_ix2 j⟩
  have hN : cfg4.N = 10 := N_4
  have hr : t.val * 10000 + p.val < 100000 := by have := t.isLt; have := p.isLt; omega
  show k4_pay1 (iblk4 V c 0 t) (iblk4 V c 1 t) (iblk4 V c 2 t) (iblk4 V c 3 t) (iblk4 V c 4 t) (iblk4 V c 5 t)
      (iblk4 V c 6 t) (iblk4 V c 7 t) (ix2 p q)
    = Cert.Spec.mlp2two (V c main_v42) (Cert.Spec.quot (V c main_v58) (V c main_v11)) (V c main_v60) (V c main_v62)
        (V c main_v64) (V c main_v66) (V c main_v68) (((cfg4.win 8).blk t).view.emb (ix2 p q))
  refine (payload_apply _ _ _ _ _ _ _ _ p q).trans ?_
  rw [emb_rows8 t p q hr, whole3 V c t, whole4 V c t, whole5 V c t, whole6 V c t, whole7 V c t]
  exact mlp2two_quot_row _ _ _ _ _ _ _ _ _ _ _ p ⟨t.val * 10000 + p.val, hr⟩ q
    (fun k => rows0 V c t p k hr) (fun k => rows1 V c t p k hr) (rows2 V c t p 0 hr)

/-- The output array after all grid points is the specification's block of two operands, the second operand being
    the sums divided by the counts, of the input arrays as the region finds them. -/
theorem value (c : Dev nD) :
    (dat4 (F := Ideal) V c).arrAt 8 cfg4.N
      = Cert.Spec.mlp2two (V c main_v42) (Cert.Spec.quot (V c main_v58) (V c main_v11)) (V c main_v60) (V c main_v62)
          (V c main_v64) (V c main_v66) (V c main_v68) :=
  (dat4 (F := Ideal) V c).arrAt_eq_of_cover 8 _ (fun t _ => flushed_eq V c t) cover

end Cert.KernelIdeal.Region4

end
-- ==== Proof.Region5.lean ====
/-
  One two-operand block of the network, on the kernel side. The result array has 1000000 rows of 64 entries and is
  produced 10000 rows at a time. At each of the 100 steps the stored rows are, entry by entry, the block of the
  specification applied to the 10000 loaded rows of the two row operands and to the whole weight matrices and bias
  vectors: rounding to the narrower format is the identity on the extended reals, a product into a zero accumulator is
  the contracted sum, and a bias laid out as one row and repeated reads its entry at the column. Because the block's
  value at a row reads only that row of the row operands, the 100 stored pieces are the pieces of ONE array, the
  specification's block of the whole operands; and every row r lies in piece r / 10000, so that array is the result.
-/
import proofs.«111624_j59098749993608_2_alg».proof.Proof.Gen.KernelIdeal.Frame
import proofs.«111624_j59098749993608_2_alg».proof.Proof.Spec
import proofs.«111624_j59098749993608_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! ## The block's computation at an index -/

/-- The matrix unit's product into a zero accumulator at (p, q): the contracted sum over the 64 columns. -/
theorem product_apply {φ₁ φ₂ : FTy} (L : FVec Ideal S10000x64 φ₁) (R : FVec Ideal S64x64 φ₂) (p : Fin 10000) (q : Fin 64) :
    FloatOps.matmul dot_S10000x64_S64x64_S10000x64_1_0_0_1_n_n none L R (constant S10000x64 .f32 0x00000000#32) (ix2 p q)
      = ∑ k : Fin 64, L (ix2 p k) * R (ix2 k q) :=
  Cert.Bridge.LibMatmul.matmul_zero_apply none L R p q

/-- A bias vector laid as one row and repeated down the rows reads, at (p, q), its entry q. -/
theorem bias_apply (b : FVec Ideal S64 .f32) (h1 : S64.ShapeCasts S1x64) (h2 : S1x64.Broadcasts S10000x64)
    (p : Fin 10000) (q : Fin 64) :
    broadcastTo S10000x64 (shapeCast S1x64 b h1) h2 (ix2 p q) = b (ix1 q) :=
  (broadcastTo_1b_ab_apply (shapeCast S1x64 b h1) h2 p q).trans (shapeCast_a_1a_apply b h1 (0 : Fin 1) q)

/-- The stored value at (p, q) is the two-operand block of the specification, of the loaded blocks: rounding to the
    narrower format is the identity on the extended reals, so each layer is the contracted sums plus the bias, clamped. -/
theorem payload_apply (x0 x1 : Vec Ideal S10000x64 .f32) (w0 w1 : Vec Ideal S64x64 .f32) (b1 : Vec Ideal S64 .f32)
    (w2 : Vec Ideal S64x64 .f32) (b2 : Vec Ideal S64 .f32) (p : Fin 10000) (q : Fin 64) :
    k5_pay1 x0 x1 w0 w1 b1 w2 b2 (ix2 p q) = Cert.Spec.mlp2two x0 x1 w0 w1 b1 w2 b2 (ix2 p q) := by
  unfold k5_pay1
  simp only [shapeCast_self, maximumf_apply, addf_apply, broadcast_apply, bias_apply, product_apply, truncf_apply]
  rfl

/-- The block at row p reads only row p of its two row operands: two pairs of operands that agree on a row give the
    same value there, whatever their other rows (and however many rows each has). -/
theorem mlp2two_of_rows {R R' : Nat}
    (a b : (⟨2, ![R, 64]⟩ : Shape).Idx → EReal) (a' b' : (⟨2, ![R', 64]⟩ : Shape).Idx → EReal)
    (wa wb w2 wa' wb' w2' : S64x64.Idx → EReal) (b1 b2 b1' b2' : S64.Idx → EReal)
    (p : Fin R) (r : Fin R') (q : Fin 64)
    (ha : ∀ k : Fin 64, a (ix2 p k) = a' (ix2 r k)) (hb : ∀ k : Fin 64, b (ix2 p k) = b' (ix2 r k))
    (hwa : wa = wa') (hwb : wb = wb') (hb1 : b1 = b1') (hw2 : w2 = w2') (hb2 : b2 = b2') :
    Cert.Spec.mlp2two a b wa wb b1 w2 b2 (ix2 p q) = Cert.Spec.mlp2two a' b' wa' wb' b1' w2' b2' (ix2 r q) := by
  subst hwa hwb hb1 hw2 hb2
  show Cert.Spec.relu (Cert.Spec.dense (Cert.Spec.hidden2 a b wa wb b1) w2 b2 p q)
     = Cert.Spec.relu (Cert.Spec.dense (Cert.Spec.hidden2 a' b' wa wb b1) w2 b2 r q)
  have hrow : ∀ k : Fin 64, Cert.Spec.hidden2 a b wa wb b1 (ix2 p k) = Cert.Spec.hidden2 a' b' wa wb b1 (ix2 r k) := fun k => by
    show Cert.Spec.relu (Cert.Spec.dense2 a b wa wb b1 p k) = Cert.Spec.relu (Cert.Spec.dense2 a' b' wa wb b1 r k)
    unfold Cert.Spec.dense2
    simp only [ha, hb]
  unfold Cert.Spec.dense
  simp only [hrow]

/-! ## From the blocks to the array -/

theorem origin2 : (![0, 0] : Fin 2 → Nat) = fun _ => 0 := funext fun a => by fin_cases a <;> rfl
theorem origin1 : (![0] : Fin 1 → Nat) = fun _ => 0 := funext fun a => by fin_cases a <;> rfl

/-- The index maps over the grid: at point t the two row operands and the result sit at row block t, and each weight
    matrix and bias vector is its whole array at every point. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

/-- A weight matrix's block is the whole matrix. -/
theorem whole2 (c : Dev nD) (t : Fin cfg5.N) :
    iblk5 V c 2 t = (V c main_v73 : S64x64.Idx → EReal) ∧ iblk5 V c 3 t = (V c main_v75 : S64x64.Idx → EReal)
    ∧ iblk5 V c 5 t = (V c main_v79 : S64x64.Idx → EReal) := by
  obtain ⟨e00, e01, e10, e11, e20, e21, e30, e31, e40, e50, e51, e60, e70, e71⟩ := index_facts t
  refine ⟨funext fun y => ?_, funext fun y => ?_, funext fun y => ?_⟩
  · show V c main_v73 (((cfg5.win 2).blk t).view.emb y) = V c main_v73 y
    refine congrArg _ (funext fun a => Fin.ext ?_)
    match a with
    | ⟨0, _⟩ => show win5_2.index t (0 : Fin 2) * 64 + 1 * (y 0).val = (y 0).val; omega
    | ⟨1, _⟩ => show win5_2.index t (1 : Fin 2) * 64 + 1 * (y 1).val = (y 1).val; omega
  · show V c main_v75 (((cfg5.win 3).blk t).view.emb y) = V c main_v75 y
    refine congrArg _ (funext fun a => Fin.ext ?_)
    match a with
    | ⟨0, _⟩ => show win5_3.index t (0 : Fin 2) * 64 + 1 * (y 0).val = (y 0).val; omega
    | ⟨1, _⟩ => show win5_3.index t (1 : Fin 2) * 64 + 1 * (y 1).val = (y 1).val; omega
  · show V c main_v79 (((cfg5.win 5).blk t).view.emb y) = V c main_v79 y
    refine congrArg _ (funext fun a => Fin.ext ?_)
    match a with
    | ⟨0, _⟩ => show win5_5.index t (0 : Fin 2) * 64 + 1 * (y 0).val = (y 0).val; omega
    | ⟨1, _⟩ => show win5_5.index t (1 : Fin 2) * 64 + 1 * (y 1).val = (y 1).val; omega

/-- A bias vector's block is the whole vector. -/
theorem whole1 (c : Dev nD) (t : Fin cfg5.N) :
    iblk5 V c 4 t = (V c main_v77 : S64.Idx → EReal) ∧ iblk5 V c 6 t = (V c main_v81 : S64.Idx → EReal) := by
  obtain ⟨e00, e01, e10, e11, e20, e21, e30, e31, e40, e50, e51, e60, e70, e71⟩ := index_facts t
  refine ⟨funext fun y => ?_, funext fun y => ?_⟩
  · show V c main_v77 (((cfg5.win 4).blk t).view.emb y) = V c main_v77 y
    refine congrArg _ (funext fun a => Fin.ext ?_)
    match a with
    | ⟨0, _⟩ => show win5_4.index t (0 : Fin 1) * 64 + 1 * (y 0).val = (y 0).val; omega
  · show V c main_v81 (((cfg5.win 6).blk t).view.emb y) = V c main_v81 y
    refine congrArg _ (funext fun a => Fin.ext ?_)
    match a with
    | ⟨0, _⟩ => show win5_6.index t (0 : Fin 1) * 64 + 1 * (y 0).val = (y 0).val; omega

/-- Row p of a row operand's block at point t is row 10000 t + p of the operand. -/
theorem rows (c : Dev nD) (t : Fin cfg5.N) (p : Fin 10000) (r : Fin 1000000) (hr : r.val = t.val * 10000 + p.val) (k : Fin 64) :
    iblk5 V c 0 t (ix2 p k) = (V c main_v70 : S1000000x64.Idx → EReal) (ix2 r k)
    ∧ iblk5 V c 1 t (ix2 p k) = (V c main_v71 : S1000000x64.Idx → EReal) (ix2 r k) := by
  obtain ⟨e00, e01, e10, e11, e20, e21, e30, e31, e40, e50, e51, e60, e70, e71⟩ := index_facts t
  constructor
  · show V c main_v70 (((cfg5.win 0).blk t).view.emb (ix2 p k)) = V c main_v70 (ix2 r k)
    refine congrArg _ (funext fun a => Fin.ext ?_)
    match a with
    | ⟨0, _⟩ => show win5_0.index t (0 : Fin 2) * 10000 + 1 * p.val = r.val; omega
    | ⟨1, _⟩ => show win5_0.index t (1 : Fin 2) * 64 + 1 * k.val = k.val; omega
  · show V c main_v71 (((cfg5.win 1).blk t).view.emb (ix2 p k)) = V c main_v71 (ix2 r k)
    refine congrArg _ (funext fun a => Fin.ext ?_)
    match a with
    | ⟨0, _⟩ => show win5_1.index t (0 : Fin 2) * 10000 + 1 * p.val = r.val; omega
    | ⟨1, _⟩ => show win5_1.index t (1 : Fin 2) * 64 + 1 * k.val = k.val; omega

/-- The stored block at point t, index by index, is the specification's array of the whole operands read at that
    block's place in the array. -/
theorem block_eq (c : Dev nD) (t : Fin cfg5.N) (j : S10000x64.Idx) :
    k5_pay1 (iblk5 V c 0 t) (iblk5 V c 1 t) (iblk5 V c 2 t) (iblk5 V c 3 t) (iblk5 V c 4 t) (iblk5 V c 5 t) (iblk5 V c 6 t) j
      = Cert.Spec.mlp2two (V c main_v70) (V c main_v71) (V c main_v73) (V c main_v75) (V c main_v77) (V c main_v79) (V c main_v81)
          (((cfg5.win 7).blk t).view.emb j) := by
  obtain ⟨p, q, rfl⟩ : ∃ (p : Fin 10000) (q : Fin 64), j = ix2 p q := ⟨j 0, j 1, eq_ix2 j⟩
  obtain ⟨e00, e01, e10, e11, e20, e21, e30, e31, e40, e50, e51, e60, e70, e71⟩ := index_facts t
  have hN : grid5.N = 100 := N_5
  have ht : t.val < 100 := lt_of_lt_of_eq t.isLt hN
  have hp : p.val < 10000 := p.isLt
  have hemb : ((cfg5.win 7).blk t).view.emb (ix2 p q) = ix2 (⟨t.val * 10000 + p.val, by omega⟩ : Fin 1000000) q := by
    funext a; apply Fin.ext
    match a with
    | ⟨0, _⟩ => show win5_7.index t (0 : Fin 2) * 10000 + 1 * p.val = t.val * 10000 + p.val; omega
    | ⟨1, _⟩ => show win5_7.index t (1 : Fin 2) * 64 + 1 * q.val = q.val; omega
  refine (payload_apply _ _ _ _ _ _ _ p q).trans ?_
  refine Eq.trans ?_ (congrArg _ hemb.symm)
  obtain ⟨h2, h3, h5⟩ := whole2 V c t
  obtain ⟨h4, h6⟩ := whole1 V c t
  exact mlp2two_of_rows _ _ _ _ _ _ _ _ _ _ _ _ _ _ p _ q (fun k => (rows V c t p _ rfl k).1) (fun k => (rows V c t p _ rfl k).2)
    h2 h3 h4 h5 h6

/-- What point t writes back is block t of the specification's array of the whole operands. -/
theorem flushed_eq (c : Dev nD) (t : Fin cfg5.N) :
    (dat5 (F := Ideal) V c).flushed 7 t = ((cfg5.win 7).blk t).view.read (Elt Ideal)
      (Cert.Spec.mlp2two (V c main_v70) (V c main_v71) (V c main_v73) (V c main_v75) (V c main_v77) (V c main_v79) (V c main_v81)) := by
  show (cfg5.win 7).cut (grid5.coords t) ((dat5 V c).after 7 t) = _
  rw [after5_7]
  unfold out5_7
  rw [View.canon_unit_zero origin2]
  simp only [View.ld_unit_zero (S := S10000x64) origin2, View.ld_unit_zero (S := S64x64) origin2, View.ld_unit_zero (S := S64) origin1]
  funext j
  exact block_eq V c t j

/-- An index of the array is in point t's block iff each coordinate is in the block's range on its axis. -/
theorem mem_block (t : Fin cfg5.N) (i : S1000000x64.Idx) :
    i ∈ ((cfg5.win 7).blk t).view.set ↔ ∀ a : Fin 2, win5_7.index t a * S10000x64.size a ≤ (i a).val ∧ (i a).val < win5_7.index t a * S10000x64.size a + S10000x64.size a := by
  show i ∈ ((View.whole main_v82).slice (win5_7.rect t)).set ↔ _
  rw [View.set_slice_whole, Rect.mem_set_unit]
  exact Iff.rfl

/-- Every row r of the array is in the block of point r / 10000, which writes back. -/
theorem cover (i : S1000000x64.Idx) :
    ∃ t : Fin cfg5.N, (cfg5.win 7).flush t = true ∧ i ∈ ((cfg5.win 7).blk t).view.set := by
  have hi0 : (i 0).val < 1000000 := (i 0).isLt
  have hi1 : (i 1).val < 64 := (i 1).isLt
  have hN : grid5.N = 100 := N_5
  have hlt : (i 0).val / 10000 < grid5.N := by rw [hN]; omega
  obtain ⟨e00, e01, e10, e11, e20, e21, e30, e31, e40, e50, e51, e60, e70, e71⟩ := index_facts ⟨(i 0).val / 10000, hlt⟩
  refine ⟨⟨(i 0).val / 10000, hlt⟩, flush5_7 _, ?_⟩
  rw [mem_block]
  intro a
  match a with
  | ⟨0, _⟩ =>
    show win5_7.index ⟨(i 0).val / 10000, hlt⟩ (0 : Fin 2) * 10000 ≤ (i 0).val ∧ (i 0).val < win5_7.index ⟨(i 0).val / 10000, hlt⟩ (0 : Fin 2) * 10000 + 10000
    rw [e70]
    show (i 0).val / 10000 * 10000 ≤ (i 0).val ∧ (i 0).val < (i 0).val / 10000 * 10000 + 10000
    omega
  | ⟨1, _⟩ =>
    show win5_7.index ⟨(i 0).val / 10000, hlt⟩ (1 : Fin 2) * 64 ≤ (i 1).val ∧ (i 1).val < win5_7.index ⟨(i 0).val / 10000, hlt⟩ (1 : Fin 2) * 64 + 64
    rw [e71]
    omega

/-- The result array after all grid points is the specification's two-operand block of the operand arrays. -/
theorem value (c : Dev nD) :
    (dat5 (F := Ideal) V c).arrAt 7 cfg5.N
      = Cert.Spec.mlp2two (V c main_v70) (V c main_v71) (V c main_v73) (V c main_v75) (V c main_v77) (V c main_v79) (V c main_v81) :=
  (dat5 (F := Ideal) V c).arrAt_eq_of_cover 7 _ (fun t _ => flushed_eq V c t) cover

end Cert.KernelIdeal.Region5

end
-- ==== Proof.Region6.lean ====
/-
  The value of the update block's third region. At every grid point the body stores, into the output's block, the
  two-operand block of the specification applied to the input blocks, the second operand being the sums' block divided
  by the count column. Since that function at row p reads only row p of the three row operands and all of the small
  operands, the block of the whole arrays' function is the function of the blocks; the ten blocks of 10000 rows cover
  the 100000 rows, so the output array ends as the specification's function of the input arrays.
-/
import proofs.«111624_j59098749993608_2_alg».proof.Proof.Gen.KernelIdeal.Frame
import proofs.«111624_j59098749993608_2_alg».proof.Proof.Spec
import proofs.«111624_j59098749993608_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region6

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The matrix product into the zero accumulator, read at (p, q). -/
theorem product_apply {φ₁ φ₂ : FTy} (L : FVec Ideal S10000x64 φ₁) (R : FVec Ideal S64x64 φ₂) (p : Fin 10000) (q : Fin 64) :
    matmul dot_S10000x64_S64x64_S10000x64_1_0_0_1_n_n none L R (constant (F := Ideal) S10000x64 .f32 0x00000000#32) (ix2 p q)
      = ∑ k : Fin 64, L (ix2 p k) * R (ix2 k q) :=
  Cert.Bridge.LibMatmul.matmul_zero_apply none L R p q

/-- The bias row [64] → [1, 64] → [10000, 64], read at (p, q). -/
theorem bias_apply (b : FVec Ideal S64 .f32) (p : Fin 10000) (q : Fin 64) :
    broadcastTo S10000x64 (shapeCast S1x64 b shapeCasts_S64_S1x64) broadcasts_S1x64_S10000x64 (ix2 p q) = b (ix1 q) := by
  rw [broadcastTo_1b_ab_apply, shapeCast_a_1a_apply]

/-- The count column [10000, 1] → [10000, 64], read at (p, q). -/
theorem column_apply (d : FVec Ideal S10000x1 .f32) (p : Fin 10000) (q : Fin 64) :
    broadcastTo S10000x64 d broadcasts_S10000x1_S10000x64 (ix2 p q) = d (ix2 p (0 : Fin 1)) := by
  refine broadcastTo_apply d broadcasts_S10000x1_S10000x64 (ix2 p q) (ix2 p (0 : Fin 1)) fun ax => ?_
  match ax with
  | ⟨0, _⟩ => rfl
  | ⟨1, _⟩ => rfl

/-- The block's payload at (p, q): the two-operand block of the specification over the blocks, the second operand
    being the sums' block divided by the count column. -/
theorem payload_apply (x0 x1 : Vec Ideal S10000x64 .f32) (x2 : Vec Ideal S10000x1 .f32) (x3 x4 : Vec Ideal S64x64 .f32)
    (x5 : Vec Ideal S64 .f32) (x6 : Vec Ideal S64x64 .f32) (x7 : Vec Ideal S64 .f32) (p : Fin 10000) (q : Fin 64) :
    k6_pay1 x0 x1 x2 x3 x4 x5 x6 x7 (ix2 p q)
      = Cert.Spec.mlp2two x0 (Cert.Spec.quot x1 x2) x3 x4 x5 x6 x7 (ix2 p q) := by
  unfold k6_pay1
  simp only [maximumf_apply, addf_apply, broadcast_apply, product_apply, bias_apply, truncf_apply, shapeCast_self,
    divf_apply, column_apply]
  rfl

/-- The block of two operands, at row p, reads only row p of its three row operands: two families of row operands
    that agree on that row give the same value there. -/
theorem mlp2two_quot_row {R R' A B H N : Nat}
    (a : (⟨2, ![R, A]⟩ : Shape).Idx → EReal) (s : (⟨2, ![R, B]⟩ : Shape).Idx → EReal) (d : (⟨2, ![R, 1]⟩ : Shape).Idx → EReal)
    (a' : (⟨2, ![R', A]⟩ : Shape).Idx → EReal) (s' : (⟨2, ![R', B]⟩ : Shape).Idx → EReal) (d' : (⟨2, ![R', 1]⟩ : Shape).Idx → EReal)
    (wa : (⟨2, ![A, H]⟩ : Shape).Idx → EReal) (wb : (⟨2, ![B, H]⟩ : Shape).Idx → EReal) (b1 : (⟨1, ![H]⟩ : Shape).Idx → EReal)
    (w2 : (⟨2, ![H, N]⟩ : Shape).Idx → EReal) (b2 : (⟨1, ![N]⟩ : Shape).Idx → EReal)
    (p : Fin R) (p' : Fin R') (q : Fin N)
    (ha : ∀ k, a (ix2 p k) = a' (ix2 p' k)) (hs : ∀ k, s (ix2 p k) = s' (ix2 p' k))
    (hd : d (ix2 p (0 : Fin 1)) = d' (ix2 p' (0 : Fin 1))) :
    Cert.Spec.mlp2two a (Cert.Spec.quot s d) wa wb b1 w2 b2 (ix2 p q)
      = Cert.Spec.mlp2two a' (Cert.Spec.quot s' d') wa wb b1 w2 b2 (ix2 p' q) := by
  have hq : ∀ k, Cert.Spec.quot s d (ix2 p k) = Cert.Spec.quot s' d' (ix2 p' k) := by
    intro k
    show Ideal.div (s (ix2 p k)) (d (ix2 p (0 : Fin 1))) = Ideal.div (s' (ix2 p' k)) (d' (ix2 p' (0 : Fin 1)))
    rw [hs, hd]
  have hh : ∀ k, Cert.Spec.hidden2 a (Cert.Spec.quot s d) wa wb b1 (ix2 p k)
      = Cert.Spec.hidden2 a' (Cert.Spec.quot s' d') wa wb b1 (ix2 p' k) := by
    intro k
    show Cert.Spec.relu (Cert.Spec.dense2 a (Cert.Spec.quot s d) wa wb b1 p k)
      = Cert.Spec.relu (Cert.Spec.dense2 a' (Cert.Spec.quot s' d') wa wb b1 p' k)
    unfold Cert.Spec.dense2
    simp only [ha, hq]
  show Cert.Spec.relu (Cert.Spec.dense (Cert.Spec.hidden2 a (Cert.Spec.quot s d) wa wb b1) w2 b2 p q)
    = Cert.Spec.relu (Cert.Spec.dense (Cert.Spec.hidden2 a' (Cert.Spec.quot s' d') wa wb b1) w2 b2 p' q)
  unfold Cert.Spec.dense
  simp only [hh]

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the grid: a row-block window's block index is (t, 0), a whole small
    array's is zero on every axis. -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 1) = 0
    ∧ win6_6.index t (0 : Fin 2) = 0 ∧ win6_6.index t (1 : Fin 2) = 0
    ∧ win6_7.index t (0 : Fin 1) = 0
    ∧ win6_8.index t (0 : Fin 2) = t.val ∧ win6_8.index t (1 : Fin 2) = 0 :=
  (by decide +kernel : ∀ t : Fin grid6.N, _)

theorem grid_points : cfg6.N = 10 := N_6

/-- Where an element of a row block sits in its array: row t · 10000 + p, same column. -/
theorem emb_rows0 (t : Fin cfg6.N) (p : Fin 10000) (k : Fin 64) (h : t.val * 10000 + p.val < 100000) :
    ((cfg6.win 0).blk t).view.emb (ix2 p k) = (ix2 (⟨t.val * 10000 + p.val, h⟩ : Fin 100000) k : S100000x64.Idx) := by
  obtain ⟨e0, e1, -⟩ := index_facts t
  funext a; apply Fin.ext
  match a with
  | ⟨0, _⟩ => show win6_0.index t (0 : Fin 2) * 10000 + 1 * p.val = t.val * 10000 + p.val; rw [e0]; omega
  | ⟨1, _⟩ => show win6_0.index t (1 : Fin 2) * 64 + 1 * k.val = k.val; rw [e1]; omega

/-- An index of the array is in point t's block iff each coordinate is in the block's range on its axis. -/
theorem mem_block (t : Fin cfg6.N) (i : S100000x64.Idx) :
    i ∈ ((cfg6.win 8).blk t).view.set ↔ ∀ a : Fin 2, win6_8.index t a * S10000x64.size a ≤ (i a).val
      ∧ (i a).val < win6_8.index t a * S10000x64.size a + S10000x64.size a := by
  show i ∈ ((View.whole main_v96).slice (win6_8.rect t)).set ↔ _
  rw [View.set_slice_whole, Rect.mem_set_unit]
  exact Iff.rfl

/-- Every row r of the array is in the block of the point r / 10000. -/
theorem cover (i : S100000x64.Idx) :
    ∃ t : Fin cfg6.N, (cfg6.win 8).flush t = true ∧ i ∈ ((cfg6.win 8).blk t).view.set := by
  have hN : cfg6.N = 10 := N_6
  have hi0 : (i 0).val < 100000 := (i 0).isLt
  have hi1 : (i 1).val < 64 := (i 1).isLt
  have ht : (i 0).val / 10000 < cfg6.N := by rw [hN]; omega
  refine ⟨⟨(i 0).val / 10000, ht⟩, flush6_8 _, ?_⟩
  have e0 : win6_8.index ⟨(i 0).val / 10000, ht⟩ (0 : Fin 2) = (i 0).val / 10000 := (index_facts ⟨(i 0).val / 10000, ht⟩).2.2.2.2.2.2.2.2.2.2.2.2.2.2.1
  have e1 : win6_8.index ⟨(i 0).val / 10000, ht⟩ (1 : Fin 2) = 0 := (index_facts ⟨(i 0).val / 10000, ht⟩).2.2.2.2.2.2.2.2.2.2.2.2.2.2.2
  rw [mem_block]
  intro a
  match a with
  | ⟨0, _⟩ =>
    show win6_8.index ⟨(i 0).val / 10000, ht⟩ (0 : Fin 2) * 10000 ≤ (i 0).val
      ∧ (i 0).val < win6_8.index ⟨(i 0).val / 10000, ht⟩ (0 : Fin 2) * 10000 + 10000
    rw [e0]; omega
  | ⟨1, _⟩ =>
    show win6_8.index ⟨(i 0).val / 10000, ht⟩ (1 : Fin 2) * 64 ≤ (i 1).val
      ∧ (i 1).val < win6_8.index ⟨(i 0).val / 10000, ht⟩ (1 : Fin 2) * 64 + 64
    rw [e1]; omega

variable (V : (c : Dev nD) → (b : Ref sig .tc) → Buf (Elt Ideal) ((c : Thread nD τ).loc b))

/-- Where an element of a row block sits in its array: row t · 10000 + p, same column. -/
theorem emb_rows1 (t : Fin cfg6.N) (p : Fin 10000) (k : Fin 64) (h : t.val * 10000 + p.val < 100000) :
    ((cfg6.win 1).blk t).view.emb (ix2 p k) = (ix2 (⟨t.val * 10000 + p.val, h⟩ : Fin 100000) k : S100000x64.Idx) := by
  obtain ⟨-, -, e0, e1, -⟩ := index_facts t
  funext a; apply Fin.ext
  match a with
  | ⟨0, _⟩ => show win6_1.index t (0 : Fin 2) * 10000 + 1 * p.val = t.val * 10000 + p.val; rw [e0]; omega
  | ⟨1, _⟩ => show win6_1.index t (1 : Fin 2) * 64 + 1 * k.val = k.val; rw [e1]; omega

theorem emb_rows2 (t : Fin cfg6.N) (p : Fin 10000) (k : Fin 1) (h : t.val * 10000 + p.val < 100000) :
    ((cfg6.win 2).blk t).view.emb (ix2 p k) = (ix2 (⟨t.val * 10000 + p.val, h⟩ : Fin 100000) k : S100000x1.Idx) := by
  obtain ⟨-, -, -, -, e0, e1, -⟩ := index_facts t
  funext a; apply Fin.ext
  match a with
  | ⟨0, _⟩ => show win6_2.index t (0 : Fin 2) * 10000 + 1 * p.val = t.val * 10000 + p.val; rw [e0]; omega
  | ⟨1, _⟩ => show win6_2.index t (1 : Fin 2) * 1 + 1 * k.val = k.val; rw [e1]; omega

theorem emb_rows8 (t : Fin cfg6.N) (p : Fin 10000) (k : Fin 64) (h : t.val * 10000 + p.val < 100000) :
    ((cfg6.win 8).blk t).view.emb (ix2 p k) = (ix2 (⟨t.val * 10000 + p.val, h⟩ : Fin 100000) k : S100000x64.Idx) := by
  obtain ⟨-, -, -, -, -, -, -, -, -, -, -, -, -, -, e0, e1⟩ := index_facts t
  funext a; apply Fin.ext
  match a with
  | ⟨0, _⟩ => show win6_8.index t (0 : Fin 2) * 10000 + 1 * p.val = t.val * 10000 + p.val; rw [e0]; omega
  | ⟨1, _⟩ => show win6_8.index t (1 : Fin 2) * 64 + 1 * k.val = k.val; rw [e1]; omega

/-- A whole small array's block is the array. -/
theorem emb_whole3 (t : Fin cfg6.N) (y : S64x64.Idx) : ((cfg6.win 3).blk t).view.emb y = y := by
  obtain ⟨-, -, -, -, -, -, e0, e1, -⟩ := index_facts t
  funext a; apply Fin.ext
  match a with
  | ⟨0, _⟩ => show win6_3.index t (0 : Fin 2) * 64 + 1 * (y 0).val = (y 0).val; rw [e0]; omega
  | ⟨1, _⟩ => show win6_3.index t (1 : Fin 2) * 64 + 1 * (y 1).val = (y 1).val; rw [e1]; omega

theorem emb_whole4 (t : Fin cfg6.N) (y : S64x64.Idx) : ((cfg6.win 4).blk t).view.emb y = y := by
  obtain ⟨-, -, -, -, -, -, -, -, e0, e1, -⟩ := index_facts t
  funext a; apply Fin.ext
  match a with
  | ⟨0, _⟩ => show win6_4.index t (0 : Fin 2) * 64 + 1 * (y 0).val = (y 0).val; rw [e0]; omega
  | ⟨1, _⟩ => show win6_4.index t (1 : Fin 2) * 64 + 1 * (y 1).val = (y 1).val; rw [e1]; omega

theorem emb_whole5 (t : Fin cfg6.N) (y : S64.Idx) : ((cfg6.win 5).blk t).view.emb y = y := by
  obtain ⟨-, -, -, -, -, -, -, -, -, -, e0, -⟩ := index_facts t
  funext a; apply Fin.ext
  match a with
  | ⟨0, _⟩ => show win6_5.index t (0 : Fin 1) * 64 + 1 * (y 0).val = (y 0).val; rw [e0]; omega

theorem emb_whole6 (t : Fin cfg6.N) (y : S64x64.Idx) : ((cfg6.win 6).blk t).view.emb y = y := by
  obtain ⟨-, -, -, -, -, -, -, -, -, -, -, e0, e1, -⟩ := index_facts t
  funext a; apply Fin.ext
  match a with
  | ⟨0, _⟩ => show win6_6.index t (0 : Fin 2) * 64 + 1 * (y 0).val = (y 0).val; rw [e0]; omega
  | ⟨1, _⟩ => show win6_6.index t (1 : Fin 2) * 64 + 1 * (y 1).val = (y 1).val; rw [e1]; omega

theorem emb_whole7 (t : Fin cfg6.N) (y : S64.Idx) : ((cfg6.win 7).blk t).view.emb y = y := by
  obtain ⟨-, -, -, -, -, -, -, -, -, -, -, -, -, e0, -⟩ := index_facts t
  funext a; apply Fin.ext
  match a with
  | ⟨0, _⟩ => show win6_7.index t (0 : Fin 1) * 64 + 1 * (y 0).val = (y 0).val; rw [e0]; omega

/-- The blocks, read off the arrays as the region finds them. -/
theorem rows0 (c : Dev nD) (t : Fin cfg6.N) (p : Fin 10000) (k : Fin 64) (h : t.val * 10000 + p.val < 100000) :
    (iblk6 V c 0 t : S10000x64.Idx → EReal) (ix2 p k) = (V c main_v69 : S100000x64.Idx → EReal) (ix2 ⟨t.val * 10000 + p.val, h⟩ k) := by
  show (V c main_v69 : S100000x64.Idx → EReal) (((cfg6.win 0).blk t).view.emb (ix2 p k)) = _
  rw [emb_rows0 t p k h]

theorem rows1 (c : Dev nD) (t : Fin cfg6.N) (p : Fin 10000) (k : Fin 64) (h : t.val * 10000 + p.val < 100000) :
    (iblk6 V c 1 t : S10000x64.Idx → EReal) (ix2 p k) = (V c main_v85 : S100000x64.Idx → EReal) (ix2 ⟨t.val * 10000 + p.val, h⟩ k) := by
  show (V c main_v85 : S100000x64.Idx → EReal) (((cfg6.win 1).blk t).view.emb (ix2 p k)) = _
  rw [emb_rows1 t p k h]

theorem rows2 (c : Dev nD) (t : Fin cfg6.N) (p : Fin 10000) (k : Fin 1) (h : t.val * 10000 + p.val < 100000) :
    (iblk6 V c 2 t : S10000x1.Idx → EReal) (ix2 p k) = (V c main_v11 : S100000x1.Idx → EReal) (ix2 ⟨t.val * 10000 + p.val, h⟩ k) := by
  show (V c main_v11 : S100000x1.Idx → EReal) (((cfg6.win 2).blk t).view.emb (ix2 p k)) = _
  rw [emb_rows2 t p k h]

theorem whole3 (c : Dev nD) (t : Fin cfg6.N) : (iblk6 V c 3 t : S64x64.Idx → EReal) = (V c main_v87 : S64x64.Idx → EReal) := by
  funext y
  show (V c main_v87 : S64x64.Idx → EReal) (((cfg6.win 3).blk t).view.emb y) = _
  rw [emb_whole3 t y]

theorem whole4 (c : Dev nD) (t : Fin cfg6.N) : (iblk6 V c 4 t : S64x64.Idx → EReal) = (V c main_v89 : S64x64.Idx → EReal) := by
  funext y
  show (V c main_v89 : S64x64.Idx → EReal) (((cfg6.win 4).blk t).view.emb y) = _
  rw [emb_whole4 t y]

theorem whole5 (c : Dev nD) (t : Fin cfg6.N) : (iblk6 V c 5 t : S64.Idx → EReal) = (V c main_v91 : S64.Idx → EReal) := by
  funext y
  show (V c main_v91 : S64.Idx → EReal) (((cfg6.win 5).blk t).view.emb y) = _
  rw [emb_whole5 t y]

theorem whole6 (c : Dev nD) (t : Fin cfg6.N) : (iblk6 V c 6 t : S64x64.Idx → EReal) = (V c main_v93 : S64x64.Idx → EReal) := by
  funext y
  show (V c main_v93 : S64x64.Idx → EReal) (((cfg6.win 6).blk t).view.emb y) = _
  rw [emb_whole6 t y]

theorem whole7 (c : Dev nD) (t : Fin cfg6.N) : (iblk6 V c 7 t : S64.Idx → EReal) = (V c main_v95 : S64.Idx → EReal) := by
  funext y
  show (V c main_v95 : S64.Idx → EReal) (((cfg6.win 7).blk t).view.emb y) = _
  rw [emb_whole7 t y]

/-- What point t writes back is block t of the specification's function of the arrays as the region finds them. -/
theorem flushed_eq (c : Dev nD) (t : Fin cfg6.N) :
    (dat6 (F := Ideal) V c).flushed 8 t = ((cfg6.win 8).blk t).view.read (Elt Ideal)
      (Cert.Spec.mlp2two (V c main_v69) (Cert.Spec.quot (V c main_v85) (V c main_v11)) (V c main_v87) (V c main_v89)
        (V c main_v91) (V c main_v93) (V c main_v95)) := by
  show (cfg6.win 8).cut (grid6.coords t) ((dat6 V c).after 8 t) = _
  rw [after6_8]
  unfold out6_8
  rw [View.canon_unit_zero zeros2]
  simp only [View.ld_unit_zero (S := S10000x64) zeros2, View.ld_unit_zero (S := S10000x1) zeros2,
    View.ld_unit_zero (S := S64x64) zeros2, View.ld_unit_zero (S := S64) zeros1]
  funext j
  obtain ⟨p, q, rfl⟩ : ∃ (p : Fin 10000) (q : Fin 64), j = ix2 p q := ⟨j 0, j 1, eq_ix2 j⟩
  have hN : cfg6.N = 10 := N_6
  have hr : t.val * 10000 + p.val < 100000 := by have := t.isLt; have := p.isLt; omega
  show k6_pay1 (iblk6 V c 0 t) (iblk6 V c 1 t) (iblk6 V c 2 t) (iblk6 V c 3 t) (iblk6 V c 4 t) (iblk6 V c 5 t)
      (iblk6 V c 6 t) (iblk6 V c 7 t) (ix2 p q)
    = Cert.Spec.mlp2two (V c main_v69) (Cert.Spec.quot (V c main_v85) (V c main_v11)) (V c main_v87) (V c main_v89)
        (V c main_v91) (V c main_v93) (V c main_v95) (((cfg6.win 8).blk t).view.emb (ix2 p q))
  refine (payload_apply _ _ _ _ _ _ _ _ p q).trans ?_
  rw [emb_rows8 t p q hr, whole3 V c t, whole4 V c t, whole5 V c t, whole6 V c t, whole7 V c t]
  exact mlp2two_quot_row _ _ _ _ _ _ _ _ _ _ _ p ⟨t.val * 10000 + p.val, hr⟩ q
    (fun k => rows0 V c t p k hr) (fun k => rows1 V c t p k hr) (rows2 V c t p 0 hr)

/-- The output array after all grid points is the specification's block of two operands, the second operand being
    the sums divided by the counts, of the input arrays as the region finds them. -/
theorem value (c : Dev nD) :
    (dat6 (F := Ideal) V c).arrAt 8 cfg6.N
      = Cert.Spec.mlp2two (V c main_v69) (Cert.Spec.quot (V c main_v85) (V c main_v11)) (V c main_v87) (V c main_v89)
          (V c main_v91) (V c main_v93) (V c main_v95) :=
  (dat6 (F := Ideal) V c).arrAt_eq_of_cover 8 _ (fun t _ => flushed_eq V c t) cover

end Cert.KernelIdeal.Region6

end
-- ==== Proof.Region7.lean ====
/-
  The last kernel region computes the output head of the network: for each block of 10000 rows of the input, the
  dense layer x · w1 + b1 clamped below at zero, then the dense layer · w2 + b2, then 2π times the logistic function.
  Row p of the result reads only row p of the row operand and all of the weights and biases, so the blocks that the
  grid points write are the restrictions of one whole-array function, and the blocks tile the array: the output array
  is that function of the operand arrays.
-/
import proofs.«111624_j59098749993608_2_alg».proof.Proof.Gen.KernelIdeal.Frame
import proofs.«111624_j59098749993608_2_alg».proof.Proof.Spec
import proofs.«111624_j59098749993608_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable {R A H N : Nat}

/-- A bias vector laid out as one row and repeated down the rows reads, at (p, q), its entry q. -/
theorem bias_row_apply (b : FVec Ideal ⟨1, ![N]⟩ .f32) (h1 : (⟨1, ![N]⟩ : Shape).ShapeCasts ⟨2, ![1, N]⟩)
    (h2 : (⟨2, ![1, N]⟩ : Shape).Broadcasts ⟨2, ![R, N]⟩) (p : Fin R) (q : Fin N) :
    broadcastTo ⟨2, ![R, N]⟩ (shapeCast ⟨2, ![1, N]⟩ b h1) h2 (ix2 p q) = b (ix1 q) :=
  (broadcastTo_1b_ab_apply _ h2 p q).trans (shapeCast_a_1a_apply b h1 0 q)

/-- The product into the zero accumulator plus the bias row is the dense layer, at (p, q). -/
theorem dense_apply (D : DotDims ⟨2, ![R, A]⟩ ⟨2, ![A, N]⟩ ⟨2, ![R, N]⟩) (hD : D = DotDims.plain R A N)
    (x : FVec Ideal ⟨2, ![R, A]⟩ .bf16) (w : FVec Ideal ⟨2, ![A, N]⟩ .bf16) (b : FVec Ideal ⟨1, ![N]⟩ .f32)
    (h1 : (⟨1, ![N]⟩ : Shape).ShapeCasts ⟨2, ![1, N]⟩) (h2 : (⟨2, ![1, N]⟩ : Shape).Broadcasts ⟨2, ![R, N]⟩)
    (p : Fin R) (q : Fin N) :
    addf (matmul D none x w (constant (F := Ideal) ⟨2, ![R, N]⟩ .f32 0x00000000#32))
        (broadcastTo ⟨2, ![R, N]⟩ (shapeCast ⟨2, ![1, N]⟩ b h1) h2) (ix2 p q)
      = Cert.Spec.dense x w b p q := by
  subst hD
  rw [addf_apply, bias_row_apply]
  exact congrArg (· + b (ix1 q)) (Cert.Bridge.LibMatmul.matmul_zero_apply none x w p q)

/-- The clamp of an array against the broadcast zero word, at an index. -/
theorem clamp_apply (v : FVec Ideal ⟨2, ![R, N]⟩ .f32) (j : (⟨2, ![R, N]⟩ : Shape).Idx) :
    maximumf v (broadcast ⟨2, ![R, N]⟩ (FloatOps.ofBits (F := Ideal) .f32 0x00000000#32)) j = Cert.Spec.relu (v j) := rfl

/-- The payload at (p, q) is the output head of its operands. -/
theorem pay_apply (x0 : Vec Ideal S10000x64 .f32) (x1 : Vec Ideal S64x64 .f32) (x2 : Vec Ideal S64 .f32)
    (x3 : Vec Ideal S64x3 .f32) (x4 : Vec Ideal S3 .f32) (p : Fin 10000) (q : Fin 3) :
    k7_pay1 x0 x1 x2 x3 x4 (ix2 p q) = Cert.Spec.head x0 x1 x2 x3 x4 (ix2 p q) := by
  unfold k7_pay1
  rw [mulf_apply, broadcast_apply]
  show FloatOps.ofBits (F := Ideal) .f32 0x40C90FDB#32 * FloatOps.logistic (F := Ideal) _ = _
  rw [Ideal.logistic_def, dense_apply dot_S10000x64_S64x3_S10000x3_1_0_0_1_n_n rfl]
  show Ideal.ofBits .f32 0x40C90FDB#32 * Ideal.logistic (Cert.Spec.dense _ _ x4 p q)
    = Ideal.ofBits .f32 0x40C90FDB#32 * Ideal.logistic (Cert.Spec.dense (Cert.Spec.hidden x0 x1 x2) x3 x4 p q)
  unfold Cert.Spec.dense
  refine congrArg (fun s => Ideal.ofBits .f32 0x40C90FDB#32 * Ideal.logistic (s + x4 (ix1 q))) (Finset.sum_congr rfl fun k _ => ?_)
  rw [truncf_apply, truncf_apply, clamp_apply, dense_apply dot_S10000x64_S64x64_S10000x64_1_0_0_1_n_n rfl, shapeCast_self]
  rfl

/-- Row p of the head reads row p of the row operand only: a block of rows of the operand that sits at rows P of
    the whole operand gives the whole-array function's row P. -/
theorem head_rows {Rb : Nat} (X : (⟨2, ![R, A]⟩ : Shape).Idx → EReal) (xb : (⟨2, ![Rb, A]⟩ : Shape).Idx → EReal)
    (w1 : (⟨2, ![A, H]⟩ : Shape).Idx → EReal) (b1 : (⟨1, ![H]⟩ : Shape).Idx → EReal)
    (w2 : (⟨2, ![H, N]⟩ : Shape).Idx → EReal) (b2 : (⟨1, ![N]⟩ : Shape).Idx → EReal)
    (p : Fin Rb) (P : Fin R) (q : Fin N) (hx : ∀ k : Fin A, xb (ix2 p k) = X (ix2 P k)) :
    Cert.Spec.head xb w1 b1 w2 b2 (ix2 p q) = Cert.Spec.head X w1 b1 w2 b2 (ix2 P q) := by
  show Ideal.ofBits .f32 0x40C90FDB#32 * Ideal.logistic (Cert.Spec.dense (Cert.Spec.hidden xb w1 b1) w2 b2 p q)
    = Ideal.ofBits .f32 0x40C90FDB#32 * Ideal.logistic (Cert.Spec.dense (Cert.Spec.hidden X w1 b1) w2 b2 P q)
  unfold Cert.Spec.dense
  refine congrArg (fun s => Ideal.ofBits .f32 0x40C90FDB#32 * Ideal.logistic (s + b2 (ix1 q))) (Finset.sum_congr rfl fun k _ => ?_)
  show Cert.Spec.relu (Cert.Spec.dense xb w1 b1 p k) * _ = Cert.Spec.relu (Cert.Spec.dense X w1 b1 P k) * _
  unfold Cert.Spec.dense
  simp only [hx]

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row-block windows sit at block row t, the small operands at block 0. -/
theorem index_facts : ∀ t : Fin cfg7.N, win7_0.index t (0 : Fin 2) = win7_5.index t (0 : Fin 2)
    ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0
    ∧ win7_4.index t (0 : Fin 1) = 0
    ∧ win7_5.index t (0 : Fin 2) ≤ 9 ∧ win7_5.index t (1 : Fin 2) = 0 :=
  (by decide +kernel : ∀ t : Fin grid7.N, _)

/-- Every block row is some grid point's. -/
theorem index_onto : ∀ (r : Fin 10), ∃ t : Fin cfg7.N, win7_5.index t = ![r.val, 0] :=
  (by decide +kernel : ∀ (r : Fin 10), ∃ t : Fin grid7.N, win7_5.index t = ![r.val, 0])

/-- The small operands' windows are the whole arrays at every grid point. -/
theorem whole1 (c : Dev nD) (t : Fin cfg7.N) : (iblk7 V c 1 t : S64x64.Idx → EReal) = V c main_arg14 := by
  obtain ⟨e0, e1, e2, e3, e4, e5, e6, e7, e8, e9⟩ := index_facts t
  funext y
  show V c main_arg14 (((cfg7.win 1).blk t).view.emb y) = V c main_arg14 y
  have h : ((cfg7.win 1).blk t).view.emb y = y := by
    funext a; apply Fin.ext
    match a with
    | ⟨0, _⟩ => show win7_1.index t (0 : Fin 2) * 64 + 1 * (y 0).val = (y 0).val; omega
    | ⟨1, _⟩ => show win7_1.index t (1 : Fin 2) * 64 + 1 * (y 1).val = (y 1).val; omega
  rw [h]

theorem whole2 (c : Dev nD) (t : Fin cfg7.N) : (iblk7 V c 2 t : S64.Idx → EReal) = V c main_arg15 := by
  obtain ⟨e0, e1, e2, e3, e4, e5, e6, e7, e8, e9⟩ := index_facts t
  funext y
  show V c main_arg15 (((cfg7.win 2).blk t).view.emb y) = V c main_arg15 y
  have h : ((cfg7.win 2).blk t).view.emb y = y := by
    funext a; apply Fin.ext
    match a with
    | ⟨0, _⟩ => show win7_2.index t (0 : Fin 1) * 64 + 1 * (y 0).val = (y 0).val; omega
  rw [h]

theorem whole3 (c : Dev nD) (t : Fin cfg7.N) : (iblk7 V c 3 t : S64x3.Idx → EReal) = V c main_arg16 := by
  obtain ⟨e0, e1, e2, e3, e4, e5, e6, e7, e8, e9⟩ := index_facts t
  funext y
  show V c main_arg16 (((cfg7.win 3).blk t).view.emb y) = V c main_arg16 y
  have h : ((cfg7.win 3).blk t).view.emb y = y := by
    funext a; apply Fin.ext
    match a with
    | ⟨0, _⟩ => show win7_3.index t (0 : Fin 2) * 64 + 1 * (y 0).val = (y 0).val; omega
    | ⟨1, _⟩ => show win7_3.index t (1 : Fin 2) * 3 + 1 * (y 1).val = (y 1).val; omega
  rw [h]

theorem whole4 (c : Dev nD) (t : Fin cfg7.N) : (iblk7 V c 4 t : S3.Idx → EReal) = V c main_arg17 := by
  obtain ⟨e0, e1, e2, e3, e4, e5, e6, e7, e8, e9⟩ := index_facts t
  funext y
  show V c main_arg17 (((cfg7.win 4).blk t).view.emb y) = V c main_arg17 y
  have h : ((cfg7.win 4).blk t).view.emb y = y := by
    funext a; apply Fin.ext
    match a with
    | ⟨0, _⟩ => show win7_4.index t (0 : Fin 1) * 3 + 1 * (y 0).val = (y 0).val; omega
  rw [h]

/-- The array row under row p of grid point t's block. -/
def rowOf (t : Fin cfg7.N) (p : Fin 10000) : Fin 100000 :=
  ⟨win7_5.index t (0 : Fin 2) * 10000 + p.val, by have := (index_facts t).2.2.2.2.2.2.2.2.1; have := p.isLt; omega⟩

/-- An element of the output block sits at its row of the array, same column. -/
theorem emb_out (t : Fin cfg7.N) (p : Fin 10000) (q : Fin 3) :
    ((cfg7.win 5).blk t).view.emb (ix2 p q) = ix2 (rowOf t p) q := by
  obtain ⟨e0, e1, e2, e3, e4, e5, e6, e7, e8, e9⟩ := index_facts t
  funext a; apply Fin.ext
  match a with
  | ⟨0, _⟩ => show win7_5.index t (0 : Fin 2) * 10000 + 1 * p.val = win7_5.index t (0 : Fin 2) * 10000 + p.val; omega
  | ⟨1, _⟩ => show win7_5.index t (1 : Fin 2) * 3 + 1 * q.val = q.val; omega

/-- An element of the row operand's block sits at the same row of the array. -/
theorem emb_in (t : Fin cfg7.N) (p : Fin 10000) (k : Fin 64) :
    ((cfg7.win 0).blk t).view.emb (ix2 p k) = ix2 (rowOf t p) k := by
  obtain ⟨e0, e1, e2, e3, e4, e5, e6, e7, e8, e9⟩ := index_facts t
  funext a; apply Fin.ext
  match a with
  | ⟨0, _⟩ => show win7_0.index t (0 : Fin 2) * 10000 + 1 * p.val = win7_5.index t (0 : Fin 2) * 10000 + p.val; omega
  | ⟨1, _⟩ => show win7_0.index t (1 : Fin 2) * 64 + 1 * k.val = k.val; omega

/-- The payload of grid point t's blocks is block t of the whole-array function. -/
theorem block_value (c : Dev nD) (t : Fin cfg7.N) (y : S10000x3.Idx) :
    k7_pay1 (iblk7 V c 0 t) (iblk7 V c 1 t) (iblk7 V c 2 t) (iblk7 V c 3 t) (iblk7 V c 4 t) y
      = Cert.Spec.head (V c main_v96) (V c main_arg14) (V c main_arg15) (V c main_arg16) (V c main_arg17)
          (((cfg7.win 5).blk t).view.emb y) := by
  obtain ⟨p, q, rfl⟩ : ∃ (p : Fin 10000) (q : Fin 3), y = ix2 p q := ⟨y 0, y 1, eq_ix2 y⟩
  refine (pay_apply (iblk7 V c 0 t) (iblk7 V c 1 t) (iblk7 V c 2 t) (iblk7 V c 3 t) (iblk7 V c 4 t) p q).trans ?_
  rw [emb_out, whole1, whole2, whole3, whole4]
  refine head_rows (V c main_v96) (iblk7 V c 0 t) _ _ _ _ p (rowOf t p) q fun k => ?_
  show V c main_v96 (((cfg7.win 0).blk t).view.emb (ix2 p k)) = V c main_v96 (ix2 (rowOf t p) k)
  rw [emb_in]

/-- What grid point t writes back is block t of the whole-array function of the operands as the region finds them. -/
theorem flushed_eq (c : Dev nD) (t : Fin cfg7.N) :
    (dat7 (F := Ideal) V c).flushed 5 t = ((cfg7.win 5).blk t).view.read (Elt Ideal)
      (Cert.Spec.head (V c main_v96) (V c main_arg14) (V c main_arg15) (V c main_arg16) (V c main_arg17)) := by
  show (cfg7.win 5).cut (grid7.coords t) ((dat7 (F := Ideal) V c).after 5 t) = _
  rw [after7_5]
  unfold out7_5
  rw [View.canon_unit_zero zero2]
  simp only [View.ld_unit_zero (S := S10000x64) zero2, View.ld_unit_zero (S := S64x64) zero2, View.ld_unit_zero (S := S64) zero1,
    View.ld_unit_zero (S := S64x3) zero2, View.ld_unit_zero (S := S3) zero1]
  funext y
  exact block_value V c t y

/-- An index of the array is in grid point t's block iff each coordinate is in the block's range on its axis. -/
theorem mem_blk (t : Fin cfg7.N) (i : S100000x3.Idx) :
    i ∈ ((cfg7.win 5).blk t).view.set ↔ ∀ a : Fin 2, win7_5.index t a * S10000x3.size a ≤ (i a).val ∧ (i a).val < win7_5.index t a * S10000x3.size a + S10000x3.size a := by
  show i ∈ ((View.whole main_v97).slice (win7_5.rect t)).set ↔ _
  rw [View.set_slice_whole, Rect.mem_set_unit]
  exact Iff.rfl

/-- Every index of the array is in the block of the grid point of its row's block: row r is in block r / 10000. -/
theorem cover (i : S100000x3.Idx) :
    ∃ t : Fin cfg7.N, (cfg7.win 5).flush t = true ∧ i ∈ ((cfg7.win 5).blk t).view.set := by
  have hi0 : (i 0).val < 100000 := (i 0).isLt
  have hi1 : (i 1).val < 3 := (i 1).isLt
  obtain ⟨t, ht⟩ := index_onto ⟨(i 0).val / 10000, by omega⟩
  have q0 : win7_5.index t (0 : Fin 2) = (i 0).val / 10000 := congrFun ht 0
  have q1 : win7_5.index t (1 : Fin 2) = 0 := congrFun ht 1
  refine ⟨t, flush7_5 t, ?_⟩
  rw [mem_blk]
  intro a
  match a with
  | ⟨0, _⟩ => show win7_5.index t (0 : Fin 2) * 10000 ≤ (i 0).val ∧ (i 0).val < win7_5.index t (0 : Fin 2) * 10000 + 10000; omega
  | ⟨1, _⟩ => show win7_5.index t (1 : Fin 2) * 3 ≤ (i 1).val ∧ (i 1).val < win7_5.index t (1 : Fin 2) * 3 + 3; omega

/-- The output array after all grid points is the output head of the operand arrays. -/
theorem value (c : Dev nD) : (dat7 (F := Ideal) V c).arrAt 5 cfg7.N
    = Cert.Spec.head (V c main_v96) (V c main_arg14) (V c main_arg15) (V c main_arg16) (V c main_arg17) :=
  (dat7 (F := Ideal) V c).arrAt_eq_of_cover 5 _ (fun t _ => flushed_eq V c t) cover

end Cert.KernelIdeal.Region7

end
-- ==== Proof.LibFusedLinear.lean ====
/-
  A linear layer applied to two operands side by side. For row blocks a (R × A) and b (R × B), weights W (K × N) with
  K = A + B, and a bias row, the product of the row-wise concatenation [a | b] with W is the sum of the two partial
  products a · W[0:A, :] + b · W[A:K, :]: the sum over the contracted axis splits at A. On the extended reals this needs
  no finiteness, only that addition is commutative and associative.
-/
import Idealize.ShloMosaic.PureOps.Ideal
import Idealize.ShloMosaic.Lib.ValueIdx
import Idealize.ShloMosaic.Lib.Pipeline.Value
import Idealize.ShloMosaic.PureOps.Ideal.Laws
import proofs.«111624_j59098749993608_2_alg».proof.Proof.LibMatmul

noncomputable section

open scoped BigOperators

namespace Cert.Bridge.LibFusedLinear

open Idealize.ShloMosaic Idealize.ShloMosaic.ValueIdx Idealize.ShloMosaic.Pipeline Cert.Bridge

/-- A sum over `Fin K` with `K = A + B` splits into the first `A` terms and the last `B` terms. -/
theorem sum_split {α : Type} [AddCommMonoid α] {A B K : Nat} (h : A + B = K) (f : Fin K → α) :
    ∑ k : Fin K, f k = ∑ k : Fin A, f ⟨k.val, by omega⟩ + ∑ k : Fin B, f ⟨A + k.val, by omega⟩ := by
  subst h
  rw [Fin.sum_univ_add]
  rfl

variable {R A B K N : Nat}

/-- The fused layer at output index (p, q): a[p, :] · wa[:, q] + b[p, :] · wb[:, q] + bias[0, q]. -/
def linAt (a : (⟨2, ![R, A]⟩ : Shape).Idx → EReal) (b : (⟨2, ![R, B]⟩ : Shape).Idx → EReal)
    (wa : (⟨2, ![A, N]⟩ : Shape).Idx → EReal) (wb : (⟨2, ![B, N]⟩ : Shape).Idx → EReal)
    (bias : (⟨2, ![1, N]⟩ : Shape).Idx → EReal) (p : Fin R) (q : Fin N) : EReal :=
  (∑ k : Fin A, a (ix2 p k) * wa (ix2 k q)) + (∑ k : Fin B, b (ix2 p k) * wb (ix2 k q)) + bias (ix2 0 q)

/-- The contracted sum against the concatenation [a | b] is the sum of the two partial contracted sums, when `wa` and
    `wb` are the top `A` rows and the bottom `B` rows of `W`. -/
theorem concat_sum (h : A + B = K) (cat : (⟨2, ![R, K]⟩ : Shape).Idx → EReal)
    (a : (⟨2, ![R, A]⟩ : Shape).Idx → EReal) (b : (⟨2, ![R, B]⟩ : Shape).Idx → EReal)
    (W : (⟨2, ![K, N]⟩ : Shape).Idx → EReal)
    (wa : (⟨2, ![A, N]⟩ : Shape).Idx → EReal) (wb : (⟨2, ![B, N]⟩ : Shape).Idx → EReal) (p : Fin R) (q : Fin N)
    (hca : ∀ k : Fin A, cat (ix2 p ⟨k.val, by omega⟩) = a (ix2 p k))
    (hcb : ∀ k : Fin B, cat (ix2 p ⟨A + k.val, by omega⟩) = b (ix2 p k))
    (hwa : ∀ k : Fin A, wa (ix2 k q) = W (ix2 ⟨k.val, by omega⟩ q))
    (hwb : ∀ k : Fin B, wb (ix2 k q) = W (ix2 ⟨A + k.val, by omega⟩ q)) :
    ∑ k : Fin K, cat (ix2 p k) * W (ix2 k q)
      = (∑ k : Fin A, a (ix2 p k) * wa (ix2 k q)) + (∑ k : Fin B, b (ix2 p k) * wb (ix2 k q)) := by
  rw [sum_split h]
  refine congrArg₂ (· + ·) (Finset.sum_congr rfl fun k _ => ?_) (Finset.sum_congr rfl fun k _ => ?_)
  · rw [hca k, hwa k]
  · rw [hcb k, hwb k]

/-- The layer as the host computes it, read at (p, q): the product of the concatenation [a | b] with the whole weight
    matrix plus the bias broadcast along the rows, is the fused layer over the weight's top `A` rows and bottom `B` rows
    and the bias as a one-row matrix. -/
theorem concat_dot_bias_at (h : A + B = K)
    (a : FVec Ideal ⟨2, ![R, A]⟩ .f32) (b : FVec Ideal ⟨2, ![R, B]⟩ .f32) (W : FVec Ideal ⟨2, ![K, N]⟩ .f32)
    (bias : FVec Ideal ⟨1, ![N]⟩ .f32)
    (hc : Shape.Concatenates [(⟨2, ![R, A]⟩ : Shape), ⟨2, ![R, B]⟩] ⟨2, ![R, K]⟩ 1)
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![K, N]⟩ : Shape).Slices ![0, 0] ⟨2, ![A, N]⟩)
    (hs1 : (⟨2, ![K, N]⟩ : Shape).Slices ![A, 0] ⟨2, ![B, N]⟩)
    (hr : (⟨1, ![N]⟩ : Shape).ShapeCasts ⟨2, ![1, N]⟩)
    (prec : Option ContractPrecision) (sched : HostSchedule) (p : Fin R) (q : Fin N) :
    addf (FloatOps.dotGeneral (DotDims.plain R K N) prec sched
            (concatenate ⟨2, ![R, K]⟩ 1 [⟨⟨2, ![R, A]⟩, a⟩, ⟨⟨2, ![R, B]⟩, b⟩] hc) W)
        (broadcastInDim ⟨2, ![R, N]⟩ ![0, 1] hb2 (broadcastInDim ⟨2, ![1, N]⟩ ![1] hb1 bias)) (ix2 p q)
      = linAt a b (extractStridedSlice ⟨2, ![A, N]⟩ ![0, 0] W hs0) (extractStridedSlice ⟨2, ![B, N]⟩ ![A, 0] W hs1)
          (shapeCast ⟨2, ![1, N]⟩ bias hr) p q := by
  have hq : q.val < N := q.isLt
  -- the bias row, broadcast along the rows: first to one row, then to all
  have hk2 : ∀ d : Fin 2, ((ix2 (0 : Fin 1) q : (⟨2, ![1, N]⟩ : Shape).Idx) d).val
      = if (⟨2, ![1, N]⟩ : Shape).size d = 1 then 0 else ((ix2 p q : (⟨2, ![R, N]⟩ : Shape).Idx) ((![0, 1] : Fin 2 → Fin 2) d)).val := by
    intro d
    match d with
    | ⟨0, _⟩ => show (0 : ℕ) = if (1 : ℕ) = 1 then 0 else p.val; rw [if_pos rfl]
    | ⟨1, _⟩ =>
      show q.val = if N = 1 then 0 else q.val
      split
      · omega
      · rfl
  have hk1 : ∀ d : Fin 1, ((ix1 q : (⟨1, ![N]⟩ : Shape).Idx) d).val
      = if (⟨1, ![N]⟩ : Shape).size d = 1 then 0 else ((ix2 (0 : Fin 1) q : (⟨2, ![1, N]⟩ : Shape).Idx) ((![1] : Fin 1 → Fin 2) d)).val := by
    intro d
    match d with
    | ⟨0, _⟩ =>
      show q.val = if N = 1 then 0 else q.val
      split
      · omega
      · rfl
  have hbias : broadcastInDim ⟨2, ![R, N]⟩ ![0, 1] hb2 (broadcastInDim ⟨2, ![1, N]⟩ ![1] hb1 bias) (ix2 p q)
      = shapeCast ⟨2, ![1, N]⟩ bias hr (ix2 0 q) :=
    (broadcastInDim_apply ![0, 1] hb2 _ (ix2 p q) (ix2 0 q) hk2).trans
      ((broadcastInDim_apply ![1] hb1 bias (ix2 0 q) (ix1 q) hk1).trans
        (shapeCast_apply bias hr (ix2 0 q) (ix1 q) (by
          rw [Shape.rowMajor_val_one, Shape.rowMajor_val_two]; show q.val = 0 * N + q.val; omega)).symm)
  rw [addf_apply, LibMatmul.dotGeneral_apply, hbias]
  unfold linAt
  refine congrArg₂ (· + ·) ?_ rfl
  refine concat_sum h _ a b W _ _ p q (fun k => ?_) (fun k => ?_) (fun k => ?_) (fun k => ?_)
  · exact concatenate_pair_apply_left 1 a b hc _ rfl (ix2 p k)
      (fun d => by match d with | ⟨0, _⟩ => rfl | ⟨1, _⟩ => rfl)
  · exact concatenate_pair_apply_right 1 a b hc _ rfl rfl (ix2 p k)
      (fun d hd => by match d with | ⟨0, _⟩ => rfl | ⟨1, _⟩ => exact absurd rfl hd)
      (Nat.add_comm _ _)
  · exact extractStridedSlice_apply ![0, 0] W hs0 (ix2 k q) (ix2 ⟨k.val, by omega⟩ q)
      (fun d => by match d with | ⟨0, _⟩ => exact (Nat.zero_add _).symm | ⟨1, _⟩ => exact (Nat.zero_add _).symm)
  · exact extractStridedSlice_apply ![A, 0] W hs1 (ix2 k q) (ix2 ⟨A + k.val, by omega⟩ q)
      (fun d => by match d with | ⟨0, _⟩ => rfl | ⟨1, _⟩ => exact (Nat.zero_add _).symm)

/-- The same layer followed by the host's clamp at zero (the maximum with a zero broadcast from a scalar). -/
theorem relu_concat_dot_bias_at (h : A + B = K)
    (a : FVec Ideal ⟨2, ![R, A]⟩ .f32) (b : FVec Ideal ⟨2, ![R, B]⟩ .f32) (W : FVec Ideal ⟨2, ![K, N]⟩ .f32)
    (bias : FVec Ideal ⟨1, ![N]⟩ .f32)
    (hc : Shape.Concatenates [(⟨2, ![R, A]⟩ : Shape), ⟨2, ![R, B]⟩] ⟨2, ![R, K]⟩ 1)
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![K, N]⟩ : Shape).Slices ![0, 0] ⟨2, ![A, N]⟩)
    (hs1 : (⟨2, ![K, N]⟩ : Shape).Slices ![A, 0] ⟨2, ![B, N]⟩)
    (hr : (⟨1, ![N]⟩ : Shape).ShapeCasts ⟨2, ![1, N]⟩)
    (hz : (⟨0, ![]⟩ : Shape).BroadcastsInDim ⟨2, ![R, N]⟩ ![])
    (prec : Option ContractPrecision) (sched : HostSchedule) (p : Fin R) (q : Fin N) :
    maximumf (addf (FloatOps.dotGeneral (DotDims.plain R K N) prec sched
            (concatenate ⟨2, ![R, K]⟩ 1 [⟨⟨2, ![R, A]⟩, a⟩, ⟨⟨2, ![R, B]⟩, b⟩] hc) W)
        (broadcastInDim ⟨2, ![R, N]⟩ ![0, 1] hb2 (broadcastInDim ⟨2, ![1, N]⟩ ![1] hb1 bias)))
      (broadcastInDim ⟨2, ![R, N]⟩ ![] hz (constant (F := Ideal) ⟨0, ![]⟩ .f32 0x00000000#32)) (ix2 p q)
      = max (linAt a b (extractStridedSlice ⟨2, ![A, N]⟩ ![0, 0] W hs0) (extractStridedSlice ⟨2, ![B, N]⟩ ![A, 0] W hs1)
          (shapeCast ⟨2, ![1, N]⟩ bias hr) p q) (Ideal.ofBits .f32 0x00000000#32) := by
  rw [maximumf_apply]
  refine congrArg₂ max (concat_dot_bias_at h a b W bias hc hb1 hb2 hs0 hs1 hr prec sched p q) ?_
  exact broadcastInDim_apply ![] hz _ (ix2 p q) ix0 (fun d => d.elim0)

end Cert.Bridge.LibFusedLinear

end
-- ==== Proof.RefStages.lean ====
/-
  The reference program, stage by stage, against the network's specification. Each stage of the reference — the
  encoder block, the three message blocks, the three update blocks and the output head — is a short chain of host
  operations over arrays: matrix products, a bias row broadcast along the rows, sums, maxima with zero, a quotient by a
  broadcast column, and the logistic function spelt with negation, exponential, sum and quotient. Read at an output
  index (p, q), a product is the sum over the contracted axis, a broadcast reads its operand at the surviving
  coordinates, and the product of two row blocks side by side with a stacked weight matrix splits into the two partial
  products. The first half states this for arbitrary operands of arbitrary extents; the second half instantiates it at
  the reference's eight stages, whose gathered rows and scattered sums stay opaque operands.
-/
import proofs.«111624_j59098749993608_2_alg».proof.Proof.RefRead
import proofs.«111624_j59098749993608_2_alg».proof.Proof.Spec
import proofs.«111624_j59098749993608_2_alg».proof.Proof.LibMatmul
import proofs.«111624_j59098749993608_2_alg».proof.Proof.LibFusedLinear
import Idealize.ShloMosaic.Lib.IdealHost

set_option maxRecDepth 16384

noncomputable section

open scoped BigOperators

namespace Cert.ReferenceIdeal.Stages

open Idealize.ShloMosaic Idealize.ShloMosaic.ValueIdx Idealize.ShloMosaic.Pipeline Cert.Bridge
open Cert.ReferenceIdeal Cert.ReferenceIdeal.Gen Cert.ReferenceIdeal.Read

variable {R A B H N : Nat}

/-- A bias row broadcast first to a one-row matrix and then along the rows, read at (p, q), is the bias at q. -/
theorem bias_at (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1]) (p : Fin R) (q : Fin N) :
    broadcastInDim ⟨2, ![R, N]⟩ ![0, 1] hb2 (broadcastInDim ⟨2, ![1, N]⟩ ![1] hb1 b) (ix2 p q) = b (ix1 q) := by
  have hq : q.val < N := q.isLt
  have hk2 : ∀ d : Fin 2, ((ix2 (0 : Fin 1) q : (⟨2, ![1, N]⟩ : Shape).Idx) d).val
      = if (⟨2, ![1, N]⟩ : Shape).size d = 1 then 0 else ((ix2 p q : (⟨2, ![R, N]⟩ : Shape).Idx) ((![0, 1] : Fin 2 → Fin 2) d)).val := by
    intro d
    match d with
    | ⟨0, _⟩ => show (0 : ℕ) = if (1 : ℕ) = 1 then 0 else p.val; rw [if_pos rfl]
    | ⟨1, _⟩ =>
      show q.val = if N = 1 then 0 else q.val
      split
      · omega
      · rfl
  have hk1 : ∀ d : Fin 1, ((ix1 q : (⟨1, ![N]⟩ : Shape).Idx) d).val
      = if (⟨1, ![N]⟩ : Shape).size d = 1 then 0 else ((ix2 (0 : Fin 1) q : (⟨2, ![1, N]⟩ : Shape).Idx) ((![1] : Fin 1 → Fin 2) d)).val := by
    intro d
    match d with
    | ⟨0, _⟩ =>
      show q.val = if N = 1 then 0 else q.val
      split
      · omega
      · rfl
  exact (broadcastInDim_apply ![0, 1] hb2 _ (ix2 p q) (ix2 0 q) hk2).trans
    (broadcastInDim_apply ![1] hb1 b (ix2 0 q) (ix1 q) hk1)

/-- A dense layer as the host computes it (product, bias broadcast along the rows, sum, maximum with a broadcast zero),
    read at (p, q), is the clamped dense layer. -/
theorem relu_dense_at (x : FVec Ideal ⟨2, ![R, A]⟩ .f32) (w : FVec Ideal ⟨2, ![A, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (hz : (⟨0, ![]⟩ : Shape).BroadcastsInDim ⟨2, ![R, N]⟩ ![])
    (prec : Option ContractPrecision) (sched : HostSchedule) (p : Fin R) (q : Fin N) :
    maximumf (addf (FloatOps.dotGeneral (DotDims.plain R A N) prec sched x w)
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32)) (ix2 p q)
      = Spec.relu (Spec.dense x w b p q) := by
  rw [maximumf_apply, addf_apply, LibMatmul.dotGeneral_apply, bias_at]
  unfold Spec.relu Spec.dense
  refine congrArg₂ max rfl ?_
  exact broadcastInDim_apply ![] hz _ (ix2 p q) ix0 (fun d => d.elim0)

/-- The same layer without the clamp. -/
theorem dense_at (x : FVec Ideal ⟨2, ![R, A]⟩ .f32) (w : FVec Ideal ⟨2, ![A, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (prec : Option ContractPrecision) (sched : HostSchedule) (p : Fin R) (q : Fin N) :
    addf (FloatOps.dotGeneral (DotDims.plain R A N) prec sched x w)
        (broadcastInDim ⟨2, ![R, N]⟩ ![0, 1] hb2 (broadcastInDim ⟨2, ![1, N]⟩ ![1] hb1 b)) (ix2 p q)
      = Spec.dense x w b p q := by
  rw [addf_apply, LibMatmul.dotGeneral_apply, bias_at]
  rfl

/-- The hidden layer as the host computes it is the specification's hidden layer. -/
theorem hidden_eq (x : FVec Ideal ⟨2, ![R, A]⟩ .f32) (w : FVec Ideal ⟨2, ![A, H]⟩ .f32) (b : FVec Ideal ⟨1, ![H]⟩ .f32)
    (hb1 : (⟨1, ![H]⟩ : Shape).BroadcastsInDim ⟨2, ![1, H]⟩ ![1])
    (hb2 : (⟨2, ![1, H]⟩ : Shape).BroadcastsInDim ⟨2, ![R, H]⟩ ![0, 1])
    (hz : (⟨0, ![]⟩ : Shape).BroadcastsInDim ⟨2, ![R, H]⟩ ![])
    (prec : Option ContractPrecision) (sched : HostSchedule) :
    maximumf (addf (FloatOps.dotGeneral (DotDims.plain R A H) prec sched x w)
        (broadcastInDim ⟨2, ![R, H]⟩ ![0, 1] hb2 (broadcastInDim ⟨2, ![1, H]⟩ ![1] hb1 b)))
      (broadcastInDim ⟨2, ![R, H]⟩ ![] hz (constant (F := Ideal) ⟨0, ![]⟩ .f32 0x00000000#32))
      = Spec.hidden x w b := by
  funext i
  obtain ⟨p, q, rfl⟩ : ∃ p q, i = ix2 p q := ⟨i 0, i 1, eq_ix2 i⟩
  exact relu_dense_at x w b hb1 hb2 hz prec sched p q

/-- A block as the host computes it is the specification's block. -/
theorem mlp2_eq (x : FVec Ideal ⟨2, ![R, A]⟩ .f32) (w1 : FVec Ideal ⟨2, ![A, H]⟩ .f32) (b1 : FVec Ideal ⟨1, ![H]⟩ .f32)
    (w2 : FVec Ideal ⟨2, ![H, N]⟩ .f32) (b2 : FVec Ideal ⟨1, ![N]⟩ .f32)
    (hb1 : (⟨1, ![H]⟩ : Shape).BroadcastsInDim ⟨2, ![1, H]⟩ ![1])
    (hb2 : (⟨2, ![1, H]⟩ : Shape).BroadcastsInDim ⟨2, ![R, H]⟩ ![0, 1])
    (hz : (⟨0, ![]⟩ : Shape).BroadcastsInDim ⟨2, ![R, H]⟩ ![])
    (hc1 : (⟨1, ![N]⟩ : Shape).BroadcastsInDim ⟨2, ![1, N]⟩ ![1])
    (hc2 : (⟨2, ![1, N]⟩ : Shape).BroadcastsInDim ⟨2, ![R, N]⟩ ![0, 1])
    (hz2 : (⟨0, ![]⟩ : Shape).BroadcastsInDim ⟨2, ![R, N]⟩ ![])
    (prec prec2 : Option ContractPrecision) (sched sched2 : HostSchedule) :
    maximumf (addf (FloatOps.dotGeneral (DotDims.plain R H N) prec2 sched2
          (maximumf (addf (FloatOps.dotGeneral (DotDims.plain R A H) prec sched x w1)
              (broadcastInDim ⟨2, ![R, H]⟩ ![0, 1] hb2 (broadcastInDim ⟨2, ![1, H]⟩ ![1] hb1 b1)))
            (broadcastInDim ⟨2, ![R, H]⟩ ![] hz (constant (F := Ideal) ⟨0, ![]⟩ .f32 0x00000000#32))) w2)
        (broadcastInDim ⟨2, ![R, N]⟩ ![0, 1] hc2 (broadcastInDim ⟨2, ![1, N]⟩ ![1] hc1 b2)))
      (broadcastInDim ⟨2, ![R, N]⟩ ![] hz2 (constant (F := Ideal) ⟨0, ![]⟩ .f32 0x00000000#32))
      = Spec.mlp2 x w1 b1 w2 b2 := by
  rw [hidden_eq x w1 b1 hb1 hb2 hz prec sched]
  funext j
  obtain ⟨p, q, rfl⟩ : ∃ p q, j = ix2 p q := ⟨j 0, j 1, eq_ix2 j⟩
  exact relu_dense_at (Spec.hidden x w1 b1) w2 b2 hc1 hc2 hz2 prec2 sched2 p q

variable {K : Nat}

/-- A dense layer over two operands side by side as the host computes it (the product of the joined rows [a | b] with
    the whole weight matrix, bias, clamp), read at (p, q), is the clamped two-operand dense layer over the weight's top
    rows `wa` and bottom rows `wb`. -/
theorem relu_dense2_at (h : A + B = K)
    (a : FVec Ideal ⟨2, ![R, A]⟩ .f32) (b : FVec Ideal ⟨2, ![R, B]⟩ .f32) (W : FVec Ideal ⟨2, ![K, N]⟩ .f32)
    (bias : FVec Ideal ⟨1, ![N]⟩ .f32)
    (wa : (⟨2, ![A, N]⟩ : Shape).Idx → EReal) (wb : (⟨2, ![B, N]⟩ : Shape).Idx → EReal)
    (hc : Shape.Concatenates [(⟨2, ![R, A]⟩ : Shape), ⟨2, ![R, B]⟩] ⟨2, ![R, K]⟩ 1)
    (hb1 : (⟨1, ![N]⟩ : Shape).BroadcastsInDim ⟨2, ![1, N]⟩ ![1])
    (hb2 : (⟨2, ![1, N]⟩ : Shape).BroadcastsInDim ⟨2, ![R, N]⟩ ![0, 1])
    (hz : (⟨0, ![]⟩ : Shape).BroadcastsInDim ⟨2, ![R, N]⟩ ![])
    (prec : Option ContractPrecision) (sched : HostSchedule)
    (hwa : ∀ (k : Fin A) (q : Fin N), wa (ix2 k q) = W (ix2 ⟨k.val, by omega⟩ q))
    (hwb : ∀ (k : Fin B) (q : Fin N), wb (ix2 k q) = W (ix2 ⟨A + k.val, by omega⟩ q))
    (p : Fin R) (q : Fin N) :
    maximumf (addf (FloatOps.dotGeneral (DotDims.plain R K N) prec sched
            (concatenate ⟨2, ![R, K]⟩ 1 [⟨⟨2, ![R, A]⟩, a⟩, ⟨⟨2, ![R, B]⟩, b⟩] hc) W)
        (broadcastInDim ⟨2, ![R, N]⟩ ![0, 1] hb2 (broadcastInDim ⟨2, ![1, N]⟩ ![1] hb1 bias)))
      (broadcastInDim ⟨2, ![R, N]⟩ ![] hz (constant (F := Ideal) ⟨0, ![]⟩ .f32 0x00000000#32)) (ix2 p q)
      = Spec.relu (Spec.dense2 a b wa wb bias p q) := by
  rw [maximumf_apply, addf_apply, LibMatmul.dotGeneral_apply, bias_at]
  unfold Spec.relu Spec.dense2
  refine congrArg₂ max (congrArg₂ (· + ·) ?_ rfl) ?_
  · refine LibFusedLinear.concat_sum h _ a b W wa wb p q (fun k => ?_) (fun k => ?_) (fun k => hwa k q) (fun k => hwb k q)
    · exact concatenate_pair_apply_left 1 a b hc _ rfl (ix2 p k)
        (fun d => by match d with | ⟨0, _⟩ => rfl | ⟨1, _⟩ => rfl)
    · exact concatenate_pair_apply_right 1 a b hc _ rfl rfl (ix2 p k)
        (fun d hd => by match d with | ⟨0, _⟩ => rfl | ⟨1, _⟩ => exact absurd rfl hd)
        (Nat.add_comm _ _)
  · exact broadcastInDim_apply ![] hz _ (ix2 p q) ix0 (fun d => d.elim0)

/-- The hidden layer over two operands as the host computes it is the specification's. -/
theorem hidden2_eq (h : A + B = K)
    (a : FVec Ideal ⟨2, ![R, A]⟩ .f32) (b : FVec Ideal ⟨2, ![R, B]⟩ .f32) (W : FVec Ideal ⟨2, ![K, H]⟩ .f32)
    (bias : FVec Ideal ⟨1, ![H]⟩ .f32)
    (wa : (⟨2, ![A, H]⟩ : Shape).Idx → EReal) (wb : (⟨2, ![B, H]⟩ : Shape).Idx → EReal)
    (hc : Shape.Concatenates [(⟨2, ![R, A]⟩ : Shape), ⟨2, ![R, B]⟩] ⟨2, ![R, K]⟩ 1)
    (hb1 : (⟨1, ![H]⟩ : Shape).BroadcastsInDim ⟨2, ![1, H]⟩ ![1])
    (hb2 : (⟨2, ![1, H]⟩ : Shape).BroadcastsInDim ⟨2, ![R, H]⟩ ![0, 1])
    (hz : (⟨0, ![]⟩ : Shape).BroadcastsInDim ⟨2, ![R, H]⟩ ![])
    (prec : Option ContractPrecision) (sched : HostSchedule)
    (hwa : ∀ (k : Fin A) (q : Fin H), wa (ix2 k q) = W (ix2 ⟨k.val, by omega⟩ q))
    (hwb : ∀ (k : Fin B) (q : Fin H), wb (ix2 k q) = W (ix2 ⟨A + k.val, by omega⟩ q)) :
    maximumf (addf (FloatOps.dotGeneral (DotDims.plain R K H) prec sched
            (concatenate ⟨2, ![R, K]⟩ 1 [⟨⟨2, ![R, A]⟩, a⟩, ⟨⟨2, ![R, B]⟩, b⟩] hc) W)
        (broadcastInDim ⟨2, ![R, H]⟩ ![0, 1] hb2 (broadcastInDim ⟨2, ![1, H]⟩ ![1] hb1 bias)))
      (broadcastInDim ⟨2, ![R, H]⟩ ![] hz (constant (F := Ideal) ⟨0, ![]⟩ .f32 0x00000000#32))
      = Spec.hidden2 a b wa wb bias := by
  funext i
  obtain ⟨p, q, rfl⟩ : ∃ p q, i = ix2 p q := ⟨i 0, i 1, eq_ix2 i⟩
  exact relu_dense2_at h a b W bias wa wb hc hb1 hb2 hz prec sched hwa hwb p q

/-- A block whose first layer reads two operands side by side, as the host computes it, is the specification's. -/
theorem mlp2two_eq (h : A + B = K)
    (a : FVec Ideal ⟨2, ![R, A]⟩ .f32) (b : FVec Ideal ⟨2, ![R, B]⟩ .f32) (W : FVec Ideal ⟨2, ![K, H]⟩ .f32)
    (b1 : FVec Ideal ⟨1, ![H]⟩ .f32) (w2 : FVec Ideal ⟨2, ![H, N]⟩ .f32) (b2 : FVec Ideal ⟨1, ![N]⟩ .f32)
    (wa : (⟨2, ![A, H]⟩ : Shape).Idx → EReal) (wb : (⟨2, ![B, H]⟩ : Shape).Idx → EReal)
    (hc : Shape.Concatenates [(⟨2, ![R, A]⟩ : Shape), ⟨2, ![R, B]⟩] ⟨2, ![R, K]⟩ 1)
    (hb1 : (⟨1, ![H]⟩ : Shape).BroadcastsInDim ⟨2, ![1, H]⟩ ![1])
    (hb2 : (⟨2, ![1, H]⟩ : Shape).BroadcastsInDim ⟨2, ![R, H]⟩ ![0, 1])
    (hz : (⟨0, ![]⟩ : Shape).BroadcastsInDim ⟨2, ![R, H]⟩ ![])
    (hc1 : (⟨1, ![N]⟩ : Shape).BroadcastsInDim ⟨2, ![1, N]⟩ ![1])
    (hc2 : (⟨2, ![1, N]⟩ : Shape).BroadcastsInDim ⟨2, ![R, N]⟩ ![0, 1])
    (hz2 : (⟨0, ![]⟩ : Shape).BroadcastsInDim ⟨2, ![R, N]⟩ ![])
    (prec prec2 : Option ContractPrecision) (sched sched2 : HostSchedule)
    (hwa : ∀ (k : Fin A) (q : Fin H), wa (ix2 k q) = W (ix2 ⟨k.val, by omega⟩ q))
    (hwb : ∀ (k : Fin B) (q : Fin H), wb (ix2 k q) = W (ix2 ⟨A + k.val, by omega⟩ q)) :
    maximumf (addf (FloatOps.dotGeneral (DotDims.plain R H N) prec2 sched2
          (maximumf (addf (FloatOps.dotGeneral (DotDims.plain R K H) prec sched
                (concatenate ⟨2, ![R, K]⟩ 1 [⟨⟨2, ![R, A]⟩, a⟩, ⟨⟨2, ![R, B]⟩, b⟩] hc) W)
              (broadcastInDim ⟨2, ![R, H]⟩ ![0, 1] hb2 (broadcastInDim ⟨2, ![1, H]⟩ ![1] hb1 b1)))
            (broadcastInDim ⟨2, ![R, H]⟩ ![] hz (constant (F := Ideal) ⟨0, ![]⟩ .f32 0x00000000#32))) w2)
        (broadcastInDim ⟨2, ![R, N]⟩ ![0, 1] hc2 (broadcastInDim ⟨2, ![1, N]⟩ ![1] hc1 b2)))
      (broadcastInDim ⟨2, ![R, N]⟩ ![] hz2 (constant (F := Ideal) ⟨0, ![]⟩ .f32 0x00000000#32))
      = Spec.mlp2two a b wa wb b1 w2 b2 := by
  rw [hidden2_eq h a b W b1 wa wb hc hb1 hb2 hz prec sched hwa hwb]
  funext j
  obtain ⟨p, q, rfl⟩ : ∃ p q, j = ix2 p q := ⟨j 0, j 1, eq_ix2 j⟩
  exact relu_dense_at (Spec.hidden2 a b wa wb b1) w2 b2 hc1 hc2 hz2 prec2 sched2 p q

/-- The host's quotient of an array by a column broadcast along the rows is the row-wise quotient. -/
theorem quot_eq (s : FVec Ideal ⟨2, ![R, N]⟩ .f32) (d : FVec Ideal ⟨2, ![R, 1]⟩ .f32)
    (hb : (⟨2, ![R, 1]⟩ : Shape).BroadcastsInDim ⟨2, ![R, N]⟩ ![0, 1]) :
    Host.divf s (broadcastInDim ⟨2, ![R, N]⟩ ![0, 1] hb d) = Spec.quot s d := by
  funext j
  obtain ⟨p, q, rfl⟩ : ∃ p q, j = ix2 p q := ⟨j 0, j 1, eq_ix2 j⟩
  have hp : p.val < R := p.isLt
  rw [hostDivf_apply]
  unfold Spec.quot
  refine congrArg (Ideal.div (s (ix2 p q))) ?_
  refine broadcastInDim_apply ![0, 1] hb d (ix2 p q) (ix2 p (0 : Fin 1)) (fun a => ?_)
  match a with
  | ⟨0, _⟩ =>
    show p.val = if R = 1 then 0 else p.val
    split
    · omega
    · rfl
  | ⟨1, _⟩ => show (0 : ℕ) = if (1 : ℕ) = 1 then 0 else q.val; rw [if_pos rfl]

/-- The logistic function as the host spells it: one over one plus the exponential of the negation. -/
theorem logistic_at {s : Shape}
    (h1 : (⟨0, ![]⟩ : Shape).BroadcastsInDim s ![]) (h2 : (⟨0, ![]⟩ : Shape).BroadcastsInDim s ![])
    (y : FVec Ideal s .f32) (j : s.Idx) :
    Host.divf (broadcastInDim s ![] h2 (constant (F := Ideal) ⟨0, ![]⟩ .f32 0x3F800000#32))
      (addf (broadcastInDim s ![] h1 (constant (F := Ideal) ⟨0, ![]⟩ .f32 0x3F800000#32)) (Host.exp (Host.negf y))) j
      = Ideal.logistic (y j) := by
  rw [hostDivf_apply, addf_apply]
  simp only [broadcastInDim_scalar_apply, constant_apply, Ideal.ofBits_one_f32]
  rfl

/-- The output head as the host computes it is the specification's. -/
theorem head_eq (x : FVec Ideal ⟨2, ![R, A]⟩ .f32) (w1 : FVec Ideal ⟨2, ![A, H]⟩ .f32) (b1 : FVec Ideal ⟨1, ![H]⟩ .f32)
    (w2 : FVec Ideal ⟨2, ![H, N]⟩ .f32) (b2 : FVec Ideal ⟨1, ![N]⟩ .f32)
    (hb1 : (⟨1, ![H]⟩ : Shape).BroadcastsInDim ⟨2, ![1, H]⟩ ![1])
    (hb2 : (⟨2, ![1, H]⟩ : Shape).BroadcastsInDim ⟨2, ![R, H]⟩ ![0, 1])
    (hz : (⟨0, ![]⟩ : Shape).BroadcastsInDim ⟨2, ![R, H]⟩ ![])
    (hc1 : (⟨1, ![N]⟩ : Shape).BroadcastsInDim ⟨2, ![1, N]⟩ ![1])
    (hc2 : (⟨2, ![1, N]⟩ : Shape).BroadcastsInDim ⟨2, ![R, N]⟩ ![0, 1])
    (h1 h2 h3 : (⟨0, ![]⟩ : Shape).BroadcastsInDim ⟨2, ![R, N]⟩ ![])
    (prec prec2 : Option ContractPrecision) (sched sched2 : HostSchedule) :
    mulf (broadcastInDim ⟨2, ![R, N]⟩ ![] h3 (constant (F := Ideal) ⟨0, ![]⟩ .f32 0x40C90FDB#32))
      (Host.divf (broadcastInDim ⟨2, ![R, N]⟩ ![] h2 (constant (F := Ideal) ⟨0, ![]⟩ .f32 0x3F800000#32))
        (addf (broadcastInDim ⟨2, ![R, N]⟩ ![] h1 (constant (F := Ideal) ⟨0, ![]⟩ .f32 0x3F800000#32))
          (Host.exp (Host.negf
            (addf (FloatOps.dotGeneral (DotDims.plain R H N) prec2 sched2
                (maximumf (addf (FloatOps.dotGeneral (DotDims.plain R A H) prec sched x w1)
                    (broadcastInDim ⟨2, ![R, H]⟩ ![0, 1] hb2 (broadcastInDim ⟨2, ![1, H]⟩ ![1] hb1 b1)))
                  (broadcastInDim ⟨2, ![R, H]⟩ ![] hz (constant (F := Ideal) ⟨0, ![]⟩ .f32 0x00000000#32))) w2)
              (broadcastInDim ⟨2, ![R, N]⟩ ![0, 1] hc2 (broadcastInDim ⟨2, ![1, N]⟩ ![1] hc1 b2)))))))
      = Spec.head x w1 b1 w2 b2 := by
  rw [hidden_eq x w1 b1 hb1 hb2 hz prec sched]
  funext j
  obtain ⟨p, q, rfl⟩ : ∃ p q, j = ix2 p q := ⟨j 0, j 1, eq_ix2 j⟩
  rw [mulf_apply, logistic_at h1 h2, dense_at (Spec.hidden x w1 b1) w2 b2 hc1 hc2 prec2 sched2 p q,
    broadcastInDim_scalar_apply, constant_apply]
  rfl

/-! The stacked weights: a layer cut out of a stack (a slice of one layer, then the cast that drops the unit axis). -/

/-- Layer `l` of a stack of three 128 × 64 matrices, read at (k, q). -/
theorem stack128_at (w : FVec Ideal ⟨3, ![3, 128, 64]⟩ .f32) (o : Nat) (l : Fin 3) (ho : l.val = o)
    (hs : (⟨3, ![3, 128, 64]⟩ : Shape).Slices ![o, 0, 0] ⟨3, ![1, 128, 64]⟩)
    (hr : (⟨3, ![1, 128, 64]⟩ : Shape).ShapeCasts ⟨2, ![128, 64]⟩) (k : Fin 128) (q : Fin 64) :
    shapeCast ⟨2, ![128, 64]⟩ (extractStridedSlice ⟨3, ![1, 128, 64]⟩ ![o, 0, 0] w hs) hr (ix2 k q) = w (ix3 l k q) := by
  refine (shapeCast_apply _ hr (ix2 k q) (ix3 (0 : Fin 1) k q) ?_).trans ?_
  · rw [Shape.rowMajor_val_three, Shape.rowMajor_val_two]
    show (0 * 128 + k.val) * 64 + q.val = k.val * 64 + q.val
    omega
  · refine extractStridedSlice_apply ![o, 0, 0] w hs (ix3 (0 : Fin 1) k q) (ix3 l k q) (fun a => ?_)
    match a with
    | ⟨0, _⟩ => show l.val = o + 0; omega
    | ⟨1, _⟩ => show k.val = 0 + k.val; omega
    | ⟨2, _⟩ => show q.val = 0 + q.val; omega

/-- Layer `l` of a stack of three 64 × 64 matrices. -/
theorem mat_eq (w : FVec Ideal ⟨3, ![3, 64, 64]⟩ .f32) (o : Nat) (l : Fin 3) (ho : l.val = o)
    (hs : (⟨3, ![3, 64, 64]⟩ : Shape).Slices ![o, 0, 0] ⟨3, ![1, 64, 64]⟩)
    (hr : (⟨3, ![1, 64, 64]⟩ : Shape).ShapeCasts ⟨2, ![64, 64]⟩) :
    shapeCast ⟨2, ![64, 64]⟩ (extractStridedSlice ⟨3, ![1, 64, 64]⟩ ![o, 0, 0] w hs) hr = Spec.mat w l := by
  funext i
  obtain ⟨k, q, rfl⟩ : ∃ k q, i = ix2 k q := ⟨i 0, i 1, eq_ix2 i⟩
  refine (shapeCast_apply _ hr (ix2 k q) (ix3 (0 : Fin 1) k q) ?_).trans ?_
  · rw [Shape.rowMajor_val_three, Shape.rowMajor_val_two]
    show (0 * 64 + k.val) * 64 + q.val = k.val * 64 + q.val
    omega
  · refine extractStridedSlice_apply ![o, 0, 0] w hs (ix3 (0 : Fin 1) k q) (ix3 l k q) (fun a => ?_)
    match a with
    | ⟨0, _⟩ => show l.val = o + 0; omega
    | ⟨1, _⟩ => show k.val = 0 + k.val; omega
    | ⟨2, _⟩ => show q.val = 0 + q.val; omega

/-- Layer `l` of a stack of three rows of 64. -/
theorem row_eq (b : FVec Ideal ⟨2, ![3, 64]⟩ .f32) (o : Nat) (l : Fin 3) (ho : l.val = o)
    (hs : (⟨2, ![3, 64]⟩ : Shape).Slices ![o, 0] ⟨2, ![1, 64]⟩)
    (hr : (⟨2, ![1, 64]⟩ : Shape).ShapeCasts ⟨1, ![64]⟩) :
    shapeCast ⟨1, ![64]⟩ (extractStridedSlice ⟨2, ![1, 64]⟩ ![o, 0] b hs) hr = Spec.row b l := by
  funext i
  obtain ⟨q, rfl⟩ : ∃ q, i = ix1 q := ⟨i 0, eq_ix1 i⟩
  refine (shapeCast_apply _ hr (ix1 q) (ix2 (0 : Fin 1) q) ?_).trans ?_
  · rw [Shape.rowMajor_val_two, Shape.rowMajor_val_one]
    show 0 * 64 + q.val = q.val
    omega
  · refine extractStridedSlice_apply ![o, 0] b hs (ix2 (0 : Fin 1) q) (ix2 l q) (fun a => ?_)
    match a with
    | ⟨0, _⟩ => show l.val = o + 0; omega
    | ⟨1, _⟩ => show q.val = 0 + q.val; omega

/-- The top 64 rows of layer `l` of a stack of 128 × 64 matrices, as rows of the layer cut out of the stack. -/
theorem wTop_at (w : FVec Ideal ⟨3, ![3, 128, 64]⟩ .f32) (o : Nat) (l : Fin 3) (ho : l.val = o)
    (hs : (⟨3, ![3, 128, 64]⟩ : Shape).Slices ![o, 0, 0] ⟨3, ![1, 128, 64]⟩)
    (hr : (⟨3, ![1, 128, 64]⟩ : Shape).ShapeCasts ⟨2, ![128, 64]⟩) (k : Fin 64) (q : Fin 64) :
    Spec.wTop w l (ix2 k q)
      = shapeCast ⟨2, ![128, 64]⟩ (extractStridedSlice ⟨3, ![1, 128, 64]⟩ ![o, 0, 0] w hs) hr (ix2 ⟨k.val, by omega⟩ q) :=
  (stack128_at w o l ho hs hr ⟨k.val, by omega⟩ q).symm

/-- The bottom 64 rows likewise. -/
theorem wBot_at (w : FVec Ideal ⟨3, ![3, 128, 64]⟩ .f32) (o : Nat) (l : Fin 3) (ho : l.val = o)
    (hs : (⟨3, ![3, 128, 64]⟩ : Shape).Slices ![o, 0, 0] ⟨3, ![1, 128, 64]⟩)
    (hr : (⟨3, ![1, 128, 64]⟩ : Shape).ShapeCasts ⟨2, ![128, 64]⟩) (k : Fin 64) (q : Fin 64) :
    Spec.wBot w l (ix2 k q)
      = shapeCast ⟨2, ![128, 64]⟩ (extractStridedSlice ⟨3, ![1, 128, 64]⟩ ![o, 0, 0] w hs) hr (ix2 ⟨64 + k.val, by omega⟩ q) :=
  (stack128_at w o l ho hs hr ⟨64 + k.val, by omega⟩ q).symm

/-- The encoder block. -/
theorem enc (x0 : (⟨S100000x5, .f32⟩ : BufTy).Contents (Elt Ideal)) (x2 : (⟨S5x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) :
    val_main_v13 (F := Ideal) x0 x2 x3 x4 x5 = Spec.mlp2 (R := 100000) (A := 5) (H := 64) (N := 64) x0 x2 x3 x4 x5 := by
  unfold val_main_v13 val_main_v12 val_main_v11 val_main_v10 val_main_v9 val_main_v8 val_main_v7 val_main_v6 val_main_v5
    val_main_v4 val_main_call1_v0 val_main_call1_cst val_main_call0_v0 val_main_call0_cst
  exact mlp2_eq (R := 100000) (A := 5) (H := 64) (N := 64) x0 x2 x3 x4 x5 _ _ _ _ _ _ _ _ _ _

/-- The message block of layer 0. -/
theorem msg0 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) :
    val_main_v53 (F := Ideal) x0 x1 x2 x3 x4 x5 x6 x7 x8 x9
      = Spec.mlp2two (R := 1000000) (A := 64) (B := 64) (H := 64) (N := 64) (val_main_v27 (F := Ideal) x0 x1 x2 x3 x4 x5)
          (val_main_v34 (F := Ideal) x0 x1 x2 x3 x4 x5)
          (Spec.wTop x6 0) (Spec.wBot x6 0) (Spec.row x7 0) (Spec.mat x8 0) (Spec.row x9 0) := by
  unfold val_main_v53 val_main_v52 val_main_v49 val_main_v48 val_main_v47 val_main_v44 val_main_v35 val_main_v37
    val_main_v36 val_main_v46 val_main_v45 val_main_v39 val_main_v38 val_main_call2_v0 val_main_call2_cst
    val_main_v41 val_main_v40 val_main_v51 val_main_v50 val_main_v43 val_main_v42 val_main_call3_v0
    val_main_call3_cst
  rw [row_eq x7 0 0 rfl, row_eq x9 0 0 rfl, mat_eq x8 0 0 rfl]
  exact mlp2two_eq (R := 1000000) (A := 64) (B := 64) (K := 128) (H := 64) (N := 64) rfl _ _ _ _ _ _
    (Spec.wTop x6 0) (Spec.wBot x6 0) _ _ _ _ _ _ _ _ _ _ _
    (fun k q => wTop_at x6 0 0 rfl _ _ k q) (fun k q => wBot_at x6 0 0 rfl _ _ k q)

/-- The update block of layer 0. -/
theorem upd0 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v77 (F := Ideal) x0 x1 x2 x3 x4 x5 x6 x7 x8 x9 x10 x11 x12 x13
      = Spec.mlp2two (R := 100000) (A := 64) (B := 64) (H := 64) (N := 64) (val_main_v13 (F := Ideal) x0 x2 x3 x4 x5)
          (Spec.quot (R := 100000) (N := 64) (val_main_v56 (F := Ideal) x0 x1 x2 x3 x4 x5 x6 x7 x8 x9) (val_main_v20 (F := Ideal) x1))
          (Spec.wTop x10 0) (Spec.wBot x10 0) (Spec.row x11 0) (Spec.mat x12 0) (Spec.row x13 0) := by
  unfold val_main_v77 val_main_v76 val_main_v73 val_main_v72 val_main_v71 val_main_v68 val_main_v59 val_main_v58
    val_main_v57 val_main_v61 val_main_v60 val_main_v70 val_main_v69 val_main_v63 val_main_v62 val_main_call4_v0
    val_main_call4_cst val_main_v65 val_main_v64 val_main_v75 val_main_v74 val_main_v67 val_main_v66
    val_main_call5_v0 val_main_call5_cst
  rw [row_eq x11 0 0 rfl, row_eq x13 0 0 rfl, mat_eq x12 0 0 rfl,
    quot_eq (R := 100000) (N := 64) (val_main_v56 (F := Ideal) x0 x1 x2 x3 x4 x5 x6 x7 x8 x9) (val_main_v20 (F := Ideal) x1)]
  exact mlp2two_eq (R := 100000) (A := 64) (B := 64) (K := 128) (H := 64) (N := 64) rfl _ _ _ _ _ _
    (Spec.wTop x10 0) (Spec.wBot x10 0) _ _ _ _ _ _ _ _ _ _ _
    (fun k q => wTop_at x10 0 0 rfl _ _ k q) (fun k q => wBot_at x10 0 0 rfl _ _ k q)

/-- The message block of layer 1. -/
theorem msg1 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v110 (F := Ideal) x0 x1 x2 x3 x4 x5 x6 x7 x8 x9 x10 x11 x12 x13
      = Spec.mlp2two (R := 1000000) (A := 64) (B := 64) (H := 64) (N := 64) (val_main_v84 (F := Ideal) x0 x1 x2 x3 x4 x5 x6 x7 x8 x9 x10 x11 x12 x13)
          (val_main_v91 (F := Ideal) x0 x1 x2 x3 x4 x5 x6 x7 x8 x9 x10 x11 x12 x13)
          (Spec.wTop x6 1) (Spec.wBot x6 1) (Spec.row x7 1) (Spec.mat x8 1) (Spec.row x9 1) := by
  unfold val_main_v110 val_main_v109 val_main_v106 val_main_v105 val_main_v104 val_main_v101 val_main_v92 val_main_v94
    val_main_v93 val_main_v103 val_main_v102 val_main_v96 val_main_v95 val_main_call6_v0 val_main_call6_cst
    val_main_v98 val_main_v97 val_main_v108 val_main_v107 val_main_v100 val_main_v99 val_main_call7_v0
    val_main_call7_cst
  rw [row_eq x7 1 1 rfl, row_eq x9 1 1 rfl, mat_eq x8 1 1 rfl]
  exact mlp2two_eq (R := 1000000) (A := 64) (B := 64) (K := 128) (H := 64) (N := 64) rfl _ _ _ _ _ _
    (Spec.wTop x6 1) (Spec.wBot x6 1) _ _ _ _ _ _ _ _ _ _ _
    (fun k q => wTop_at x6 1 1 rfl _ _ k q) (fun k q => wBot_at x6 1 1 rfl _ _ k q)

/-- The update block of layer 1. -/
theorem upd1 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v134 (F := Ideal) x0 x1 x2 x3 x4 x5 x6 x7 x8 x9 x10 x11 x12 x13
      = Spec.mlp2two (R := 100000) (A := 64) (B := 64) (H := 64) (N := 64) (val_main_v77 (F := Ideal) x0 x1 x2 x3 x4 x5 x6 x7 x8 x9 x10 x11 x12 x13)
          (Spec.quot (R := 100000) (N := 64) (val_main_v113 (F := Ideal) x0 x1 x2 x3 x4 x5 x6 x7 x8 x9 x10 x11 x12 x13) (val_main_v20 (F := Ideal) x1))
          (Spec.wTop x10 1) (Spec.wBot x10 1) (Spec.row x11 1) (Spec.mat x12 1) (Spec.row x13 1) := by
  unfold val_main_v134 val_main_v133 val_main_v130 val_main_v129 val_main_v128 val_main_v125 val_main_v116
    val_main_v115 val_main_v114 val_main_v118 val_main_v117 val_main_v127 val_main_v126 val_main_v120
    val_main_v119 val_main_call8_v0 val_main_call8_cst val_main_v122 val_main_v121 val_main_v132 val_main_v131
    val_main_v124 val_main_v123 val_main_call9_v0 val_main_call9_cst
  rw [row_eq x11 1 1 rfl, row_eq x13 1 1 rfl, mat_eq x12 1 1 rfl,
    quot_eq (R := 100000) (N := 64) (val_main_v113 (F := Ideal) x0 x1 x2 x3 x4 x5 x6 x7 x8 x9 x10 x11 x12 x13) (val_main_v20 (F := Ideal) x1)]
  exact mlp2two_eq (R := 100000) (A := 64) (B := 64) (K := 128) (H := 64) (N := 64) rfl _ _ _ _ _ _
    (Spec.wTop x10 1) (Spec.wBot x10 1) _ _ _ _ _ _ _ _ _ _ _
    (fun k q => wTop_at x10 1 1 rfl _ _ k q) (fun k q => wBot_at x10 1 1 rfl _ _ k q)

/-- The message block of layer 2. -/
theorem msg2 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v167 (F := Ideal) x0 x1 x2 x3 x4 x5 x6 x7 x8 x9 x10 x11 x12 x13
      = Spec.mlp2two (R := 1000000) (A := 64) (B := 64) (H := 64) (N := 64) (val_main_v141 (F := Ideal) x0 x1 x2 x3 x4 x5 x6 x7 x8 x9 x10 x11 x12 x13)
          (val_main_v148 (F := Ideal) x0 x1 x2 x3 x4 x5 x6 x7 x8 x9 x10 x11 x12 x13)
          (Spec.wTop x6 2) (Spec.wBot x6 2) (Spec.row x7 2) (Spec.mat x8 2) (Spec.row x9 2) := by
  unfold val_main_v167 val_main_v166 val_main_v163 val_main_v162 val_main_v161 val_main_v158 val_main_v149
    val_main_v151 val_main_v150 val_main_v160 val_main_v159 val_main_v153 val_main_v152 val_main_call10_v0
    val_main_call10_cst val_main_v155 val_main_v154 val_main_v165 val_main_v164 val_main_v157 val_main_v156
    val_main_call11_v0 val_main_call11_cst
  rw [row_eq x7 2 2 rfl, row_eq x9 2 2 rfl, mat_eq x8 2 2 rfl]
  exact mlp2two_eq (R := 1000000) (A := 64) (B := 64) (K := 128) (H := 64) (N := 64) rfl _ _ _ _ _ _
    (Spec.wTop x6 2) (Spec.wBot x6 2) _ _ _ _ _ _ _ _ _ _ _
    (fun k q => wTop_at x6 2 2 rfl _ _ k q) (fun k q => wBot_at x6 2 2 rfl _ _ k q)

/-- The update block of layer 2. -/
theorem upd2 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v191 (F := Ideal) x0 x1 x2 x3 x4 x5 x6 x7 x8 x9 x10 x11 x12 x13
      = Spec.mlp2two (R := 100000) (A := 64) (B := 64) (H := 64) (N := 64) (val_main_v134 (F := Ideal) x0 x1 x2 x3 x4 x5 x6 x7 x8 x9 x10 x11 x12 x13)
          (Spec.quot (R := 100000) (N := 64) (val_main_v170 (F := Ideal) x0 x1 x2 x3 x4 x5 x6 x7 x8 x9 x10 x11 x12 x13) (val_main_v20 (F := Ideal) x1))
          (Spec.wTop x10 2) (Spec.wBot x10 2) (Spec.row x11 2) (Spec.mat x12 2) (Spec.row x13 2) := by
  unfold val_main_v191 val_main_v190 val_main_v187 val_main_v186 val_main_v185 val_main_v182 val_main_v173
    val_main_v172 val_main_v171 val_main_v175 val_main_v174 val_main_v184 val_main_v183 val_main_v177
    val_main_v176 val_main_call12_v0 val_main_call12_cst val_main_v179 val_main_v178 val_main_v189 val_main_v188
    val_main_v181 val_main_v180 val_main_call13_v0 val_main_call13_cst
  rw [row_eq x11 2 2 rfl, row_eq x13 2 2 rfl, mat_eq x12 2 2 rfl,
    quot_eq (R := 100000) (N := 64) (val_main_v170 (F := Ideal) x0 x1 x2 x3 x4 x5 x6 x7 x8 x9 x10 x11 x12 x13) (val_main_v20 (F := Ideal) x1)]
  exact mlp2two_eq (R := 100000) (A := 64) (B := 64) (K := 128) (H := 64) (N := 64) rfl _ _ _ _ _ _
    (Spec.wTop x10 2) (Spec.wBot x10 2) _ _ _ _ _ _ _ _ _ _ _
    (fun k q => wTop_at x10 2 2 rfl _ _ k q) (fun k q => wBot_at x10 2 2 rfl _ _ k q)

/-- The output head. -/
theorem head (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S64x64, .f32⟩ : BufTy).Contents (Elt Ideal)) (x15 : (⟨S64, .f32⟩ : BufTy).Contents (Elt Ideal)) (x16 : (⟨S64x3, .f32⟩ : BufTy).Contents (Elt Ideal)) (x17 : (⟨S3, .f32⟩ : BufTy).Contents (Elt Ideal)) :
    val_main_v208 (F := Ideal) x0 x1 x2 x3 x4 x5 x6 x7 x8 x9 x10 x11 x12 x13 x14 x15 x16 x17
      = Spec.head (R := 100000) (A := 64) (H := 64) (N := 3) (val_main_v191 (F := Ideal) x0 x1 x2 x3 x4 x5 x6 x7 x8 x9 x10 x11 x12 x13) x14 x15 x16 x17 := by
  unfold val_main_v208 val_main_v207 val_main_cst_18 val_main_v206 val_main_v205 val_main_cst_17 val_main_v204
    val_main_v203 val_main_cst_16 val_main_v202 val_main_v201 val_main_v200 val_main_v197 val_main_v196
    val_main_v195 val_main_v192 val_main_v194 val_main_v193 val_main_call14_v0 val_main_call14_cst val_main_v199
    val_main_v198
  exact head_eq (R := 100000) (A := 64) (H := 64) (N := 3) _ x14 x15 x16 x17 _ _ _ _ _ _ _ _ _ _ _ _

end Cert.ReferenceIdeal.Stages

end
-- ==== Proof.RefNet.lean ====
/-
  The reference's value is the network's. The reference computes, stage by stage, the specification's blocks (the
  encoder, three message blocks, three update blocks, the output head) over operands that are themselves earlier
  stages: the rows of the node states gathered at the edges' sources and destinations, the messages summed at their
  destinations, and the count of incoming edges. The two rows of the edge array, the wrapped index columns, the gathers,
  the sums by destination and the counts are spelt the same way in both programs, so each of them is the network's
  piece by unfolding; the blocks are the network's by the stage theorems. Chaining the three layers and the head gives
  the whole.
-/
import proofs.«111624_j59098749993608_2_alg».proof.Proof.RefStages
import proofs.«111624_j59098749993608_2_alg».proof.Proof.KernelNet

set_option maxRecDepth 16384

noncomputable section

namespace Cert.Bridge.RefNet

open Idealize.ShloMosaic Idealize.ShloMosaic.ValueIdx
open Cert.ReferenceIdeal Cert.ReferenceIdeal.Read

/-- The edges' sources. -/
theorem src_eq (x1 : (⟨S2x1000000, .i32⟩ : BufTy).Contents (Elt Ideal)) : val_main_v1 (F := Ideal) x1 = Cert.KernelIdeal.Net.src x1 := by
  unfold val_main_v1 val_main_v0
  rfl

/-- The edges' destinations. -/
theorem dst_eq (x1 : (⟨S2x1000000, .i32⟩ : BufTy).Contents (Elt Ideal)) : val_main_v3 (F := Ideal) x1 = Cert.KernelIdeal.Net.dst x1 := by
  unfold val_main_v3 val_main_v2
  rfl

/-- Each node's count of incoming edges, at least one. -/
theorem den_eq (x1 : (⟨S2x1000000, .i32⟩ : BufTy).Contents (Elt Ideal)) : val_main_v20 (F := Ideal) x1 = Cert.KernelIdeal.Net.den x1 := by
  unfold val_main_v20 val_main_v19 val_main_v17 val_main_v15 val_main_cst_0 val_main_v16 val_main_v14 val_main_cst
    val_main_v18 val_main_cst_1
  rw [dst_eq x1]
  rfl

/-- The encoder block. -/
theorem enc_eq (x0 : (⟨S100000x5, .f32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v13 (F := Ideal) x0 x2 x3 x4 x5 = Cert.KernelIdeal.Net.enc x0 x2 x3 x4 x5 :=
  Cert.ReferenceIdeal.Stages.enc x0 x2 x3 x4 x5

/-! Layer 0. -/

/-- The wrapped source indices, as a column. -/
theorem colS0 (x1 : (⟨S2x1000000, .i32⟩ : BufTy).Contents (Elt Ideal)) : val_main_v26 (F := Ideal) x1 = Cert.KernelIdeal.Glue.takeCol (Cert.KernelIdeal.Net.src x1) := by
  unfold val_main_v26 val_main_v25 val_main_v22 val_main_v21 val_main_c val_main_v24 val_main_v23 val_main_c_2
  rw [src_eq x1]

/-- The wrapped destination indices, as a column. -/
theorem colD0 (x1 : (⟨S2x1000000, .i32⟩ : BufTy).Contents (Elt Ideal)) : val_main_v33 (F := Ideal) x1 = Cert.KernelIdeal.Glue.takeCol (Cert.KernelIdeal.Net.dst x1) := by
  unfold val_main_v33 val_main_v32 val_main_v29 val_main_v28 val_main_c_3 val_main_v31 val_main_v30 val_main_c_4
  rw [dst_eq x1]

/-- The rows of the node states at the edges' sources. -/
theorem rowsS0 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v27 (F := Ideal) x0 x1 x2 x3 x4 x5 = Cert.KernelIdeal.Net.rowsAt (Cert.KernelIdeal.Net.enc x0 x2 x3 x4 x5) (Cert.KernelIdeal.Net.src x1) := by
  unfold val_main_v27
  rw [enc_eq x0 x2 x3 x4 x5, colS0 x1]
  rfl

/-- The rows of the node states at the edges' destinations. -/
theorem rowsD0 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v34 (F := Ideal) x0 x1 x2 x3 x4 x5 = Cert.KernelIdeal.Net.rowsAt (Cert.KernelIdeal.Net.enc x0 x2 x3 x4 x5) (Cert.KernelIdeal.Net.dst x1) := by
  unfold val_main_v34
  rw [enc_eq x0 x2 x3 x4 x5, colD0 x1]
  rfl

/-- The messages. -/
theorem msg0_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) :
    val_main_v53 (F := Ideal) x0 x1 x2 x3 x4 x5 x6 x7 x8 x9 = Cert.KernelIdeal.Net.msg (Cert.KernelIdeal.Net.enc x0 x2 x3 x4 x5) x1 x6 x7 x8 x9 0 := by
  refine (Cert.ReferenceIdeal.Stages.msg0 x0 x1 x2 x3 x4 x5 x6 x7 x8 x9).trans ?_
  rw [rowsS0 x0 x1 x2 x3 x4 x5, rowsD0 x0 x1 x2 x3 x4 x5]
  rfl

/-- The messages summed at their destinations. -/
theorem sum0_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) :
    val_main_v56 (F := Ideal) x0 x1 x2 x3 x4 x5 x6 x7 x8 x9 = Cert.KernelIdeal.Net.sumAt (Cert.KernelIdeal.Net.dst x1) (Cert.KernelIdeal.Net.msg (Cert.KernelIdeal.Net.enc x0 x2 x3 x4 x5) x1 x6 x7 x8 x9 0) := by
  unfold val_main_v56 val_main_v54 val_main_cst_5 val_main_v55
  rw [msg0_eq x0 x1 x2 x3 x4 x5 x6 x7 x8 x9, dst_eq x1]
  rfl

/-- The node states after the layer. -/
theorem layer0_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v77 (F := Ideal) x0 x1 x2 x3 x4 x5 x6 x7 x8 x9 x10 x11 x12 x13 = Cert.KernelIdeal.Net.layer (Cert.KernelIdeal.Net.enc x0 x2 x3 x4 x5) x1 x6 x7 x8 x9 x10 x11 x12 x13 0 := by
  refine (Cert.ReferenceIdeal.Stages.upd0 x0 x1 x2 x3 x4 x5 x6 x7 x8 x9 x10 x11 x12 x13).trans ?_
  rw [enc_eq x0 x2 x3 x4 x5, sum0_eq x0 x1 x2 x3 x4 x5 x6 x7 x8 x9, den_eq x1]
  rfl

/-! Layer 1. -/

/-- The wrapped source indices, as a column. -/
theorem colS1 (x1 : (⟨S2x1000000, .i32⟩ : BufTy).Contents (Elt Ideal)) : val_main_v83 (F := Ideal) x1 = Cert.KernelIdeal.Glue.takeCol (Cert.KernelIdeal.Net.src x1) := by
  unfold val_main_v83 val_main_v82 val_main_v79 val_main_v78 val_main_c_6 val_main_v81 val_main_v80 val_main_c_7
  rw [src_eq x1]

/-- The wrapped destination indices, as a column. -/
theorem colD1 (x1 : (⟨S2x1000000, .i32⟩ : BufTy).Contents (Elt Ideal)) : val_main_v90 (F := Ideal) x1 = Cert.KernelIdeal.Glue.takeCol (Cert.KernelIdeal.Net.dst x1) := by
  unfold val_main_v90 val_main_v89 val_main_v86 val_main_v85 val_main_c_8 val_main_v88 val_main_v87 val_main_c_9
  rw [dst_eq x1]

/-- The rows of the node states at the edges' sources. -/
theorem rowsS1 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v84 (F := Ideal) x0 x1 x2 x3 x4 x5 x6 x7 x8 x9 x10 x11 x12 x13 = Cert.KernelIdeal.Net.rowsAt (Cert.KernelIdeal.Net.layer (Cert.KernelIdeal.Net.enc x0 x2 x3 x4 x5) x1 x6 x7 x8 x9 x10 x11 x12 x13 0) (Cert.KernelIdeal.Net.src x1) := by
  unfold val_main_v84
  rw [layer0_eq x0 x1 x2 x3 x4 x5 x6 x7 x8 x9 x10 x11 x12 x13, colS1 x1]
  rfl

/-- The rows of the node states at the edges' destinations. -/
theorem rowsD1 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v91 (F := Ideal) x0 x1 x2 x3 x4 x5 x6 x7 x8 x9 x10 x11 x12 x13 = Cert.KernelIdeal.Net.rowsAt (Cert.KernelIdeal.Net.layer (Cert.KernelIdeal.Net.enc x0 x2 x3 x4 x5) x1 x6 x7 x8 x9 x10 x11 x12 x13 0) (Cert.KernelIdeal.Net.dst x1) := by
  unfold val_main_v91
  rw [layer0_eq x0 x1 x2 x3 x4 x5 x6 x7 x8 x9 x10 x11 x12 x13, colD1 x1]
  rfl

/-- The messages. -/
theorem msg1_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v110 (F := Ideal) x0 x1 x2 x3 x4 x5 x6 x7 x8 x9 x10 x11 x12 x13 = Cert.KernelIdeal.Net.msg (Cert.KernelIdeal.Net.layer (Cert.KernelIdeal.Net.enc x0 x2 x3 x4 x5) x1 x6 x7 x8 x9 x10 x11 x12 x13 0) x1 x6 x7 x8 x9 1 := by
  refine (Cert.ReferenceIdeal.Stages.msg1 x0 x1 x2 x3 x4 x5 x6 x7 x8 x9 x10 x11 x12 x13).trans ?_
  rw [rowsS1 x0 x1 x2 x3 x4 x5 x6 x7 x8 x9 x10 x11 x12 x13, rowsD1 x0 x1 x2 x3 x4 x5 x6 x7 x8 x9 x10 x11 x12 x13]
  rfl

/-- The messages summed at their destinations. -/
theorem sum1_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v113 (F := Ideal) x0 x1 x2 x3 x4 x5 x6 x7 x8 x9 x10 x11 x12 x13 = Cert.KernelIdeal.Net.sumAt (Cert.KernelIdeal.Net.dst x1) (Cert.KernelIdeal.Net.msg (Cert.KernelIdeal.Net.layer (Cert.KernelIdeal.Net.enc x0 x2 x3 x4 x5) x1 x6 x7 x8 x9 x10 x11 x12 x13 0) x1 x6 x7 x8 x9 1) := by
  unfold val_main_v113 val_main_v111 val_main_cst_10 val_main_v112
  rw [msg1_eq x0 x1 x2 x3 x4 x5 x6 x7 x8 x9 x10 x11 x12 x13, dst_eq x1]
  rfl

/-- The node states after the layer. -/
theorem layer1_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v134 (F := Ideal) x0 x1 x2 x3 x4 x5 x6 x7 x8 x9 x10 x11 x12 x13 = Cert.KernelIdeal.Net.layer (Cert.KernelIdeal.Net.layer (Cert.KernelIdeal.Net.enc x0 x2 x3 x4 x5) x1 x6 x7 x8 x9 x10 x11 x12 x13 0) x1 x6 x7 x8 x9 x10 x11 x12 x13 1 := by
  refine (Cert.ReferenceIdeal.Stages.upd1 x0 x1 x2 x3 x4 x5 x6 x7 x8 x9 x10 x11 x12 x13).trans ?_
  rw [layer0_eq x0 x1 x2 x3 x4 x5 x6 x7 x8 x9 x10 x11 x12 x13, sum1_eq x0 x1 x2 x3 x4 x5 x6 x7 x8 x9 x10 x11 x12 x13, den_eq x1]
  rfl

/-! Layer 2. -/

/-- The wrapped source indices, as a column. -/
theorem colS2 (x1 : (⟨S2x1000000, .i32⟩ : BufTy).Contents (Elt Ideal)) : val_main_v140 (F := Ideal) x1 = Cert.KernelIdeal.Glue.takeCol (Cert.KernelIdeal.Net.src x1) := by
  unfold val_main_v140 val_main_v139 val_main_v136 val_main_v135 val_main_c_11 val_main_v138 val_main_v137
    val_main_c_12
  rw [src_eq x1]

/-- The wrapped destination indices, as a column. -/
theorem colD2 (x1 : (⟨S2x1000000, .i32⟩ : BufTy).Contents (Elt Ideal)) : val_main_v147 (F := Ideal) x1 = Cert.KernelIdeal.Glue.takeCol (Cert.KernelIdeal.Net.dst x1) := by
  unfold val_main_v147 val_main_v146 val_main_v143 val_main_v142 val_main_c_13 val_main_v145 val_main_v144
    val_main_c_14
  rw [dst_eq x1]

/-- The rows of the node states at the edges' sources. -/
theorem rowsS2 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v141 (F := Ideal) x0 x1 x2 x3 x4 x5 x6 x7 x8 x9 x10 x11 x12 x13 = Cert.KernelIdeal.Net.rowsAt (Cert.KernelIdeal.Net.layer (Cert.KernelIdeal.Net.layer (Cert.KernelIdeal.Net.enc x0 x2 x3 x4 x5) x1 x6 x7 x8 x9 x10 x11 x12 x13 0) x1 x6 x7 x8 x9 x10 x11 x12 x13 1) (Cert.KernelIdeal.Net.src x1) := by
  unfold val_main_v141
  rw [layer1_eq x0 x1 x2 x3 x4 x5 x6 x7 x8 x9 x10 x11 x12 x13, colS2 x1]
  rfl

/-- The rows of the node states at the edges' destinations. -/
theorem rowsD2 (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v148 (F := Ideal) x0 x1 x2 x3 x4 x5 x6 x7 x8 x9 x10 x11 x12 x13 = Cert.KernelIdeal.Net.rowsAt (Cert.KernelIdeal.Net.layer (Cert.KernelIdeal.Net.layer (Cert.KernelIdeal.Net.enc x0 x2 x3 x4 x5) x1 x6 x7 x8 x9 x10 x11 x12 x13 0) x1 x6 x7 x8 x9 x10 x11 x12 x13 1) (Cert.KernelIdeal.Net.dst x1) := by
  unfold val_main_v148
  rw [layer1_eq x0 x1 x2 x3 x4 x5 x6 x7 x8 x9 x10 x11 x12 x13, colD2 x1]
  rfl

/-- The messages. -/
theorem msg2_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v167 (F := Ideal) x0 x1 x2 x3 x4 x5 x6 x7 x8 x9 x10 x11 x12 x13 = Cert.KernelIdeal.Net.msg (Cert.KernelIdeal.Net.layer (Cert.KernelIdeal.Net.layer (Cert.KernelIdeal.Net.enc x0 x2 x3 x4 x5) x1 x6 x7 x8 x9 x10 x11 x12 x13 0) x1 x6 x7 x8 x9 x10 x11 x12 x13 1) x1 x6 x7 x8 x9 2 := by
  refine (Cert.ReferenceIdeal.Stages.msg2 x0 x1 x2 x3 x4 x5 x6 x7 x8 x9 x10 x11 x12 x13).trans ?_
  rw [rowsS2 x0 x1 x2 x3 x4 x5 x6 x7 x8 x9 x10 x11 x12 x13, rowsD2 x0 x1 x2 x3 x4 x5 x6 x7 x8 x9 x10 x11 x12 x13]
  rfl

/-- The messages summed at their destinations. -/
theorem sum2_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v170 (F := Ideal) x0 x1 x2 x3 x4 x5 x6 x7 x8 x9 x10 x11 x12 x13 = Cert.KernelIdeal.Net.sumAt (Cert.KernelIdeal.Net.dst x1) (Cert.KernelIdeal.Net.msg (Cert.KernelIdeal.Net.layer (Cert.KernelIdeal.Net.layer (Cert.KernelIdeal.Net.enc x0 x2 x3 x4 x5) x1 x6 x7 x8 x9 x10 x11 x12 x13 0) x1 x6 x7 x8 x9 x10 x11 x12 x13 1) x1 x6 x7 x8 x9 2) := by
  unfold val_main_v170 val_main_v168 val_main_cst_15 val_main_v169
  rw [msg2_eq x0 x1 x2 x3 x4 x5 x6 x7 x8 x9 x10 x11 x12 x13, dst_eq x1]
  rfl

/-- The node states after the layer. -/
theorem layer2_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) :
    val_main_v191 (F := Ideal) x0 x1 x2 x3 x4 x5 x6 x7 x8 x9 x10 x11 x12 x13 = Cert.KernelIdeal.Net.layer (Cert.KernelIdeal.Net.layer (Cert.KernelIdeal.Net.layer (Cert.KernelIdeal.Net.enc x0 x2 x3 x4 x5) x1 x6 x7 x8 x9 x10 x11 x12 x13 0) x1 x6 x7 x8 x9 x10 x11 x12 x13 1) x1 x6 x7 x8 x9 x10 x11 x12 x13 2 := by
  refine (Cert.ReferenceIdeal.Stages.upd2 x0 x1 x2 x3 x4 x5 x6 x7 x8 x9 x10 x11 x12 x13).trans ?_
  rw [layer1_eq x0 x1 x2 x3 x4 x5 x6 x7 x8 x9 x10 x11 x12 x13, sum2_eq x0 x1 x2 x3 x4 x5 x6 x7 x8 x9 x10 x11 x12 x13, den_eq x1]
  rfl

/-- The reference's value is the network's. -/
theorem ref_eq (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S64x64, .f32⟩ : BufTy).Contents (Elt Ideal)) (x15 : (⟨S64, .f32⟩ : BufTy).Contents (Elt Ideal)) (x16 : (⟨S64x3, .f32⟩ : BufTy).Contents (Elt Ideal)) (x17 : (⟨S3, .f32⟩ : BufTy).Contents (Elt Ideal)) :
    val_main_v208 (F := Ideal) x0 x1 x2 x3 x4 x5 x6 x7 x8 x9 x10 x11 x12 x13 x14 x15 x16 x17 = Cert.KernelIdeal.Net.net x0 x1 x2 x3 x4 x5 x6 x7 x8 x9 x10 x11 x12 x13 x14 x15 x16 x17 := by
  refine (Cert.ReferenceIdeal.Stages.head x0 x1 x2 x3 x4 x5 x6 x7 x8 x9 x10 x11 x12 x13 x14 x15 x16 x17).trans ?_
  rw [layer2_eq x0 x1 x2 x3 x4 x5 x6 x7 x8 x9 x10 x11 x12 x13]
  rfl

end Cert.Bridge.RefNet

end
-- ==== Proof.RefOps.lean ====
/-
  The reference program's host operations, in order, cut into the stretches the network has: the edge rows and the
  encoder block; the incoming-edge counts; the three layers (gathers, message block, sum by destination, mean, update
  block); the output head. @main is the sequence of them all, every operation touches TensorCore buffers only, and none
  allocates.
-/
import proofs.«111624_j59098749993608_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0–17 of @main. -/
abbrev opsA : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    binary main_arg0 main_arg2 main_v4 ((fun l r => Host.dotGeneral dot_S100000x5_S5x64_S100000x64_1_0_0_1_n_n none l r) : (⟨S100000x5, .f32⟩ : BufTy).Contents (Elt F) → (⟨S5x64, .f32⟩ : BufTy).Contents (Elt F) → (⟨S100000x64, .f32⟩ : BufTy).Contents (Elt F)),
    unary main_arg3 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v7) (TRef.of (T := ⟨S100000x64, .f32⟩) main_call0_v0) (TRef.of (T := ⟨S100000x64, .f32⟩) main_v8) maximumf,
    binary main_v8 main_arg4 main_v9 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v12) (TRef.of (T := ⟨S100000x64, .f32⟩) main_call1_v0) (TRef.of (T := ⟨S100000x64, .f32⟩) main_v13) maximumf ]

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsA_fresh : (opsA : List (HloOp τ sig (Elt F))).Forall fun op => op.fresh = ∅ := by
  simp only [List.Forall]; repeat' constructor

/-- Operations 18–27 of @main. -/
abbrev opsB : List (HloOp τ sig (Elt F)) :=
  [ nullary main_cst (constant S_ .f32 0x3F800000#32),
    unary main_cst main_v14 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v15 (broadcastInDim S100000 ![] bcast_S_S100000 : (⟨S_, .f32⟩ : BufTy).Contents (Elt F) → (⟨S100000, .f32⟩ : BufTy).Contents (Elt F)),
    unary main_v3 main_v16 (broadcastInDim S1000000x1 ![0] bcast_S1000000_S1000000x1_0 : (⟨S1000000, .i32⟩ : BufTy).Contents (Elt F) → (⟨S1000000x1, .i32⟩ : BufTy).Contents (Elt F)),
    ternary main_v15 main_v16 main_v14 main_v17 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_1 (constant S_ .f32 0x3F800000#32),
    unary main_cst_1 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)) ]

set_option maxRecDepth 8192 in
theorem opsB_sub : (opsB : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub ..⟩

theorem opsB_fresh : (opsB : List (HloOp τ sig (Elt F))).Forall fun op => op.fresh = ∅ := by
  simp only [List.Forall]; repeat' constructor

/-- Operations 28–97 of @main. -/
abbrev opsC0 : List (HloOp τ sig (Elt F)) :=
  [ nullary main_c (constantI S_ 32 0#32),
    unary main_c main_v21 (broadcastInDim S1000000 ![] bcast_S_S1000000 : (⟨S_, .i32⟩ : BufTy).Contents (Elt F) → (⟨S1000000, .i32⟩ : BufTy).Contents (Elt F)),
    binary main_v1 main_v21 main_v22 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 100000#32),
    unary main_c_2 main_v23 (broadcastInDim S1000000 ![] bcast_S_S1000000 : (⟨S_, .i32⟩ : BufTy).Contents (Elt F) → (⟨S1000000, .i32⟩ : BufTy).Contents (Elt F)),
    binary main_v1 main_v23 main_v24 (addi : (⟨S1000000, .i32⟩ : BufTy).Contents (Elt F) → (⟨S1000000, .i32⟩ : BufTy).Contents (Elt F) → (⟨S1000000, .i32⟩ : BufTy).Contents (Elt F)),
    ternary main_v22 main_v24 main_v1 main_v25 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v25 main_v26 (broadcastInDim S1000000x1 ![0] bcast_S1000000_S1000000x1_0 : (⟨S1000000, .i32⟩ : BufTy).Contents (Elt F) → (⟨S1000000x1, .i32⟩ : BufTy).Contents (Elt F)),
    binary main_v13 main_v26 main_v27 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_c_3 (constantI S_ 32 0#32),
    unary main_c_3 main_v28 (broadcastInDim S1000000 ![] bcast_S_S1000000 : (⟨S_, .i32⟩ : BufTy).Contents (Elt F) → (⟨S1000000, .i32⟩ : BufTy).Contents (Elt F)),
    binary main_v3 main_v28 main_v29 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 100000#32),
    unary main_c_4 main_v30 (broadcastInDim S1000000 ![] bcast_S_S1000000 : (⟨S_, .i32⟩ : BufTy).Contents (Elt F) → (⟨S1000000, .i32⟩ : BufTy).Contents (Elt F)),
    binary main_v3 main_v30 main_v31 (addi : (⟨S1000000, .i32⟩ : BufTy).Contents (Elt F) → (⟨S1000000, .i32⟩ : BufTy).Contents (Elt F) → (⟨S1000000, .i32⟩ : BufTy).Contents (Elt F)),
    ternary main_v29 main_v31 main_v3 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v32 main_v33 (broadcastInDim S1000000x1 ![0] bcast_S1000000_S1000000x1_0 : (⟨S1000000, .i32⟩ : BufTy).Contents (Elt F) → (⟨S1000000x1, .i32⟩ : BufTy).Contents (Elt F)),
    binary main_v13 main_v33 main_v34 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v27 main_v34 main_v35 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg6 main_v36 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v36 main_v37 rfl shapeCasts_S1x128x64_S128x64,
    unary main_arg7 main_v38 ((extractStridedSlice S1x64 ![0, 0] · slices_S3x64_S1x64_0_0) : (⟨S3x64, .f32⟩ : BufTy).Contents (Elt F) → (⟨S1x64, .f32⟩ : BufTy).Contents (Elt F)),
    reshape main_v38 main_v39 rfl shapeCasts_S1x64_S64,
    unary main_arg8 main_v40 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v40 main_v41 rfl shapeCasts_S1x64x64_S64x64,
    unary main_arg9 main_v42 ((extractStridedSlice S1x64 ![0, 0] · slices_S3x64_S1x64_0_0) : (⟨S3x64, .f32⟩ : BufTy).Contents (Elt F) → (⟨S1x64, .f32⟩ : BufTy).Contents (Elt F)),
    reshape main_v42 main_v43 rfl shapeCasts_S1x64_S64,
    binary main_v35 main_v37 main_v44 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_v39 main_v45 (broadcastInDim S1x64 ![1] bcast_S64_S1x64_1 : (⟨S64, .f32⟩ : BufTy).Contents (Elt F) → (⟨S1x64, .f32⟩ : BufTy).Contents (Elt F)),
    unary main_v45 main_v46 (broadcastInDim S1000000x64 ![0, 1] bcast_S1x64_S1000000x64_0_1 : (⟨S1x64, .f32⟩ : BufTy).Contents (Elt F) → (⟨S1000000x64, .f32⟩ : BufTy).Contents (Elt F)),
    binary main_v44 main_v46 main_v47 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1000000x64, .f32⟩) main_call2_v0) (broadcastInDim S1000000x64 ![] bcast_S_S1000000x64),
    TRef.binary (TRef.of (T := ⟨S1000000x64, .f32⟩) main_v47) (TRef.of (T := ⟨S1000000x64, .f32⟩) main_call2_v0) (TRef.of (T := ⟨S1000000x64, .f32⟩) main_v48) maximumf,
    binary main_v48 main_v41 main_v49 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    unary main_v43 main_v50 (broadcastInDim S1x64 ![1] bcast_S64_S1x64_1 : (⟨S64, .f32⟩ : BufTy).Contents (Elt F) → (⟨S1x64, .f32⟩ : BufTy).Contents (Elt F)),
    unary main_v50 main_v51 (broadcastInDim S1000000x64 ![0, 1] bcast_S1x64_S1000000x64_0_1 : (⟨S1x64, .f32⟩ : BufTy).Contents (Elt F) → (⟨S1000000x64, .f32⟩ : BufTy).Contents (Elt F)),
    binary main_v49 main_v51 main_v52 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1000000x64, .f32⟩) main_call3_v0) (broadcastInDim S1000000x64 ![] bcast_S_S1000000x64),
    TRef.binary (TRef.of (T := ⟨S1000000x64, .f32⟩) main_v52) (TRef.of (T := ⟨S1000000x64, .f32⟩) main_call3_v0) (TRef.of (T := ⟨S1000000x64, .f32⟩) main_v53) maximumf,
    nullary main_cst_5 (constant S_ .f32 0x00000000#32),
    unary main_cst_5 main_v54 (broadcastInDim S100000x64 ![] bcast_S_S100000x64 : (⟨S_, .f32⟩ : BufTy).Contents (Elt F) → (⟨S100000x64, .f32⟩ : BufTy).Contents (Elt F)),
    unary main_v3 main_v55 (broadcastInDim S1000000x1 ![0] bcast_S1000000_S1000000x1_0 : (⟨S1000000, .i32⟩ : BufTy).Contents (Elt F) → (⟨S1000000x1, .i32⟩ : BufTy).Contents (Elt F)),
    ternary main_v54 main_v55 main_v53 main_v56 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v20 main_v57 (broadcastInDim S100000x64 ![0, 1] bcast_S100000x1_S100000x64_0_1 : (⟨S100000x1, .f32⟩ : BufTy).Contents (Elt F) → (⟨S100000x64, .f32⟩ : BufTy).Contents (Elt F)),
    binary main_v56 main_v57 main_v58 (Host.divf : (⟨S100000x64, .f32⟩ : BufTy).Contents (Elt F) → (⟨S100000x64, .f32⟩ : BufTy).Contents (Elt F) → (⟨S100000x64, .f32⟩ : BufTy).Contents (Elt F)),
    binary main_v13 main_v58 main_v59 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg10 main_v60 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v60 main_v61 rfl shapeCasts_S1x128x64_S128x64,
    unary main_arg11 main_v62 ((extractStridedSlice S1x64 ![0, 0] · slices_S3x64_S1x64_0_0) : (⟨S3x64, .f32⟩ : BufTy).Contents (Elt F) → (⟨S1x64, .f32⟩ : BufTy).Contents (Elt F)),
    reshape main_v62 main_v63 rfl shapeCasts_S1x64_S64,
    unary main_arg12 main_v64 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v64 main_v65 rfl shapeCasts_S1x64x64_S64x64,
    unary main_arg13 main_v66 ((extractStridedSlice S1x64 ![0, 0] · slices_S3x64_S1x64_0_0) : (⟨S3x64, .f32⟩ : BufTy).Contents (Elt F) → (⟨S1x64, .f32⟩ : BufTy).Contents (Elt F)),
    reshape main_v66 main_v67 rfl shapeCasts_S1x64_S64,
    binary main_v59 main_v61 main_v68 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v63 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v71) (TRef.of (T := ⟨S100000x64, .f32⟩) main_call4_v0) (TRef.of (T := ⟨S100000x64, .f32⟩) main_v72) maximumf,
    binary main_v72 main_v65 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v67 main_v74 (broadcastInDim S1x64 ![1] bcast_S64_S1x64_1 : (⟨S64, .f32⟩ : BufTy).Contents (Elt F) → (⟨S1x64, .f32⟩ : BufTy).Contents (Elt F)),
    unary main_v74 main_v75 (broadcastInDim S100000x64 ![0, 1] bcast_S1x64_S100000x64_0_1 : (⟨S1x64, .f32⟩ : BufTy).Contents (Elt F) → (⟨S100000x64, .f32⟩ : BufTy).Contents (Elt F)),
    binary main_v73 main_v75 main_v76 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v76) (TRef.of (T := ⟨S100000x64, .f32⟩) main_call5_v0) (TRef.of (T := ⟨S100000x64, .f32⟩) main_v77) maximumf ]

set_option maxRecDepth 8192 in
theorem opsC0_sub : (opsC0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsC0_fresh : (opsC0 : List (HloOp τ sig (Elt F))).Forall fun op => op.fresh = ∅ := by
  simp only [List.Forall]; repeat' constructor

/-- Operations 98–167 of @main. -/
abbrev opsC1 : List (HloOp τ sig (Elt F)) :=
  [ nullary main_c_6 (constantI S_ 32 0#32),
    unary main_c_6 main_v78 (broadcastInDim S1000000 ![] bcast_S_S1000000 : (⟨S_, .i32⟩ : BufTy).Contents (Elt F) → (⟨S1000000, .i32⟩ : BufTy).Contents (Elt F)),
    binary main_v1 main_v78 main_v79 (cmpi .slt : (⟨S1000000, .i32⟩ : BufTy).Contents (Elt F) → (⟨S1000000, .i32⟩ : BufTy).Contents (Elt F) → (⟨S1000000, .i1⟩ : BufTy).Contents (Elt F)),
    nullary main_c_7 (constantI S_ 32 100000#32),
    unary main_c_7 main_v80 (broadcastInDim S1000000 ![] bcast_S_S1000000 : (⟨S_, .i32⟩ : BufTy).Contents (Elt F) → (⟨S1000000, .i32⟩ : BufTy).Contents (Elt F)),
    binary main_v1 main_v80 main_v81 (addi : (⟨S1000000, .i32⟩ : BufTy).Contents (Elt F) → (⟨S1000000, .i32⟩ : BufTy).Contents (Elt F) → (⟨S1000000, .i32⟩ : BufTy).Contents (Elt F)),
    ternary main_v79 main_v81 main_v1 main_v82 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v82 main_v83 (broadcastInDim S1000000x1 ![0] bcast_S1000000_S1000000x1_0 : (⟨S1000000, .i32⟩ : BufTy).Contents (Elt F) → (⟨S1000000x1, .i32⟩ : BufTy).Contents (Elt F)),
    binary main_v77 main_v83 main_v84 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_c_8 (constantI S_ 32 0#32),
    unary main_c_8 main_v85 (broadcastInDim S1000000 ![] bcast_S_S1000000 : (⟨S_, .i32⟩ : BufTy).Contents (Elt F) → (⟨S1000000, .i32⟩ : BufTy).Contents (Elt F)),
    binary main_v3 main_v85 main_v86 (cmpi .slt : (⟨S1000000, .i32⟩ : BufTy).Contents (Elt F) → (⟨S1000000, .i32⟩ : BufTy).Contents (Elt F) → (⟨S1000000, .i1⟩ : BufTy).Contents (Elt F)),
    nullary main_c_9 (constantI S_ 32 100000#32),
    unary main_c_9 main_v87 (broadcastInDim S1000000 ![] bcast_S_S1000000 : (⟨S_, .i32⟩ : BufTy).Contents (Elt F) → (⟨S1000000, .i32⟩ : BufTy).Contents (Elt F)),
    binary main_v3 main_v87 main_v88 (addi : (⟨S1000000, .i32⟩ : BufTy).Contents (Elt F) → (⟨S1000000, .i32⟩ : BufTy).Contents (Elt F) → (⟨S1000000, .i32⟩ : BufTy).Contents (Elt F)),
    ternary main_v86 main_v88 main_v3 main_v89 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v89 main_v90 (broadcastInDim S1000000x1 ![0] bcast_S1000000_S1000000x1_0 : (⟨S1000000, .i32⟩ : BufTy).Contents (Elt F) → (⟨S1000000x1, .i32⟩ : BufTy).Contents (Elt F)),
    binary main_v77 main_v90 main_v91 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v84 main_v91 main_v92 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg6 main_v93 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v93 main_v94 rfl shapeCasts_S1x128x64_S128x64,
    unary main_arg7 main_v95 ((extractStridedSlice S1x64 ![1, 0] · slices_S3x64_S1x64_1_0) : (⟨S3x64, .f32⟩ : BufTy).Contents (Elt F) → (⟨S1x64, .f32⟩ : BufTy).Contents (Elt F)),
    reshape main_v95 main_v96 rfl shapeCasts_S1x64_S64,
    unary main_arg8 main_v97 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v97 main_v98 rfl shapeCasts_S1x64x64_S64x64,
    unary main_arg9 main_v99 ((extractStridedSlice S1x64 ![1, 0] · slices_S3x64_S1x64_1_0) : (⟨S3x64, .f32⟩ : BufTy).Contents (Elt F) → (⟨S1x64, .f32⟩ : BufTy).Contents (Elt F)),
    reshape main_v99 main_v100 rfl shapeCasts_S1x64_S64,
    binary main_v92 main_v94 main_v101 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_v96 main_v102 (broadcastInDim S1x64 ![1] bcast_S64_S1x64_1 : (⟨S64, .f32⟩ : BufTy).Contents (Elt F) → (⟨S1x64, .f32⟩ : BufTy).Contents (Elt F)),
    unary main_v102 main_v103 (broadcastInDim S1000000x64 ![0, 1] bcast_S1x64_S1000000x64_0_1 : (⟨S1x64, .f32⟩ : BufTy).Contents (Elt F) → (⟨S1000000x64, .f32⟩ : BufTy).Contents (Elt F)),
    binary main_v101 main_v103 main_v104 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1000000x64, .f32⟩) main_call6_v0) (broadcastInDim S1000000x64 ![] bcast_S_S1000000x64),
    TRef.binary (TRef.of (T := ⟨S1000000x64, .f32⟩) main_v104) (TRef.of (T := ⟨S1000000x64, .f32⟩) main_call6_v0) (TRef.of (T := ⟨S1000000x64, .f32⟩) main_v105) maximumf,
    binary main_v105 main_v98 main_v106 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    unary main_v100 main_v107 (broadcastInDim S1x64 ![1] bcast_S64_S1x64_1 : (⟨S64, .f32⟩ : BufTy).Contents (Elt F) → (⟨S1x64, .f32⟩ : BufTy).Contents (Elt F)),
    unary main_v107 main_v108 (broadcastInDim S1000000x64 ![0, 1] bcast_S1x64_S1000000x64_0_1 : (⟨S1x64, .f32⟩ : BufTy).Contents (Elt F) → (⟨S1000000x64, .f32⟩ : BufTy).Contents (Elt F)),
    binary main_v106 main_v108 main_v109 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1000000x64, .f32⟩) main_call7_v0) (broadcastInDim S1000000x64 ![] bcast_S_S1000000x64),
    TRef.binary (TRef.of (T := ⟨S1000000x64, .f32⟩) main_v109) (TRef.of (T := ⟨S1000000x64, .f32⟩) main_call7_v0) (TRef.of (T := ⟨S1000000x64, .f32⟩) main_v110) maximumf,
    nullary main_cst_10 (constant S_ .f32 0x00000000#32),
    unary main_cst_10 main_v111 (broadcastInDim S100000x64 ![] bcast_S_S100000x64 : (⟨S_, .f32⟩ : BufTy).Contents (Elt F) → (⟨S100000x64, .f32⟩ : BufTy).Contents (Elt F)),
    unary main_v3 main_v112 (broadcastInDim S1000000x1 ![0] bcast_S1000000_S1000000x1_0 : (⟨S1000000, .i32⟩ : BufTy).Contents (Elt F) → (⟨S1000000x1, .i32⟩ : BufTy).Contents (Elt F)),
    ternary main_v111 main_v112 main_v110 main_v113 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v20 main_v114 (broadcastInDim S100000x64 ![0, 1] bcast_S100000x1_S100000x64_0_1 : (⟨S100000x1, .f32⟩ : BufTy).Contents (Elt F) → (⟨S100000x64, .f32⟩ : BufTy).Contents (Elt F)),
    binary main_v113 main_v114 main_v115 (Host.divf : (⟨S100000x64, .f32⟩ : BufTy).Contents (Elt F) → (⟨S100000x64, .f32⟩ : BufTy).Contents (Elt F) → (⟨S100000x64, .f32⟩ : BufTy).Contents (Elt F)),
    binary main_v77 main_v115 main_v116 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg10 main_v117 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v117 main_v118 rfl shapeCasts_S1x128x64_S128x64,
    unary main_arg11 main_v119 ((extractStridedSlice S1x64 ![1, 0] · slices_S3x64_S1x64_1_0) : (⟨S3x64, .f32⟩ : BufTy).Contents (Elt F) → (⟨S1x64, .f32⟩ : BufTy).Contents (Elt F)),
    reshape main_v119 main_v120 rfl shapeCasts_S1x64_S64,
    unary main_arg12 main_v121 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v121 main_v122 rfl shapeCasts_S1x64x64_S64x64,
    unary main_arg13 main_v123 ((extractStridedSlice S1x64 ![1, 0] · slices_S3x64_S1x64_1_0) : (⟨S3x64, .f32⟩ : BufTy).Contents (Elt F) → (⟨S1x64, .f32⟩ : BufTy).Contents (Elt F)),
    reshape main_v123 main_v124 rfl shapeCasts_S1x64_S64,
    binary main_v116 main_v118 main_v125 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v120 main_v126 (broadcastInDim S1x64 ![1] bcast_S64_S1x64_1 : (⟨S64, .f32⟩ : BufTy).Contents (Elt F) → (⟨S1x64, .f32⟩ : BufTy).Contents (Elt F)),
    unary main_v126 main_v127 (broadcastInDim S100000x64 ![0, 1] bcast_S1x64_S100000x64_0_1 : (⟨S1x64, .f32⟩ : BufTy).Contents (Elt F) → (⟨S100000x64, .f32⟩ : BufTy).Contents (Elt F)),
    binary main_v125 main_v127 main_v128 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v128) (TRef.of (T := ⟨S100000x64, .f32⟩) main_call8_v0) (TRef.of (T := ⟨S100000x64, .f32⟩) main_v129) maximumf,
    binary main_v129 main_v122 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v124 main_v131 (broadcastInDim S1x64 ![1] bcast_S64_S1x64_1 : (⟨S64, .f32⟩ : BufTy).Contents (Elt F) → (⟨S1x64, .f32⟩ : BufTy).Contents (Elt F)),
    unary main_v131 main_v132 (broadcastInDim S100000x64 ![0, 1] bcast_S1x64_S100000x64_0_1 : (⟨S1x64, .f32⟩ : BufTy).Contents (Elt F) → (⟨S100000x64, .f32⟩ : BufTy).Contents (Elt F)),
    binary main_v130 main_v132 main_v133 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v133) (TRef.of (T := ⟨S100000x64, .f32⟩) main_call9_v0) (TRef.of (T := ⟨S100000x64, .f32⟩) main_v134) maximumf ]

set_option maxRecDepth 8192 in
theorem opsC1_sub : (opsC1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsC1_fresh : (opsC1 : List (HloOp τ sig (Elt F))).Forall fun op => op.fresh = ∅ := by
  simp only [List.Forall]; repeat' constructor

/-- Operations 168–237 of @main. -/
abbrev opsC2 : List (HloOp τ sig (Elt F)) :=
  [ nullary main_c_11 (constantI S_ 32 0#32),
    unary main_c_11 main_v135 (broadcastInDim S1000000 ![] bcast_S_S1000000 : (⟨S_, .i32⟩ : BufTy).Contents (Elt F) → (⟨S1000000, .i32⟩ : BufTy).Contents (Elt F)),
    binary main_v1 main_v135 main_v136 (cmpi .slt : (⟨S1000000, .i32⟩ : BufTy).Contents (Elt F) → (⟨S1000000, .i32⟩ : BufTy).Contents (Elt F) → (⟨S1000000, .i1⟩ : BufTy).Contents (Elt F)),
    nullary main_c_12 (constantI S_ 32 100000#32),
    unary main_c_12 main_v137 (broadcastInDim S1000000 ![] bcast_S_S1000000 : (⟨S_, .i32⟩ : BufTy).Contents (Elt F) → (⟨S1000000, .i32⟩ : BufTy).Contents (Elt F)),
    binary main_v1 main_v137 main_v138 (addi : (⟨S1000000, .i32⟩ : BufTy).Contents (Elt F) → (⟨S1000000, .i32⟩ : BufTy).Contents (Elt F) → (⟨S1000000, .i32⟩ : BufTy).Contents (Elt F)),
    ternary main_v136 main_v138 main_v1 main_v139 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v139 main_v140 (broadcastInDim S1000000x1 ![0] bcast_S1000000_S1000000x1_0 : (⟨S1000000, .i32⟩ : BufTy).Contents (Elt F) → (⟨S1000000x1, .i32⟩ : BufTy).Contents (Elt F)),
    binary main_v134 main_v140 main_v141 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_c_13 (constantI S_ 32 0#32),
    unary main_c_13 main_v142 (broadcastInDim S1000000 ![] bcast_S_S1000000 : (⟨S_, .i32⟩ : BufTy).Contents (Elt F) → (⟨S1000000, .i32⟩ : BufTy).Contents (Elt F)),
    binary main_v3 main_v142 main_v143 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 100000#32),
    unary main_c_14 main_v144 (broadcastInDim S1000000 ![] bcast_S_S1000000 : (⟨S_, .i32⟩ : BufTy).Contents (Elt F) → (⟨S1000000, .i32⟩ : BufTy).Contents (Elt F)),
    binary main_v3 main_v144 main_v145 (addi : (⟨S1000000, .i32⟩ : BufTy).Contents (Elt F) → (⟨S1000000, .i32⟩ : BufTy).Contents (Elt F) → (⟨S1000000, .i32⟩ : BufTy).Contents (Elt F)),
    ternary main_v143 main_v145 main_v3 main_v146 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v146 main_v147 (broadcastInDim S1000000x1 ![0] bcast_S1000000_S1000000x1_0 : (⟨S1000000, .i32⟩ : BufTy).Contents (Elt F) → (⟨S1000000x1, .i32⟩ : BufTy).Contents (Elt F)),
    binary main_v134 main_v147 main_v148 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v141 main_v148 main_v149 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg6 main_v150 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v150 main_v151 rfl shapeCasts_S1x128x64_S128x64,
    unary main_arg7 main_v152 ((extractStridedSlice S1x64 ![2, 0] · slices_S3x64_S1x64_2_0) : (⟨S3x64, .f32⟩ : BufTy).Contents (Elt F) → (⟨S1x64, .f32⟩ : BufTy).Contents (Elt F)),
    reshape main_v152 main_v153 rfl shapeCasts_S1x64_S64,
    unary main_arg8 main_v154 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v154 main_v155 rfl shapeCasts_S1x64x64_S64x64,
    unary main_arg9 main_v156 ((extractStridedSlice S1x64 ![2, 0] · slices_S3x64_S1x64_2_0) : (⟨S3x64, .f32⟩ : BufTy).Contents (Elt F) → (⟨S1x64, .f32⟩ : BufTy).Contents (Elt F)),
    reshape main_v156 main_v157 rfl shapeCasts_S1x64_S64,
    binary main_v149 main_v151 main_v158 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_v153 main_v159 (broadcastInDim S1x64 ![1] bcast_S64_S1x64_1 : (⟨S64, .f32⟩ : BufTy).Contents (Elt F) → (⟨S1x64, .f32⟩ : BufTy).Contents (Elt F)),
    unary main_v159 main_v160 (broadcastInDim S1000000x64 ![0, 1] bcast_S1x64_S1000000x64_0_1 : (⟨S1x64, .f32⟩ : BufTy).Contents (Elt F) → (⟨S1000000x64, .f32⟩ : BufTy).Contents (Elt F)),
    binary main_v158 main_v160 main_v161 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S1000000x64, .f32⟩) main_call10_v0) (broadcastInDim S1000000x64 ![] bcast_S_S1000000x64),
    TRef.binary (TRef.of (T := ⟨S1000000x64, .f32⟩) main_v161) (TRef.of (T := ⟨S1000000x64, .f32⟩) main_call10_v0) (TRef.of (T := ⟨S1000000x64, .f32⟩) main_v162) maximumf,
    binary main_v162 main_v155 main_v163 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    unary main_v157 main_v164 (broadcastInDim S1x64 ![1] bcast_S64_S1x64_1 : (⟨S64, .f32⟩ : BufTy).Contents (Elt F) → (⟨S1x64, .f32⟩ : BufTy).Contents (Elt F)),
    unary main_v164 main_v165 (broadcastInDim S1000000x64 ![0, 1] bcast_S1x64_S1000000x64_0_1 : (⟨S1x64, .f32⟩ : BufTy).Contents (Elt F) → (⟨S1000000x64, .f32⟩ : BufTy).Contents (Elt F)),
    binary main_v163 main_v165 main_v166 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S1000000x64, .f32⟩) main_call11_v0) (broadcastInDim S1000000x64 ![] bcast_S_S1000000x64),
    TRef.binary (TRef.of (T := ⟨S1000000x64, .f32⟩) main_v166) (TRef.of (T := ⟨S1000000x64, .f32⟩) main_call11_v0) (TRef.of (T := ⟨S1000000x64, .f32⟩) main_v167) maximumf,
    nullary main_cst_15 (constant S_ .f32 0x00000000#32),
    unary main_cst_15 main_v168 (broadcastInDim S100000x64 ![] bcast_S_S100000x64 : (⟨S_, .f32⟩ : BufTy).Contents (Elt F) → (⟨S100000x64, .f32⟩ : BufTy).Contents (Elt F)),
    unary main_v3 main_v169 (broadcastInDim S1000000x1 ![0] bcast_S1000000_S1000000x1_0 : (⟨S1000000, .i32⟩ : BufTy).Contents (Elt F) → (⟨S1000000x1, .i32⟩ : BufTy).Contents (Elt F)),
    ternary main_v168 main_v169 main_v167 main_v170 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v20 main_v171 (broadcastInDim S100000x64 ![0, 1] bcast_S100000x1_S100000x64_0_1 : (⟨S100000x1, .f32⟩ : BufTy).Contents (Elt F) → (⟨S100000x64, .f32⟩ : BufTy).Contents (Elt F)),
    binary main_v170 main_v171 main_v172 (Host.divf : (⟨S100000x64, .f32⟩ : BufTy).Contents (Elt F) → (⟨S100000x64, .f32⟩ : BufTy).Contents (Elt F) → (⟨S100000x64, .f32⟩ : BufTy).Contents (Elt F)),
    binary main_v134 main_v172 main_v173 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg10 main_v174 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v174 main_v175 rfl shapeCasts_S1x128x64_S128x64,
    unary main_arg11 main_v176 ((extractStridedSlice S1x64 ![2, 0] · slices_S3x64_S1x64_2_0) : (⟨S3x64, .f32⟩ : BufTy).Contents (Elt F) → (⟨S1x64, .f32⟩ : BufTy).Contents (Elt F)),
    reshape main_v176 main_v177 rfl shapeCasts_S1x64_S64,
    unary main_arg12 main_v178 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v178 main_v179 rfl shapeCasts_S1x64x64_S64x64,
    unary main_arg13 main_v180 ((extractStridedSlice S1x64 ![2, 0] · slices_S3x64_S1x64_2_0) : (⟨S3x64, .f32⟩ : BufTy).Contents (Elt F) → (⟨S1x64, .f32⟩ : BufTy).Contents (Elt F)),
    reshape main_v180 main_v181 rfl shapeCasts_S1x64_S64,
    binary main_v173 main_v175 main_v182 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v177 main_v183 (broadcastInDim S1x64 ![1] bcast_S64_S1x64_1 : (⟨S64, .f32⟩ : BufTy).Contents (Elt F) → (⟨S1x64, .f32⟩ : BufTy).Contents (Elt F)),
    unary main_v183 main_v184 (broadcastInDim S100000x64 ![0, 1] bcast_S1x64_S100000x64_0_1 : (⟨S1x64, .f32⟩ : BufTy).Contents (Elt F) → (⟨S100000x64, .f32⟩ : BufTy).Contents (Elt F)),
    binary main_v182 main_v184 main_v185 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S100000x64, .f32⟩) main_call12_v0) (broadcastInDim S100000x64 ![] bcast_S_S100000x64),
    TRef.binary (TRef.of (T := ⟨S100000x64, .f32⟩) main_v185) (TRef.of (T := ⟨S100000x64, .f32⟩) main_call12_v0) (TRef.of (T := ⟨S100000x64, .f32⟩) main_v186) maximumf,
    binary main_v186 main_v179 main_v187 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v181 main_v188 (broadcastInDim S1x64 ![1] bcast_S64_S1x64_1 : (⟨S64, .f32⟩ : BufTy).Contents (Elt F) → (⟨S1x64, .f32⟩ : BufTy).Contents (Elt F)),
    unary main_v188 main_v189 (broadcastInDim S100000x64 ![0, 1] bcast_S1x64_S100000x64_0_1 : (⟨S1x64, .f32⟩ : BufTy).Contents (Elt F) → (⟨S100000x64, .f32⟩ : BufTy).Contents (Elt F)),
    binary main_v187 main_v189 main_v190 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x64, .f32⟩) main_call13_v0) (broadcastInDim S100000x64 ![] bcast_S_S100000x64),
    TRef.binary (TRef.of (T := ⟨S100000x64, .f32⟩) main_v190) (TRef.of (T := ⟨S100000x64, .f32⟩) main_call13_v0) (TRef.of (T := ⟨S100000x64, .f32⟩) main_v191) maximumf ]

set_option maxRecDepth 8192 in
theorem opsC2_sub : (opsC2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsC2_fresh : (opsC2 : List (HloOp τ sig (Elt F))).Forall fun op => op.fresh = ∅ := by
  simp only [List.Forall]; repeat' constructor

/-- Operations 238–259 of @main. -/
abbrev opsD : List (HloOp τ sig (Elt F)) :=
  [ binary main_v191 main_arg14 main_v192 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg15 main_v193 (broadcastInDim S1x64 ![1] bcast_S64_S1x64_1 : (⟨S64, .f32⟩ : BufTy).Contents (Elt F) → (⟨S1x64, .f32⟩ : BufTy).Contents (Elt F)),
    unary main_v193 main_v194 (broadcastInDim S100000x64 ![0, 1] bcast_S1x64_S100000x64_0_1 : (⟨S1x64, .f32⟩ : BufTy).Contents (Elt F) → (⟨S100000x64, .f32⟩ : BufTy).Contents (Elt F)),
    binary main_v192 main_v194 main_v195 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S100000x64, .f32⟩) main_call14_v0) (broadcastInDim S100000x64 ![] bcast_S_S100000x64),
    TRef.binary (TRef.of (T := ⟨S100000x64, .f32⟩) main_v195) (TRef.of (T := ⟨S100000x64, .f32⟩) main_call14_v0) (TRef.of (T := ⟨S100000x64, .f32⟩) main_v196) maximumf,
    binary main_v196 main_arg16 main_v197 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    unary main_arg17 main_v198 (broadcastInDim S1x3 ![1] bcast_S3_S1x3_1 : (⟨S3, .f32⟩ : BufTy).Contents (Elt F) → (⟨S1x3, .f32⟩ : BufTy).Contents (Elt F)),
    unary main_v198 main_v199 (broadcastInDim S100000x3 ![0, 1] bcast_S1x3_S100000x3_0_1 : (⟨S1x3, .f32⟩ : BufTy).Contents (Elt F) → (⟨S100000x3, .f32⟩ : BufTy).Contents (Elt F)),
    binary main_v197 main_v199 main_v200 (addf : (⟨S100000x3, .f32⟩ : BufTy).Contents (Elt F) → (⟨S100000x3, .f32⟩ : BufTy).Contents (Elt F) → (⟨S100000x3, .f32⟩ : BufTy).Contents (Elt F)),
    unary main_v200 main_v201 (Host.negf : (⟨S100000x3, .f32⟩ : BufTy).Contents (Elt F) → (⟨S100000x3, .f32⟩ : BufTy).Contents (Elt F)),
    unary main_v201 main_v202 (Host.exp : (⟨S100000x3, .f32⟩ : BufTy).Contents (Elt F) → (⟨S100000x3, .f32⟩ : BufTy).Contents (Elt F)),
    nullary main_cst_16 (constant S_ .f32 0x3F800000#32),
    unary main_cst_16 main_v203 (broadcastInDim S100000x3 ![] bcast_S_S100000x3 : (⟨S_, .f32⟩ : BufTy).Contents (Elt F) → (⟨S100000x3, .f32⟩ : BufTy).Contents (Elt F)),
    binary main_v203 main_v202 main_v204 (addf : (⟨S100000x3, .f32⟩ : BufTy).Contents (Elt F) → (⟨S100000x3, .f32⟩ : BufTy).Contents (Elt F) → (⟨S100000x3, .f32⟩ : BufTy).Contents (Elt F)),
    nullary main_cst_17 (constant S_ .f32 0x3F800000#32),
    unary main_cst_17 main_v205 (broadcastInDim S100000x3 ![] bcast_S_S100000x3 : (⟨S_, .f32⟩ : BufTy).Contents (Elt F) → (⟨S100000x3, .f32⟩ : BufTy).Contents (Elt F)),
    binary main_v205 main_v204 main_v206 (Host.divf : (⟨S100000x3, .f32⟩ : BufTy).Contents (Elt F) → (⟨S100000x3, .f32⟩ : BufTy).Contents (Elt F) → (⟨S100000x3, .f32⟩ : BufTy).Contents (Elt F)),
    nullary main_cst_18 (constant S_ .f32 0x40C90FDB#32),
    unary main_cst_18 main_v207 (broadcastInDim S100000x3 ![] bcast_S_S100000x3 : (⟨S_, .f32⟩ : BufTy).Contents (Elt F) → (⟨S100000x3, .f32⟩ : BufTy).Contents (Elt F)),
    binary main_v207 main_v206 main_v208 (mulf : (⟨S100000x3, .f32⟩ : BufTy).Contents (Elt F) → (⟨S100000x3, .f32⟩ : BufTy).Contents (Elt F) → (⟨S100000x3, .f32⟩ : BufTy).Contents (Elt F)) ]

set_option maxRecDepth 8192 in
theorem opsD_sub : (opsD : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩

theorem opsD_fresh : (opsD : List (HloOp τ sig (Elt F))).Forall fun op => op.fresh = ∅ := by
  simp only [List.Forall]; repeat' constructor

/-- @main's 260 operations. -/
abbrev ops : List (HloOp τ sig (Elt F)) := opsA ++ (opsB ++ (opsC0 ++ (opsC1 ++ (opsC2 ++ opsD))))

set_option maxRecDepth 16384 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsA_sub, List.forall_append.mpr ⟨opsB_sub, List.forall_append.mpr ⟨opsC0_sub,
    List.forall_append.mpr ⟨opsC1_sub, List.forall_append.mpr ⟨opsC2_sub, opsD_sub⟩⟩⟩⟩⟩

theorem ops_fresh : ∀ op ∈ (ops : List (HloOp τ sig (Elt F))), op.fresh = ∅ :=
  List.forall_iff_forall_mem.mp (List.forall_append.mpr ⟨opsA_fresh, List.forall_append.mpr ⟨opsB_fresh,
    List.forall_append.mpr ⟨opsC0_fresh, List.forall_append.mpr ⟨opsC1_fresh, List.forall_append.mpr ⟨opsC2_fresh, opsD_fresh⟩⟩⟩⟩⟩)

/-- The fold over a list joined from two is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold over all of @main, stretch by stretch. -/
theorem after_ops (V : Valuation τ sig (Elt F)) :
    after ops V = after opsD (after opsC2 (after opsC1 (after opsC0 (after opsB (after opsA V))))) := by
  simp only [ops, after_append]

end Cert.ReferenceIdeal.RefRun

end
-- ==== Proof.RefChunkAB.lean ====
/-
  The reference's first two stretches of host operations, read back over any contents of the buffers. After the first
  stretch the two rows of the edge list are the buffers of sources and of destinations, and the encoder's result is the
  two-layer block (dense, clamp, dense, clamp) of the node features and the encoder's weights and biases. After the
  second stretch the count buffer holds, per node, the number of incoming edges clamped below at one, as a column.
-/
import proofs.«111624_j59098749993608_2_alg».proof.Proof.RefOps
import proofs.«111624_j59098749993608_2_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

set_option maxRecDepth 65536 in
/-- After the first stretch the source row of the edge list, flattened, is in its buffer. -/
theorem A_v1 (V : Valuation τ sig (Elt Ideal)) :
    after (opsA (F := Ideal)) V (Proc.devRef .tc main_v1) = val_main_v1 (V (Proc.devRef .tc main_arg1)) := by
  after_results_simp <;> rfl

set_option maxRecDepth 65536 in
/-- After the first stretch the destination row of the edge list, flattened, is in its buffer. -/
theorem A_v3 (V : Valuation τ sig (Elt Ideal)) :
    after (opsA (F := Ideal)) V (Proc.devRef .tc main_v3) = val_main_v3 (V (Proc.devRef .tc main_arg1)) := by
  after_results_simp <;> rfl

set_option maxRecDepth 65536 in
/-- After the first stretch the encoder's result is the two-layer block of the node features. -/
theorem A_v13 (V : Valuation τ sig (Elt Ideal)) :
    after (opsA (F := Ideal)) V (Proc.devRef .tc main_v13)
      = val_main_v13 (V (Proc.devRef .tc main_arg0)) (V (Proc.devRef .tc main_arg2)) (V (Proc.devRef .tc main_arg3))
          (V (Proc.devRef .tc main_arg4)) (V (Proc.devRef .tc main_arg5)) := by
  after_results_simp <;> rfl

set_option maxRecDepth 65536 in
/-- After the second stretch the count column is the incoming-edge count of the destination row it was given. -/
theorem B_v20 (V : Valuation τ sig (Elt Ideal)) (x1 : (⟨S2x1000000, .i32⟩ : BufTy).Contents (Elt Ideal))
    (h3 : V (Proc.devRef .tc main_v3) = val_main_v3 x1) :
    after (opsB (F := Ideal)) V (Proc.devRef .tc main_v20) = val_main_v20 x1 := by
  after_results_simp
  rw [h3]
  rfl

end Cert.ReferenceIdeal.RefRun

end
-- ==== Proof.RefChunkC.lean ====
/-
  The reference's three layers, each as one stretch of host operations. A layer reads the node states the stage before
  it left, the source and destination rows of the edges, the incoming-edge counts, and its slice of each stacked weight
  array; it writes the new node states. Each statement is for ANY contents of the buffers before the stretch that agree
  with the earlier stages' values on what the layer reads, so the three compose along the program in order.
-/
import proofs.«111624_j59098749993608_2_alg».proof.Proof.RefOps
import proofs.«111624_j59098749993608_2_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

/-- One step of reading a buffer after a sequence of operations: at the operation that writes the buffer, its function of
    the operands' contents (a transport along an equality of a type with itself being the identity); at any other
    operation, the contents before it. -/
macro "layer_result_step" : tactic => `(tactic| (first
  | (rw [nullary_result]; try simp only [TRef.toBuf, TRef.ofBuf, cast_eq])
  | (rw [unary_result]; try simp only [TRef.toBuf, TRef.ofBuf, cast_eq])
  | (rw [binary_result]; try simp only [TRef.toBuf, TRef.ofBuf, cast_eq])
  | (rw [ternary_result]; try simp only [TRef.toBuf, TRef.ofBuf, cast_eq])
  | (rw [reshape_result]; try simp only [TRef.toBuf, TRef.ofBuf, cast_eq])
  | (rw [nullary_result_ne]; rotate_left; decide) | (rw [unary_result_ne]; rotate_left; decide)
  | (rw [binary_result_ne]; rotate_left; decide) | (rw [ternary_result_ne]; rotate_left; decide) | (rw [reshape_result_ne]; rotate_left; decide)))

set_option maxRecDepth 65536 in
set_option maxHeartbeats 40000000 in
/-- The first layer. Whatever the buffers hold before its operations, if the node states are the encoder block's node states, the two edge
    rows and the incoming-edge counts are the earlier stages' values and the stacked weights are the arguments, then after
    the layer's operations the new node states are the layer's value of the arguments: gather the source and the
    destination states along the edges, the message block on the joined rows, the sum by destination, the mean by the
    counts, the update block on the states joined with the means. -/
theorem C0_v77 (V : Valuation τ sig (Elt Ideal))
    (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal))
    (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal))
    (hh : V (Proc.devRef .tc main_v13) = val_main_v13 x0 x2 x3 x4 x5) (h1 : V (Proc.devRef .tc main_v1) = val_main_v1 x1)
    (h3 : V (Proc.devRef .tc main_v3) = val_main_v3 x1) (h20 : V (Proc.devRef .tc main_v20) = val_main_v20 x1)
    (h6 : V (Proc.devRef .tc main_arg6) = x6) (h7 : V (Proc.devRef .tc main_arg7) = x7) (h8 : V (Proc.devRef .tc main_arg8) = x8) (h9 : V (Proc.devRef .tc main_arg9) = x9)
    (h10 : V (Proc.devRef .tc main_arg10) = x10) (h11 : V (Proc.devRef .tc main_arg11) = x11) (h12 : V (Proc.devRef .tc main_arg12) = x12) (h13 : V (Proc.devRef .tc main_arg13) = x13) :
    after opsC0 V (Proc.devRef .tc main_v77) = val_main_v77 x0 x1 x2 x3 x4 x5 x6 x7 x8 x9 x10 x11 x12 x13 := by
  simp only [after_cons, after_nil]
  repeat layer_result_step
  rw [hh, h1, h3, h20, h6, h7, h8, h9, h10, h11, h12, h13]
  rfl

set_option maxRecDepth 65536 in
set_option maxHeartbeats 40000000 in
/-- The second layer. Whatever the buffers hold before its operations, if the node states are the first layer's node states, the two edge
    rows and the incoming-edge counts are the earlier stages' values and the stacked weights are the arguments, then after
    the layer's operations the new node states are the layer's value of the arguments: gather the source and the
    destination states along the edges, the message block on the joined rows, the sum by destination, the mean by the
    counts, the update block on the states joined with the means. -/
theorem C1_v134 (V : Valuation τ sig (Elt Ideal))
    (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal))
    (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal))
    (hh : V (Proc.devRef .tc main_v77) = val_main_v77 x0 x1 x2 x3 x4 x5 x6 x7 x8 x9 x10 x11 x12 x13) (h1 : V (Proc.devRef .tc main_v1) = val_main_v1 x1)
    (h3 : V (Proc.devRef .tc main_v3) = val_main_v3 x1) (h20 : V (Proc.devRef .tc main_v20) = val_main_v20 x1)
    (h6 : V (Proc.devRef .tc main_arg6) = x6) (h7 : V (Proc.devRef .tc main_arg7) = x7) (h8 : V (Proc.devRef .tc main_arg8) = x8) (h9 : V (Proc.devRef .tc main_arg9) = x9)
    (h10 : V (Proc.devRef .tc main_arg10) = x10) (h11 : V (Proc.devRef .tc main_arg11) = x11) (h12 : V (Proc.devRef .tc main_arg12) = x12) (h13 : V (Proc.devRef .tc main_arg13) = x13) :
    after opsC1 V (Proc.devRef .tc main_v134) = val_main_v134 x0 x1 x2 x3 x4 x5 x6 x7 x8 x9 x10 x11 x12 x13 := by
  simp only [after_cons, after_nil]
  repeat layer_result_step
  rw [hh, h1, h3, h20, h6, h7, h8, h9, h10, h11, h12, h13]
  rfl

end Cert.ReferenceIdeal.RefRun

end
-- ==== Proof.RefChunkC2.lean ====
/-
  The third layer's stretch of the reference's run. Reading the layer's output buffer back through the stretch's seventy
  operations — each buffer at the operation that writes it is that operation's function of its operands' contents, and
  passes every other operation unchanged — gives the layer's chain of host operations (the wrapped index columns, the two
  gathers, the message block, the sum by destination, the mean, the update block) over the previous layer's node states,
  the two edge rows, the counts and the layer's weight arguments, which is the layer's value as the reading of the
  program defines it.
-/
import proofs.«111624_j59098749993608_2_alg».proof.Proof.RefOps
import proofs.«111624_j59098749993608_2_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

/-- One step of reading a buffer through a line of operations: at the operation that writes the buffer, its function of
    the operands' contents; at any other operation, the contents before it. -/
local macro "ar_step2" : tactic => `(tactic| (first
  | (rw [nullary_result]; try simp only [TRef.toBuf, TRef.ofBuf, cast_eq])
  | (rw [unary_result]; try simp only [TRef.toBuf, TRef.ofBuf, cast_eq])
  | (rw [binary_result]; try simp only [TRef.toBuf, TRef.ofBuf, cast_eq])
  | (rw [ternary_result]; try simp only [TRef.toBuf, TRef.ofBuf, cast_eq])
  | (rw [reshape_result]; try simp only [TRef.toBuf, TRef.ofBuf, cast_eq])
  | (rw [nullary_result_ne]; rotate_left; decide) | (rw [unary_result_ne]; rotate_left; decide)
  | (rw [binary_result_ne]; rotate_left; decide) | (rw [ternary_result_ne]; rotate_left; decide)
  | (rw [reshape_result_ne]; rotate_left; decide)))

set_option maxRecDepth 65536 in
set_option maxHeartbeats 16000000 in
/-- The third layer's stretch: from the second layer's node states, the two edge rows, the counts and the layer's
    weight arguments, the layer's output buffer holds the third layer's node states. -/
theorem C2_v191 (V : Valuation τ sig (Elt Ideal)) (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal))
    (hh : V (Proc.devRef .tc main_v134) = val_main_v134 (F := Ideal) x0 x1 x2 x3 x4 x5 x6 x7 x8 x9 x10 x11 x12 x13)
    (h1 : V (Proc.devRef .tc main_v1) = val_main_v1 (F := Ideal) x1) (h3 : V (Proc.devRef .tc main_v3) = val_main_v3 (F := Ideal) x1)
    (h20 : V (Proc.devRef .tc main_v20) = val_main_v20 (F := Ideal) x1)
    (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) (h11 : V (Proc.devRef .tc main_arg11) = x11) (h12 : V (Proc.devRef .tc main_arg12) = x12) (h13 : V (Proc.devRef .tc main_arg13) = x13) :
    after (opsC2 (F := Ideal)) V (Proc.devRef .tc main_v191)
      = val_main_v191 (F := Ideal) x0 x1 x2 x3 x4 x5 x6 x7 x8 x9 x10 x11 x12 x13 := by
  simp only [after_cons, after_nil]
  repeat ar_step2
  rw [hh, h1, h3, h20, h6, h7, h8, h9, h10, h11, h12, h13]
  unfold val_main_v191 val_main_v190 val_main_v187 val_main_v186 val_main_v185 val_main_v182 val_main_v173
    val_main_v172 val_main_v170 val_main_v168 val_main_cst_15 val_main_v169 val_main_v167 val_main_v166
    val_main_v163 val_main_v162 val_main_v161 val_main_v158 val_main_v149 val_main_v141 val_main_v140
    val_main_v139 val_main_v136 val_main_v135 val_main_c_11 val_main_v138 val_main_v137 val_main_c_12
    val_main_v148 val_main_v147 val_main_v146 val_main_v143 val_main_v142 val_main_c_13 val_main_v145
    val_main_v144 val_main_c_14 val_main_v151 val_main_v150 val_main_v160 val_main_v159 val_main_v153
    val_main_v152 val_main_call10_v0 val_main_call10_cst val_main_v155 val_main_v154 val_main_v165 val_main_v164
    val_main_v157 val_main_v156 val_main_call11_v0 val_main_call11_cst val_main_v171 val_main_v175 val_main_v174
    val_main_v184 val_main_v183 val_main_v177 val_main_v176 val_main_call12_v0 val_main_call12_cst val_main_v179
    val_main_v178 val_main_v189 val_main_v188 val_main_v181 val_main_v180 val_main_call13_v0 val_main_call13_cst
  rfl

end Cert.ReferenceIdeal.RefRun

end
-- ==== Proof.RefChunkD.lean ====
/-
  The output head's stretch of the reference's run. Reading the result buffer back through the stretch's twenty-two
  operations — each buffer at the operation that writes it is that operation's function of its operands' contents, and
  passes every other operation unchanged — gives the head's chain of host operations over the last layer's node states
  and the four weight arguments, which is the head's value as the reading of the program defines it.
-/
import proofs.«111624_j59098749993608_2_alg».proof.Proof.RefOps
import proofs.«111624_j59098749993608_2_alg».proof.Proof.RefRead

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

/-- One step of reading a buffer through a line of operations: at the operation that writes the buffer, its function of
    the operands' contents; at any other operation, the contents before it. -/
local macro "ar_step2" : tactic => `(tactic| (first
  | (rw [nullary_result]; try simp only [TRef.toBuf, TRef.ofBuf, cast_eq])
  | (rw [unary_result]; try simp only [TRef.toBuf, TRef.ofBuf, cast_eq])
  | (rw [binary_result]; try simp only [TRef.toBuf, TRef.ofBuf, cast_eq])
  | (rw [ternary_result]; try simp only [TRef.toBuf, TRef.ofBuf, cast_eq])
  | (rw [reshape_result]; try simp only [TRef.toBuf, TRef.ofBuf, cast_eq])
  | (rw [nullary_result_ne]; rotate_left; decide) | (rw [unary_result_ne]; rotate_left; decide)
  | (rw [binary_result_ne]; rotate_left; decide) | (rw [ternary_result_ne]; rotate_left; decide)
  | (rw [reshape_result_ne]; rotate_left; decide)))

set_option maxRecDepth 65536 in
set_option maxHeartbeats 4000000 in
/-- The output head's stretch: from the last layer's node states and the head's four weight arguments, the result buffer
    holds the head's value. -/
theorem D_v208 (V : Valuation τ sig (Elt Ideal)) (x0 : (⟨S100000x5, .f32⟩ : BufTy).Contents (Elt Ideal)) (x1 : (⟨S2x1000000, .i32⟩ : BufTy).Contents (Elt Ideal)) (x2 : (⟨S5x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x128x64, .f32⟩ : BufTy).Contents (Elt Ideal)) (x7 : (⟨S3x64, .f32⟩ : BufTy).Contents (Elt Ideal)) (x8 : (⟨S3x64x64, .f32⟩ : BufTy).Contents (Elt Ideal)) (x9 : (⟨S3x64, .f32⟩ : BufTy).Contents (Elt Ideal)) (x10 : (⟨S3x128x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S64x64, .f32⟩ : BufTy).Contents (Elt Ideal)) (x15 : (⟨S64, .f32⟩ : BufTy).Contents (Elt Ideal)) (x16 : (⟨S64x3, .f32⟩ : BufTy).Contents (Elt Ideal)) (x17 : (⟨S3, .f32⟩ : BufTy).Contents (Elt Ideal))
    (h191 : V (Proc.devRef .tc main_v191) = val_main_v191 (F := Ideal) x0 x1 x2 x3 x4 x5 x6 x7 x8 x9 x10 x11 x12 x13)
    (h14 : V (Proc.devRef .tc main_arg14) = x14) (h15 : V (Proc.devRef .tc main_arg15) = x15)
    (h16 : V (Proc.devRef .tc main_arg16) = x16) (h17 : V (Proc.devRef .tc main_arg17) = x17) :
    after (opsD (F := Ideal)) V (Proc.devRef .tc main_v208)
      = val_main_v208 (F := Ideal) x0 x1 x2 x3 x4 x5 x6 x7 x8 x9 x10 x11 x12 x13 x14 x15 x16 x17 := by
  simp only [after_cons, after_nil]
  repeat ar_step2
  rw [h191, h14, h15, h16, h17]
  unfold val_main_v208 val_main_v207 val_main_cst_18 val_main_v206 val_main_v205 val_main_cst_17 val_main_v204
    val_main_v203 val_main_cst_16 val_main_v202 val_main_v201 val_main_v200 val_main_v197 val_main_v196
    val_main_v195 val_main_v192 val_main_v194 val_main_v193 val_main_call14_v0 val_main_call14_cst val_main_v199
    val_main_v198
  rfl

end Cert.ReferenceIdeal.RefRun

end
-- ==== Proof.RefKeep.lean ====
/-
  A buffer that none of a stretch's operations writes keeps its contents across the stretch: the arguments across every
  stretch of the reference, and the edge rows, the encoder's result and the count column across the stretches between
  their writer and their last reader.
-/
import proofs.«111624_j59098749993608_2_alg».proof.Proof.RefOps

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Each operation's result buffer is another reference than the one kept. -/
macro "kept_ref" ops:ident : tactic => `(tactic| exact StableHlo.after_of_forall_not_mem (b := _) _ _ (List.forall_iff_forall_mem.mp (by
          simp only [$ops:ident, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem keep_A_arg0 (V : Valuation τ sig (Elt F)) :
    after opsA V (Proc.devRef .tc main_arg0) = V (Proc.devRef .tc main_arg0) := by kept_ref opsA

theorem keep_A_arg1 (V : Valuation τ sig (Elt F)) :
    after opsA V (Proc.devRef .tc main_arg1) = V (Proc.devRef .tc main_arg1) := by kept_ref opsA

theorem keep_A_arg2 (V : Valuation τ sig (Elt F)) :
    after opsA V (Proc.devRef .tc main_arg2) = V (Proc.devRef .tc main_arg2) := by kept_ref opsA

theorem keep_A_arg3 (V : Valuation τ sig (Elt F)) :
    after opsA V (Proc.devRef .tc main_arg3) = V (Proc.devRef .tc main_arg3) := by kept_ref opsA

theorem keep_A_arg4 (V : Valuation τ sig (Elt F)) :
    after opsA V (Proc.devRef .tc main_arg4) = V (Proc.devRef .tc main_arg4) := by kept_ref opsA

theorem keep_A_arg5 (V : Valuation τ sig (Elt F)) :
    after opsA V (Proc.devRef .tc main_arg5) = V (Proc.devRef .tc main_arg5) := by kept_ref opsA

theorem keep_A_arg6 (V : Valuation τ sig (Elt F)) :
    after opsA V (Proc.devRef .tc main_arg6) = V (Proc.devRef .tc main_arg6) := by kept_ref opsA

theorem keep_A_arg7 (V : Valuation τ sig (Elt F)) :
    after opsA V (Proc.devRef .tc main_arg7) = V (Proc.devRef .tc main_arg7) := by kept_ref opsA

theorem keep_A_arg8 (V : Valuation τ sig (Elt F)) :
    after opsA V (Proc.devRef .tc main_arg8) = V (Proc.devRef .tc main_arg8) := by kept_ref opsA

theorem keep_A_arg9 (V : Valuation τ sig (Elt F)) :
    after opsA V (Proc.devRef .tc main_arg9) = V (Proc.devRef .tc main_arg9) := by kept_ref opsA

theorem keep_A_arg10 (V : Valuation τ sig (Elt F)) :
    after opsA V (Proc.devRef .tc main_arg10) = V (Proc.devRef .tc main_arg10) := by kept_ref opsA

theorem keep_A_arg11 (V : Valuation τ sig (Elt F)) :
    after opsA V (Proc.devRef .tc main_arg11) = V (Proc.devRef .tc main_arg11) := by kept_ref opsA

theorem keep_A_arg12 (V : Valuation τ sig (Elt F)) :
    after opsA V (Proc.devRef .tc main_arg12) = V (Proc.devRef .tc main_arg12) := by kept_ref opsA

theorem keep_A_arg13 (V : Valuation τ sig (Elt F)) :
    after opsA V (Proc.devRef .tc main_arg13) = V (Proc.devRef .tc main_arg13) := by kept_ref opsA

theorem keep_A_arg14 (V : Valuation τ sig (Elt F)) :
    after opsA V (Proc.devRef .tc main_arg14) = V (Proc.devRef .tc main_arg14) := by kept_ref opsA

theorem keep_A_arg15 (V : Valuation τ sig (Elt F)) :
    after opsA V (Proc.devRef .tc main_arg15) = V (Proc.devRef .tc main_arg15) := by kept_ref opsA

theorem keep_A_arg16 (V : Valuation τ sig (Elt F)) :
    after opsA V (Proc.devRef .tc main_arg16) = V (Proc.devRef .tc main_arg16) := by kept_ref opsA

theorem keep_A_arg17 (V : Valuation τ sig (Elt F)) :
    after opsA V (Proc.devRef .tc main_arg17) = V (Proc.devRef .tc main_arg17) := by kept_ref opsA

theorem keep_B_arg0 (V : Valuation τ sig (Elt F)) :
    after opsB V (Proc.devRef .tc main_arg0) = V (Proc.devRef .tc main_arg0) := by kept_ref opsB

theorem keep_B_arg1 (V : Valuation τ sig (Elt F)) :
    after opsB V (Proc.devRef .tc main_arg1) = V (Proc.devRef .tc main_arg1) := by kept_ref opsB

theorem keep_B_arg2 (V : Valuation τ sig (Elt F)) :
    after opsB V (Proc.devRef .tc main_arg2) = V (Proc.devRef .tc main_arg2) := by kept_ref opsB

theorem keep_B_arg3 (V : Valuation τ sig (Elt F)) :
    after opsB V (Proc.devRef .tc main_arg3) = V (Proc.devRef .tc main_arg3) := by kept_ref opsB

theorem keep_B_arg4 (V : Valuation τ sig (Elt F)) :
    after opsB V (Proc.devRef .tc main_arg4) = V (Proc.devRef .tc main_arg4) := by kept_ref opsB

theorem keep_B_arg5 (V : Valuation τ sig (Elt F)) :
    after opsB V (Proc.devRef .tc main_arg5) = V (Proc.devRef .tc main_arg5) := by kept_ref opsB

theorem keep_B_arg6 (V : Valuation τ sig (Elt F)) :
    after opsB V (Proc.devRef .tc main_arg6) = V (Proc.devRef .tc main_arg6) := by kept_ref opsB

theorem keep_B_arg7 (V : Valuation τ sig (Elt F)) :
    after opsB V (Proc.devRef .tc main_arg7) = V (Proc.devRef .tc main_arg7) := by kept_ref opsB

theorem keep_B_arg8 (V : Valuation τ sig (Elt F)) :
    after opsB V (Proc.devRef .tc main_arg8) = V (Proc.devRef .tc main_arg8) := by kept_ref opsB

theorem keep_B_arg9 (V : Valuation τ sig (Elt F)) :
    after opsB V (Proc.devRef .tc main_arg9) = V (Proc.devRef .tc main_arg9) := by kept_ref opsB

theorem keep_B_arg10 (V : Valuation τ sig (Elt F)) :
    after opsB V (Proc.devRef .tc main_arg10) = V (Proc.devRef .tc main_arg10) := by kept_ref opsB

theorem keep_B_arg11 (V : Valuation τ sig (Elt F)) :
    after opsB V (Proc.devRef .tc main_arg11) = V (Proc.devRef .tc main_arg11) := by kept_ref opsB

theorem keep_B_arg12 (V : Valuation τ sig (Elt F)) :
    after opsB V (Proc.devRef .tc main_arg12) = V (Proc.devRef .tc main_arg12) := by kept_ref opsB

theorem keep_B_arg13 (V : Valuation τ sig (Elt F)) :
    after opsB V (Proc.devRef .tc main_arg13) = V (Proc.devRef .tc main_arg13) := by kept_ref opsB

theorem keep_B_arg14 (V : Valuation τ sig (Elt F)) :
    after opsB V (Proc.devRef .tc main_arg14) = V (Proc.devRef .tc main_arg14) := by kept_ref opsB

theorem keep_B_arg15 (V : Valuation τ sig (Elt F)) :
    after opsB V (Proc.devRef .tc main_arg15) = V (Proc.devRef .tc main_arg15) := by kept_ref opsB

theorem keep_B_arg16 (V : Valuation τ sig (Elt F)) :
    after opsB V (Proc.devRef .tc main_arg16) = V (Proc.devRef .tc main_arg16) := by kept_ref opsB

theorem keep_B_arg17 (V : Valuation τ sig (Elt F)) :
    after opsB V (Proc.devRef .tc main_arg17) = V (Proc.devRef .tc main_arg17) := by kept_ref opsB

theorem keep_C0_arg0 (V : Valuation τ sig (Elt F)) :
    after opsC0 V (Proc.devRef .tc main_arg0) = V (Proc.devRef .tc main_arg0) := by kept_ref opsC0

theorem keep_C0_arg1 (V : Valuation τ sig (Elt F)) :
    after opsC0 V (Proc.devRef .tc main_arg1) = V (Proc.devRef .tc main_arg1) := by kept_ref opsC0

theorem keep_C0_arg2 (V : Valuation τ sig (Elt F)) :
    after opsC0 V (Proc.devRef .tc main_arg2) = V (Proc.devRef .tc main_arg2) := by kept_ref opsC0

theorem keep_C0_arg3 (V : Valuation τ sig (Elt F)) :
    after opsC0 V (Proc.devRef .tc main_arg3) = V (Proc.devRef .tc main_arg3) := by kept_ref opsC0

theorem keep_C0_arg4 (V : Valuation τ sig (Elt F)) :
    after opsC0 V (Proc.devRef .tc main_arg4) = V (Proc.devRef .tc main_arg4) := by kept_ref opsC0

theorem keep_C0_arg5 (V : Valuation τ sig (Elt F)) :
    after opsC0 V (Proc.devRef .tc main_arg5) = V (Proc.devRef .tc main_arg5) := by kept_ref opsC0

theorem keep_C0_arg6 (V : Valuation τ sig (Elt F)) :
    after opsC0 V (Proc.devRef .tc main_arg6) = V (Proc.devRef .tc main_arg6) := by kept_ref opsC0

theorem keep_C0_arg7 (V : Valuation τ sig (Elt F)) :
    after opsC0 V (Proc.devRef .tc main_arg7) = V (Proc.devRef .tc main_arg7) := by kept_ref opsC0

theorem keep_C0_arg8 (V : Valuation τ sig (Elt F)) :
    after opsC0 V (Proc.devRef .tc main_arg8) = V (Proc.devRef .tc main_arg8) := by kept_ref opsC0

theorem keep_C0_arg9 (V : Valuation τ sig (Elt F)) :
    after opsC0 V (Proc.devRef .tc main_arg9) = V (Proc.devRef .tc main_arg9) := by kept_ref opsC0

theorem keep_C0_arg10 (V : Valuation τ sig (Elt F)) :
    after opsC0 V (Proc.devRef .tc main_arg10) = V (Proc.devRef .tc main_arg10) := by kept_ref opsC0

theorem keep_C0_arg11 (V : Valuation τ sig (Elt F)) :
    after opsC0 V (Proc.devRef .tc main_arg11) = V (Proc.devRef .tc main_arg11) := by kept_ref opsC0

theorem keep_C0_arg12 (V : Valuation τ sig (Elt F)) :
    after opsC0 V (Proc.devRef .tc main_arg12) = V (Proc.devRef .tc main_arg12) := by kept_ref opsC0

theorem keep_C0_arg13 (V : Valuation τ sig (Elt F)) :
    after opsC0 V (Proc.devRef .tc main_arg13) = V (Proc.devRef .tc main_arg13) := by kept_ref opsC0

theorem keep_C0_arg14 (V : Valuation τ sig (Elt F)) :
    after opsC0 V (Proc.devRef .tc main_arg14) = V (Proc.devRef .tc main_arg14) := by kept_ref opsC0

theorem keep_C0_arg15 (V : Valuation τ sig (Elt F)) :
    after opsC0 V (Proc.devRef .tc main_arg15) = V (Proc.devRef .tc main_arg15) := by kept_ref opsC0

theorem keep_C0_arg16 (V : Valuation τ sig (Elt F)) :
    after opsC0 V (Proc.devRef .tc main_arg16) = V (Proc.devRef .tc main_arg16) := by kept_ref opsC0

theorem keep_C0_arg17 (V : Valuation τ sig (Elt F)) :
    after opsC0 V (Proc.devRef .tc main_arg17) = V (Proc.devRef .tc main_arg17) := by kept_ref opsC0

theorem keep_C1_arg0 (V : Valuation τ sig (Elt F)) :
    after opsC1 V (Proc.devRef .tc main_arg0) = V (Proc.devRef .tc main_arg0) := by kept_ref opsC1

theorem keep_C1_arg1 (V : Valuation τ sig (Elt F)) :
    after opsC1 V (Proc.devRef .tc main_arg1) = V (Proc.devRef .tc main_arg1) := by kept_ref opsC1

theorem keep_C1_arg2 (V : Valuation τ sig (Elt F)) :
    after opsC1 V (Proc.devRef .tc main_arg2) = V (Proc.devRef .tc main_arg2) := by kept_ref opsC1

theorem keep_C1_arg3 (V : Valuation τ sig (Elt F)) :
    after opsC1 V (Proc.devRef .tc main_arg3) = V (Proc.devRef .tc main_arg3) := by kept_ref opsC1

theorem keep_C1_arg4 (V : Valuation τ sig (Elt F)) :
    after opsC1 V (Proc.devRef .tc main_arg4) = V (Proc.devRef .tc main_arg4) := by kept_ref opsC1

theorem keep_C1_arg5 (V : Valuation τ sig (Elt F)) :
    after opsC1 V (Proc.devRef .tc main_arg5) = V (Proc.devRef .tc main_arg5) := by kept_ref opsC1

theorem keep_C1_arg6 (V : Valuation τ sig (Elt F)) :
    after opsC1 V (Proc.devRef .tc main_arg6) = V (Proc.devRef .tc main_arg6) := by kept_ref opsC1

theorem keep_C1_arg7 (V : Valuation τ sig (Elt F)) :
    after opsC1 V (Proc.devRef .tc main_arg7) = V (Proc.devRef .tc main_arg7) := by kept_ref opsC1

theorem keep_C1_arg8 (V : Valuation τ sig (Elt F)) :
    after opsC1 V (Proc.devRef .tc main_arg8) = V (Proc.devRef .tc main_arg8) := by kept_ref opsC1

theorem keep_C1_arg9 (V : Valuation τ sig (Elt F)) :
    after opsC1 V (Proc.devRef .tc main_arg9) = V (Proc.devRef .tc main_arg9) := by kept_ref opsC1

theorem keep_C1_arg10 (V : Valuation τ sig (Elt F)) :
    after opsC1 V (Proc.devRef .tc main_arg10) = V (Proc.devRef .tc main_arg10) := by kept_ref opsC1

theorem keep_C1_arg11 (V : Valuation τ sig (Elt F)) :
    after opsC1 V (Proc.devRef .tc main_arg11) = V (Proc.devRef .tc main_arg11) := by kept_ref opsC1

theorem keep_C1_arg12 (V : Valuation τ sig (Elt F)) :
    after opsC1 V (Proc.devRef .tc main_arg12) = V (Proc.devRef .tc main_arg12) := by kept_ref opsC1

theorem keep_C1_arg13 (V : Valuation τ sig (Elt F)) :
    after opsC1 V (Proc.devRef .tc main_arg13) = V (Proc.devRef .tc main_arg13) := by kept_ref opsC1

theorem keep_C1_arg14 (V : Valuation τ sig (Elt F)) :
    after opsC1 V (Proc.devRef .tc main_arg14) = V (Proc.devRef .tc main_arg14) := by kept_ref opsC1

theorem keep_C1_arg15 (V : Valuation τ sig (Elt F)) :
    after opsC1 V (Proc.devRef .tc main_arg15) = V (Proc.devRef .tc main_arg15) := by kept_ref opsC1

theorem keep_C1_arg16 (V : Valuation τ sig (Elt F)) :
    after opsC1 V (Proc.devRef .tc main_arg16) = V (Proc.devRef .tc main_arg16) := by kept_ref opsC1

theorem keep_C1_arg17 (V : Valuation τ sig (Elt F)) :
    after opsC1 V (Proc.devRef .tc main_arg17) = V (Proc.devRef .tc main_arg17) := by kept_ref opsC1

theorem keep_C2_arg0 (V : Valuation τ sig (Elt F)) :
    after opsC2 V (Proc.devRef .tc main_arg0) = V (Proc.devRef .tc main_arg0) := by kept_ref opsC2

theorem keep_C2_arg1 (V : Valuation τ sig (Elt F)) :
    after opsC2 V (Proc.devRef .tc main_arg1) = V (Proc.devRef .tc main_arg1) := by kept_ref opsC2

theorem keep_C2_arg2 (V : Valuation τ sig (Elt F)) :
    after opsC2 V (Proc.devRef .tc main_arg2) = V (Proc.devRef .tc main_arg2) := by kept_ref opsC2

theorem keep_C2_arg3 (V : Valuation τ sig (Elt F)) :
    after opsC2 V (Proc.devRef .tc main_arg3) = V (Proc.devRef .tc main_arg3) := by kept_ref opsC2

theorem keep_C2_arg4 (V : Valuation τ sig (Elt F)) :
    after opsC2 V (Proc.devRef .tc main_arg4) = V (Proc.devRef .tc main_arg4) := by kept_ref opsC2

theorem keep_C2_arg5 (V : Valuation τ sig (Elt F)) :
    after opsC2 V (Proc.devRef .tc main_arg5) = V (Proc.devRef .tc main_arg5) := by kept_ref opsC2

theorem keep_C2_arg6 (V : Valuation τ sig (Elt F)) :
    after opsC2 V (Proc.devRef .tc main_arg6) = V (Proc.devRef .tc main_arg6) := by kept_ref opsC2

theorem keep_C2_arg7 (V : Valuation τ sig (Elt F)) :
    after opsC2 V (Proc.devRef .tc main_arg7) = V (Proc.devRef .tc main_arg7) := by kept_ref opsC2

theorem keep_C2_arg8 (V : Valuation τ sig (Elt F)) :
    after opsC2 V (Proc.devRef .tc main_arg8) = V (Proc.devRef .tc main_arg8) := by kept_ref opsC2

theorem keep_C2_arg9 (V : Valuation τ sig (Elt F)) :
    after opsC2 V (Proc.devRef .tc main_arg9) = V (Proc.devRef .tc main_arg9) := by kept_ref opsC2

theorem keep_C2_arg10 (V : Valuation τ sig (Elt F)) :
    after opsC2 V (Proc.devRef .tc main_arg10) = V (Proc.devRef .tc main_arg10) := by kept_ref opsC2

theorem keep_C2_arg11 (V : Valuation τ sig (Elt F)) :
    after opsC2 V (Proc.devRef .tc main_arg11) = V (Proc.devRef .tc main_arg11) := by kept_ref opsC2

theorem keep_C2_arg12 (V : Valuation τ sig (Elt F)) :
    after opsC2 V (Proc.devRef .tc main_arg12) = V (Proc.devRef .tc main_arg12) := by kept_ref opsC2

theorem keep_C2_arg13 (V : Valuation τ sig (Elt F)) :
    after opsC2 V (Proc.devRef .tc main_arg13) = V (Proc.devRef .tc main_arg13) := by kept_ref opsC2

theorem keep_C2_arg14 (V : Valuation τ sig (Elt F)) :
    after opsC2 V (Proc.devRef .tc main_arg14) = V (Proc.devRef .tc main_arg14) := by kept_ref opsC2

theorem keep_C2_arg15 (V : Valuation τ sig (Elt F)) :
    after opsC2 V (Proc.devRef .tc main_arg15) = V (Proc.devRef .tc main_arg15) := by kept_ref opsC2

theorem keep_C2_arg16 (V : Valuation τ sig (Elt F)) :
    after opsC2 V (Proc.devRef .tc main_arg16) = V (Proc.devRef .tc main_arg16) := by kept_ref opsC2

theorem keep_C2_arg17 (V : Valuation τ sig (Elt F)) :
    after opsC2 V (Proc.devRef .tc main_arg17) = V (Proc.devRef .tc main_arg17) := by kept_ref opsC2

theorem keep_D_arg0 (V : Valuation τ sig (Elt F)) :
    after opsD V (Proc.devRef .tc main_arg0) = V (Proc.devRef .tc main_arg0) := by kept_ref opsD

theorem keep_D_arg1 (V : Valuation τ sig (Elt F)) :
    after opsD V (Proc.devRef .tc main_arg1) = V (Proc.devRef .tc main_arg1) := by kept_ref opsD

theorem keep_D_arg2 (V : Valuation τ sig (Elt F)) :
    after opsD V (Proc.devRef .tc main_arg2) = V (Proc.devRef .tc main_arg2) := by kept_ref opsD

theorem keep_D_arg3 (V : Valuation τ sig (Elt F)) :
    after opsD V (Proc.devRef .tc main_arg3) = V (Proc.devRef .tc main_arg3) := by kept_ref opsD

theorem keep_D_arg4 (V : Valuation τ sig (Elt F)) :
    after opsD V (Proc.devRef .tc main_arg4) = V (Proc.devRef .tc main_arg4) := by kept_ref opsD

theorem keep_D_arg5 (V : Valuation τ sig (Elt F)) :
    after opsD V (Proc.devRef .tc main_arg5) = V (Proc.devRef .tc main_arg5) := by kept_ref opsD

theorem keep_D_arg6 (V : Valuation τ sig (Elt F)) :
    after opsD V (Proc.devRef .tc main_arg6) = V (Proc.devRef .tc main_arg6) := by kept_ref opsD

theorem keep_D_arg7 (V : Valuation τ sig (Elt F)) :
    after opsD V (Proc.devRef .tc main_arg7) = V (Proc.devRef .tc main_arg7) := by kept_ref opsD

theorem keep_D_arg8 (V : Valuation τ sig (Elt F)) :
    after opsD V (Proc.devRef .tc main_arg8) = V (Proc.devRef .tc main_arg8) := by kept_ref opsD

theorem keep_D_arg9 (V : Valuation τ sig (Elt F)) :
    after opsD V (Proc.devRef .tc main_arg9) = V (Proc.devRef .tc main_arg9) := by kept_ref opsD

theorem keep_D_arg10 (V : Valuation τ sig (Elt F)) :
    after opsD V (Proc.devRef .tc main_arg10) = V (Proc.devRef .tc main_arg10) := by kept_ref opsD

theorem keep_D_arg11 (V : Valuation τ sig (Elt F)) :
    after opsD V (Proc.devRef .tc main_arg11) = V (Proc.devRef .tc main_arg11) := by kept_ref opsD

theorem keep_D_arg12 (V : Valuation τ sig (Elt F)) :
    after opsD V (Proc.devRef .tc main_arg12) = V (Proc.devRef .tc main_arg12) := by kept_ref opsD

theorem keep_D_arg13 (V : Valuation τ sig (Elt F)) :
    after opsD V (Proc.devRef .tc main_arg13) = V (Proc.devRef .tc main_arg13) := by kept_ref opsD

theorem keep_D_arg14 (V : Valuation τ sig (Elt F)) :
    after opsD V (Proc.devRef .tc main_arg14) = V (Proc.devRef .tc main_arg14) := by kept_ref opsD

theorem keep_D_arg15 (V : Valuation τ sig (Elt F)) :
    after opsD V (Proc.devRef .tc main_arg15) = V (Proc.devRef .tc main_arg15) := by kept_ref opsD

theorem keep_D_arg16 (V : Valuation τ sig (Elt F)) :
    after opsD V (Proc.devRef .tc main_arg16) = V (Proc.devRef .tc main_arg16) := by kept_ref opsD

theorem keep_D_arg17 (V : Valuation τ sig (Elt F)) :
    after opsD V (Proc.devRef .tc main_arg17) = V (Proc.devRef .tc main_arg17) := by kept_ref opsD

theorem keep_B_v1 (V : Valuation τ sig (Elt F)) :
    after opsB V (Proc.devRef .tc main_v1) = V (Proc.devRef .tc main_v1) := by kept_ref opsB

theorem keep_B_v3 (V : Valuation τ sig (Elt F)) :
    after opsB V (Proc.devRef .tc main_v3) = V (Proc.devRef .tc main_v3) := by kept_ref opsB

theorem keep_C0_v1 (V : Valuation τ sig (Elt F)) :
    after opsC0 V (Proc.devRef .tc main_v1) = V (Proc.devRef .tc main_v1) := by kept_ref opsC0

theorem keep_C0_v3 (V : Valuation τ sig (Elt F)) :
    after opsC0 V (Proc.devRef .tc main_v3) = V (Proc.devRef .tc main_v3) := by kept_ref opsC0

theorem keep_C1_v1 (V : Valuation τ sig (Elt F)) :
    after opsC1 V (Proc.devRef .tc main_v1) = V (Proc.devRef .tc main_v1) := by kept_ref opsC1

theorem keep_C1_v3 (V : Valuation τ sig (Elt F)) :
    after opsC1 V (Proc.devRef .tc main_v3) = V (Proc.devRef .tc main_v3) := by kept_ref opsC1

theorem keep_C0_v20 (V : Valuation τ sig (Elt F)) :
    after opsC0 V (Proc.devRef .tc main_v20) = V (Proc.devRef .tc main_v20) := by kept_ref opsC0

theorem keep_C1_v20 (V : Valuation τ sig (Elt F)) :
    after opsC1 V (Proc.devRef .tc main_v20) = V (Proc.devRef .tc main_v20) := by kept_ref opsC1

theorem keep_B_v13 (V : Valuation τ sig (Elt F)) :
    after opsB V (Proc.devRef .tc main_v13) = V (Proc.devRef .tc main_v13) := by kept_ref opsB

theorem keep_C2_v1 (V : Valuation τ sig (Elt F)) :
    after opsC2 V (Proc.devRef .tc main_v1) = V (Proc.devRef .tc main_v1) := by kept_ref opsC2

theorem keep_C2_v3 (V : Valuation τ sig (Elt F)) :
    after opsC2 V (Proc.devRef .tc main_v3) = V (Proc.devRef .tc main_v3) := by kept_ref opsC2

theorem keep_C2_v20 (V : Valuation τ sig (Elt F)) :
    after opsC2 V (Proc.devRef .tc main_v20) = V (Proc.devRef .tc main_v20) := by kept_ref opsC2

end Cert.ReferenceIdeal.RefRun

end
-- ==== Proof.RefRun.lean ====
/-
  The reference program's run, assembled from its stretches. @main is a straight line of host operations, so every weakly
  fair execution terminates with each buffer at the fold of the operations' results over the launch contents. The fold
  over the whole line is the fold over the six stretches in turn. An argument is written by no stretch, so it ends as it
  started. The result is read backwards through the stretches: the head's output from the last layer's node states; each
  layer's node states from the previous layer's, the two edge rows and the counts, which the stretches in between leave
  unwritten; the counts from the destination row; the encoder's output and the edge rows from the arguments.
-/
import proofs.«111624_j59098749993608_2_alg».proof.Proof.RefOps
import proofs.«111624_j59098749993608_2_alg».proof.Proof.RefRead
import proofs.«111624_j59098749993608_2_alg».proof.Proof.RefChunkAB
import proofs.«111624_j59098749993608_2_alg».proof.Proof.RefChunkC
import proofs.«111624_j59098749993608_2_alg».proof.Proof.RefChunkC2
import proofs.«111624_j59098749993608_2_alg».proof.Proof.RefChunkD
import proofs.«111624_j59098749993608_2_alg».proof.Proof.RefKeep

set_option maxRecDepth 16384

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

/-- An argument of @main is written by no operation: it ends as it started. -/
theorem arg0_kept (V : Valuation τ sig (Elt Ideal)) : after ops V (Proc.devRef .tc main_arg0) = V (Proc.devRef .tc main_arg0) :=
  (congrFun (after_ops V) (Proc.devRef .tc main_arg0)).trans ((keep_D_arg0 (after opsC2 (after opsC1 (after opsC0 (after opsB (after opsA V)))))).trans ((keep_C2_arg0 (after opsC1 (after opsC0 (after opsB (after opsA V))))).trans ((keep_C1_arg0 (after opsC0 (after opsB (after opsA V)))).trans ((keep_C0_arg0 (after opsB (after opsA V))).trans ((keep_B_arg0 (after opsA V)).trans (keep_A_arg0 V))))))
theorem arg1_kept (V : Valuation τ sig (Elt Ideal)) : after ops V (Proc.devRef .tc main_arg1) = V (Proc.devRef .tc main_arg1) :=
  (congrFun (after_ops V) (Proc.devRef .tc main_arg1)).trans ((keep_D_arg1 (after opsC2 (after opsC1 (after opsC0 (after opsB (after opsA V)))))).trans ((keep_C2_arg1 (after opsC1 (after opsC0 (after opsB (after opsA V))))).trans ((keep_C1_arg1 (after opsC0 (after opsB (after opsA V)))).trans ((keep_C0_arg1 (after opsB (after opsA V))).trans ((keep_B_arg1 (after opsA V)).trans (keep_A_arg1 V))))))
theorem arg2_kept (V : Valuation τ sig (Elt Ideal)) : after ops V (Proc.devRef .tc main_arg2) = V (Proc.devRef .tc main_arg2) :=
  (congrFun (after_ops V) (Proc.devRef .tc main_arg2)).trans ((keep_D_arg2 (after opsC2 (after opsC1 (after opsC0 (after opsB (after opsA V)))))).trans ((keep_C2_arg2 (after opsC1 (after opsC0 (after opsB (after opsA V))))).trans ((keep_C1_arg2 (after opsC0 (after opsB (after opsA V)))).trans ((keep_C0_arg2 (after opsB (after opsA V))).trans ((keep_B_arg2 (after opsA V)).trans (keep_A_arg2 V))))))
theorem arg3_kept (V : Valuation τ sig (Elt Ideal)) : after ops V (Proc.devRef .tc main_arg3) = V (Proc.devRef .tc main_arg3) :=
  (congrFun (after_ops V) (Proc.devRef .tc main_arg3)).trans ((keep_D_arg3 (after opsC2 (after opsC1 (after opsC0 (after opsB (after opsA V)))))).trans ((keep_C2_arg3 (after opsC1 (after opsC0 (after opsB (after opsA V))))).trans ((keep_C1_arg3 (after opsC0 (after opsB (after opsA V)))).trans ((keep_C0_arg3 (after opsB (after opsA V))).trans ((keep_B_arg3 (after opsA V)).trans (keep_A_arg3 V))))))
theorem arg4_kept (V : Valuation τ sig (Elt Ideal)) : after ops V (Proc.devRef .tc main_arg4) = V (Proc.devRef .tc main_arg4) :=
  (congrFun (after_ops V) (Proc.devRef .tc main_arg4)).trans ((keep_D_arg4 (after opsC2 (after opsC1 (after opsC0 (after opsB (after opsA V)))))).trans ((keep_C2_arg4 (after opsC1 (after opsC0 (after opsB (after opsA V))))).trans ((keep_C1_arg4 (after opsC0 (after opsB (after opsA V)))).trans ((keep_C0_arg4 (after opsB (after opsA V))).trans ((keep_B_arg4 (after opsA V)).trans (keep_A_arg4 V))))))
theorem arg5_kept (V : Valuation τ sig (Elt Ideal)) : after ops V (Proc.devRef .tc main_arg5) = V (Proc.devRef .tc main_arg5) :=
  (congrFun (after_ops V) (Proc.devRef .tc main_arg5)).trans ((keep_D_arg5 (after opsC2 (after opsC1 (after opsC0 (after opsB (after opsA V)))))).trans ((keep_C2_arg5 (after opsC1 (after opsC0 (after opsB (after opsA V))))).trans ((keep_C1_arg5 (after opsC0 (after opsB (after opsA V)))).trans ((keep_C0_arg5 (after opsB (after opsA V))).trans ((keep_B_arg5 (after opsA V)).trans (keep_A_arg5 V))))))
theorem arg6_kept (V : Valuation τ sig (Elt Ideal)) : after ops V (Proc.devRef .tc main_arg6) = V (Proc.devRef .tc main_arg6) :=
  (congrFun (after_ops V) (Proc.devRef .tc main_arg6)).trans ((keep_D_arg6 (after opsC2 (after opsC1 (after opsC0 (after opsB (after opsA V)))))).trans ((keep_C2_arg6 (after opsC1 (after opsC0 (after opsB (after opsA V))))).trans ((keep_C1_arg6 (after opsC0 (after opsB (after opsA V)))).trans ((keep_C0_arg6 (after opsB (after opsA V))).trans ((keep_B_arg6 (after opsA V)).trans (keep_A_arg6 V))))))
theorem arg7_kept (V : Valuation τ sig (Elt Ideal)) : after ops V (Proc.devRef .tc main_arg7) = V (Proc.devRef .tc main_arg7) :=
  (congrFun (after_ops V) (Proc.devRef .tc main_arg7)).trans ((keep_D_arg7 (after opsC2 (after opsC1 (after opsC0 (after opsB (after opsA V)))))).trans ((keep_C2_arg7 (after opsC1 (after opsC0 (after opsB (after opsA V))))).trans ((keep_C1_arg7 (after opsC0 (after opsB (after opsA V)))).trans ((keep_C0_arg7 (after opsB (after opsA V))).trans ((keep_B_arg7 (after opsA V)).trans (keep_A_arg7 V))))))
theorem arg8_kept (V : Valuation τ sig (Elt Ideal)) : after ops V (Proc.devRef .tc main_arg8) = V (Proc.devRef .tc main_arg8) :=
  (congrFun (after_ops V) (Proc.devRef .tc main_arg8)).trans ((keep_D_arg8 (after opsC2 (after opsC1 (after opsC0 (after opsB (after opsA V)))))).trans ((keep_C2_arg8 (after opsC1 (after opsC0 (after opsB (after opsA V))))).trans ((keep_C1_arg8 (after opsC0 (after opsB (after opsA V)))).trans ((keep_C0_arg8 (after opsB (after opsA V))).trans ((keep_B_arg8 (after opsA V)).trans (keep_A_arg8 V))))))
theorem arg9_kept (V : Valuation τ sig (Elt Ideal)) : after ops V (Proc.devRef .tc main_arg9) = V (Proc.devRef .tc main_arg9) :=
  (congrFun (after_ops V) (Proc.devRef .tc main_arg9)).trans ((keep_D_arg9 (after opsC2 (after opsC1 (after opsC0 (after opsB (after opsA V)))))).trans ((keep_C2_arg9 (after opsC1 (after opsC0 (after opsB (after opsA V))))).trans ((keep_C1_arg9 (after opsC0 (after opsB (after opsA V)))).trans ((keep_C0_arg9 (after opsB (after opsA V))).trans ((keep_B_arg9 (after opsA V)).trans (keep_A_arg9 V))))))
theorem arg10_kept (V : Valuation τ sig (Elt Ideal)) : after ops V (Proc.devRef .tc main_arg10) = V (Proc.devRef .tc main_arg10) :=
  (congrFun (after_ops V) (Proc.devRef .tc main_arg10)).trans ((keep_D_arg10 (after opsC2 (after opsC1 (after opsC0 (after opsB (after opsA V)))))).trans ((keep_C2_arg10 (after opsC1 (after opsC0 (after opsB (after opsA V))))).trans ((keep_C1_arg10 (after opsC0 (after opsB (after opsA V)))).trans ((keep_C0_arg10 (after opsB (after opsA V))).trans ((keep_B_arg10 (after opsA V)).trans (keep_A_arg10 V))))))
theorem arg11_kept (V : Valuation τ sig (Elt Ideal)) : after ops V (Proc.devRef .tc main_arg11) = V (Proc.devRef .tc main_arg11) :=
  (congrFun (after_ops V) (Proc.devRef .tc main_arg11)).trans ((keep_D_arg11 (after opsC2 (after opsC1 (after opsC0 (after opsB (after opsA V)))))).trans ((keep_C2_arg11 (after opsC1 (after opsC0 (after opsB (after opsA V))))).trans ((keep_C1_arg11 (after opsC0 (after opsB (after opsA V)))).trans ((keep_C0_arg11 (after opsB (after opsA V))).trans ((keep_B_arg11 (after opsA V)).trans (keep_A_arg11 V))))))
theorem arg12_kept (V : Valuation τ sig (Elt Ideal)) : after ops V (Proc.devRef .tc main_arg12) = V (Proc.devRef .tc main_arg12) :=
  (congrFun (after_ops V) (Proc.devRef .tc main_arg12)).trans ((keep_D_arg12 (after opsC2 (after opsC1 (after opsC0 (after opsB (after opsA V)))))).trans ((keep_C2_arg12 (after opsC1 (after opsC0 (after opsB (after opsA V))))).trans ((keep_C1_arg12 (after opsC0 (after opsB (after opsA V)))).trans ((keep_C0_arg12 (after opsB (after opsA V))).trans ((keep_B_arg12 (after opsA V)).trans (keep_A_arg12 V))))))
theorem arg13_kept (V : Valuation τ sig (Elt Ideal)) : after ops V (Proc.devRef .tc main_arg13) = V (Proc.devRef .tc main_arg13) :=
  (congrFun (after_ops V) (Proc.devRef .tc main_arg13)).trans ((keep_D_arg13 (after opsC2 (after opsC1 (after opsC0 (after opsB (after opsA V)))))).trans ((keep_C2_arg13 (after opsC1 (after opsC0 (after opsB (after opsA V))))).trans ((keep_C1_arg13 (after opsC0 (after opsB (after opsA V)))).trans ((keep_C0_arg13 (after opsB (after opsA V))).trans ((keep_B_arg13 (after opsA V)).trans (keep_A_arg13 V))))))
theorem arg14_kept (V : Valuation τ sig (Elt Ideal)) : after ops V (Proc.devRef .tc main_arg14) = V (Proc.devRef .tc main_arg14) :=
  (congrFun (after_ops V) (Proc.devRef .tc main_arg14)).trans ((keep_D_arg14 (after opsC2 (after opsC1 (after opsC0 (after opsB (after opsA V)))))).trans ((keep_C2_arg14 (after opsC1 (after opsC0 (after opsB (after opsA V))))).trans ((keep_C1_arg14 (after opsC0 (after opsB (after opsA V)))).trans ((keep_C0_arg14 (after opsB (after opsA V))).trans ((keep_B_arg14 (after opsA V)).trans (keep_A_arg14 V))))))
theorem arg15_kept (V : Valuation τ sig (Elt Ideal)) : after ops V (Proc.devRef .tc main_arg15) = V (Proc.devRef .tc main_arg15) :=
  (congrFun (after_ops V) (Proc.devRef .tc main_arg15)).trans ((keep_D_arg15 (after opsC2 (after opsC1 (after opsC0 (after opsB (after opsA V)))))).trans ((keep_C2_arg15 (after opsC1 (after opsC0 (after opsB (after opsA V))))).trans ((keep_C1_arg15 (after opsC0 (after opsB (after opsA V)))).trans ((keep_C0_arg15 (after opsB (after opsA V))).trans ((keep_B_arg15 (after opsA V)).trans (keep_A_arg15 V))))))
theorem arg16_kept (V : Valuation τ sig (Elt Ideal)) : after ops V (Proc.devRef .tc main_arg16) = V (Proc.devRef .tc main_arg16) :=
  (congrFun (after_ops V) (Proc.devRef .tc main_arg16)).trans ((keep_D_arg16 (after opsC2 (after opsC1 (after opsC0 (after opsB (after opsA V)))))).trans ((keep_C2_arg16 (after opsC1 (after opsC0 (after opsB (after opsA V))))).trans ((keep_C1_arg16 (after opsC0 (after opsB (after opsA V)))).trans ((keep_C0_arg16 (after opsB (after opsA V))).trans ((keep_B_arg16 (after opsA V)).trans (keep_A_arg16 V))))))
theorem arg17_kept (V : Valuation τ sig (Elt Ideal)) : after ops V (Proc.devRef .tc main_arg17) = V (Proc.devRef .tc main_arg17) :=
  (congrFun (after_ops V) (Proc.devRef .tc main_arg17)).trans ((keep_D_arg17 (after opsC2 (after opsC1 (after opsC0 (after opsB (after opsA V)))))).trans ((keep_C2_arg17 (after opsC1 (after opsC0 (after opsB (after opsA V))))).trans ((keep_C1_arg17 (after opsC0 (after opsB (after opsA V)))).trans ((keep_C0_arg17 (after opsB (after opsA V))).trans ((keep_B_arg17 (after opsA V)).trans (keep_A_arg17 V))))))

/-- The result buffer after the whole run, from the six stretches in turn: the encoder's output and the edge rows after
    the first; the counts after the second; each layer's node states after its stretch, from the previous layer's, the
    edge rows and the counts carried unwritten across the stretches between; the head's output after the last. -/
theorem result_eq (V : Valuation τ sig (Elt Ideal)) :
    after ops V (Proc.devRef .tc main_v208) = val_main_v208 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  have hA13 := A_v13 V
  have hA1 := A_v1 V
  have hA3 := A_v3 V
  have hB20 := B_v20 (after opsA V) (V (Proc.devRef .tc main_arg1)) hA3
  have hB13 := (keep_B_v13 (after opsA V)).trans hA13
  have hB1 := (keep_B_v1 (after opsA V)).trans hA1
  have hB3 := (keep_B_v3 (after opsA V)).trans hA3
  have hC0 := C0_v77 (after opsB (after opsA V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) hB13 hB1 hB3 hB20
    ((keep_B_arg6 (after opsA V)).trans (keep_A_arg6 V))
    ((keep_B_arg7 (after opsA V)).trans (keep_A_arg7 V))
    ((keep_B_arg8 (after opsA V)).trans (keep_A_arg8 V))
    ((keep_B_arg9 (after opsA V)).trans (keep_A_arg9 V))
    ((keep_B_arg10 (after opsA V)).trans (keep_A_arg10 V))
    ((keep_B_arg11 (after opsA V)).trans (keep_A_arg11 V))
    ((keep_B_arg12 (after opsA V)).trans (keep_A_arg12 V))
    ((keep_B_arg13 (after opsA V)).trans (keep_A_arg13 V))
  have hC0_1 := (keep_C0_v1 (after opsB (after opsA V))).trans hB1
  have hC0_3 := (keep_C0_v3 (after opsB (after opsA V))).trans hB3
  have hC0_20 := (keep_C0_v20 (after opsB (after opsA V))).trans hB20
  have hC1 := C1_v134 (after opsC0 (after opsB (after opsA V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) hC0 hC0_1 hC0_3 hC0_20
    ((keep_C0_arg6 (after opsB (after opsA V))).trans ((keep_B_arg6 (after opsA V)).trans (keep_A_arg6 V)))
    ((keep_C0_arg7 (after opsB (after opsA V))).trans ((keep_B_arg7 (after opsA V)).trans (keep_A_arg7 V)))
    ((keep_C0_arg8 (after opsB (after opsA V))).trans ((keep_B_arg8 (after opsA V)).trans (keep_A_arg8 V)))
    ((keep_C0_arg9 (after opsB (after opsA V))).trans ((keep_B_arg9 (after opsA V)).trans (keep_A_arg9 V)))
    ((keep_C0_arg10 (after opsB (after opsA V))).trans ((keep_B_arg10 (after opsA V)).trans (keep_A_arg10 V)))
    ((keep_C0_arg11 (after opsB (after opsA V))).trans ((keep_B_arg11 (after opsA V)).trans (keep_A_arg11 V)))
    ((keep_C0_arg12 (after opsB (after opsA V))).trans ((keep_B_arg12 (after opsA V)).trans (keep_A_arg12 V)))
    ((keep_C0_arg13 (after opsB (after opsA V))).trans ((keep_B_arg13 (after opsA V)).trans (keep_A_arg13 V)))
  have hC1_1 := (keep_C1_v1 (after opsC0 (after opsB (after opsA V)))).trans hC0_1
  have hC1_3 := (keep_C1_v3 (after opsC0 (after opsB (after opsA V)))).trans hC0_3
  have hC1_20 := (keep_C1_v20 (after opsC0 (after opsB (after opsA V)))).trans hC0_20
  have hC2 := C2_v191 (after opsC1 (after opsC0 (after opsB (after opsA V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) hC1 hC1_1 hC1_3 hC1_20
    ((keep_C1_arg6 (after opsC0 (after opsB (after opsA V)))).trans ((keep_C0_arg6 (after opsB (after opsA V))).trans ((keep_B_arg6 (after opsA V)).trans (keep_A_arg6 V))))
    ((keep_C1_arg7 (after opsC0 (after opsB (after opsA V)))).trans ((keep_C0_arg7 (after opsB (after opsA V))).trans ((keep_B_arg7 (after opsA V)).trans (keep_A_arg7 V))))
    ((keep_C1_arg8 (after opsC0 (after opsB (after opsA V)))).trans ((keep_C0_arg8 (after opsB (after opsA V))).trans ((keep_B_arg8 (after opsA V)).trans (keep_A_arg8 V))))
    ((keep_C1_arg9 (after opsC0 (after opsB (after opsA V)))).trans ((keep_C0_arg9 (after opsB (after opsA V))).trans ((keep_B_arg9 (after opsA V)).trans (keep_A_arg9 V))))
    ((keep_C1_arg10 (after opsC0 (after opsB (after opsA V)))).trans ((keep_C0_arg10 (after opsB (after opsA V))).trans ((keep_B_arg10 (after opsA V)).trans (keep_A_arg10 V))))
    ((keep_C1_arg11 (after opsC0 (after opsB (after opsA V)))).trans ((keep_C0_arg11 (after opsB (after opsA V))).trans ((keep_B_arg11 (after opsA V)).trans (keep_A_arg11 V))))
    ((keep_C1_arg12 (after opsC0 (after opsB (after opsA V)))).trans ((keep_C0_arg12 (after opsB (after opsA V))).trans ((keep_B_arg12 (after opsA V)).trans (keep_A_arg12 V))))
    ((keep_C1_arg13 (after opsC0 (after opsB (after opsA V)))).trans ((keep_C0_arg13 (after opsB (after opsA V))).trans ((keep_B_arg13 (after opsA V)).trans (keep_A_arg13 V))))
  exact (congrFun (after_ops V) (Proc.devRef .tc main_v208)).trans
    (D_v208 (after opsC2 (after opsC1 (after opsC0 (after opsB (after opsA V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) hC2
      ((keep_C2_arg14 (after opsC1 (after opsC0 (after opsB (after opsA V))))).trans ((keep_C1_arg14 (after opsC0 (after opsB (after opsA V)))).trans ((keep_C0_arg14 (after opsB (after opsA V))).trans ((keep_B_arg14 (after opsA V)).trans (keep_A_arg14 V)))))
      ((keep_C2_arg15 (after opsC1 (after opsC0 (after opsB (after opsA V))))).trans ((keep_C1_arg15 (after opsC0 (after opsB (after opsA V)))).trans ((keep_C0_arg15 (after opsB (after opsA V))).trans ((keep_B_arg15 (after opsA V)).trans (keep_A_arg15 V)))))
      ((keep_C2_arg16 (after opsC1 (after opsC0 (after opsB (after opsA V))))).trans ((keep_C1_arg16 (after opsC0 (after opsB (after opsA V)))).trans ((keep_C0_arg16 (after opsB (after opsA V))).trans ((keep_B_arg16 (after opsA V)).trans (keep_A_arg16 V)))))
      ((keep_C2_arg17 (after opsC1 (after opsC0 (after opsB (after opsA V))))).trans ((keep_C1_arg17 (after opsC0 (after opsB (after opsA V)))).trans ((keep_C0_arg17 (after opsB (after opsA V))).trans ((keep_B_arg17 (after opsA V)).trans (keep_A_arg17 V))))))

/-- On every device, from any memory with zero counters: every weakly fair execution of @main terminates with the result
    at the reference's value of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v208) = val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v208).trans (result_eq (launchContents m c)),
      (h c main_arg0).trans (arg0_kept (launchContents m c)),
      (h c main_arg1).trans (arg1_kept (launchContents m c)),
      (h c main_arg2).trans (arg2_kept (launchContents m c)),
      (h c main_arg3).trans (arg3_kept (launchContents m c)),
      (h c main_arg4).trans (arg4_kept (launchContents m c)),
      (h c main_arg5).trans (arg5_kept (launchContents m c)),
      (h c main_arg6).trans (arg6_kept (launchContents m c)),
      (h c main_arg7).trans (arg7_kept (launchContents m c)),
      (h c main_arg8).trans (arg8_kept (launchContents m c)),
      (h c main_arg9).trans (arg9_kept (launchContents m c)),
      (h c main_arg10).trans (arg10_kept (launchContents m c)),
      (h c main_arg11).trans (arg11_kept (launchContents m c)),
      (h c main_arg12).trans (arg12_kept (launchContents m c)),
      (h c main_arg13).trans (arg13_kept (launchContents m c)),
      (h c main_arg14).trans (arg14_kept (launchContents m c)),
      (h c main_arg15).trans (arg15_kept (launchContents m c)),
      (h c main_arg16).trans (arg16_kept (launchContents m c)),
      (h c main_arg17).trans (arg17_kept (launchContents m c))⟩)
    (run_seq scopedRefs_eq scopedSems_eq defs main (fun _ => ops) main_eq (fun _ => ops_sub) m ρ (fun _ => ops_fresh))

end Cert.ReferenceIdeal.RefRun

end
-- ==== Proof.lean ====
/-
  The certificate of a three-layer message-passing network: the Pallas kernel program (an encoder block, three times a
  message block over gathered node states and an update block over each node's state beside the mean of its incoming
  messages, and an output head, eight kernel launches among host gathers and scatter-sums) against its jnp reference.

  On the extended reals both programs compute ONE function of the arguments (Proof/KernelNet.lean's `net`): a block is
  dense, clamp, dense, clamp; the reference multiplies the joined rows [a | b] by the stacked weights where the kernel
  adds the two products a·W_top + b·W_bottom, which is the same contracted sum split at the join (no finiteness is
  needed: only the order and grouping of a finite sum change); the kernel divides the summed messages by the count
  inside its update block where the reference divides on the host (one division either way); the logistic function is
  1 / (1 + e^(−z)) on both sides. The one place the two programs differ as printed is the gather: the kernel's take
  fills rows whose index is out of range, the reference's indexing clamps; under the precondition that every edge
  endpoint is a node id in [0, 100000) the fill never happens and both are the same gather.

  The frames of the two kernel programs are the generated frame certificates; the reference's frame is its run (read
  stretch by stretch) with the result dropped; nothing was rewritten by the idealization, so the preservation claim is trivial.
-/
import proofs.«111624_j59098749993608_2_alg».proof.Defs
import proofs.«111624_j59098749993608_2_alg».proof.Proof.Gen.Kernel
import proofs.«111624_j59098749993608_2_alg».proof.Proof.Gen.Kernel.Frame
import proofs.«111624_j59098749993608_2_alg».proof.Proof.Gen.KernelIdeal
import proofs.«111624_j59098749993608_2_alg».proof.Proof.Gen.KernelIdeal.Frame
import proofs.«111624_j59098749993608_2_alg».proof.Proof.Gen.ReferenceIdeal
import proofs.«111624_j59098749993608_2_alg».proof.Proof.Gen.Pre_finite_inputs
import proofs.«111624_j59098749993608_2_alg».proof.Proof.KernelRun
import proofs.«111624_j59098749993608_2_alg».proof.Proof.KernelFacts
import proofs.«111624_j59098749993608_2_alg».proof.Proof.Region0
import proofs.«111624_j59098749993608_2_alg».proof.Proof.Region1
import proofs.«111624_j59098749993608_2_alg».proof.Proof.Region2
import proofs.«111624_j59098749993608_2_alg».proof.Proof.Region3
import proofs.«111624_j59098749993608_2_alg».proof.Proof.Region4
import proofs.«111624_j59098749993608_2_alg».proof.Proof.Region5
import proofs.«111624_j59098749993608_2_alg».proof.Proof.Region6
import proofs.«111624_j59098749993608_2_alg».proof.Proof.Region7
import proofs.«111624_j59098749993608_2_alg».proof.Proof.RefNet
import proofs.«111624_j59098749993608_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end with the network's function of the arguments: the kernel program by its run read through its
    eight regions and host stretches (edge endpoints in range by the precondition), the reference by its run read stage
    by stage; the arguments agree. -/
theorem algebraic : Cert.algebraic_KernelIdeal_ReferenceIdeal := by
  intro m ρ m' ρ' hpre hagree
  refine ⟨fun c => Cert.KernelIdeal.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · refine (θ_run Cert.KernelIdeal.defs _ _).mono (fun r h c => ⟨(h c).1.trans ?_, (h c).2⟩)
      (Cert.KernelIdeal.RunValue.run (F := Ideal) m ρ)
    exact Cert.KernelIdeal.Facts.out_value m ρ c
      (fun V c => Cert.KernelIdeal.Region0.value V c) (fun V c => Cert.KernelIdeal.Region1.value V c)
      (fun V c => Cert.KernelIdeal.Region2.value V c) (fun V c => Cert.KernelIdeal.Region3.value V c)
      (fun V c => Cert.KernelIdeal.Region4.value V c) (fun V c => Cert.KernelIdeal.Region5.value V c)
      (fun V c => Cert.KernelIdeal.Region6.value V c) (fun V c => Cert.KernelIdeal.Region7.value V c)
      (Cert.KernelIdeal.Glue.range_of_pre _ _ _ _ _ _ _ _ _ _ _ _ _ _ _ _ _ _ (hpre c))
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
    exact Cert.Bridge.RefNet.ref_eq _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
